-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v68)) (v1 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_v69) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v120) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S256x128 : Shape := ⟨2, ![256, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S2x320000 : S_.BroadcastsInDim S2x320000 (![] : Fin 0 → Fin S2x320000.rank)
  reducesTo_S2x320000_S_d0_1 : S2x320000.ReducesTo [0, 1] S_

variable [Facts]

def fn_part3 {F : FTy → Type} [FloatOps F] (main_arg1 : IVec S2x320000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_c_20 : IVec S_ 32 := constantI S_ 32 0#32
  let main_v54 : IVec S2x320000 32 := broadcastInDim S2x320000 ![] bcast_S_S2x320000 main_c_20
  let main_v55 : IVec S2x320000 1 := cmpi .sge main_arg1 main_v54
  let main_c_21 : IVec S_ 1 := constantI S_ 1 1#1
  let main_v56 : IVec S_ 1 := (fun x v => Host.reduce IntOp.andi x v reducesTo_S2x320000_S_d0_1 h_S_) main_v55 main_c_21
  let main_v57 : IVec S_ 1 := andi main_v53 main_v56
  let main_c_22 : IVec S_ 32 := constantI S_ 32 10000#32
  let main_v58 : IVec S2x320000 32 := broadcastInDim S2x320000 ![] bcast_S_S2x320000 main_c_22
  let main_v59 : IVec S2x320000 1 := cmpi .slt main_arg1 main_v58
  let main_c_23 : IVec S_ 1 := constantI S_ 1 1#1
  let main_v60 : IVec S_ 1 := (fun x v => Host.reduce IntOp.andi x v reducesTo_S2x320000_S_d0_1 h_S_) main_v59 main_c_23
  let main_v61 : IVec S_ 1 := andi main_v57 main_v60
  main_v61

def fn_part2 {F : FTy → Type} [FloatOps F] (main_arg1 : IVec S2x320000 32) (main_arg8 : FVec F S128x256 .f32) (main_arg9 : FVec F S256 .f32) (main_arg10 : FVec F S128x128 .f32) (main_arg11 : FVec F S128 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_v48 main_v49 main_v50

def fn_part1 {F : FTy → Type} [FloatOps F] (main_arg1 : IVec S2x320000 32) (main_arg5 : FVec F S128 .f32) (main_arg6 : FVec F S128x128 .f32) (main_arg7 : FVec F S128 .f32) (main_arg8 : FVec F S128x256 .f32) (main_arg9 : FVec F S256 .f32) (main_arg10 : FVec F S128x128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S10000x256 .f32) (main_arg1 : IVec S2x320000 32) (main_arg2 : FVec F S256x128 .f32) (main_arg3 : FVec F S128 .f32) (main_arg4 : FVec F S128x128 .f32) (main_arg5 : FVec F S128 .f32) (main_arg6 : FVec F S128x128 .f32) (main_arg7 : FVec F S128 .f32) (main_arg8 : FVec F S128x256 .f32) (main_arg9 : FVec F S256 .f32) (main_arg10 : FVec F S128x128 .f32) (main_arg11 : FVec F S128 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_v13 main_v16
-- ==== Kernel.lean ====
abbrev S10000x256 : Shape := ⟨2, ![10000, 256]⟩
abbrev S2x320000 : Shape := ⟨2, ![2, 320000]⟩
abbrev S256x128 : Shape := ⟨2, ![256, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S10240x10240 : Shape := ⟨2, ![10240, 10240]⟩
abbrev S330000x2 : Shape := ⟨2, ![330000, 2]⟩
abbrev S10240x256 : Shape := ⟨2, ![10240, 256]⟩
abbrev S1 : Shape := ⟨1, ![1]⟩
abbrev S10240x128 : Shape := ⟨2, ![10240, 128]⟩
abbrev S1x128 : Shape := ⟨2, ![1, 128]⟩
abbrev S256x10240 : Shape := ⟨2, ![256, 10240]⟩
abbrev S1x256 : Shape := ⟨2, ![1, 256]⟩
abbrev S256x256 : Shape := ⟨2, ![256, 256]⟩
abbrev S1024x128 : Shape := ⟨2, ![1024, 128]⟩
abbrev S1024x1024 : Shape := ⟨2, ![1024, 1024]⟩
abbrev S128x1024 : Shape := ⟨2, ![128, 1024]⟩
abbrev S10000x10000 : Shape := ⟨2, ![10000, 10000]⟩

abbrev nBuf : Space → Nat
  | .hbm => 100
  | .vmem => 36
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x256, .f32⟩
  | .hbm, ⟨9, _⟩ => ⟨S256, .f32⟩
  | .hbm, ⟨10, _⟩ => ⟨S128x128, .f32⟩
  | .hbm, ⟨11, _⟩ => ⟨S128, .f32⟩
  | .hbm, ⟨12, _⟩ => ⟨S10000, .i32⟩
  | .hbm, ⟨13, _⟩ => ⟨S1x320000, .i32⟩
  | .hbm, ⟨14, _⟩ => ⟨S320000, .i32⟩
  | .hbm, ⟨15, _⟩ => ⟨S330000, .i32⟩
  | .hbm, ⟨16, _⟩ => ⟨S1x320000, .i32⟩
  | .hbm, ⟨17, _⟩ => ⟨S320000, .i32⟩
  | .hbm, ⟨18, _⟩ => ⟨S330000, .i32⟩
  | .hbm, ⟨19, _⟩ => ⟨S_, .f32⟩
  | .hbm, ⟨20, _⟩ => ⟨S330000, .f32⟩
  | .hbm, ⟨21, _⟩ => ⟨S_, .f32⟩
  | .hbm, ⟨22, _⟩ => ⟨S10000, .f32⟩
  | .hbm, ⟨23, _⟩ => ⟨S330000x1, .i32⟩
  | .hbm, ⟨24, _⟩ => ⟨S10000, .f32⟩
  | .hbm, ⟨25, _⟩ => ⟨S_, .f32⟩
  | .hbm, ⟨26, _⟩ => ⟨S10000, .f32⟩
  | .hbm, ⟨27, _⟩ => ⟨S10000, .i1⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S10000, .f32⟩
  | .hbm, ⟨32, _⟩ => ⟨S_, .f32⟩
  | .hbm, ⟨33, _⟩ => ⟨S_, .f32⟩
  | .hbm, ⟨34, _⟩ => ⟨S10000, .f32⟩
  | .hbm, ⟨35, _⟩ => ⟨S10000, .f32⟩
  | .hbm, ⟨36, _⟩ => ⟨S_, .i32⟩
  | .hbm, ⟨37, _⟩ => ⟨S330000, .i32⟩
  | .hbm, ⟨38, _⟩ => ⟨S330000, .i1⟩
  | .hbm, ⟨39, _⟩ => ⟨S_, .i32⟩
  | .hbm, ⟨40, _⟩ => ⟨S330000, .i32⟩
  | .hbm, ⟨41, _⟩ => ⟨S330000, .i32⟩
  | .hbm, ⟨42, _⟩ => ⟨S330000, .i32⟩
  | .hbm, ⟨43, _⟩ => ⟨S330000x1, .i32⟩
  | .hbm, ⟨44, _⟩ => ⟨S330000, .f32⟩
  | .hbm, ⟨45, _⟩ => ⟨S_, .i32⟩
  | .hbm, ⟨46, _⟩ => ⟨S330000, .i32⟩
  | .hbm, ⟨47, _⟩ => ⟨S330000, .i1⟩
  | .hbm, ⟨48, _⟩ => ⟨S_, .i32⟩
  | .hbm, ⟨49, _⟩ => ⟨S330000, .i32⟩
  | .hbm, ⟨50, _⟩ => ⟨S330000, .i32⟩
  | .hbm, ⟨51, _⟩ => ⟨S330000, .i32⟩
  | .hbm, ⟨52, _⟩ => ⟨S330000x1, .i32⟩
  | .hbm, ⟨53, _⟩ => ⟨S330000, .f32⟩
  | .hbm, ⟨54, _⟩ => ⟨S330000, .f32⟩
  | .hbm, ⟨55, _⟩ => ⟨S_, .f32⟩
  | .hbm, ⟨56, _⟩ => ⟨S10240x10240, .f32⟩
  | .hbm, ⟨57, _⟩ => ⟨S_, .i32⟩
  | .hbm, ⟨58, _⟩ => ⟨S330000, .i32⟩
  | .hbm, ⟨59, _⟩ => ⟨S330000, .i1⟩
  | .hbm, ⟨60, _⟩ => ⟨S_, .i32⟩
  | .hbm, ⟨61, _⟩ => ⟨S330000, .i32⟩
  | .hbm, ⟨62, _⟩ => ⟨S330000, .i32⟩
  | .hbm, ⟨63, _⟩ => ⟨S330000, .i32⟩
  | .hbm, ⟨64, _⟩ => ⟨S_, .i32⟩
  | .hbm, ⟨65, _⟩ => ⟨S330000, .i32⟩
  | .hbm, ⟨66, _⟩ => ⟨S330000, .i1⟩
  | .hbm, ⟨67, _⟩ => ⟨S_, .i32⟩
  | .hbm, ⟨68, _⟩ => ⟨S330000, .i32⟩
  | .hbm, ⟨69, _⟩ => ⟨S330000, .i32⟩
  | .hbm, ⟨70, _⟩ => ⟨S330000, .i32⟩
  | .hbm, ⟨71, _⟩ => ⟨S330000x1, .i32⟩
  | .hbm, ⟨72, _⟩ => ⟨S330000x1, .i32⟩
  | .hbm, ⟨73, _⟩ => ⟨S330000x2, .i32⟩
  | .hbm, ⟨74, _⟩ => ⟨S10240x10240, .f32⟩
  | .hbm, ⟨75, _⟩ => ⟨S10240x10240, .bf16⟩
  | .hbm, ⟨76, _⟩ => ⟨S_, .f32⟩
  | .hbm, ⟨77, _⟩ => ⟨S10240x256, .f32⟩
  | .hbm, ⟨78, _⟩ => ⟨S_, .i32⟩
  | .hbm, ⟨79, _⟩ => ⟨S1, .i32⟩
  | .hbm, ⟨80, _⟩ => ⟨S10240x256, .f32⟩
  | .hbm, ⟨81, _⟩ => ⟨S10240x128, .f32⟩
  | .hbm, ⟨82, _⟩ => ⟨S1x128, .f32⟩
  | .hbm, ⟨83, _⟩ => ⟨S10240x128, .f32⟩
  | .hbm, ⟨84, _⟩ => ⟨S10240x128, .f32⟩
  | .hbm, ⟨85, _⟩ => ⟨S1x128, .f32⟩
  | .hbm, ⟨86, _⟩ => ⟨S10240x128, .f32⟩
  | .hbm, ⟨87, _⟩ => ⟨S10240x128, .f32⟩
  | .hbm, ⟨88, _⟩ => ⟨S1x128, .f32⟩
  | .hbm, ⟨89, _⟩ => ⟨S10240x128, .f32⟩
  | .hbm, ⟨90, _⟩ => ⟨S10240x256, .f32⟩
  | .hbm, ⟨91, _⟩ => ⟨S1x256, .f32⟩
  | .hbm, ⟨92, _⟩ => ⟨S10240x256, .f32⟩
  | .hbm, ⟨93, _⟩ => ⟨S10240x128, .f32⟩
  | .hbm, ⟨94, _⟩ => ⟨S1x128, .f32⟩
  | .hbm, ⟨95, _⟩ => ⟨S10240x128, .f32⟩
  | .hbm, ⟨96, _⟩ => ⟨S10240x128, .bf16⟩
  | .hbm, ⟨97, _⟩ => ⟨S10240x10240, .f32⟩
  | .hbm, ⟨98, _⟩ => ⟨S10000x256, .f32⟩
  | .hbm, ⟨99, _⟩ => ⟨S10000x10000, .f32⟩
  | .local _ .vmem, ⟨0, _⟩ => ⟨S256x10240, .bf16⟩
  | .local _ .vmem, ⟨1, _⟩ => ⟨S256x10240, .bf16⟩
  | .local _ .vmem, ⟨2, _⟩ => ⟨S10240x128, .f32⟩
  | .local _ .vmem, ⟨3, _⟩ => ⟨S1x128, .f32⟩
  | .local _ .vmem, ⟨4, _⟩ => ⟨S256x128, .f32⟩
  | .local _ .vmem, ⟨5, _⟩ => ⟨S256x128, .f32⟩
  | .local _ .vmem, ⟨6, _⟩ => ⟨S256x10240, .bf16⟩
  | .local _ .vmem, ⟨7, _⟩ => ⟨S256x10240, .bf16⟩
  | .local _ .vmem, ⟨8, _⟩ => ⟨S10240x128, .f32⟩
  | .local _ .vmem, ⟨9, _⟩ => ⟨S1x128, .f32⟩
  | .local _ .vmem, ⟨10, _⟩ => ⟨S256x128, .f32⟩
  | .local _ .vmem, ⟨11, _⟩ => ⟨S256x128, .f32⟩
  | .local _ .vmem, ⟨12, _⟩ => ⟨S256x10240, .bf16⟩
  | .local _ .vmem, ⟨13, _⟩ => ⟨S256x10240, .bf16⟩
  | .local _ .vmem, ⟨14, _⟩ => ⟨S10240x128, .f32⟩
  | .local _ .vmem, ⟨15, _⟩ => ⟨S1x128, .f32⟩
  | .local _ .vmem, ⟨16, _⟩ => ⟨S256x128, .f32⟩
  | .local _ .vmem, ⟨17, _⟩ => ⟨S256x128, .f32⟩
  | .local _ .vmem, ⟨18, _⟩ => ⟨S256x10240, .bf16⟩
  | .local _ .vmem, ⟨19, _⟩ => ⟨S256x10240, .bf16⟩
  | .local _ .vmem, ⟨20, _⟩ => ⟨S10240x256, .f32⟩
  | .local _ .vmem, ⟨21, _⟩ => ⟨S1x256, .f32⟩
  | .local _ .vmem, ⟨22, _⟩ => ⟨S256x256, .f32⟩
  | .local _ .vmem, ⟨23, _⟩ => ⟨S256x256, .f32⟩
  | .local _ .vmem, ⟨24, _⟩ => ⟨S256x10240, .bf16⟩
  | .local _ .vmem, ⟨25, _⟩ => ⟨S256x10240, .bf16⟩
  | .local _ .vmem, ⟨26, _⟩ => ⟨S10240x128, .f32⟩
  | .local _ .vmem, ⟨27, _⟩ => ⟨S1x128, .f32⟩
  | .local _ .vmem, ⟨28, _⟩ => ⟨S256x128, .f32⟩
  | .local _ .vmem, ⟨29, _⟩ => ⟨S256x128, .f32⟩
  | .local _ .vmem, ⟨30, _⟩ => ⟨S1024x128, .bf16⟩
  | .local _ .vmem, ⟨31, _⟩ => ⟨S1024x128, .bf16⟩
  | .local _ .vmem, ⟨32, _⟩ => ⟨S1024x128, .bf16⟩
  | .local _ .vmem, ⟨33, _⟩ => ⟨S1024x128, .bf16⟩
  | .local _ .vmem, ⟨34, _⟩ => ⟨S1024x1024, .f32⟩
  | .local _ .vmem, ⟨35, _⟩ => ⟨S1024x1024, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_c_8 : Ref sig .tc := ⟨.hbm, 57, rfl⟩
abbrev main_v33 : Ref sig .tc := ⟨.hbm, 58, rfl⟩
abbrev main_v34 : Ref sig .tc := ⟨.hbm, 59, rfl⟩
abbrev main_c_9 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_10 : Ref sig .tc := ⟨.hbm, 64, rfl⟩
abbrev main_v38 : Ref sig .tc := ⟨.hbm, 65, rfl⟩
abbrev main_v39 : Ref sig .tc := ⟨.hbm, 66, rfl⟩
abbrev main_c_11 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_12 : Ref sig .tc := ⟨.hbm, 76, rfl⟩
abbrev main_v48 : Ref sig .tc := ⟨.hbm, 77, rfl⟩
abbrev main_c_13 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x10240 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10240x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x10240 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10240x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x10240 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10240x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x10240 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10240x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x10240 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10240x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S256x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![10, 10], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S1024x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S_S10240x10240 : S_.BroadcastsInDim S10240x10240 (![] : Fin 0 → Fin S10240x10240.rank)
  concatenates_S330000x1_S330000x1_S330000x2_d1 : Shape.Concatenates [S330000x1, S330000x1] S330000x2 1
  bitsLt_bf16_f32 : FTy.bits .bf16 < FTy.bits .f32
  bcast_S_S10240x256 : S_.BroadcastsInDim S10240x256 (![] : Fin 0 → Fin S10240x256.rank)
  bcast_S_S1 : S_.BroadcastsInDim S1 (![] : Fin 0 → Fin S1.rank)
  shapeCasts_S128_S1x128 : S128.ShapeCasts S1x128
  inb_S256x10240_S256x10240_0_0 : ∀ a, (![0, 0] : Fin 2 → Nat) a + S256x10240.size a ≤ S256x10240.size a
  h_S256x10240 : 0 < S256x10240.numel
  shapeCasts_S256x10240_S256x10240 : S256x10240.ShapeCasts S256x10240
  inb_S10240x128_S10240x128_0_0 : ∀ a, (![0, 0] : Fin 2 → Nat) a + S10240x128.size a ≤ S10240x128.size a
  h_S10240x128 : 0 < S10240x128.numel
  shapeCasts_S10240x128_S10240x128 : S10240x128.ShapeCasts S10240x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  shapeCasts_S256_S1x256 : S256.ShapeCasts S1x256
  inb_S10240x256_S10240x256_0_0 : ∀ a, (![0, 0] : Fin 2 → Nat) a + S10240x256.size a ≤ S10240x256.size a
  h_S10240x256 : 0 < S10240x256.numel
  shapeCasts_S10240x256_S10240x256 : S10240x256.ShapeCasts S10240x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  inb_S1024x1024_S1024x1024_0_0 : ∀ a, (![0, 0] : Fin 2 → Nat) a + S1024x1024.size a ≤ S1024x1024.size a
  h_S1024x1024 : 0 < S1024x1024.numel
  slices_S10240x256_S10000x256_0_0 : S10240x256.Slices ![0, 0] S10000x256
  slices_S10240x10240_S10000x10000_0_0 : S10240x10240.Slices ![0, 0] S10000x10000
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  scatter_S10240x10240_S330000x2_S330000_n_01_01_1_wf : ScatterDims.WF S10240x10240 S330000x2 S330000 [] [0, 1] [0, 1] 1
  scatter_S10240x256_S1_S10000x256_01_n_0_0_wf : ScatterDims.WF S10240x256 S1 S10000x256 [0, 1] [] [0] 0
  dot_S10240x256_S256x128_S10240x128_1_0_0_1_n_n_wf : DotDims.WF S10240x256 S256x128 S10240x128 [1] [0] [0] [1] [] []
  dot_S256x10240_S10240x128_S256x128_1_0_0_1_n_n_wf : DotDims.WF S256x10240 S10240x128 S256x128 [1] [0] [0] [1] [] []
  dot_S10240x128_S128x128_S10240x128_1_0_0_1_n_n_wf : DotDims.WF S10240x128 S128x128 S10240x128 [1] [0] [0] [1] [] []
  dot_S10240x128_S128x256_S10240x256_1_0_0_1_n_n_wf : DotDims.WF S10240x128 S128x256 S10240x256 [1] [0] [0] [1] [] []
  dot_S256x10240_S10240x256_S256x256_1_0_0_1_n_n_wf : DotDims.WF S256x10240 S10240x256 S256x256 [1] [0] [0] [1] [] []
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x10240.size a ≤ S10240x10240.size a
  hwx0_0 : ∀ i : grid0.Coords, EltTy.bits .bf16 = 32 ∨ (Rect.block (s := S10240x10240) S256x10240.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10240x128.size a ≤ S10240x128.size a
  hwx0_1 : ∀ i : grid0.Coords, EltTy.bits .f32 = 32 ∨ (Rect.block (s := S10240x128) S10240x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S10240x128.size a
  hwx0_3 : ∀ i : grid0.Coords, EltTy.bits .f32 = 32 ∨ (Rect.block (s := S10240x128) S256x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x10240.size a ≤ S10240x10240.size a
  hwx1_0 : ∀ i : grid1.Coords, EltTy.bits .bf16 = 32 ∨ (Rect.block (s := S10240x10240) S256x10240.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x128.size a ≤ S10240x128.size a
  hwx1_1 : ∀ i : grid1.Coords, EltTy.bits .f32 = 32 ∨ (Rect.block (s := S10240x128) S10240x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S10240x128.size a
  hwx1_3 : ∀ i : grid1.Coords, EltTy.bits .f32 = 32 ∨ (Rect.block (s := S10240x128) S256x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x10240.size a ≤ S10240x10240.size a
  hwx2_0 : ∀ i : grid2.Coords, EltTy.bits .bf16 = 32 ∨ (Rect.block (s := S10240x10240) S256x10240.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10240x128.size a ≤ S10240x128.size a
  hwx2_1 : ∀ i : grid2.Coords, EltTy.bits .f32 = 32 ∨ (Rect.block (s := S10240x128) S10240x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S10240x128.size a
  hwx2_3 : ∀ i : grid2.Coords, EltTy.bits .f32 = 32 ∨ (Rect.block (s := S10240x128) S256x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x10240.size a ≤ S10240x10240.size a
  hwx3_0 : ∀ i : grid3.Coords, EltTy.bits .bf16 = 32 ∨ (Rect.block (s := S10240x10240) S256x10240.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10240x256.size a ≤ S10240x256.size a
  hwx3_1 : ∀ i : grid3.Coords, EltTy.bits .f32 = 32 ∨ (Rect.block (s := S10240x256) S10240x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S10240x256.size a
  hwx3_3 : ∀ i : grid3.Coords, EltTy.bits .f32 = 32 ∨ (Rect.block (s := S10240x256) S256x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x10240.size a ≤ S10240x10240.size a
  hwx4_0 : ∀ i : grid4.Coords, EltTy.bits .bf16 = 32 ∨ (Rect.block (s := S10240x10240) S256x10240.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10240x128.size a ≤ S10240x128.size a
  hwx4_1 : ∀ i : grid4.Coords, EltTy.bits .f32 = 32 ∨ (Rect.block (s := S10240x128) S10240x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S256x128.size a ≤ S10240x128.size a
  hwx4_3 : ∀ i : grid4.Coords, EltTy.bits .f32 = 32 ∨ (Rect.block (s := S10240x128) S256x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x128.size a ≤ S10240x128.size a
  hwx5_0 : ∀ i : grid5.Coords, EltTy.bits .bf16 = 32 ∨ (Rect.block (s := S10240x128) S1024x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x128.size a ≤ S10240x128.size a
  hwx5_1 : ∀ i : grid5.Coords, EltTy.bits .bf16 = 32 ∨ (Rect.block (s := S10240x128) S1024x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x1024.size a ≤ S10240x10240.size a
  hwx5_2 : ∀ i : grid5.Coords, EltTy.bits .f32 = 32 ∨ (Rect.block (s := S10240x10240) S1024x1024.size (cc5_transform_2 i) (hinb5_2 i)).WholeWords (EltTy.packing .f32)

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def scatter_S10240x10240_S330000x2_S330000_n_01_01_1 : ScatterDims S10240x10240 S330000x2 S330000 where
  updateWindowDims := []
  insertedWindowDims := [0, 1]
  scatterDimsToOperandDims := [0, 1]
  indexVectorDim := 1
  wf := scatter_S10240x10240_S330000x2_S330000_n_01_01_1_wf
def scatter_S10240x256_S1_S10000x256_01_n_0_0 : ScatterDims S10240x256 S1 S10000x256 where
  updateWindowDims := [0, 1]
  insertedWindowDims := []
  scatterDimsToOperandDims := [0]
  indexVectorDim := 0
  wf := scatter_S10240x256_S1_S10000x256_01_n_0_0_wf
def dot_S10240x256_S256x128_S10240x128_1_0_0_1_n_n : DotDims S10240x256 S256x128 S10240x128 where
  lhsContracting := [1]
  rhsContracting := [0]
  lhsNonContracting := [0]
  rhsNonContracting := [1]
  lhsBatch := []
  rhsBatch := []
  wf := dot_S10240x256_S256x128_S10240x128_1_0_0_1_n_n_wf
def dot_S256x10240_S10240x128_S256x128_1_0_0_1_n_n : DotDims S256x10240 S10240x128 S256x128 where
  lhsContracting := [1]
  rhsContracting := [0]
  lhsNonContracting := [0]
  rhsNonContracting := [1]
  lhsBatch := []
  rhsBatch := []
  wf := dot_S256x10240_S10240x128_S256x128_1_0_0_1_n_n_wf
def dot_S10240x128_S128x128_S10240x128_1_0_0_1_n_n : DotDims S10240x128 S128x128 S10240x128 where
  lhsContracting := [1]
  rhsContracting := [0]
  lhsNonContracting := [0]
  rhsNonContracting := [1]
  lhsBatch := []
  rhsBatch := []
  wf := dot_S10240x128_S128x128_S10240x128_1_0_0_1_n_n_wf
def dot_S10240x128_S128x256_S10240x256_1_0_0_1_n_n : DotDims S10240x128 S128x256 S10240x256 where
  lhsContracting := [1]
  rhsContracting := [0]
  lhsNonContracting := [0]
  rhsNonContracting := [1]
  lhsBatch := []
  rhsBatch := []
  wf := dot_S10240x128_S128x256_S10240x256_1_0_0_1_n_n_wf
def dot_S256x10240_S10240x256_S256x256_1_0_0_1_n_n : DotDims S256x10240 S10240x256 S256x256 where
  lhsContracting := [1]
  rhsContracting := [0]
  lhsNonContracting := [0]
  rhsNonContracting := [1]
  lhsBatch := []
  rhsBatch := []
  wf := dot_S256x10240_S10240x256_S256x256_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v47) S256x10240.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v51) S10240x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v52) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v53) S256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S256x10240.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S10240x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47) S256x10240.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S10240x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S256x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v47) S256x10240.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S10240x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S256x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v47) S256x10240.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S10240x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S256x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v66) S1024x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v66) S1024x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v67) S1024x1024.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S256x128 : Shape := ⟨2, ![256, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S10000x128 : Shape := ⟨2, ![10000, 128]⟩
abbrev S330000x128 : Shape := ⟨2, ![330000, 128]⟩
abbrev S1x128 : Shape := ⟨2, ![1, 128]⟩
abbrev S330000x256 : Shape := ⟨2, ![330000, 256]⟩
abbrev S1x256 : Shape := ⟨2, ![1, 256]⟩
abbrev S128x10000 : Shape := ⟨2, ![128, 10000]⟩
abbrev S10000x10000 : Shape := ⟨2, ![10000, 10000]⟩

abbrev nBuf : Space → Nat
  | .hbm => 163
  | .vmem => 0
  | .smem => 0
  | _ => 0

abbrev hbmTy0_0 (i : Nat) : BufTy := match i % 128 with
  | 0 => ⟨S10000x256, .f32⟩
  | 1 => ⟨S2x320000, .i32⟩
  | 2 => ⟨S256x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x256, .f32⟩
  | 9 => ⟨S256, .f32⟩
  | 10 => ⟨S128x128, .f32⟩
  | 11 => ⟨S128, .f32⟩
  | 12 => ⟨S10000, .i32⟩
  | 13 => ⟨S1x320000, .i32⟩
  | 14 => ⟨S320000, .i32⟩
  | 15 => ⟨S330000, .i32⟩
  | 16 => ⟨S1x320000, .i32⟩
  | 17 => ⟨S320000, .i32⟩
  | 18 => ⟨S330000, .i32⟩
  | 19 => ⟨S_, .f32⟩
  | 20 => ⟨S330000, .f32⟩
  | 21 => ⟨S_, .f32⟩
  | 22 => ⟨S10000, .f32⟩
  | 23 => ⟨S330000x1, .i32⟩
  | 24 => ⟨S10000, .f32⟩
  | 25 => ⟨S_, .f32⟩
  | 26 => ⟨S10000, .f32⟩
  | 27 => ⟨S10000, .i1⟩
  | 28 => ⟨S_, .f32⟩
  | 29 => ⟨S10000, .f32⟩
  | 30 => ⟨S10000, .f32⟩
  | 31 => ⟨S10000, .f32⟩
  | 32 => ⟨S_, .f32⟩
  | 33 => ⟨S_, .f32⟩
  | 34 => ⟨S10000, .f32⟩
  | 35 => ⟨S10000, .f32⟩
  | 36 => ⟨S_, .i32⟩
  | 37 => ⟨S330000, .i32⟩
  | 38 => ⟨S330000, .i1⟩
  | 39 => ⟨S_, .i32⟩
  | 40 => ⟨S330000, .i32⟩
  | 41 => ⟨S330000, .i32⟩
  | 42 => ⟨S330000, .i32⟩
  | 43 => ⟨S330000x1, .i32⟩
  | 44 => ⟨S330000, .f32⟩
  | 45 => ⟨S_, .i32⟩
  | 46 => ⟨S330000, .i32⟩
  | 47 => ⟨S330000, .i1⟩
  | 48 => ⟨S_, .i32⟩
  | 49 => ⟨S330000, .i32⟩
  | 50 => ⟨S330000, .i32⟩
  | 51 => ⟨S330000, .i32⟩
  | 52 => ⟨S330000x1, .i32⟩
  | 53 => ⟨S330000, .f32⟩
  | 54 => ⟨S330000, .f32⟩
  | 55 => ⟨S10000x128, .f32⟩
  | 56 => ⟨S330000x1, .f32⟩
  | 57 => ⟨S_, .i32⟩
  | 58 => ⟨S330000, .i32⟩
  | 59 => ⟨S330000, .i1⟩
  | 60 => ⟨S_, .i32⟩
  | 61 => ⟨S330000, .i32⟩
  | 62 => ⟨S330000, .i32⟩
  | 63 => ⟨S330000, .i32⟩
  | 64 => ⟨S330000x1, .i32⟩
  | 65 => ⟨S330000x128, .f32⟩
  | 66 => ⟨S330000x128, .f32⟩
  | 67 => ⟨S330000x128, .f32⟩
  | 68 => ⟨S_, .f32⟩
  | 69 => ⟨S10000x128, .f32⟩
  | 70 => ⟨S330000x1, .i32⟩
  | 71 => ⟨S10000x128, .f32⟩
  | 72 => ⟨S1x128, .f32⟩
  | 73 => ⟨S10000x128, .f32⟩
  | 74 => ⟨S10000x128, .f32⟩
  | 75 => ⟨S_, .f32⟩
  | 76 => ⟨S10000x128, .f32⟩
  | 77 => ⟨S10000x128, .f32⟩
  | 78 => ⟨S10000x128, .f32⟩
  | 79 => ⟨S330000x1, .f32⟩
  | 80 => ⟨S_, .i32⟩
  | 81 => ⟨S330000, .i32⟩
  | 82 => ⟨S330000, .i1⟩
  | 83 => ⟨S_, .i32⟩
  | 84 => ⟨S330000, .i32⟩
  | 85 => ⟨S330000, .i32⟩
  | 86 => ⟨S330000, .i32⟩
  | 87 => ⟨S330000x1, .i32⟩
  | 88 => ⟨S330000x128, .f32⟩
  | 89 => ⟨S330000x128, .f32⟩
  | 90 => ⟨S330000x128, .f32⟩
  | 91 => ⟨S_, .f32⟩
  | 92 => ⟨S10000x128, .f32⟩
  | 93 => ⟨S330000x1, .i32⟩
  | 94 => ⟨S10000x128, .f32⟩
  | 95 => ⟨S1x128, .f32⟩
  | 96 => ⟨S10000x128, .f32⟩
  | 97 => ⟨S10000x128, .f32⟩
  | 98 => ⟨S10000x128, .f32⟩
  | 99 => ⟨S330000x1, .f32⟩
  | 100 => ⟨S_, .i32⟩
  | 101 => ⟨S330000, .i32⟩
  | 102 => ⟨S330000, .i1⟩
  | 103 => ⟨S_, .i32⟩
  | 104 => ⟨S330000, .i32⟩
  | 105 => ⟨S330000, .i32⟩
  | 106 => ⟨S330000, .i32⟩
  | 107 => ⟨S330000x1, .i32⟩
  | 108 => ⟨S330000x128, .f32⟩
  | 109 => ⟨S330000x128, .f32⟩
  | 110 => ⟨S330000x128, .f32⟩
  | 111 => ⟨S_, .f32⟩
  | 112 => ⟨S10000x128, .f32⟩
  | 113 => ⟨S330000x1, .i32⟩
  | 114 => ⟨S10000x128, .f32⟩
  | 115 => ⟨S1x128, .f32⟩
  | 116 => ⟨S10000x128, .f32⟩
  | 117 => ⟨S10000x128, .f32⟩
  | 118 => ⟨S_, .f32⟩
  | 119 => ⟨S10000x128, .f32⟩
  | 120 => ⟨S10000x128, .f32⟩
  | 121 => ⟨S10000x256, .f32⟩
  | 122 => ⟨S330000x1, .f32⟩
  | 123 => ⟨S_, .i32⟩
  | 124 => ⟨S330000, .i32⟩
  | 125 => ⟨S330000, .i1⟩
  | 126 => ⟨S_, .i32⟩
  | 127 => ⟨S330000, .i32⟩
  | _ => ⟨S10000x256, .f32⟩

abbrev hbmTy0_1 (i : Nat) : BufTy := match i % 128 with
  | 0 => ⟨S330000, .i32⟩
  | 1 => ⟨S330000, .i32⟩
  | 2 => ⟨S330000x1, .i32⟩
  | 3 => ⟨S330000x256, .f32⟩
  | 4 => ⟨S330000x256, .f32⟩
  | 5 => ⟨S330000x256, .f32⟩
  | 6 => ⟨S_, .f32⟩
  | 7 => ⟨S10000x256, .f32⟩
  | 8 => ⟨S330000x1, .i32⟩
  | 9 => ⟨S10000x256, .f32⟩
  | 10 => ⟨S1x256, .f32⟩
  | 11 => ⟨S10000x256, .f32⟩
  | 12 => ⟨S10000x256, .f32⟩
  | 13 => ⟨S10000x128, .f32⟩
  | 14 => ⟨S330000x1, .f32⟩
  | 15 => ⟨S_, .i32⟩
  | 16 => ⟨S330000, .i32⟩
  | 17 => ⟨S330000, .i1⟩
  | 18 => ⟨S_, .i32⟩
  | 19 => ⟨S330000, .i32⟩
  | 20 => ⟨S330000, .i32⟩
  | 21 => ⟨S330000, .i32⟩
  | 22 => ⟨S330000x1, .i32⟩
  | 23 => ⟨S330000x128, .f32⟩
  | 24 => ⟨S330000x128, .f32⟩
  | 25 => ⟨S330000x128, .f32⟩
  | 26 => ⟨S_, .f32⟩
  | 27 => ⟨S10000x128, .f32⟩
  | 28 => ⟨S330000x1, .i32⟩
  | 29 => ⟨S10000x128, .f32⟩
  | 30 => ⟨S1x128, .f32⟩
  | 31 => ⟨S10000x128, .f32⟩
  | 32 => ⟨S10000x128, .f32⟩
  | 33 => ⟨S128x10000, .f32⟩
  | 34 => ⟨S10000x10000, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_12 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_c_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_15 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_call2_cst : Ref sig .tc := ⟨.hbm, 118, rfl⟩
abbrev main_call2_v0 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_c_16 : Ref sig .tc := ⟨.hbm, 123, rfl⟩
abbrev main_v87 : Ref sig .tc := ⟨.hbm, 124, rfl⟩
abbrev main_v88 : Ref sig .tc := ⟨.hbm, 125, rfl⟩
abbrev main_c_17 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_18 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_c_19 : Ref sig .tc := ⟨.hbm, 143, rfl⟩
abbrev main_v104 : Ref sig .tc := ⟨.hbm, 144, rfl⟩
abbrev main_v105 : Ref sig .tc := ⟨.hbm, 145, rfl⟩
abbrev main_c_20 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_21 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x128_0_1 : S330000x1.BroadcastsInDim S330000x128 (![0, 1] : Fin 2 → Fin S330000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S330000x1_S330000x256_0_1 : S330000x1.BroadcastsInDim S330000x256 (![0, 1] : Fin 2 → Fin S330000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  transposes_S10000x128_S128x10000_1_0 : S10000x128.Transposes [1, 0] S128x10000
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x256_S256x128_S10000x128_1_0_0_1_n_n_wf : DotDims.WF S10000x256 S256x128 S10000x128 [1] [0] [0] [1] [] []
  gather_S10000x128_S330000x1_S330000x128_1_0_n_n_0_1_1128_wf : GatherDims.WF S10000x128 S330000x1 S330000x128 [1] [0] [] [0] [] 1 ![1, 128]
  scatter_S10000x128_S330000x1_S330000x128_1_0_0_1_wf : ScatterDims.WF S10000x128 S330000x1 S330000x128 [1] [0] [0] 1
  dot_S10000x128_S128x128_S10000x128_1_0_0_1_n_n_wf : DotDims.WF S10000x128 S128x128 S10000x128 [1] [0] [0] [1] [] []
  dot_S10000x128_S128x256_S10000x256_1_0_0_1_n_n_wf : DotDims.WF S10000x128 S128x256 S10000x256 [1] [0] [0] [1] [] []
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  dot_S10000x128_S128x10000_S10000x10000_1_0_0_1_n_n_wf : DotDims.WF S10000x128 S128x10000 S10000x10000 [1] [0] [0] [1] [] []

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S10000x128_S330000x1_S330000x128_1_0_n_n_0_1_1128 : GatherDims S10000x128 S330000x1 S330000x128 where
  offsetDims := [1]
  collapsedSliceDims := [0]
  operandBatchingDims := []
  startIndicesBatchingDims := []
  startIndexMap := [0]
  indexVectorDim := 1
  sliceSizes := ![1, 128]
  wf := gather_S10000x128_S330000x1_S330000x128_1_0_n_n_0_1_1128_wf
def scatter_S10000x128_S330000x1_S330000x128_1_0_0_1 : ScatterDims S10000x128 S330000x1 S330000x128 where
  updateWindowDims := [1]
  insertedWindowDims := [0]
  scatterDimsToOperandDims := [0]
  indexVectorDim := 1
  wf := scatter_S10000x128_S330000x1_S330000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf
def dot_S10000x128_S128x10000_S10000x10000_1_0_0_1_n_n : DotDims S10000x128 S128x10000 S10000x10000 where
  lhsContracting := [1]
  rhsContracting := [0]
  lhsNonContracting := [0]
  rhsNonContracting := [1]
  lhsBatch := []
  rhsBatch := []
  wf := dot_S10000x128_S128x10000_S10000x10000_1_0_0_1_n_n_wf

class Facts : Prop extends Facts₀ where

variable [Facts]
-- ==== Proof.KRun0.lean ====
/- Layer 0 of the graph convolution as the kernel runs it: grid point `t` multiplies rows 256·t … 256·t+255 of the
   normalised adjacency matrix (a 256 × 10240 block) by the whole 10240 × 128 feature matrix, adds the bias row and clamps at zero, and
   stores the 256 × 128 result as the output's block `t`. This module runs that body once, on any staging buffers, and packages
   the result as the pipeline's proof data at an arbitrary valuation `V` of the core's buffers on entry. -/
import proofs.«130217_j58256936403151_1_alg».proof.Proof.Gen.KernelIdeal.Launch
import proofs.«130217_j58256936403151_1_alg».proof.Proof.Gen.KernelIdeal.Skeleton
import proofs.«130217_j58256936403151_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KRun

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Layer0
variable (V : (c : Dev nD) → (b : Ref sig .tc) → Buf (Elt F) ((c : Thread nD τ).loc b))

/-- Window `w`'s block at point `t`, read off its array as layer 0 finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the pipeline fetched it there or not. -/
theorem staged0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's staging buffer holds its block at every point, whether the pipeline fetched it there or not. -/
theorem staged0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's staging buffer holds its block at every point, whether the pipeline fetched it there or not. -/
theorem staged0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The whole-buffer rectangles the body loads and stores through. -/
abbrev rA0 : Rect S256x10240 := Rect.unit (s := S256x10240) ![0, 0] S256x10240.size inb_S256x10240_S256x10240_0_0
abbrev rM0 : Rect S10240x128 := Rect.unit (s := S10240x128) ![0, 0] S10240x128.size inb_S10240x128_S10240x128_0_0
abbrev rB0 : Rect S1x128 := Rect.unit (s := S1x128) ![0, 0] S1x128.size inb_S1x128_S1x128_0_0
abbrev rO0 : Rect S256x128 := Rect.unit (s := S256x128) ![0, 0] S256x128.size inb_S256x128_S256x128_0_0

/-- The output block after the body: one store of the whole block, whose value is the layer's arithmetic on the three input blocks. -/
def aggOut0 (x0 : Vec F S256x10240 .bf16) (x1 : Vec F S10240x128 .f32) (x2 : Vec F S1x128 .f32) : Vec F S256x128 .f32 :=
  View.canon [⟨rO0, k0_pay1 (View.ld x0 rA0) (View.ld x1 rM0) (View.ld x2 rB0)⟩]

/-- That one store covers the block. -/
theorem aggCover0 (p0 : Vec F S256x128 .f32) (y : S256x128.Idx) :
    ∃ pc ∈ ([⟨rO0, p0⟩] : List (View.Piece (Elt F) S256x128 .f32)), y ∈ pc.1.set :=
  View.cover_of_tiled [⟨rO0, p0⟩] S256x128.size (by rfl) y

set_option maxHeartbeats 1000000 in
/-- The body on whole staging buffers: the three inputs are read and left as they were, the output block (whatever it held) ends at `aggOut0`. -/
theorem aggKernel0_triple (c : Dev nD) (E : Set ℕ) (i : grid0.Coords)
    (arg1 : Memref sig .tc .vmem S256x10240 .bf16) (harg1 : arg1.IsWhole) (arg2 : Memref sig .tc .vmem S10240x128 .f32) (harg2 : arg2.IsWhole)
    (arg3 : Memref sig .tc .vmem S1x128 .f32) (harg3 : arg3.IsWhole) (arg4 : Memref sig .tc .vmem S256x128 .f32) (harg4 : arg4.IsWhole)
    (x0 : Vec F S256x10240 .bf16) (x1 : Vec F S10240x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (aggOut0 x0 x1 x2)) -∗ K ⟨⟩))
      ⊢ wp frame (wpE (defs₀ (F := F)) Variants.none c none) E (cc0__agg_kernel i arg1 harg1 arg2 harg2 arg3 harg3 arg4 harg4) K := by
  simp only [cc0__agg_kernel_eq_skeleton]; unfold cc0__agg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (aggCover0 _)

/-- Layer 0's proof data on core `c`: the arrays as found (`V`); after the body at point `t` the inputs' buffers still hold their blocks
    and the output's holds `aggOut0` of them; nothing owed, full shares, the pipeline's plain invariant. -/
def aggDat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => aggOut0 (blk0 V c 0 t) (blk0 V c 1 t) (blk0 V c 2 t)
  Φ _ := Pipeline.ΦA spec0 c
  q _ := fullShare
  owed _ := 0

theorem aggDat0_A (c : Dev nD) (w : Fin cfg0.W) : (aggDat0 V c).A w = V c (Pipeline.arrRef spec0 w) := by
  dsimp only [aggDat0]

theorem aggDat0_after_0 (c : Dev nD) (t : Fin cfg0.N) : (aggDat0 V c).after 0 t = blk0 V c 0 t := by dsimp only [aggDat0]
theorem aggDat0_after_1 (c : Dev nD) (t : Fin cfg0.N) : (aggDat0 V c).after 1 t = blk0 V c 1 t := by dsimp only [aggDat0]
theorem aggDat0_after_2 (c : Dev nD) (t : Fin cfg0.N) : (aggDat0 V c).after 2 t = blk0 V c 2 t := by dsimp only [aggDat0]
/-- What layer 0 leaves in its output's staging buffer at point `t`: the layer's arithmetic (`Gen.k0_pay1`) on the three input blocks at `t`. -/
theorem aggDat0_after_3 (c : Dev nD) (t : Fin cfg0.N) :
    (aggDat0 V c).after 3 t = aggOut0 (blk0 V c 0 t) (blk0 V c 1 t) (blk0 V c 2 t) := by dsimp only [aggDat0]

theorem aggDat0_before_0 (c : Dev nD) (t : Fin cfg0.N) (d) : (aggDat0 V c).before 0 t d = blk0 V c 0 t :=
  staged0_0_of V (aggDat0 V c) (aggDat0_A V c 0) (aggDat0_after_0 V c) t d
theorem aggDat0_before_1 (c : Dev nD) (t : Fin cfg0.N) (d) : (aggDat0 V c).before 1 t d = blk0 V c 1 t :=
  staged0_1_of V (aggDat0 V c) (aggDat0_A V c 1) (aggDat0_after_1 V c) t d
theorem aggDat0_before_2 (c : Dev nD) (t : Fin cfg0.N) (d) : (aggDat0 V c).before 2 t d = blk0 V c 2 t :=
  staged0_2_of V (aggDat0 V c) (aggDat0_A V c 2) (aggDat0_after_2 V c) t d

/-- What the pipeline hands the body at point `t`, -/
def aggPre0 (c : Dev nD) (t : Fin cfg0.N) : sProp 𝕄 :=
  iprop((aggDat0 V c).Φ t.castSucc ∗ (aggDat0 V c).owesAt () t.castSucc
    ∗ (∃ d, owns (c : Thread nD τ) (st0_0 t) fullShare ((aggDat0 V c).before 0 t d))
    ∗ (∃ d, owns (c : Thread nD τ) (st0_1 t) fullShare ((aggDat0 V c).before 1 t d))
    ∗ (∃ d, owns (c : Thread nD τ) (st0_2 t) fullShare ((aggDat0 V c).before 2 t d))
    ∗ (∃ d, owns (c : Thread nD τ) (st0_3 t) fullShare ((aggDat0 V c).before 3 t d)))

/-- and what the body hands back. -/
def aggPost0 (c : Dev nD) (t : Fin cfg0.N) : sProp 𝕄 :=
  iprop((aggDat0 V c).Φ t.succ ∗ (aggDat0 V c).owesAt () t.succ
    ∗ owns (c : Thread nD τ) (st0_0 t) fullShare ((aggDat0 V c).after 0 t)
    ∗ owns (c : Thread nD τ) (st0_1 t) fullShare ((aggDat0 V c).after 1 t)
    ∗ owns (c : Thread nD τ) (st0_2 t) fullShare ((aggDat0 V c).after 2 t)
    ∗ owns (c : Thread nD τ) (st0_3 t) fullShare ((aggDat0 V c).after 3 t))

/-- The body at any grid point. -/
theorem aggBody0_triple (c : Dev nD) (t : Fin cfg0.N) :
    aggPre0 V c t ⊢ wp frame (wpE (defs₀ (F := F)) Variants.none c none) Set.univ (bodyAt0 t) (fun _ => aggPost0 V c t) := by
  unfold aggPre0 aggPost0 bodyAt0
  simp only [aggDat0_before_0, aggDat0_before_1, aggDat0_before_2]
  rw [show (aggDat0 V c).Φ t.succ = (aggDat0 V c).Φ t.castSucc from rfl,
    show (aggDat0 V c).owesAt () t.succ = (aggDat0 V c).owesAt () t.castSucc from rfl,
    aggDat0_after_0, aggDat0_after_1, aggDat0_after_2, aggDat0_after_3]
  iintro ⟨HΦ, Ho, ⟨%d0, H0⟩, ⟨%d1, H1⟩, ⟨%d2, H2⟩, ⟨%d3, H3⟩⟩
  iapply (aggKernel0_triple c Set.univ (grid0.coords t) _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation for layer 0, at every point. -/
theorem aggBody0_obligation (c : Dev nD) : BodyObligation (aggDat0 (F := F) V c) (defs₀ (F := F)) Variants.none () Set.univ := fun t => by
  rw [bigSep_W0, bigSep_W0]
  exact aggBody0_triple V c t

end Layer0

end Cert.KernelIdeal.KRun

end
-- ==== Proof.KRun1.lean ====
/- Layer 1 of the graph convolution as the kernel runs it: grid point `t` multiplies rows 256·t … 256·t+255 of the
   normalised adjacency matrix (a 256 × 10240 block) by the whole 10240 × 128 feature matrix, adds the bias row, and
   stores the 256 × 128 result as the output's block `t`. This module runs that body once, on any staging buffers, and packages
   the result as the pipeline's proof data at an arbitrary valuation `V` of the core's buffers on entry. -/
import proofs.«130217_j58256936403151_1_alg».proof.Proof.Gen.KernelIdeal.Launch
import proofs.«130217_j58256936403151_1_alg».proof.Proof.Gen.KernelIdeal.Skeleton
import proofs.«130217_j58256936403151_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KRun

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Layer1
variable (V : (c : Dev nD) → (b : Ref sig .tc) → Buf (Elt F) ((c : Thread nD τ).loc b))

/-- Window `w`'s block at point `t`, read off its array as layer 1 finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the pipeline fetched it there or not. -/
theorem staged1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's staging buffer holds its block at every point, whether the pipeline fetched it there or not. -/
theorem staged1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's staging buffer holds its block at every point, whether the pipeline fetched it there or not. -/
theorem staged1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- The whole-buffer rectangles the body loads and stores through. -/
abbrev rA1 : Rect S256x10240 := Rect.unit (s := S256x10240) ![0, 0] S256x10240.size inb_S256x10240_S256x10240_0_0
abbrev rM1 : Rect S10240x128 := Rect.unit (s := S10240x128) ![0, 0] S10240x128.size inb_S10240x128_S10240x128_0_0
abbrev rB1 : Rect S1x128 := Rect.unit (s := S1x128) ![0, 0] S1x128.size inb_S1x128_S1x128_0_0
abbrev rO1 : Rect S256x128 := Rect.unit (s := S256x128) ![0, 0] S256x128.size inb_S256x128_S256x128_0_0

/-- The output block after the body: one store of the whole block, whose value is the layer's arithmetic on the three input blocks. -/
def aggOut1 (x0 : Vec F S256x10240 .bf16) (x1 : Vec F S10240x128 .f32) (x2 : Vec F S1x128 .f32) : Vec F S256x128 .f32 :=
  View.canon [⟨rO1, k1_pay1 (View.ld x0 rA1) (View.ld x1 rM1) (View.ld x2 rB1)⟩]

/-- That one store covers the block. -/
theorem aggCover1 (p0 : Vec F S256x128 .f32) (y : S256x128.Idx) :
    ∃ pc ∈ ([⟨rO1, p0⟩] : List (View.Piece (Elt F) S256x128 .f32)), y ∈ pc.1.set :=
  View.cover_of_tiled [⟨rO1, p0⟩] S256x128.size (by rfl) y

set_option maxHeartbeats 1000000 in
/-- The body on whole staging buffers: the three inputs are read and left as they were, the output block (whatever it held) ends at `aggOut1`. -/
theorem aggKernel1_triple (c : Dev nD) (E : Set ℕ) (i : grid1.Coords)
    (arg1 : Memref sig .tc .vmem S256x10240 .bf16) (harg1 : arg1.IsWhole) (arg2 : Memref sig .tc .vmem S10240x128 .f32) (harg2 : arg2.IsWhole)
    (arg3 : Memref sig .tc .vmem S1x128 .f32) (harg3 : arg3.IsWhole) (arg4 : Memref sig .tc .vmem S256x128 .f32) (harg4 : arg4.IsWhole)
    (x0 : Vec F S256x10240 .bf16) (x1 : Vec F S10240x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (aggOut1 x0 x1 x2)) -∗ K ⟨⟩))
      ⊢ wp frame (wpE (defs₀ (F := F)) Variants.none c none) E (cc1__agg_kernel i arg1 harg1 arg2 harg2 arg3 harg3 arg4 harg4) K := by
  simp only [cc1__agg_kernel_eq_skeleton]; unfold cc1__agg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (aggCover1 _)

/-- Layer 1's proof data on core `c`: the arrays as found (`V`); after the body at point `t` the inputs' buffers still hold their blocks
    and the output's holds `aggOut1` of them; nothing owed, full shares, the pipeline's plain invariant. -/
def aggDat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => aggOut1 (blk1 V c 0 t) (blk1 V c 1 t) (blk1 V c 2 t)
  Φ _ := Pipeline.ΦA spec1 c
  q _ := fullShare
  owed _ := 0

theorem aggDat1_A (c : Dev nD) (w : Fin cfg1.W) : (aggDat1 V c).A w = V c (Pipeline.arrRef spec1 w) := by
  dsimp only [aggDat1]

theorem aggDat1_after_0 (c : Dev nD) (t : Fin cfg1.N) : (aggDat1 V c).after 0 t = blk1 V c 0 t := by dsimp only [aggDat1]
theorem aggDat1_after_1 (c : Dev nD) (t : Fin cfg1.N) : (aggDat1 V c).after 1 t = blk1 V c 1 t := by dsimp only [aggDat1]
theorem aggDat1_after_2 (c : Dev nD) (t : Fin cfg1.N) : (aggDat1 V c).after 2 t = blk1 V c 2 t := by dsimp only [aggDat1]
/-- What layer 1 leaves in its output's staging buffer at point `t`: the layer's arithmetic (`Gen.k1_pay1`) on the three input blocks at `t`. -/
theorem aggDat1_after_3 (c : Dev nD) (t : Fin cfg1.N) :
    (aggDat1 V c).after 3 t = aggOut1 (blk1 V c 0 t) (blk1 V c 1 t) (blk1 V c 2 t) := by dsimp only [aggDat1]

theorem aggDat1_before_0 (c : Dev nD) (t : Fin cfg1.N) (d) : (aggDat1 V c).before 0 t d = blk1 V c 0 t :=
  staged1_0_of V (aggDat1 V c) (aggDat1_A V c 0) (aggDat1_after_0 V c) t d
theorem aggDat1_before_1 (c : Dev nD) (t : Fin cfg1.N) (d) : (aggDat1 V c).before 1 t d = blk1 V c 1 t :=
  staged1_1_of V (aggDat1 V c) (aggDat1_A V c 1) (aggDat1_after_1 V c) t d
theorem aggDat1_before_2 (c : Dev nD) (t : Fin cfg1.N) (d) : (aggDat1 V c).before 2 t d = blk1 V c 2 t :=
  staged1_2_of V (aggDat1 V c) (aggDat1_A V c 2) (aggDat1_after_2 V c) t d

/-- What the pipeline hands the body at point `t`, -/
def aggPre1 (c : Dev nD) (t : Fin cfg1.N) : sProp 𝕄 :=
  iprop((aggDat1 V c).Φ t.castSucc ∗ (aggDat1 V c).owesAt () t.castSucc
    ∗ (∃ d, owns (c : Thread nD τ) (st1_0 t) fullShare ((aggDat1 V c).before 0 t d))
    ∗ (∃ d, owns (c : Thread nD τ) (st1_1 t) fullShare ((aggDat1 V c).before 1 t d))
    ∗ (∃ d, owns (c : Thread nD τ) (st1_2 t) fullShare ((aggDat1 V c).before 2 t d))
    ∗ (∃ d, owns (c : Thread nD τ) (st1_3 t) fullShare ((aggDat1 V c).before 3 t d)))

/-- and what the body hands back. -/
def aggPost1 (c : Dev nD) (t : Fin cfg1.N) : sProp 𝕄 :=
  iprop((aggDat1 V c).Φ t.succ ∗ (aggDat1 V c).owesAt () t.succ
    ∗ owns (c : Thread nD τ) (st1_0 t) fullShare ((aggDat1 V c).after 0 t)
    ∗ owns (c : Thread nD τ) (st1_1 t) fullShare ((aggDat1 V c).after 1 t)
    ∗ owns (c : Thread nD τ) (st1_2 t) fullShare ((aggDat1 V c).after 2 t)
    ∗ owns (c : Thread nD τ) (st1_3 t) fullShare ((aggDat1 V c).after 3 t))

/-- The body at any grid point. -/
theorem aggBody1_triple (c : Dev nD) (t : Fin cfg1.N) :
    aggPre1 V c t ⊢ wp frame (wpE (defs₀ (F := F)) Variants.none c none) Set.univ (bodyAt1 t) (fun _ => aggPost1 V c t) := by
  unfold aggPre1 aggPost1 bodyAt1
  simp only [aggDat1_before_0, aggDat1_before_1, aggDat1_before_2]
  rw [show (aggDat1 V c).Φ t.succ = (aggDat1 V c).Φ t.castSucc from rfl,
    show (aggDat1 V c).owesAt () t.succ = (aggDat1 V c).owesAt () t.castSucc from rfl,
    aggDat1_after_0, aggDat1_after_1, aggDat1_after_2, aggDat1_after_3]
  iintro ⟨HΦ, Ho, ⟨%d0, H0⟩, ⟨%d1, H1⟩, ⟨%d2, H2⟩, ⟨%d3, H3⟩⟩
  iapply (aggKernel1_triple c Set.univ (grid1.coords t) _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation for layer 1, at every point. -/
theorem aggBody1_obligation (c : Dev nD) : BodyObligation (aggDat1 (F := F) V c) (defs₀ (F := F)) Variants.none () Set.univ := fun t => by
  rw [bigSep_W1, bigSep_W1]
  exact aggBody1_triple V c t

end Layer1

end Cert.KernelIdeal.KRun

end
-- ==== Proof.KRun2.lean ====
/- Layer 2 of the graph convolution as the kernel runs it: grid point `t` multiplies rows 256·t … 256·t+255 of the
   normalised adjacency matrix (a 256 × 10240 block) by the whole 10240 × 128 feature matrix, adds the bias row and clamps at zero, and
   stores the 256 × 128 result as the output's block `t`. This module runs that body once, on any staging buffers, and packages
   the result as the pipeline's proof data at an arbitrary valuation `V` of the core's buffers on entry. -/
import proofs.«130217_j58256936403151_1_alg».proof.Proof.Gen.KernelIdeal.Launch
import proofs.«130217_j58256936403151_1_alg».proof.Proof.Gen.KernelIdeal.Skeleton
import proofs.«130217_j58256936403151_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KRun

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Layer2
variable (V : (c : Dev nD) → (b : Ref sig .tc) → Buf (Elt F) ((c : Thread nD τ).loc b))

/-- Window `w`'s block at point `t`, read off its array as layer 2 finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the pipeline fetched it there or not. -/
theorem staged2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- Input window 1's staging buffer holds its block at every point, whether the pipeline fetched it there or not. -/
theorem staged2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- Input window 2's staging buffer holds its block at every point, whether the pipeline fetched it there or not. -/
theorem staged2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- The whole-buffer rectangles the body loads and stores through. -/
abbrev rA2 : Rect S256x10240 := Rect.unit (s := S256x10240) ![0, 0] S256x10240.size inb_S256x10240_S256x10240_0_0
abbrev rM2 : Rect S10240x128 := Rect.unit (s := S10240x128) ![0, 0] S10240x128.size inb_S10240x128_S10240x128_0_0
abbrev rB2 : Rect S1x128 := Rect.unit (s := S1x128) ![0, 0] S1x128.size inb_S1x128_S1x128_0_0
abbrev rO2 : Rect S256x128 := Rect.unit (s := S256x128) ![0, 0] S256x128.size inb_S256x128_S256x128_0_0

/-- The output block after the body: one store of the whole block, whose value is the layer's arithmetic on the three input blocks. -/
def aggOut2 (x0 : Vec F S256x10240 .bf16) (x1 : Vec F S10240x128 .f32) (x2 : Vec F S1x128 .f32) : Vec F S256x128 .f32 :=
  View.canon [⟨rO2, k2_pay1 (View.ld x0 rA2) (View.ld x1 rM2) (View.ld x2 rB2)⟩]

/-- That one store covers the block. -/
theorem aggCover2 (p0 : Vec F S256x128 .f32) (y : S256x128.Idx) :
    ∃ pc ∈ ([⟨rO2, p0⟩] : List (View.Piece (Elt F) S256x128 .f32)), y ∈ pc.1.set :=
  View.cover_of_tiled [⟨rO2, p0⟩] S256x128.size (by rfl) y

set_option maxHeartbeats 1000000 in
/-- The body on whole staging buffers: the three inputs are read and left as they were, the output block (whatever it held) ends at `aggOut2`. -/
theorem aggKernel2_triple (c : Dev nD) (E : Set ℕ) (i : grid2.Coords)
    (arg1 : Memref sig .tc .vmem S256x10240 .bf16) (harg1 : arg1.IsWhole) (arg2 : Memref sig .tc .vmem S10240x128 .f32) (harg2 : arg2.IsWhole)
    (arg3 : Memref sig .tc .vmem S1x128 .f32) (harg3 : arg3.IsWhole) (arg4 : Memref sig .tc .vmem S256x128 .f32) (harg4 : arg4.IsWhole)
    (x0 : Vec F S256x10240 .bf16) (x1 : Vec F S10240x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (aggOut2 x0 x1 x2)) -∗ K ⟨⟩))
      ⊢ wp frame (wpE (defs₀ (F := F)) Variants.none c none) E (cc2__agg_kernel i arg1 harg1 arg2 harg2 arg3 harg3 arg4 harg4) K := by
  simp only [cc2__agg_kernel_eq_skeleton]; unfold cc2__agg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (aggCover2 _)

/-- Layer 2's proof data on core `c`: the arrays as found (`V`); after the body at point `t` the inputs' buffers still hold their blocks
    and the output's holds `aggOut2` of them; nothing owed, full shares, the pipeline's plain invariant. -/
def aggDat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => aggOut2 (blk2 V c 0 t) (blk2 V c 1 t) (blk2 V c 2 t)
  Φ _ := Pipeline.ΦA spec2 c
  q _ := fullShare
  owed _ := 0

theorem aggDat2_A (c : Dev nD) (w : Fin cfg2.W) : (aggDat2 V c).A w = V c (Pipeline.arrRef spec2 w) := by
  dsimp only [aggDat2]

theorem aggDat2_after_0 (c : Dev nD) (t : Fin cfg2.N) : (aggDat2 V c).after 0 t = blk2 V c 0 t := by dsimp only [aggDat2]
theorem aggDat2_after_1 (c : Dev nD) (t : Fin cfg2.N) : (aggDat2 V c).after 1 t = blk2 V c 1 t := by dsimp only [aggDat2]
theorem aggDat2_after_2 (c : Dev nD) (t : Fin cfg2.N) : (aggDat2 V c).after 2 t = blk2 V c 2 t := by dsimp only [aggDat2]
/-- What layer 2 leaves in its output's staging buffer at point `t`: the layer's arithmetic (`Gen.k2_pay1`) on the three input blocks at `t`. -/
theorem aggDat2_after_3 (c : Dev nD) (t : Fin cfg2.N) :
    (aggDat2 V c).after 3 t = aggOut2 (blk2 V c 0 t) (blk2 V c 1 t) (blk2 V c 2 t) := by dsimp only [aggDat2]

theorem aggDat2_before_0 (c : Dev nD) (t : Fin cfg2.N) (d) : (aggDat2 V c).before 0 t d = blk2 V c 0 t :=
  staged2_0_of V (aggDat2 V c) (aggDat2_A V c 0) (aggDat2_after_0 V c) t d
theorem aggDat2_before_1 (c : Dev nD) (t : Fin cfg2.N) (d) : (aggDat2 V c).before 1 t d = blk2 V c 1 t :=
  staged2_1_of V (aggDat2 V c) (aggDat2_A V c 1) (aggDat2_after_1 V c) t d
theorem aggDat2_before_2 (c : Dev nD) (t : Fin cfg2.N) (d) : (aggDat2 V c).before 2 t d = blk2 V c 2 t :=
  staged2_2_of V (aggDat2 V c) (aggDat2_A V c 2) (aggDat2_after_2 V c) t d

/-- What the pipeline hands the body at point `t`, -/
def aggPre2 (c : Dev nD) (t : Fin cfg2.N) : sProp 𝕄 :=
  iprop((aggDat2 V c).Φ t.castSucc ∗ (aggDat2 V c).owesAt () t.castSucc
    ∗ (∃ d, owns (c : Thread nD τ) (st2_0 t) fullShare ((aggDat2 V c).before 0 t d))
    ∗ (∃ d, owns (c : Thread nD τ) (st2_1 t) fullShare ((aggDat2 V c).before 1 t d))
    ∗ (∃ d, owns (c : Thread nD τ) (st2_2 t) fullShare ((aggDat2 V c).before 2 t d))
    ∗ (∃ d, owns (c : Thread nD τ) (st2_3 t) fullShare ((aggDat2 V c).before 3 t d)))

/-- and what the body hands back. -/
def aggPost2 (c : Dev nD) (t : Fin cfg2.N) : sProp 𝕄 :=
  iprop((aggDat2 V c).Φ t.succ ∗ (aggDat2 V c).owesAt () t.succ
    ∗ owns (c : Thread nD τ) (st2_0 t) fullShare ((aggDat2 V c).after 0 t)
    ∗ owns (c : Thread nD τ) (st2_1 t) fullShare ((aggDat2 V c).after 1 t)
    ∗ owns (c : Thread nD τ) (st2_2 t) fullShare ((aggDat2 V c).after 2 t)
    ∗ owns (c : Thread nD τ) (st2_3 t) fullShare ((aggDat2 V c).after 3 t))

/-- The body at any grid point. -/
theorem aggBody2_triple (c : Dev nD) (t : Fin cfg2.N) :
    aggPre2 V c t ⊢ wp frame (wpE (defs₀ (F := F)) Variants.none c none) Set.univ (bodyAt2 t) (fun _ => aggPost2 V c t) := by
  unfold aggPre2 aggPost2 bodyAt2
  simp only [aggDat2_before_0, aggDat2_before_1, aggDat2_before_2]
  rw [show (aggDat2 V c).Φ t.succ = (aggDat2 V c).Φ t.castSucc from rfl,
    show (aggDat2 V c).owesAt () t.succ = (aggDat2 V c).owesAt () t.castSucc from rfl,
    aggDat2_after_0, aggDat2_after_1, aggDat2_after_2, aggDat2_after_3]
  iintro ⟨HΦ, Ho, ⟨%d0, H0⟩, ⟨%d1, H1⟩, ⟨%d2, H2⟩, ⟨%d3, H3⟩⟩
  iapply (aggKernel2_triple c Set.univ (grid2.coords t) _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation for layer 2, at every point. -/
theorem aggBody2_obligation (c : Dev nD) : BodyObligation (aggDat2 (F := F) V c) (defs₀ (F := F)) Variants.none () Set.univ := fun t => by
  rw [bigSep_W2, bigSep_W2]
  exact aggBody2_triple V c t

end Layer2

end Cert.KernelIdeal.KRun

end
-- ==== Proof.KRun3.lean ====
/- Layer 3 of the graph convolution as the kernel runs it: grid point `t` multiplies rows 256·t … 256·t+255 of the
   normalised adjacency matrix (a 256 × 10240 block) by the whole 10240 × 256 feature matrix, adds the bias row, and
   stores the 256 × 256 result as the output's block `t`. This module runs that body once, on any staging buffers, and packages
   the result as the pipeline's proof data at an arbitrary valuation `V` of the core's buffers on entry. -/
import proofs.«130217_j58256936403151_1_alg».proof.Proof.Gen.KernelIdeal.Launch
import proofs.«130217_j58256936403151_1_alg».proof.Proof.Gen.KernelIdeal.Skeleton
import proofs.«130217_j58256936403151_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KRun

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Layer3
variable (V : (c : Dev nD) → (b : Ref sig .tc) → Buf (Elt F) ((c : Thread nD τ).loc b))

/-- Window `w`'s block at point `t`, read off its array as layer 3 finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether the pipeline fetched it there or not. -/
theorem staged3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- Input window 1's staging buffer holds its block at every point, whether the pipeline fetched it there or not. -/
theorem staged3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- Input window 2's staging buffer holds its block at every point, whether the pipeline fetched it there or not. -/
theorem staged3_2_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-- The whole-buffer rectangles the body loads and stores through. -/
abbrev rA3 : Rect S256x10240 := Rect.unit (s := S256x10240) ![0, 0] S256x10240.size inb_S256x10240_S256x10240_0_0
abbrev rM3 : Rect S10240x256 := Rect.unit (s := S10240x256) ![0, 0] S10240x256.size inb_S10240x256_S10240x256_0_0
abbrev rB3 : Rect S1x256 := Rect.unit (s := S1x256) ![0, 0] S1x256.size inb_S1x256_S1x256_0_0
abbrev rO3 : Rect S256x256 := Rect.unit (s := S256x256) ![0, 0] S256x256.size inb_S256x256_S256x256_0_0

/-- The output block after the body: one store of the whole block, whose value is the layer's arithmetic on the three input blocks. -/
def aggOut3 (x0 : Vec F S256x10240 .bf16) (x1 : Vec F S10240x256 .f32) (x2 : Vec F S1x256 .f32) : Vec F S256x256 .f32 :=
  View.canon [⟨rO3, k3_pay1 (View.ld x0 rA3) (View.ld x1 rM3) (View.ld x2 rB3)⟩]

/-- That one store covers the block. -/
theorem aggCover3 (p0 : Vec F S256x256 .f32) (y : S256x256.Idx) :
    ∃ pc ∈ ([⟨rO3, p0⟩] : List (View.Piece (Elt F) S256x256 .f32)), y ∈ pc.1.set :=
  View.cover_of_tiled [⟨rO3, p0⟩] S256x256.size (by rfl) y

set_option maxHeartbeats 1000000 in
/-- The body on whole staging buffers: the three inputs are read and left as they were, the output block (whatever it held) ends at `aggOut3`. -/
theorem aggKernel3_triple (c : Dev nD) (E : Set ℕ) (i : grid3.Coords)
    (arg1 : Memref sig .tc .vmem S256x10240 .bf16) (harg1 : arg1.IsWhole) (arg2 : Memref sig .tc .vmem S10240x256 .f32) (harg2 : arg2.IsWhole)
    (arg3 : Memref sig .tc .vmem S1x256 .f32) (harg3 : arg3.IsWhole) (arg4 : Memref sig .tc .vmem S256x256 .f32) (harg4 : arg4.IsWhole)
    (x0 : Vec F S256x10240 .bf16) (x1 : Vec F S10240x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (aggOut3 x0 x1 x2)) -∗ K ⟨⟩))
      ⊢ wp frame (wpE (defs₀ (F := F)) Variants.none c none) E (cc3__agg_kernel i arg1 harg1 arg2 harg2 arg3 harg3 arg4 harg4) K := by
  simp only [cc3__agg_kernel_eq_skeleton]; unfold cc3__agg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (aggCover3 _)

/-- Layer 3's proof data on core `c`: the arrays as found (`V`); after the body at point `t` the inputs' buffers still hold their blocks
    and the output's holds `aggOut3` of them; nothing owed, full shares, the pipeline's plain invariant. -/
def aggDat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => aggOut3 (blk3 V c 0 t) (blk3 V c 1 t) (blk3 V c 2 t)
  Φ _ := Pipeline.ΦA spec3 c
  q _ := fullShare
  owed _ := 0

theorem aggDat3_A (c : Dev nD) (w : Fin cfg3.W) : (aggDat3 V c).A w = V c (Pipeline.arrRef spec3 w) := by
  dsimp only [aggDat3]

theorem aggDat3_after_0 (c : Dev nD) (t : Fin cfg3.N) : (aggDat3 V c).after 0 t = blk3 V c 0 t := by dsimp only [aggDat3]
theorem aggDat3_after_1 (c : Dev nD) (t : Fin cfg3.N) : (aggDat3 V c).after 1 t = blk3 V c 1 t := by dsimp only [aggDat3]
theorem aggDat3_after_2 (c : Dev nD) (t : Fin cfg3.N) : (aggDat3 V c).after 2 t = blk3 V c 2 t := by dsimp only [aggDat3]
/-- What layer 3 leaves in its output's staging buffer at point `t`: the layer's arithmetic (`Gen.k3_pay1`) on the three input blocks at `t`. -/
theorem aggDat3_after_3 (c : Dev nD) (t : Fin cfg3.N) :
    (aggDat3 V c).after 3 t = aggOut3 (blk3 V c 0 t) (blk3 V c 1 t) (blk3 V c 2 t) := by dsimp only [aggDat3]

theorem aggDat3_before_0 (c : Dev nD) (t : Fin cfg3.N) (d) : (aggDat3 V c).before 0 t d = blk3 V c 0 t :=
  staged3_0_of V (aggDat3 V c) (aggDat3_A V c 0) (aggDat3_after_0 V c) t d
theorem aggDat3_before_1 (c : Dev nD) (t : Fin cfg3.N) (d) : (aggDat3 V c).before 1 t d = blk3 V c 1 t :=
  staged3_1_of V (aggDat3 V c) (aggDat3_A V c 1) (aggDat3_after_1 V c) t d
theorem aggDat3_before_2 (c : Dev nD) (t : Fin cfg3.N) (d) : (aggDat3 V c).before 2 t d = blk3 V c 2 t :=
  staged3_2_of V (aggDat3 V c) (aggDat3_A V c 2) (aggDat3_after_2 V c) t d

/-- What the pipeline hands the body at point `t`, -/
def aggPre3 (c : Dev nD) (t : Fin cfg3.N) : sProp 𝕄 :=
  iprop((aggDat3 V c).Φ t.castSucc ∗ (aggDat3 V c).owesAt () t.castSucc
    ∗ (∃ d, owns (c : Thread nD τ) (st3_0 t) fullShare ((aggDat3 V c).before 0 t d))
    ∗ (∃ d, owns (c : Thread nD τ) (st3_1 t) fullShare ((aggDat3 V c).before 1 t d))
    ∗ (∃ d, owns (c : Thread nD τ) (st3_2 t) fullShare ((aggDat3 V c).before 2 t d))
    ∗ (∃ d, owns (c : Thread nD τ) (st3_3 t) fullShare ((aggDat3 V c).before 3 t d)))

/-- and what the body hands back. -/
def aggPost3 (c : Dev nD) (t : Fin cfg3.N) : sProp 𝕄 :=
  iprop((aggDat3 V c).Φ t.succ ∗ (aggDat3 V c).owesAt () t.succ
    ∗ owns (c : Thread nD τ) (st3_0 t) fullShare ((aggDat3 V c).after 0 t)
    ∗ owns (c : Thread nD τ) (st3_1 t) fullShare ((aggDat3 V c).after 1 t)
    ∗ owns (c : Thread nD τ) (st3_2 t) fullShare ((aggDat3 V c).after 2 t)
    ∗ owns (c : Thread nD τ) (st3_3 t) fullShare ((aggDat3 V c).after 3 t))

/-- The body at any grid point. -/
theorem aggBody3_triple (c : Dev nD) (t : Fin cfg3.N) :
    aggPre3 V c t ⊢ wp frame (wpE (defs₀ (F := F)) Variants.none c none) Set.univ (bodyAt3 t) (fun _ => aggPost3 V c t) := by
  unfold aggPre3 aggPost3 bodyAt3
  simp only [aggDat3_before_0, aggDat3_before_1, aggDat3_before_2]
  rw [show (aggDat3 V c).Φ t.succ = (aggDat3 V c).Φ t.castSucc from rfl,
    show (aggDat3 V c).owesAt () t.succ = (aggDat3 V c).owesAt () t.castSucc from rfl,
    aggDat3_after_0, aggDat3_after_1, aggDat3_after_2, aggDat3_after_3]
  iintro ⟨HΦ, Ho, ⟨%d0, H0⟩, ⟨%d1, H1⟩, ⟨%d2, H2⟩, ⟨%d3, H3⟩⟩
  iapply (aggKernel3_triple c Set.univ (grid3.coords t) _ _ _ _ _ _ _ _ (blk3 V c 0 t) (blk3 V c 1 t) (blk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation for layer 3, at every point. -/
theorem aggBody3_obligation (c : Dev nD) : BodyObligation (aggDat3 (F := F) V c) (defs₀ (F := F)) Variants.none () Set.univ := fun t => by
  rw [bigSep_W3, bigSep_W3]
  exact aggBody3_triple V c t

end Layer3

end Cert.KernelIdeal.KRun

end
-- ==== Proof.KRun4.lean ====
/- Layer 4 of the graph convolution as the kernel runs it: grid point `t` multiplies rows 256·t … 256·t+255 of the
   normalised adjacency matrix (a 256 × 10240 block) by the whole 10240 × 128 feature matrix, adds the bias row, and
   stores the 256 × 128 result as the output's block `t`. This module runs that body once, on any staging buffers, and packages
   the result as the pipeline's proof data at an arbitrary valuation `V` of the core's buffers on entry. -/
import proofs.«130217_j58256936403151_1_alg».proof.Proof.Gen.KernelIdeal.Launch
import proofs.«130217_j58256936403151_1_alg».proof.Proof.Gen.KernelIdeal.Skeleton
import proofs.«130217_j58256936403151_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KRun

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Layer4
variable (V : (c : Dev nD) → (b : Ref sig .tc) → Buf (Elt F) ((c : Thread nD τ).loc b))

/-- Window `w`'s block at point `t`, read off its array as layer 4 finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, whether the pipeline fetched it there or not. -/
theorem staged4_0_of {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)

/-- Input window 1's staging buffer holds its block at every point, whether the pipeline fetched it there or not. -/
theorem staged4_1_of {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)

/-- Input window 2's staging buffer holds its block at every point, whether the pipeline fetched it there or not. -/
theorem staged4_2_of {c : Dev nD} (dat : Dat τ (Elt F) Unit ℕ (UR sig nD τ) ℕ cfg4 c) (hA : dat.A 2 = V c (Pipeline.arrRef spec4 2))
    (hafter : ∀ t, dat.after 2 t = blk4 V c 2 t) (t : Fin cfg4.N) (d) : dat.before 2 t d = blk4 V c 2 t :=
  (dat.before_in_eq_fetched 2 rfl (fun _ => rfl) (fun _ _ _ => rfl) (fun t => by rw [hafter]; unfold Dat.blockOf blk4; rw [hA]; try rfl) t d).trans
    (by unfold Dat.fetched Dat.blockOf blk4; rw [hA]; try rfl)

/-- The whole-buffer rectangles the body loads and stores through. -/
abbrev rA4 : Rect S256x10240 := Rect.unit (s := S256x10240) ![0, 0] S256x10240.size inb_S256x10240_S256x10240_0_0
abbrev rM4 : Rect S10240x128 := Rect.unit (s := S10240x128) ![0, 0] S10240x128.size inb_S10240x128_S10240x128_0_0
abbrev rB4 : Rect S1x128 := Rect.unit (s := S1x128) ![0, 0] S1x128.size inb_S1x128_S1x128_0_0
abbrev rO4 : Rect S256x128 := Rect.unit (s := S256x128) ![0, 0] S256x128.size inb_S256x128_S256x128_0_0

/-- The output block after the body: one store of the whole block, whose value is the layer's arithmetic on the three input blocks. -/
def aggOut4 (x0 : Vec F S256x10240 .bf16) (x1 : Vec F S10240x128 .f32) (x2 : Vec F S1x128 .f32) : Vec F S256x128 .f32 :=
  View.canon [⟨rO4, k4_pay1 (View.ld x0 rA4) (View.ld x1 rM4) (View.ld x2 rB4)⟩]

/-- That one store covers the block. -/
theorem aggCover4 (p0 : Vec F S256x128 .f32) (y : S256x128.Idx) :
    ∃ pc ∈ ([⟨rO4, p0⟩] : List (View.Piece (Elt F) S256x128 .f32)), y ∈ pc.1.set :=
  View.cover_of_tiled [⟨rO4, p0⟩] S256x128.size (by rfl) y

set_option maxHeartbeats 1000000 in
/-- The body on whole staging buffers: the three inputs are read and left as they were, the output block (whatever it held) ends at `aggOut4`. -/
theorem aggKernel4_triple (c : Dev nD) (E : Set ℕ) (i : grid4.Coords)
    (arg1 : Memref sig .tc .vmem S256x10240 .bf16) (harg1 : arg1.IsWhole) (arg2 : Memref sig .tc .vmem S10240x128 .f32) (harg2 : arg2.IsWhole)
    (arg3 : Memref sig .tc .vmem S1x128 .f32) (harg3 : arg3.IsWhole) (arg4 : Memref sig .tc .vmem S256x128 .f32) (harg4 : arg4.IsWhole)
    (x0 : Vec F S256x10240 .bf16) (x1 : Vec F S10240x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (aggOut4 x0 x1 x2)) -∗ K ⟨⟩))
      ⊢ wp frame (wpE (defs₀ (F := F)) Variants.none c none) E (cc4__agg_kernel i arg1 harg1 arg2 harg2 arg3 harg3 arg4 harg4) K := by
  simp only [cc4__agg_kernel_eq_skeleton]; unfold cc4__agg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (aggCover4 _)

/-- Layer 4's proof data on core `c`: the arrays as found (`V`); after the body at point `t` the inputs' buffers still hold their blocks
    and the output's holds `aggOut4` of them; nothing owed, full shares, the pipeline's plain invariant. -/
def aggDat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => aggOut4 (blk4 V c 0 t) (blk4 V c 1 t) (blk4 V c 2 t)
  Φ _ := Pipeline.ΦA spec4 c
  q _ := fullShare
  owed _ := 0

theorem aggDat4_A (c : Dev nD) (w : Fin cfg4.W) : (aggDat4 V c).A w = V c (Pipeline.arrRef spec4 w) := by
  dsimp only [aggDat4]

theorem aggDat4_after_0 (c : Dev nD) (t : Fin cfg4.N) : (aggDat4 V c).after 0 t = blk4 V c 0 t := by dsimp only [aggDat4]
theorem aggDat4_after_1 (c : Dev nD) (t : Fin cfg4.N) : (aggDat4 V c).after 1 t = blk4 V c 1 t := by dsimp only [aggDat4]
theorem aggDat4_after_2 (c : Dev nD) (t : Fin cfg4.N) : (aggDat4 V c).after 2 t = blk4 V c 2 t := by dsimp only [aggDat4]
/-- What layer 4 leaves in its output's staging buffer at point `t`: the layer's arithmetic (`Gen.k4_pay1`) on the three input blocks at `t`. -/
theorem aggDat4_after_3 (c : Dev nD) (t : Fin cfg4.N) :
    (aggDat4 V c).after 3 t = aggOut4 (blk4 V c 0 t) (blk4 V c 1 t) (blk4 V c 2 t) := by dsimp only [aggDat4]

theorem aggDat4_before_0 (c : Dev nD) (t : Fin cfg4.N) (d) : (aggDat4 V c).before 0 t d = blk4 V c 0 t :=
  staged4_0_of V (aggDat4 V c) (aggDat4_A V c 0) (aggDat4_after_0 V c) t d
theorem aggDat4_before_1 (c : Dev nD) (t : Fin cfg4.N) (d) : (aggDat4 V c).before 1 t d = blk4 V c 1 t :=
  staged4_1_of V (aggDat4 V c) (aggDat4_A V c 1) (aggDat4_after_1 V c) t d
theorem aggDat4_before_2 (c : Dev nD) (t : Fin cfg4.N) (d) : (aggDat4 V c).before 2 t d = blk4 V c 2 t :=
  staged4_2_of V (aggDat4 V c) (aggDat4_A V c 2) (aggDat4_after_2 V c) t d

/-- What the pipeline hands the body at point `t`, -/
def aggPre4 (c : Dev nD) (t : Fin cfg4.N) : sProp 𝕄 :=
  iprop((aggDat4 V c).Φ t.castSucc ∗ (aggDat4 V c).owesAt () t.castSucc
    ∗ (∃ d, owns (c : Thread nD τ) (st4_0 t) fullShare ((aggDat4 V c).before 0 t d))
    ∗ (∃ d, owns (c : Thread nD τ) (st4_1 t) fullShare ((aggDat4 V c).before 1 t d))
    ∗ (∃ d, owns (c : Thread nD τ) (st4_2 t) fullShare ((aggDat4 V c).before 2 t d))
    ∗ (∃ d, owns (c : Thread nD τ) (st4_3 t) fullShare ((aggDat4 V c).before 3 t d)))

/-- and what the body hands back. -/
def aggPost4 (c : Dev nD) (t : Fin cfg4.N) : sProp 𝕄 :=
  iprop((aggDat4 V c).Φ t.succ ∗ (aggDat4 V c).owesAt () t.succ
    ∗ owns (c : Thread nD τ) (st4_0 t) fullShare ((aggDat4 V c).after 0 t)
    ∗ owns (c : Thread nD τ) (st4_1 t) fullShare ((aggDat4 V c).after 1 t)
    ∗ owns (c : Thread nD τ) (st4_2 t) fullShare ((aggDat4 V c).after 2 t)
    ∗ owns (c : Thread nD τ) (st4_3 t) fullShare ((aggDat4 V c).after 3 t))

/-- The body at any grid point. -/
theorem aggBody4_triple (c : Dev nD) (t : Fin cfg4.N) :
    aggPre4 V c t ⊢ wp frame (wpE (defs₀ (F := F)) Variants.none c none) Set.univ (bodyAt4 t) (fun _ => aggPost4 V c t) := by
  unfold aggPre4 aggPost4 bodyAt4
  simp only [aggDat4_before_0, aggDat4_before_1, aggDat4_before_2]
  rw [show (aggDat4 V c).Φ t.succ = (aggDat4 V c).Φ t.castSucc from rfl,
    show (aggDat4 V c).owesAt () t.succ = (aggDat4 V c).owesAt () t.castSucc from rfl,
    aggDat4_after_0, aggDat4_after_1, aggDat4_after_2, aggDat4_after_3]
  iintro ⟨HΦ, Ho, ⟨%d0, H0⟩, ⟨%d1, H1⟩, ⟨%d2, H2⟩, ⟨%d3, H3⟩⟩
  iapply (aggKernel4_triple c Set.univ (grid4.coords t) _ _ _ _ _ _ _ _ (blk4 V c 0 t) (blk4 V c 1 t) (blk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation for layer 4, at every point. -/
theorem aggBody4_obligation (c : Dev nD) : BodyObligation (aggDat4 (F := F) V c) (defs₀ (F := F)) Variants.none () Set.univ := fun t => by
  rw [bigSep_W4, bigSep_W4]
  exact aggBody4_triple V c t

end Layer4

end Cert.KernelIdeal.KRun

end
-- ==== Proof.KRun5.lean ====
/- The Gram product as the kernel runs it: grid point (i, j) loads row blocks i and j (1024 × 128 each) of ONE array, the last layer's
   output, and stores block (i, j) of the 10240 × 10240 product of that array with its own transpose. Both input windows stage
   blocks of the same array, so the core holds that array in two halves of its share, one per window. This module runs the body
   once on any staging buffers and packages the result as the pipeline's proof data at an arbitrary valuation `V` of the core's
   buffers on entry. -/
import proofs.«130217_j58256936403151_1_alg».proof.Proof.Gen.KernelIdeal.Launch
import proofs.«130217_j58256936403151_1_alg».proof.Proof.Gen.KernelIdeal.Skeleton
import proofs.«130217_j58256936403151_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KRun

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Gram
variable (V : (c : Dev nD) → (b : Ref sig .tc) → Buf (Elt F) ((c : Thread nD τ).loc b))

/-- Window `w`'s block at point `t`, read off its array as the product finds it. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, whether the pipeline fetched it there or not. -/
theorem staged5_0_of {c : Dev nD} (dat : Dat τ (Elt F) Unit ℕ (UR sig nD τ) ℕ cfg5 c) (hA : dat.A 0 = V c (Pipeline.arrRef spec5 0))
    (hafter : ∀ t, dat.after 0 t = blk5 V c 0 t) (t : Fin cfg5.N) (d) : dat.before 0 t d = blk5 V c 0 t :=
  (dat.before_in_eq_fetched 0 rfl (fun _ => rfl) (fun _ _ _ => rfl) (fun t => by rw [hafter]; unfold Dat.blockOf blk5; rw [hA]; try rfl) t d).trans
    (by unfold Dat.fetched Dat.blockOf blk5; rw [hA]; try rfl)

/-- Input window 1's staging buffer holds its block at every point, whether the pipeline fetched it there or not. -/
theorem staged5_1_of {c : Dev nD} (dat : Dat τ (Elt F) Unit ℕ (UR sig nD τ) ℕ cfg5 c) (hA : dat.A 1 = V c (Pipeline.arrRef spec5 1))
    (hafter : ∀ t, dat.after 1 t = blk5 V c 1 t) (t : Fin cfg5.N) (d) : dat.before 1 t d = blk5 V c 1 t :=
  (dat.before_in_eq_fetched 1 rfl (fun _ => rfl) (fun _ _ _ => rfl) (fun t => by rw [hafter]; unfold Dat.blockOf blk5; rw [hA]; try rfl) t d).trans
    (by unfold Dat.fetched Dat.blockOf blk5; rw [hA]; try rfl)

/-- The whole-buffer rectangles the body loads and stores through. -/
abbrev rI5 : Rect S1024x128 := Rect.unit (s := S1024x128) ![0, 0] S1024x128.size inb_S1024x128_S1024x128_0_0
abbrev rO5 : Rect S1024x1024 := Rect.unit (s := S1024x1024) ![0, 0] S1024x1024.size inb_S1024x1024_S1024x1024_0_0

/-- The output block after the body: one store of the whole block, the product of the first row block with the transpose of the second. -/
def gramOut5 (x0 : Vec F S1024x128 .bf16) (x1 : Vec F S1024x128 .bf16) : Vec F S1024x1024 .f32 :=
  View.canon [⟨rO5, k5_pay1 (View.ld x0 rI5) (View.ld x1 rI5)⟩]

/-- That one store covers the block. -/
theorem gramCover5 (p0 : Vec F S1024x1024 .f32) (y : S1024x1024.Idx) :
    ∃ pc ∈ ([⟨rO5, p0⟩] : List (View.Piece (Elt F) S1024x1024 .f32)), y ∈ pc.1.set :=
  View.cover_of_tiled [⟨rO5, p0⟩] S1024x1024.size (by rfl) y

set_option maxHeartbeats 1000000 in
/-- The body on whole staging buffers: the two inputs are read and left as they were, the output block (whatever it held) ends at `gramOut5`. -/
theorem gramKernel5_triple (c : Dev nD) (E : Set ℕ) (i : grid5.Coords)
    (arg2 : Memref sig .tc .vmem S1024x128 .bf16) (harg2 : arg2.IsWhole) (arg3 : Memref sig .tc .vmem S1024x128 .bf16) (harg3 : arg3.IsWhole)
    (arg4 : Memref sig .tc .vmem S1024x1024 .f32) (harg4 : arg4.IsWhole)
    (x0 : Vec F S1024x128 .bf16) (x1 : Vec F S1024x128 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (gramOut5 x0 x1)) -∗ K ⟨⟩))
      ⊢ wp frame (wpE (defs₀ (F := F)) Variants.none c none) E (cc5__dot_kernel i arg2 harg2 arg3 harg3 arg4 harg4) K := by
  simp only [cc5__dot_kernel_eq_skeleton]; unfold cc5__dot_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (gramCover5 _)

/-- The product's proof data on core `c`: the arrays as found (`V`); after the body at point `t` the inputs' buffers still hold their
    blocks and the output's holds `gramOut5` of them; nothing owed; the shared input array held in two halves, one per window. -/
def gramDat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => gramOut5 (blk5 V c 0 t) (blk5 V c 1 t)
  Φ _ := Pipeline.ΦA spec5 c
  q w := match w with
    | ⟨0, _⟩ => (fullShare : PosShare TreeShare).left
    | ⟨1, _⟩ => (fullShare : PosShare TreeShare).right
    | ⟨2, _⟩ => fullShare
  owed _ := 0

theorem gramDat5_A (c : Dev nD) (w : Fin cfg5.W) : (gramDat5 V c).A w = V c (Pipeline.arrRef spec5 w) := by
  dsimp only [gramDat5]

theorem gramDat5_after_0 (c : Dev nD) (t : Fin cfg5.N) : (gramDat5 V c).after 0 t = blk5 V c 0 t := by dsimp only [gramDat5]
theorem gramDat5_after_1 (c : Dev nD) (t : Fin cfg5.N) : (gramDat5 V c).after 1 t = blk5 V c 1 t := by dsimp only [gramDat5]
/-- What the product leaves in its output's staging buffer at point `t`: `Gen.k5_pay1` of the two row blocks at `t`. -/
theorem gramDat5_after_2 (c : Dev nD) (t : Fin cfg5.N) :
    (gramDat5 V c).after 2 t = gramOut5 (blk5 V c 0 t) (blk5 V c 1 t) := by dsimp only [gramDat5]

theorem gramDat5_before_0 (c : Dev nD) (t : Fin cfg5.N) (d) : (gramDat5 V c).before 0 t d = blk5 V c 0 t :=
  staged5_0_of V (gramDat5 V c) (gramDat5_A V c 0) (gramDat5_after_0 V c) t d
theorem gramDat5_before_1 (c : Dev nD) (t : Fin cfg5.N) (d) : (gramDat5 V c).before 1 t d = blk5 V c 1 t :=
  staged5_1_of V (gramDat5 V c) (gramDat5_A V c 1) (gramDat5_after_1 V c) t d

/-- What the pipeline hands the body at point `t`, -/
def gramPre5 (c : Dev nD) (t : Fin cfg5.N) : sProp 𝕄 :=
  iprop((gramDat5 V c).Φ t.castSucc ∗ (gramDat5 V c).owesAt () t.castSucc
    ∗ (∃ d, owns (c : Thread nD τ) (st5_0 t) fullShare ((gramDat5 V c).before 0 t d))
    ∗ (∃ d, owns (c : Thread nD τ) (st5_1 t) fullShare ((gramDat5 V c).before 1 t d))
    ∗ (∃ d, owns (c : Thread nD τ) (st5_2 t) fullShare ((gramDat5 V c).before 2 t d)))

/-- and what the body hands back. -/
def gramPost5 (c : Dev nD) (t : Fin cfg5.N) : sProp 𝕄 :=
  iprop((gramDat5 V c).Φ t.succ ∗ (gramDat5 V c).owesAt () t.succ
    ∗ owns (c : Thread nD τ) (st5_0 t) fullShare ((gramDat5 V c).after 0 t)
    ∗ owns (c : Thread nD τ) (st5_1 t) fullShare ((gramDat5 V c).after 1 t)
    ∗ owns (c : Thread nD τ) (st5_2 t) fullShare ((gramDat5 V c).after 2 t))

/-- The body at any grid point. -/
theorem gramBody5_triple (c : Dev nD) (t : Fin cfg5.N) :
    gramPre5 V c t ⊢ wp frame (wpE (defs₀ (F := F)) Variants.none c none) Set.univ (bodyAt5 t) (fun _ => gramPost5 V c t) := by
  unfold gramPre5 gramPost5 bodyAt5
  simp only [gramDat5_before_0, gramDat5_before_1]
  rw [show (gramDat5 V c).Φ t.succ = (gramDat5 V c).Φ t.castSucc from rfl,
    show (gramDat5 V c).owesAt () t.succ = (gramDat5 V c).owesAt () t.castSucc from rfl,
    gramDat5_after_0, gramDat5_after_1, gramDat5_after_2]
  iintro ⟨HΦ, Ho, ⟨%d0, H0⟩, ⟨%d1, H1⟩, ⟨%d2, H2⟩⟩
  iapply (gramKernel5_triple c Set.univ (grid5.coords t) _ _ _ _ _ _ (blk5 V c 0 t) (blk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation for the product, at every point. -/
theorem gramBody5_obligation (c : Dev nD) : BodyObligation (gramDat5 (F := F) V c) (defs₀ (F := F)) Variants.none () Set.univ := fun t => by
  rw [bigSep_W5, bigSep_W5]
  exact gramBody5_triple V c t

end Gram

end Cert.KernelIdeal.KRun

end
-- ==== Proof.KRunFold.lean ====
/- The contents of the core's buffers between the items of the program, as a fold from the launch memory: a host stretch maps
   the valuation through its operations; a kernel region replaces its output array by what its grid's write-backs leave (the pipeline
   library's `arrAt` at the last point) and changes nothing else. The six regions' proof data are taken at the valuations this fold
   gives on their entry, and the generated conditional frame's unknown contents `outs` are instantiated by the same fold. -/
import proofs.«130217_j58256936403151_1_alg».proof.Proof.KRun0
import proofs.«130217_j58256936403151_1_alg».proof.Proof.KRun1
import proofs.«130217_j58256936403151_1_alg».proof.Proof.KRun2
import proofs.«130217_j58256936403151_1_alg».proof.Proof.KRun3
import proofs.«130217_j58256936403151_1_alg».proof.Proof.KRun4
import proofs.«130217_j58256936403151_1_alg».proof.Proof.KRun5
import proofs.«130217_j58256936403151_1_alg».proof.Proof.Gen.KernelIdeal.Regions

set_option maxRecDepth 16384

noncomputable section

namespace Cert.KernelIdeal.KRun

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation of the core's buffers read at the TensorCore's references (the form the regions' proof data take). -/
abbrev atTc (W : Dev nD → Valuation τ sig (Elt F)) : (c : Dev nD) → (b : Ref sig .tc) → Buf (Elt F) ((c : Thread nD τ).loc b) :=
  fun c b => W c b

/-- The buffers when layer 0 is entered: the launch memory after the three host stretches that build the adjacency matrix and the
    first feature product. -/
def Y3 (c : Dev nD) : Valuation τ sig (Elt F) := Gen.V3 m c

/-- What region 0 leaves in its output array `main_v53`: its grid's write-backs folded over the array as entered. -/
def layer0Left (c : Dev nD) : Buf (Elt F) ((c : Thread nD τ).loc main_v53) :=
  (aggDat0 (atTc (Y3 m)) c).arrAt 3 cfg0.N
/-- The buffers when region 0 is left: only its output array has changed. -/
def Y4 (c : Dev nD) : Valuation τ sig (Elt F) := Function.update (Y3 m c) main_v53 (layer0Left m c)
/-- The buffers after the host stretch that follows region 0. -/
def Y5 (c : Dev nD) : Valuation τ sig (Elt F) := StableHlo.after hostOps1 (Y4 m c)

/-- What region 1 leaves in its output array `main_v56`: its grid's write-backs folded over the array as entered. -/
def layer1Left (c : Dev nD) : Buf (Elt F) ((c : Thread nD τ).loc main_v56) :=
  (aggDat1 (atTc (Y5 m)) c).arrAt 3 cfg1.N
/-- The buffers when region 1 is left: only its output array has changed. -/
def Y6 (c : Dev nD) : Valuation τ sig (Elt F) := Function.update (Y5 m c) main_v56 (layer1Left m c)
/-- The buffers after the host stretch that follows region 1. -/
def Y7 (c : Dev nD) : Valuation τ sig (Elt F) := StableHlo.after hostOps2 (Y6 m c)

/-- What region 2 leaves in its output array `main_v59`: its grid's write-backs folded over the array as entered. -/
def layer2Left (c : Dev nD) : Buf (Elt F) ((c : Thread nD τ).loc main_v59) :=
  (aggDat2 (atTc (Y7 m)) c).arrAt 3 cfg2.N
/-- The buffers when region 2 is left: only its output array has changed. -/
def Y8 (c : Dev nD) : Valuation τ sig (Elt F) := Function.update (Y7 m c) main_v59 (layer2Left m c)
/-- The buffers after the host stretch that follows region 2. -/
def Y9 (c : Dev nD) : Valuation τ sig (Elt F) := StableHlo.after hostOps3 (Y8 m c)

/-- What region 3 leaves in its output array `main_v62`: its grid's write-backs folded over the array as entered. -/
def layer3Left (c : Dev nD) : Buf (Elt F) ((c : Thread nD τ).loc main_v62) :=
  (aggDat3 (atTc (Y9 m)) c).arrAt 3 cfg3.N
/-- The buffers when region 3 is left: only its output array has changed. -/
def Y10 (c : Dev nD) : Valuation τ sig (Elt F) := Function.update (Y9 m c) main_v62 (layer3Left m c)
/-- The buffers after the host stretch that follows region 3. -/
def Y11 (c : Dev nD) : Valuation τ sig (Elt F) := StableHlo.after hostOps4 (Y10 m c)

/-- What region 4 leaves in its output array `main_v65`: its grid's write-backs folded over the array as entered. -/
def layer4Left (c : Dev nD) : Buf (Elt F) ((c : Thread nD τ).loc main_v65) :=
  (aggDat4 (atTc (Y11 m)) c).arrAt 3 cfg4.N
/-- The buffers when region 4 is left: only its output array has changed. -/
def Y12 (c : Dev nD) : Valuation τ sig (Elt F) := Function.update (Y11 m c) main_v65 (layer4Left m c)
/-- The buffers after the host stretch that follows region 4. -/
def Y13 (c : Dev nD) : Valuation τ sig (Elt F) := StableHlo.after hostOps5 (Y12 m c)

/-- What region 5 leaves in its output array `main_v67`: its grid's write-backs folded over the array as entered. -/
def gramLeft (c : Dev nD) : Buf (Elt F) ((c : Thread nD τ).loc main_v67) :=
  (gramDat5 (atTc (Y13 m)) c).arrAt 2 cfg5.N
/-- The buffers when region 5 is left: only its output array has changed. -/
def Y14 (c : Dev nD) : Valuation τ sig (Elt F) := Function.update (Y13 m c) main_v67 (gramLeft m c)
/-- The buffers after the host stretch that follows region 5. -/
def Y15 (c : Dev nD) : Valuation τ sig (Elt F) := StableHlo.after hostOps6 (Y14 m c)

/-- The generated conditional frame's unknown contents, instantiated: after item J−1 every buffer holds what the fold says. -/
def outs : Gen.Outs (F := F) := fun J r c => match J with
  | 4 => Y4 m c r
  | 6 => Y6 m c r
  | 8 => Y8 m c r
  | 10 => Y10 m c r
  | 12 => Y12 m c r
  | 14 => Y14 m c r
  | _ => m ((c : Thread nD τ).loc r)

/-! ## The generated valuations at these contents are the fold -/

theorem V3_eq (c : Dev nD) : Gen.V3 m c = Y3 m c := rfl

/-- `outs` read where region 0's exit valuation reads it is what region 0 leaves. -/
theorem outs_4 (c : Dev nD) : outs m 4 main_v53 c = layer0Left m c := by
  show Y4 m c main_v53 = _
  unfold Y4
  exact Function.update_self _ _ _
theorem V4_eq (c : Dev nD) : Gen.V4 m (outs m) c = Y4 m c := by
  show Function.update (Gen.V3 m c) main_v53 (outs m 4 main_v53 c) = _
  rw [outs_4, V3_eq]; rfl
theorem V5_eq (c : Dev nD) : Gen.V5 m (outs m) c = Y5 m c := by
  show StableHlo.after hostOps1 (Gen.V4 m (outs m) c) = _
  rw [V4_eq]; rfl

/-- `outs` read where region 1's exit valuation reads it is what region 1 leaves. -/
theorem outs_6 (c : Dev nD) : outs m 6 main_v56 c = layer1Left m c := by
  show Y6 m c main_v56 = _
  unfold Y6
  exact Function.update_self _ _ _
theorem V6_eq (c : Dev nD) : Gen.V6 m (outs m) c = Y6 m c := by
  show Function.update (Gen.V5 m (outs m) c) main_v56 (outs m 6 main_v56 c) = _
  rw [outs_6, V5_eq]; rfl
theorem V7_eq (c : Dev nD) : Gen.V7 m (outs m) c = Y7 m c := by
  show StableHlo.after hostOps2 (Gen.V6 m (outs m) c) = _
  rw [V6_eq]; rfl

/-- `outs` read where region 2's exit valuation reads it is what region 2 leaves. -/
theorem outs_8 (c : Dev nD) : outs m 8 main_v59 c = layer2Left m c := by
  show Y8 m c main_v59 = _
  unfold Y8
  exact Function.update_self _ _ _
theorem V8_eq (c : Dev nD) : Gen.V8 m (outs m) c = Y8 m c := by
  show Function.update (Gen.V7 m (outs m) c) main_v59 (outs m 8 main_v59 c) = _
  rw [outs_8, V7_eq]; rfl
theorem V9_eq (c : Dev nD) : Gen.V9 m (outs m) c = Y9 m c := by
  show StableHlo.after hostOps3 (Gen.V8 m (outs m) c) = _
  rw [V8_eq]; rfl

/-- `outs` read where region 3's exit valuation reads it is what region 3 leaves. -/
theorem outs_10 (c : Dev nD) : outs m 10 main_v62 c = layer3Left m c := by
  show Y10 m c main_v62 = _
  unfold Y10
  exact Function.update_self _ _ _
theorem V10_eq (c : Dev nD) : Gen.V10 m (outs m) c = Y10 m c := by
  show Function.update (Gen.V9 m (outs m) c) main_v62 (outs m 10 main_v62 c) = _
  rw [outs_10, V9_eq]; rfl
theorem V11_eq (c : Dev nD) : Gen.V11 m (outs m) c = Y11 m c := by
  show StableHlo.after hostOps4 (Gen.V10 m (outs m) c) = _
  rw [V10_eq]; rfl

/-- `outs` read where region 4's exit valuation reads it is what region 4 leaves. -/
theorem outs_12 (c : Dev nD) : outs m 12 main_v65 c = layer4Left m c := by
  show Y12 m c main_v65 = _
  unfold Y12
  exact Function.update_self _ _ _
theorem V12_eq (c : Dev nD) : Gen.V12 m (outs m) c = Y12 m c := by
  show Function.update (Gen.V11 m (outs m) c) main_v65 (outs m 12 main_v65 c) = _
  rw [outs_12, V11_eq]; rfl
theorem V13_eq (c : Dev nD) : Gen.V13 m (outs m) c = Y13 m c := by
  show StableHlo.after hostOps5 (Gen.V12 m (outs m) c) = _
  rw [V12_eq]; rfl

/-- `outs` read where region 5's exit valuation reads it is what region 5 leaves. -/
theorem outs_14 (c : Dev nD) : outs m 14 main_v67 c = gramLeft m c := by
  show Y14 m c main_v67 = _
  unfold Y14
  exact Function.update_self _ _ _
theorem V14_eq (c : Dev nD) : Gen.V14 m (outs m) c = Y14 m c := by
  show Function.update (Gen.V13 m (outs m) c) main_v67 (outs m 14 main_v67 c) = _
  rw [outs_14, V13_eq]; rfl
theorem V15_eq (c : Dev nD) : Gen.V15 m (outs m) c = Y15 m c := by
  show StableHlo.after hostOps6 (Gen.V14 m (outs m) c) = _
  rw [V14_eq]; rfl

/-! ## Every region's proof data, each at its entry valuation -/

/-- A literal match on the region's number, so that the library's pinned configuration at a numeral reduces to the printed one. -/
def pdats : (p : Fin 6) → (c : Dev nD) → Dat τ (Elt F) Unit ℕ (UR sig nD τ) ℕ (cfgs p) c
  | ⟨0, _⟩ => fun c => aggDat0 (atTc (Y3 m)) c
  | ⟨1, _⟩ => fun c => aggDat1 (atTc (Y5 m)) c
  | ⟨2, _⟩ => fun c => aggDat2 (atTc (Y7 m)) c
  | ⟨3, _⟩ => fun c => aggDat3 (atTc (Y9 m)) c
  | ⟨4, _⟩ => fun c => aggDat4 (atTc (Y11 m)) c
  | ⟨5, _⟩ => fun c => gramDat5 (atTc (Y13 m)) c

/-! ## A region's exit: its arrays at what the pipeline leaves, every other buffer as entered -/

theorem exit0_arr (c : Dev nD) (w : Fin cfg0.W) :
    (aggDat0 (atTc (Y3 m)) c).arrAt w cfg0.N = atTc (Y4 m) c (Pipeline.arrRef spec0 w) := by
  match w with
  | ⟨0, _⟩ => exact ((aggDat0 (atTc (Y3 m)) c).arrAt_in 0 rfl _).trans ((aggDat0_A _ c 0).trans (by
      unfold Y4; exact (Function.update_of_ne (StableHlo.devRef_ne_of_ne (by decide)) _ _).symm))
  | ⟨1, _⟩ => exact ((aggDat0 (atTc (Y3 m)) c).arrAt_in 1 rfl _).trans ((aggDat0_A _ c 1).trans (by
      unfold Y4; exact (Function.update_of_ne (StableHlo.devRef_ne_of_ne (by decide)) _ _).symm))
  | ⟨2, _⟩ => exact ((aggDat0 (atTc (Y3 m)) c).arrAt_in 2 rfl _).trans ((aggDat0_A _ c 2).trans (by
      unfold Y4; exact (Function.update_of_ne (StableHlo.devRef_ne_of_ne (by decide)) _ _).symm))
  | ⟨3, _⟩ => exact (outs_4 m c).symm
theorem exit0_rest (c : Dev nD) : ∀ b, b ∉ Finset.univ.image (Pipeline.arrRef spec0) → atTc (Y4 m) c b = atTc (Y3 m) c b :=
  fun b hb => by
    unfold Y4
    exact Function.update_of_ne (StableHlo.devRef_ne_of_ne fun e => hb (Finset.mem_image.mpr ⟨3, Finset.mem_univ _, e.symm⟩)) _ _

theorem exit1_arr (c : Dev nD) (w : Fin cfg1.W) :
    (aggDat1 (atTc (Y5 m)) c).arrAt w cfg1.N = atTc (Y6 m) c (Pipeline.arrRef spec1 w) := by
  match w with
  | ⟨0, _⟩ => exact ((aggDat1 (atTc (Y5 m)) c).arrAt_in 0 rfl _).trans ((aggDat1_A _ c 0).trans (by
      unfold Y6; exact (Function.update_of_ne (StableHlo.devRef_ne_of_ne (by decide)) _ _).symm))
  | ⟨1, _⟩ => exact ((aggDat1 (atTc (Y5 m)) c).arrAt_in 1 rfl _).trans ((aggDat1_A _ c 1).trans (by
      unfold Y6; exact (Function.update_of_ne (StableHlo.devRef_ne_of_ne (by decide)) _ _).symm))
  | ⟨2, _⟩ => exact ((aggDat1 (atTc (Y5 m)) c).arrAt_in 2 rfl _).trans ((aggDat1_A _ c 2).trans (by
      unfold Y6; exact (Function.update_of_ne (StableHlo.devRef_ne_of_ne (by decide)) _ _).symm))
  | ⟨3, _⟩ => exact (outs_6 m c).symm
theorem exit1_rest (c : Dev nD) : ∀ b, b ∉ Finset.univ.image (Pipeline.arrRef spec1) → atTc (Y6 m) c b = atTc (Y5 m) c b :=
  fun b hb => by
    unfold Y6
    exact Function.update_of_ne (StableHlo.devRef_ne_of_ne fun e => hb (Finset.mem_image.mpr ⟨3, Finset.mem_univ _, e.symm⟩)) _ _

theorem exit2_arr (c : Dev nD) (w : Fin cfg2.W) :
    (aggDat2 (atTc (Y7 m)) c).arrAt w cfg2.N = atTc (Y8 m) c (Pipeline.arrRef spec2 w) := by
  match w with
  | ⟨0, _⟩ => exact ((aggDat2 (atTc (Y7 m)) c).arrAt_in 0 rfl _).trans ((aggDat2_A _ c 0).trans (by
      unfold Y8; exact (Function.update_of_ne (StableHlo.devRef_ne_of_ne (by decide)) _ _).symm))
  | ⟨1, _⟩ => exact ((aggDat2 (atTc (Y7 m)) c).arrAt_in 1 rfl _).trans ((aggDat2_A _ c 1).trans (by
      unfold Y8; exact (Function.update_of_ne (StableHlo.devRef_ne_of_ne (by decide)) _ _).symm))
  | ⟨2, _⟩ => exact ((aggDat2 (atTc (Y7 m)) c).arrAt_in 2 rfl _).trans ((aggDat2_A _ c 2).trans (by
      unfold Y8; exact (Function.update_of_ne (StableHlo.devRef_ne_of_ne (by decide)) _ _).symm))
  | ⟨3, _⟩ => exact (outs_8 m c).symm
theorem exit2_rest (c : Dev nD) : ∀ b, b ∉ Finset.univ.image (Pipeline.arrRef spec2) → atTc (Y8 m) c b = atTc (Y7 m) c b :=
  fun b hb => by
    unfold Y8
    exact Function.update_of_ne (StableHlo.devRef_ne_of_ne fun e => hb (Finset.mem_image.mpr ⟨3, Finset.mem_univ _, e.symm⟩)) _ _

theorem exit3_arr (c : Dev nD) (w : Fin cfg3.W) :
    (aggDat3 (atTc (Y9 m)) c).arrAt w cfg3.N = atTc (Y10 m) c (Pipeline.arrRef spec3 w) := by
  match w with
  | ⟨0, _⟩ => exact ((aggDat3 (atTc (Y9 m)) c).arrAt_in 0 rfl _).trans ((aggDat3_A _ c 0).trans (by
      unfold Y10; exact (Function.update_of_ne (StableHlo.devRef_ne_of_ne (by decide)) _ _).symm))
  | ⟨1, _⟩ => exact ((aggDat3 (atTc (Y9 m)) c).arrAt_in 1 rfl _).trans ((aggDat3_A _ c 1).trans (by
      unfold Y10; exact (Function.update_of_ne (StableHlo.devRef_ne_of_ne (by decide)) _ _).symm))
  | ⟨2, _⟩ => exact ((aggDat3 (atTc (Y9 m)) c).arrAt_in 2 rfl _).trans ((aggDat3_A _ c 2).trans (by
      unfold Y10; exact (Function.update_of_ne (StableHlo.devRef_ne_of_ne (by decide)) _ _).symm))
  | ⟨3, _⟩ => exact (outs_10 m c).symm
theorem exit3_rest (c : Dev nD) : ∀ b, b ∉ Finset.univ.image (Pipeline.arrRef spec3) → atTc (Y10 m) c b = atTc (Y9 m) c b :=
  fun b hb => by
    unfold Y10
    exact Function.update_of_ne (StableHlo.devRef_ne_of_ne fun e => hb (Finset.mem_image.mpr ⟨3, Finset.mem_univ _, e.symm⟩)) _ _

theorem exit4_arr (c : Dev nD) (w : Fin cfg4.W) :
    (aggDat4 (atTc (Y11 m)) c).arrAt w cfg4.N = atTc (Y12 m) c (Pipeline.arrRef spec4 w) := by
  match w with
  | ⟨0, _⟩ => exact ((aggDat4 (atTc (Y11 m)) c).arrAt_in 0 rfl _).trans ((aggDat4_A _ c 0).trans (by
      unfold Y12; exact (Function.update_of_ne (StableHlo.devRef_ne_of_ne (by decide)) _ _).symm))
  | ⟨1, _⟩ => exact ((aggDat4 (atTc (Y11 m)) c).arrAt_in 1 rfl _).trans ((aggDat4_A _ c 1).trans (by
      unfold Y12; exact (Function.update_of_ne (StableHlo.devRef_ne_of_ne (by decide)) _ _).symm))
  | ⟨2, _⟩ => exact ((aggDat4 (atTc (Y11 m)) c).arrAt_in 2 rfl _).trans ((aggDat4_A _ c 2).trans (by
      unfold Y12; exact (Function.update_of_ne (StableHlo.devRef_ne_of_ne (by decide)) _ _).symm))
  | ⟨3, _⟩ => exact (outs_12 m c).symm
theorem exit4_rest (c : Dev nD) : ∀ b, b ∉ Finset.univ.image (Pipeline.arrRef spec4) → atTc (Y12 m) c b = atTc (Y11 m) c b :=
  fun b hb => by
    unfold Y12
    exact Function.update_of_ne (StableHlo.devRef_ne_of_ne fun e => hb (Finset.mem_image.mpr ⟨3, Finset.mem_univ _, e.symm⟩)) _ _

/-! ## What every region's segment record shares -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)

end Cert.KernelIdeal.KRun

end
-- ==== Proof.KRunRec0.lean ====
/- Layer 0 of the graph convolution as one segment of the program's run. -/
import proofs.«130217_j58256936403151_1_alg».proof.Proof.KRunFold

set_option maxRecDepth 16384

noncomputable section

namespace Cert.KernelIdeal.KRun

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Layer 0 as a segment of the program: entered with every unscoped buffer at the fold's entry valuation, left with them at the exit
    valuation. Its four arrays are split out of the unscoped buffers on entry and put back on exit; the generator register goes
    into the pipeline's invariant and comes back; nothing is owed; the kernel has no semaphore of its own. -/
def rec0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (aggBody0_obligation (atTc (Y3 m)) c).loose
  hwaits := Pipeline.hwaits_of_owed_zero _ _ _ _ L lv 0 fun _ _ => rfl
  pre c := iprop(StableHlo.held (c : Thread nD τ) (Pipeline.ucRefs τ sig) (Y3 m c) ∗ R c)
  post c := iprop(StableHlo.held (c : Thread nD τ) (Pipeline.ucRefs τ sig) (Y4 m c) ∗ R c)
  X c := iprop(∃ r, prngReg c r)
  Y c := iprop(∃ r, prngReg c r)
  Z c := Pipeline.unscopedRest (Ix := Unit) (Name := ℕ) (U := UR sig nD τ) (Lvl := ℕ) spec0 c (atTc (Y3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (Y3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (Y3 m) c) (atTc (Y4 m) c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.KRun

end
-- ==== Proof.KRunRec1.lean ====
/- Layer 1 of the graph convolution as one segment of the program's run. -/
import proofs.«130217_j58256936403151_1_alg».proof.Proof.KRunFold

set_option maxRecDepth 16384

noncomputable section

namespace Cert.KernelIdeal.KRun

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Layer 1 as a segment of the program: entered with every unscoped buffer at the fold's entry valuation, left with them at the exit
    valuation. Its four arrays are split out of the unscoped buffers on entry and put back on exit; the generator register goes
    into the pipeline's invariant and comes back; nothing is owed; the kernel has no semaphore of its own. -/
def rec1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (aggBody1_obligation (atTc (Y5 m)) c).loose
  hwaits := Pipeline.hwaits_of_owed_zero _ _ _ _ L lv 1 fun _ _ => rfl
  pre c := iprop(StableHlo.held (c : Thread nD τ) (Pipeline.ucRefs τ sig) (Y5 m c) ∗ R c)
  post c := iprop(StableHlo.held (c : Thread nD τ) (Pipeline.ucRefs τ sig) (Y6 m c) ∗ R c)
  X c := iprop(∃ r, prngReg c r)
  Y c := iprop(∃ r, prngReg c r)
  Z c := Pipeline.unscopedRest (Ix := Unit) (Name := ℕ) (U := UR sig nD τ) (Lvl := ℕ) spec1 c (atTc (Y5 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (Y5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (Y5 m) c) (atTc (Y6 m) c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.KRun

end
-- ==== Proof.KRunRec2.lean ====
/- Layer 2 of the graph convolution as one segment of the program's run. -/
import proofs.«130217_j58256936403151_1_alg».proof.Proof.KRunFold

set_option maxRecDepth 16384

noncomputable section

namespace Cert.KernelIdeal.KRun

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Layer 2 as a segment of the program: entered with every unscoped buffer at the fold's entry valuation, left with them at the exit
    valuation. Its four arrays are split out of the unscoped buffers on entry and put back on exit; the generator register goes
    into the pipeline's invariant and comes back; nothing is owed; the kernel has no semaphore of its own. -/
def rec2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (aggBody2_obligation (atTc (Y7 m)) c).loose
  hwaits := Pipeline.hwaits_of_owed_zero _ _ _ _ L lv 2 fun _ _ => rfl
  pre c := iprop(StableHlo.held (c : Thread nD τ) (Pipeline.ucRefs τ sig) (Y7 m c) ∗ R c)
  post c := iprop(StableHlo.held (c : Thread nD τ) (Pipeline.ucRefs τ sig) (Y8 m c) ∗ R c)
  X c := iprop(∃ r, prngReg c r)
  Y c := iprop(∃ r, prngReg c r)
  Z c := Pipeline.unscopedRest (Ix := Unit) (Name := ℕ) (U := UR sig nD τ) (Lvl := ℕ) spec2 c (atTc (Y7 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (Y7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (Y7 m) c) (atTc (Y8 m) c) ((pdats m 2 c).arrAt · cfg2.N) (exit2_arr m c) (exit2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.KRun

end
-- ==== Proof.KRunRec3.lean ====
/- Layer 3 of the graph convolution as one segment of the program's run. -/
import proofs.«130217_j58256936403151_1_alg».proof.Proof.KRunFold

set_option maxRecDepth 16384

noncomputable section

namespace Cert.KernelIdeal.KRun

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Layer 3 as a segment of the program: entered with every unscoped buffer at the fold's entry valuation, left with them at the exit
    valuation. Its four arrays are split out of the unscoped buffers on entry and put back on exit; the generator register goes
    into the pipeline's invariant and comes back; nothing is owed; the kernel has no semaphore of its own. -/
def rec3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (aggBody3_obligation (atTc (Y9 m)) c).loose
  hwaits := Pipeline.hwaits_of_owed_zero _ _ _ _ L lv 3 fun _ _ => rfl
  pre c := iprop(StableHlo.held (c : Thread nD τ) (Pipeline.ucRefs τ sig) (Y9 m c) ∗ R c)
  post c := iprop(StableHlo.held (c : Thread nD τ) (Pipeline.ucRefs τ sig) (Y10 m c) ∗ R c)
  X c := iprop(∃ r, prngReg c r)
  Y c := iprop(∃ r, prngReg c r)
  Z c := Pipeline.unscopedRest (Ix := Unit) (Name := ℕ) (U := UR sig nD τ) (Lvl := ℕ) spec3 c (atTc (Y9 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (Y9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (Y9 m) c) (atTc (Y10 m) c) ((pdats m 3 c).arrAt · cfg3.N) (exit3_arr m c) (exit3_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.KRun

end
-- ==== Proof.KRunRec4.lean ====
/- Layer 4 of the graph convolution as one segment of the program's run. -/
import proofs.«130217_j58256936403151_1_alg».proof.Proof.KRunFold

set_option maxRecDepth 16384

noncomputable section

namespace Cert.KernelIdeal.KRun

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Layer 4 as a segment of the program: entered with every unscoped buffer at the fold's entry valuation, left with them at the exit
    valuation. Its four arrays are split out of the unscoped buffers on entry and put back on exit; the generator register goes
    into the pipeline's invariant and comes back; nothing is owed; the kernel has no semaphore of its own. -/
def rec4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (aggBody4_obligation (atTc (Y11 m)) c).loose
  hwaits := Pipeline.hwaits_of_owed_zero _ _ _ _ L lv 4 fun _ _ => rfl
  pre c := iprop(StableHlo.held (c : Thread nD τ) (Pipeline.ucRefs τ sig) (Y11 m c) ∗ R c)
  post c := iprop(StableHlo.held (c : Thread nD τ) (Pipeline.ucRefs τ sig) (Y12 m c) ∗ R c)
  X c := iprop(∃ r, prngReg c r)
  Y c := iprop(∃ r, prngReg c r)
  Z c := Pipeline.unscopedRest (Ix := Unit) (Name := ℕ) (U := UR sig nD τ) (Lvl := ℕ) spec4 c (atTc (Y11 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (Y11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (Y11 m) c) (atTc (Y12 m) c) ((pdats m 4 c).arrAt · cfg4.N) (exit4_arr m c) (exit4_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.KRun

end
-- ==== Proof.KRunRec5.lean ====
/- The Gram product as one segment of the program's run. Its two input windows stage blocks of one array, so on entry that array's
   ownership is cut into two halves of the full share, one per window, and on exit the halves — both still at the array's contents,
   the product never writing it — are joined again. -/
import proofs.«130217_j58256936403151_1_alg».proof.Proof.KRunFold

set_option maxRecDepth 16384

noncomputable section

namespace Cert.KernelIdeal.KRun

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The product's arrays, window by window: each is a whole buffer, held at the window's share. -/
theorem gram_arrays (c : Dev nD) (Fw : (w : Fin cfg5.W) → Buf (Elt F) ((cfg5.win w).arr.view.loc (c : Thread nD τ))) :
    ((gramDat5 (atTc (Y13 m)) c).arrays Fw : sProp 𝕄)
      = iprop((((c : Thread nD τ).loc (Pipeline.arrRef spec5 0)) ↦{(fullShare : PosShare TreeShare).left} Fw 0)
        ∗ (((c : Thread nD τ).loc (Pipeline.arrRef spec5 1)) ↦{(fullShare : PosShare TreeShare).right} Fw 1)
        ∗ (((c : Thread nD τ).loc (Pipeline.arrRef spec5 2)) ↦{fullShare} Fw 2)) := by
  have h : ((gramDat5 (atTc (Y13 m)) c).arrays Fw : sProp 𝕄)
      = bigSep Finset.univ fun w : Fin cfg5.W => ((((c : Thread nD τ).loc (Pipeline.arrRef spec5 w)) ↦{(gramDat5 (atTc (Y13 m)) c).share w} Fw w : sProp 𝕄)) := by
    unfold Dat.arrays
    exact bigSep_congr fun w _ => by rw [(arr_whole5 w).set_eq_univ]
  rw [h, bigSep_W5]
  rfl

/-- The distinct buffers behind the product's arrays: the last layer's output and the product's own. -/
theorem gram_arrBufs (c : Dev nD) (W : (b : Ref sig .tc) → Buf (Elt F) ((c : Thread nD τ).loc b)) :
    (Pipeline.arrBufs (Ix := Unit) (Name := ℕ) (U := UR sig nD τ) (Lvl := ℕ) spec5 c W : sProp 𝕄)
      = iprop((((c : Thread nD τ).loc main_v66) ↦{fullShare} W main_v66) ∗ (((c : Thread nD τ).loc main_v67) ↦{fullShare} W main_v67)) := by
  unfold Pipeline.arrBufs
  rw [show Finset.univ.image (Pipeline.arrRef spec5) = {main_v66, main_v67} from by decide, bigSep_insert (by decide), bigSep_singleton]
  rfl

/-- On exit the inputs' array is as entered and the output's holds what the pipeline leaves; no other buffer has changed. -/
theorem exit5_in (c : Dev nD) : atTc (Y14 m) c main_v66 = atTc (Y13 m) c main_v66 := by
  unfold Y14; exact Function.update_of_ne (StableHlo.devRef_ne_of_ne (by decide)) _ _
theorem exit5_out (c : Dev nD) : atTc (Y14 m) c main_v67 = (gramDat5 (atTc (Y13 m)) c).arrAt 2 cfg5.N := outs_14 m c
theorem exit5_rest (c : Dev nD) : ∀ b, b ∉ Finset.univ.image (Pipeline.arrRef spec5) → atTc (Y14 m) c b = atTc (Y13 m) c b :=
  fun b hb => by
    unfold Y14
    exact Function.update_of_ne (StableHlo.devRef_ne_of_ne fun e => hb (Finset.mem_image.mpr ⟨2, Finset.mem_univ _, e.symm⟩)) _ _

/-- ENTRY: the core's unscoped buffers are the product's arrays at their entry contents — the shared array in two halves — and the rest. -/
theorem gram_entry (c : Dev nD) :
    (unscopedBufs (Ix := Unit) (Name := ℕ) (U := UR sig nD τ) (Lvl := ℕ) c (atTc (Y13 m) c) : sProp 𝕄)
      ⊢ iprop((gramDat5 (atTc (Y13 m)) c).arrays ((gramDat5 (atTc (Y13 m)) c).arrAt · 0)
          ∗ Pipeline.unscopedRest (Ix := Unit) (Name := ℕ) (U := UR sig nD τ) (Lvl := ℕ) spec5 c (atTc (Y13 m) c)) := by
  have hs : (unscopedBufs (Ix := Unit) (Name := ℕ) (U := UR sig nD τ) (Lvl := ℕ) c (atTc (Y13 m) c) : sProp 𝕄)
      = iprop(Pipeline.arrBufs spec5 c (atTc (Y13 m) c) ∗ Pipeline.unscopedRest spec5 c (atTc (Y13 m) c)) :=
    Pipeline.unscopedBufs_split₀ cfgs 5 winFacts₀5.arr_unscoped c (atTc (Y13 m) c)
  rw [hs, gram_arrays, gram_arrBufs]
  iintro ⟨⟨H66, H67⟩, Hrest⟩
  ihave H := (pointsTo_share (PosShare.mem_left_op_right fullShare)).1 $$ H66
  icases H with ⟨Hl, Hr⟩
  isplitr [Hrest]
  · isplitl [Hl]; · iexact Hl
    isplitl [Hr]; · iexact Hr
    iexact H67
  iexact Hrest

/-- The product's arrays at contents that agree with a valuation `W'` — both halves of the shared array at `W'`'s contents of it —
    are the distinct buffers behind them at `W'`: the two halves join into the full share. -/
theorem gram_join (c : Dev nD) (Fw : (w : Fin cfg5.W) → Buf (Elt F) ((cfg5.win w).arr.view.loc (c : Thread nD τ)))
    (W' : (b : Ref sig .tc) → Buf (Elt F) ((c : Thread nD τ).loc b))
    (h0 : Fw 0 = W' main_v66) (h1 : Fw 1 = W' main_v66) (h2 : Fw 2 = W' main_v67) :
    ((gramDat5 (atTc (Y13 m)) c).arrays Fw : sProp 𝕄)
      ⊢ (Pipeline.arrBufs (Ix := Unit) (Name := ℕ) (U := UR sig nD τ) (Lvl := ℕ) spec5 c W' : sProp 𝕄) := by
  rw [gram_arrays, gram_arrBufs, h0, h1, h2]
  iintro ⟨Hl, Hr, H67⟩
  isplitl [Hl Hr]
  · iapply (pointsTo_share (PosShare.mem_left_op_right fullShare)).2
    isplitl [Hl]; · iexact Hl
    iexact Hr
  iexact H67

/-- EXIT: the product's arrays at what the pipeline leaves, and the rest as entered, are the core's unscoped buffers at the exit valuation. -/
theorem gram_exit (c : Dev nD) :
    iprop((gramDat5 (atTc (Y13 m)) c).arrays ((gramDat5 (atTc (Y13 m)) c).arrAt · cfg5.N)
        ∗ Pipeline.unscopedRest (Ix := Unit) (Name := ℕ) (U := UR sig nD τ) (Lvl := ℕ) spec5 c (atTc (Y13 m) c))
      ⊢ (unscopedBufs (Ix := Unit) (Name := ℕ) (U := UR sig nD τ) (Lvl := ℕ) c (atTc (Y14 m) c) : sProp 𝕄) := by
  have hR : (Pipeline.unscopedRest (Ix := Unit) (Name := ℕ) (U := UR sig nD τ) (Lvl := ℕ) spec5 c (atTc (Y13 m) c) : sProp 𝕄)
      = Pipeline.unscopedRest spec5 c (atTc (Y14 m) c) := by
    unfold Pipeline.unscopedRest
    exact bigSep_congr fun b hb => by rw [exit5_rest m c b (Finset.mem_sdiff.mp hb).2]
  have h0 : (gramDat5 (atTc (Y13 m)) c).arrAt 0 cfg5.N = atTc (Y14 m) c main_v66 :=
    ((gramDat5 (atTc (Y13 m)) c).arrAt_in 0 rfl _).trans ((gramDat5_A _ c 0).trans (exit5_in m c).symm)
  have h1 : (gramDat5 (atTc (Y13 m)) c).arrAt 1 cfg5.N = atTc (Y14 m) c main_v66 :=
    ((gramDat5 (atTc (Y13 m)) c).arrAt_in 1 rfl _).trans ((gramDat5_A _ c 1).trans (exit5_in m c).symm)
  have h2 : (gramDat5 (atTc (Y13 m)) c).arrAt 2 cfg5.N = atTc (Y14 m) c main_v67 := (exit5_out m c).symm
  have hs : (unscopedBufs (Ix := Unit) (Name := ℕ) (U := UR sig nD τ) (Lvl := ℕ) c (atTc (Y14 m) c) : sProp 𝕄)
      = iprop(Pipeline.arrBufs spec5 c (atTc (Y14 m) c) ∗ Pipeline.unscopedRest spec5 c (atTc (Y14 m) c)) :=
    Pipeline.unscopedBufs_split₀ cfgs 5 winFacts₀5.arr_unscoped c (atTc (Y14 m) c)
  rw [hs, hR]
  exact sep_mono (gram_join m c _ (atTc (Y14 m) c) h0 h1 h2) .rfl

set_option backward.isDefEq.respectTransparency.types false in
/-- The Gram product as a segment of the program: entered with every unscoped buffer at the fold's entry valuation, left with them at
    the exit valuation; the generator register goes into the pipeline's invariant and comes back; nothing is owed; no semaphore of its own. -/
def rec5 : Pipeline.RegionSeg (pcfgs (F := F)) adm (pdats m) () defs₀ 𝒱₀ L lv 5 where
  win := winFacts₀5
  block_pos := block_pos5
  stage_whole := stage_whole5
  K := PEmpty
  osem k := k.elim
  ho := Pipeline.OwnSemFacts.none _
  hbody c := (gramBody5_obligation (atTc (Y13 m)) c).loose
  hwaits := Pipeline.hwaits_of_owed_zero _ _ _ _ L lv 5 fun _ _ => rfl
  pre c := iprop(StableHlo.held (c : Thread nD τ) (Pipeline.ucRefs τ sig) (Y13 m c) ∗ R c)
  post c := iprop(StableHlo.held (c : Thread nD τ) (Pipeline.ucRefs τ sig) (Y14 m c) ∗ R c)
  X c := iprop(∃ r, prngReg c r)
  Y c := iprop(∃ r, prngReg c r)
  Z c := Pipeline.unscopedRest (Ix := Unit) (Name := ℕ) (U := UR sig nD τ) (Lvl := ℕ) spec5 c (atTc (Y13 m) c)
  hentry c := by
    rw [Pipeline.ownSems0_none]
    have hsplit := gram_entry m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := gram_exit m c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.KRun

end
-- ==== Proof.KRunMain.lean ====
/- The program's run: the host stretches and the six kernel regions composed in order. Every weakly fair execution terminates
   without a fault; the twelve arguments end as launched; and the two result buffers end at the last valuation of the fold of
   KRunFold read at them — five graph-convolution layers, the slice of the fourth layer's output, the Gram product and its slice. -/
import proofs.«130217_j58256936403151_1_alg».proof.Proof.KRunRec0
import proofs.«130217_j58256936403151_1_alg».proof.Proof.KRunRec1
import proofs.«130217_j58256936403151_1_alg».proof.Proof.KRunRec2
import proofs.«130217_j58256936403151_1_alg».proof.Proof.KRunRec3
import proofs.«130217_j58256936403151_1_alg».proof.Proof.KRunRec4
import proofs.«130217_j58256936403151_1_alg».proof.Proof.KRunRec5

set_option maxRecDepth 16384

noncomputable section

namespace Cert.KernelIdeal.KRun

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- The launch's ghost element is the pipeline library's, and no core holds a ghost resource of its own. -/
theorem launch_elem : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals every core, less its buffers, makes what rides beside them: the generator register and the dues at nothing. -/
theorem launch_rest : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

/-- The launch's first thread state: the unscoped buffers held at the launch memory, beside any rest `E0` that what the launch deals
    every core, less its buffers, makes on all cores at once. -/
theorem launch_init_of (E0 : Dev nD → sProp 𝕄)
    (hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
      ⊢ (|={Set.univ}=> bigSep Finset.univ E0 : sProp 𝕄)) :
    iprop((bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ fun c : Dev nD => iprop(StableHlo.held (c : Thread nD τ) (Pipeline.ucRefs τ sig) (Gen.V0 m c) ∗ E0 c) : sProp 𝕄) := by
  have hsplit : (bigSep Finset.univ fun c : Dev nD => iprop(unscopedBufs c (fun b => m ((c.tc : Thread nD τ).loc b)) ∗ unscopedSems0 c
        ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (iprop((bigSep Finset.univ fun c : Dev nD => StableHlo.held (c : Thread nD τ) (Pipeline.ucRefs τ sig) (Gen.V0 m c))
          ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
          : sProp 𝕄) := by
    rw [← bigSep_sep']
    exact bigSep_mono fun c _ => by rw [← Pipeline.unscopedBufs_held (Ix := Unit) (Name := ℕ) (U := UR sig nD τ) (Lvl := ℕ) c (Gen.V0 m c)]; exact BI.Entails.refl _
  iintro ⟨H, Hla⟩
  ihave H' := hsplit $$ H
  icases H' with ⟨Hh, Hr⟩
  imod hE0 $$ [Hr Hla] with HE
  · isplitl [Hr]; · iexact Hr
    iexact Hla
  imodintro
  rw [bigSep_sep']
  isplitl [Hh]; · iexact Hh
  iexact HE

theorem hpre0 (c : Dev nD) : iprop(StableHlo.held (c : Thread nD τ) (Pipeline.ucRefs τ sig) (Gen.V3 m c) ∗ R c) ⊢ (rec0 m).pre c := by
  rw [V3_eq]; exact .rfl
theorem hpost0 (c : Dev nD) : (rec0 m).post c ⊢ iprop(StableHlo.held (c : Thread nD τ) (Pipeline.ucRefs τ sig) (Gen.V4 m (outs m) c) ∗ R c) := by
  rw [V4_eq]; exact .rfl

theorem hpre1 (c : Dev nD) : iprop(StableHlo.held (c : Thread nD τ) (Pipeline.ucRefs τ sig) (Gen.V5 m (outs m) c) ∗ R c) ⊢ (rec1 m).pre c := by
  rw [V5_eq]; exact .rfl
theorem hpost1 (c : Dev nD) : (rec1 m).post c ⊢ iprop(StableHlo.held (c : Thread nD τ) (Pipeline.ucRefs τ sig) (Gen.V6 m (outs m) c) ∗ R c) := by
  rw [V6_eq]; exact .rfl

theorem hpre2 (c : Dev nD) : iprop(StableHlo.held (c : Thread nD τ) (Pipeline.ucRefs τ sig) (Gen.V7 m (outs m) c) ∗ R c) ⊢ (rec2 m).pre c := by
  rw [V7_eq]; exact .rfl
theorem hpost2 (c : Dev nD) : (rec2 m).post c ⊢ iprop(StableHlo.held (c : Thread nD τ) (Pipeline.ucRefs τ sig) (Gen.V8 m (outs m) c) ∗ R c) := by
  rw [V8_eq]; exact .rfl

theorem hpre3 (c : Dev nD) : iprop(StableHlo.held (c : Thread nD τ) (Pipeline.ucRefs τ sig) (Gen.V9 m (outs m) c) ∗ R c) ⊢ (rec3 m).pre c := by
  rw [V9_eq]; exact .rfl
theorem hpost3 (c : Dev nD) : (rec3 m).post c ⊢ iprop(StableHlo.held (c : Thread nD τ) (Pipeline.ucRefs τ sig) (Gen.V10 m (outs m) c) ∗ R c) := by
  rw [V10_eq]; exact .rfl

theorem hpre4 (c : Dev nD) : iprop(StableHlo.held (c : Thread nD τ) (Pipeline.ucRefs τ sig) (Gen.V11 m (outs m) c) ∗ R c) ⊢ (rec4 m).pre c := by
  rw [V11_eq]; exact .rfl
theorem hpost4 (c : Dev nD) : (rec4 m).post c ⊢ iprop(StableHlo.held (c : Thread nD τ) (Pipeline.ucRefs τ sig) (Gen.V12 m (outs m) c) ∗ R c) := by
  rw [V12_eq]; exact .rfl

theorem hpre5 (c : Dev nD) : iprop(StableHlo.held (c : Thread nD τ) (Pipeline.ucRefs τ sig) (Gen.V13 m (outs m) c) ∗ R c) ⊢ (rec5 m).pre c := by
  rw [V13_eq]; exact .rfl
theorem hpost5 (c : Dev nD) : (rec5 m).post c ⊢ iprop(StableHlo.held (c : Thread nD τ) (Pipeline.ucRefs τ sig) (Gen.V14 m (outs m) c) ∗ R c) := by
  rw [V14_eq]; exact .rfl

set_option backward.isDefEq.respectTransparency.types false in
/-- THE FRAME at any float model: every weakly fair execution of the program terminates without a fault and the twelve argument arrays end
    as launched. The host side, the chaining and the read-back are the generated conditional frame's; the six regions are the records above. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond m emb₁ () 𝒱₀ L lv (fun _ _ => rfl) ρ (outs m) (pdats m) 0 (fun _ => iprop(emp))
    (initOf (Pipeline.cells cfgs cellOf_inj) (Pipeline.launchToks cfgs cellOf_inj)) launch_elem
    (fun _ c => R c) (launch_rest ρ) (fun c => by iintro ⟨-, HO⟩; iexact HO)
    (rec0 m) (hpre0 m) (hpost0 m) (rec1 m) (hpre1 m) (hpost1 m) (rec2 m) (hpre2 m) (hpost2 m)
    (rec3 m) (hpre3 m) (hpost3 m) (rec4 m) (hpre4 m) (hpost4 m) (rec5 m) (hpre5 m) (hpost5 m)

/-- The slice of the fourth layer's output that the program returns first: the last valuation of the fold read at `main_v68`. -/
def res68 (c : Dev nD) : Buf (Elt F) ((c.tc : Thread nD τ).loc main_v68) := Y15 m c main_v68
/-- The slice of the Gram product that the program returns second: the last valuation of the fold read at `main_v69`. -/
def res69 (c : Dev nD) : Buf (Elt F) ((c.tc : Thread nD τ).loc main_v69) := Y15 m c main_v69

set_option backward.isDefEq.respectTransparency.types false in
/-- THE RUN WITH ITS VALUES: as `frame`, and the two result buffers end at `res68` and `res69`. The proof is the conditional frame's own
    (the same launch theorem over the same segment list), its last step reading the two result buffers off the last valuation as well. -/
theorem run_values : θ_run defs (onTc (τ := τ) (main (F := F))) ⟨m, fun _ => 0, ρ⟩ (fun r => ∀ c : Dev nD,
      r.2.mem ((c.tc : Thread nD τ).loc main_v68) = res68 m c
      ∧ r.2.mem ((c.tc : Thread nD τ).loc main_v69) = res69 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm (pdats m) () cellOf_inj emb₁ defs₀ 𝒱₀ L lv m ρ main
    (Gen.segs m (outs m) 𝒱₀ L lv (fun _ c => R c) () (pdats m) (rec0 m) (rec1 m) (rec2 m) (rec3 m) (rec4 m) (rec5 m))
    (fun c Q => by
      rewrite [main_chain c, Pipeline.Seg.run_eq_chain,
        show (Gen.segs m (outs m) 𝒱₀ L lv (fun _ c => R c) () (pdats m) (rec0 m) (rec1 m) (rec2 m) (rec3 m) (rec4 m) (rec5 m) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6 ] from rfl]
      exact .rfl)
    (fun c => by simp only [Gen.segs, Pipeline.Seg.pipes_host, Pipeline.Seg.pipes_region, Pipeline.Seg.pipes_nil]; decide) 0 (fun _ _ => rfl) (fun _ => iprop(emp))
    (initOf (Pipeline.cells cfgs cellOf_inj) (Pipeline.launchToks cfgs cellOf_inj)) launch_elem
    (T₀ := fun c => iprop(StableHlo.held (c : Thread nD τ) (Pipeline.ucRefs τ sig) (Gen.V0 m c) ∗ R c))
    (Tₙ := fun c => StableHlo.held (c : Thread nD τ) (Pipeline.ucRefs τ sig) (Gen.V15 m (outs m) c))
    (hch := fun c => ⟨.rfl, .rfl, .rfl, hpre0 m c, hpost0 m c, hpre1 m c, hpost1 m c, hpre2 m c, hpost2 m c, hpre3 m c, hpost3 m c, hpre4 m c, hpost4 m c, hpre5 m c, hpost5 m c,
      sep_mono .rfl (by iintro ⟨-, HO⟩; iexact HO)⟩)
    (hinit := launch_init_of m ρ (fun c => R c) (launch_rest ρ)) (QY := fun c s => s.mem ((c.tc : Thread nD τ).loc main_v68) = res68 m c
      ∧ s.mem ((c.tc : Thread nD τ).loc main_v69) = res69 m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11))
    (hfin := fun c s' => ?_) (hQ := fun _ h => h)
  · -- the end: the results' and each argument's buffer read off the last valuation
    unfold StableHlo.held
    iintro ⟨Hh, HSI⟩
    ihave Hr := (pointsTo_read_all (Pipeline.ucRefs τ sig) (fun b => ((c : Thread nD τ).1, b)) (Gen.V15 m (outs m) c) s') $$ [Hh HSI]
    · isplitl [Hh] <;> iassumption
    icases Hr with ⟨%h, HSI⟩
    imodintro
    isplitr
    · ipureintro
      exact ⟨(h (Proc.devRef .tc main_v68) (Finset.mem_filter.mpr ⟨StableHlo.devRef_mem_tcRefs main_v68, by decide⟩)).trans (congrFun (V15_eq m c) _),
        (h (Proc.devRef .tc main_v69) (Finset.mem_filter.mpr ⟨StableHlo.devRef_mem_tcRefs main_v69, by decide⟩)).trans (congrFun (V15_eq m c) _),
        (h (Proc.devRef .tc main_arg0) (Finset.mem_filter.mpr ⟨StableHlo.devRef_mem_tcRefs main_arg0, by decide⟩)).trans (V15_main_arg0 m (outs m) c),
        (h (Proc.devRef .tc main_arg1) (Finset.mem_filter.mpr ⟨StableHlo.devRef_mem_tcRefs main_arg1, by decide⟩)).trans (V15_main_arg1 m (outs m) c),
        (h (Proc.devRef .tc main_arg2) (Finset.mem_filter.mpr ⟨StableHlo.devRef_mem_tcRefs main_arg2, by decide⟩)).trans (V15_main_arg2 m (outs m) c),
        (h (Proc.devRef .tc main_arg3) (Finset.mem_filter.mpr ⟨StableHlo.devRef_mem_tcRefs main_arg3, by decide⟩)).trans (V15_main_arg3 m (outs m) c),
        (h (Proc.devRef .tc main_arg4) (Finset.mem_filter.mpr ⟨StableHlo.devRef_mem_tcRefs main_arg4, by decide⟩)).trans (V15_main_arg4 m (outs m) c),
        (h (Proc.devRef .tc main_arg5) (Finset.mem_filter.mpr ⟨StableHlo.devRef_mem_tcRefs main_arg5, by decide⟩)).trans (V15_main_arg5 m (outs m) c),
        (h (Proc.devRef .tc main_arg6) (Finset.mem_filter.mpr ⟨StableHlo.devRef_mem_tcRefs main_arg6, by decide⟩)).trans (V15_main_arg6 m (outs m) c),
        (h (Proc.devRef .tc main_arg7) (Finset.mem_filter.mpr ⟨StableHlo.devRef_mem_tcRefs main_arg7, by decide⟩)).trans (V15_main_arg7 m (outs m) c),
        (h (Proc.devRef .tc main_arg8) (Finset.mem_filter.mpr ⟨StableHlo.devRef_mem_tcRefs main_arg8, by decide⟩)).trans (V15_main_arg8 m (outs m) c),
        (h (Proc.devRef .tc main_arg9) (Finset.mem_filter.mpr ⟨StableHlo.devRef_mem_tcRefs main_arg9, by decide⟩)).trans (V15_main_arg9 m (outs m) c),
        (h (Proc.devRef .tc main_arg10) (Finset.mem_filter.mpr ⟨StableHlo.devRef_mem_tcRefs main_arg10, by decide⟩)).trans (V15_main_arg10 m (outs m) c),
        (h (Proc.devRef .tc main_arg11) (Finset.mem_filter.mpr ⟨StableHlo.devRef_mem_tcRefs main_arg11, by decide⟩)).trans (V15_main_arg11 m (outs m) c)⟩
    · iexact HSI

end Cert.KernelIdeal.KRun

end
-- ==== Proof.KBits0.lean ====
/- Layer 0 of the graph convolution as the kernel runs it: grid point `t` multiplies rows 256·t … 256·t+255 of the
   normalised adjacency matrix (a 256 × 10240 block) by the whole 10240 × 128 feature matrix, adds the bias row and clamps at zero, and
   stores the 256 × 128 result as the output's block `t`. This module runs that body once, on any staging buffers, and packages
   the result as the pipeline's proof data at an arbitrary valuation `V` of the core's buffers on entry. -/
import proofs.«130217_j58256936403151_1_alg».proof.Proof.Gen.Kernel.Launch
import proofs.«130217_j58256936403151_1_alg».proof.Proof.Gen.Kernel.Skeleton
import proofs.«130217_j58256936403151_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KRun

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Layer0
variable (V : (c : Dev nD) → (b : Ref sig .tc) → Buf (Elt F) ((c : Thread nD τ).loc b))

/-- Window `w`'s block at point `t`, read off its array as layer 0 finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the pipeline fetched it there or not. -/
theorem staged0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's staging buffer holds its block at every point, whether the pipeline fetched it there or not. -/
theorem staged0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's staging buffer holds its block at every point, whether the pipeline fetched it there or not. -/
theorem staged0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The whole-buffer rectangles the body loads and stores through. -/
abbrev rA0 : Rect S256x10240 := Rect.unit (s := S256x10240) ![0, 0] S256x10240.size inb_S256x10240_S256x10240_0_0
abbrev rM0 : Rect S10240x128 := Rect.unit (s := S10240x128) ![0, 0] S10240x128.size inb_S10240x128_S10240x128_0_0
abbrev rB0 : Rect S1x128 := Rect.unit (s := S1x128) ![0, 0] S1x128.size inb_S1x128_S1x128_0_0
abbrev rO0 : Rect S256x128 := Rect.unit (s := S256x128) ![0, 0] S256x128.size inb_S256x128_S256x128_0_0

/-- The output block after the body: one store of the whole block, whose value is the layer's arithmetic on the three input blocks. -/
def aggOut0 (x0 : Vec F S256x10240 .bf16) (x1 : Vec F S10240x128 .f32) (x2 : Vec F S1x128 .f32) : Vec F S256x128 .f32 :=
  View.canon [⟨rO0, k0_pay1 (View.ld x0 rA0) (View.ld x1 rM0) (View.ld x2 rB0)⟩]

/-- That one store covers the block. -/
theorem aggCover0 (p0 : Vec F S256x128 .f32) (y : S256x128.Idx) :
    ∃ pc ∈ ([⟨rO0, p0⟩] : List (View.Piece (Elt F) S256x128 .f32)), y ∈ pc.1.set :=
  View.cover_of_tiled [⟨rO0, p0⟩] S256x128.size (by rfl) y

set_option maxHeartbeats 1000000 in
/-- The body on whole staging buffers: the three inputs are read and left as they were, the output block (whatever it held) ends at `aggOut0`. -/
theorem aggKernel0_triple (c : Dev nD) (E : Set ℕ) (i : grid0.Coords)
    (arg1 : Memref sig .tc .vmem S256x10240 .bf16) (harg1 : arg1.IsWhole) (arg2 : Memref sig .tc .vmem S10240x128 .f32) (harg2 : arg2.IsWhole)
    (arg3 : Memref sig .tc .vmem S1x128 .f32) (harg3 : arg3.IsWhole) (arg4 : Memref sig .tc .vmem S256x128 .f32) (harg4 : arg4.IsWhole)
    (x0 : Vec F S256x10240 .bf16) (x1 : Vec F S10240x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (aggOut0 x0 x1 x2)) -∗ K ⟨⟩))
      ⊢ wp frame (wpE (defs₀ (F := F)) Variants.none c none) E (cc0__agg_kernel i arg1 harg1 arg2 harg2 arg3 harg3 arg4 harg4) K := by
  simp only [cc0__agg_kernel_eq_skeleton]; unfold cc0__agg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (aggCover0 _)

/-- Layer 0's proof data on core `c`: the arrays as found (`V`); after the body at point `t` the inputs' buffers still hold their blocks
    and the output's holds `aggOut0` of them; nothing owed, full shares, the pipeline's plain invariant. -/
def aggDat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => aggOut0 (blk0 V c 0 t) (blk0 V c 1 t) (blk0 V c 2 t)
  Φ _ := Pipeline.ΦA spec0 c
  q _ := fullShare
  owed _ := 0

theorem aggDat0_A (c : Dev nD) (w : Fin cfg0.W) : (aggDat0 V c).A w = V c (Pipeline.arrRef spec0 w) := by
  dsimp only [aggDat0]

theorem aggDat0_after_0 (c : Dev nD) (t : Fin cfg0.N) : (aggDat0 V c).after 0 t = blk0 V c 0 t := by dsimp only [aggDat0]
theorem aggDat0_after_1 (c : Dev nD) (t : Fin cfg0.N) : (aggDat0 V c).after 1 t = blk0 V c 1 t := by dsimp only [aggDat0]
theorem aggDat0_after_2 (c : Dev nD) (t : Fin cfg0.N) : (aggDat0 V c).after 2 t = blk0 V c 2 t := by dsimp only [aggDat0]
/-- What layer 0 leaves in its output's staging buffer at point `t`: the layer's arithmetic (`Gen.k0_pay1`) on the three input blocks at `t`. -/
theorem aggDat0_after_3 (c : Dev nD) (t : Fin cfg0.N) :
    (aggDat0 V c).after 3 t = aggOut0 (blk0 V c 0 t) (blk0 V c 1 t) (blk0 V c 2 t) := by dsimp only [aggDat0]

theorem aggDat0_before_0 (c : Dev nD) (t : Fin cfg0.N) (d) : (aggDat0 V c).before 0 t d = blk0 V c 0 t :=
  staged0_0_of V (aggDat0 V c) (aggDat0_A V c 0) (aggDat0_after_0 V c) t d
theorem aggDat0_before_1 (c : Dev nD) (t : Fin cfg0.N) (d) : (aggDat0 V c).before 1 t d = blk0 V c 1 t :=
  staged0_1_of V (aggDat0 V c) (aggDat0_A V c 1) (aggDat0_after_1 V c) t d
theorem aggDat0_before_2 (c : Dev nD) (t : Fin cfg0.N) (d) : (aggDat0 V c).before 2 t d = blk0 V c 2 t :=
  staged0_2_of V (aggDat0 V c) (aggDat0_A V c 2) (aggDat0_after_2 V c) t d

/-- What the pipeline hands the body at point `t`, -/
def aggPre0 (c : Dev nD) (t : Fin cfg0.N) : sProp 𝕄 :=
  iprop((aggDat0 V c).Φ t.castSucc ∗ (aggDat0 V c).owesAt () t.castSucc
    ∗ (∃ d, owns (c : Thread nD τ) (st0_0 t) fullShare ((aggDat0 V c).before 0 t d))
    ∗ (∃ d, owns (c : Thread nD τ) (st0_1 t) fullShare ((aggDat0 V c).before 1 t d))
    ∗ (∃ d, owns (c : Thread nD τ) (st0_2 t) fullShare ((aggDat0 V c).before 2 t d))
    ∗ (∃ d, owns (c : Thread nD τ) (st0_3 t) fullShare ((aggDat0 V c).before 3 t d)))

/-- and what the body hands back. -/
def aggPost0 (c : Dev nD) (t : Fin cfg0.N) : sProp 𝕄 :=
  iprop((aggDat0 V c).Φ t.succ ∗ (aggDat0 V c).owesAt () t.succ
    ∗ owns (c : Thread nD τ) (st0_0 t) fullShare ((aggDat0 V c).after 0 t)
    ∗ owns (c : Thread nD τ) (st0_1 t) fullShare ((aggDat0 V c).after 1 t)
    ∗ owns (c : Thread nD τ) (st0_2 t) fullShare ((aggDat0 V c).after 2 t)
    ∗ owns (c : Thread nD τ) (st0_3 t) fullShare ((aggDat0 V c).after 3 t))

/-- The body at any grid point. -/
theorem aggBody0_triple (c : Dev nD) (t : Fin cfg0.N) :
    aggPre0 V c t ⊢ wp frame (wpE (defs₀ (F := F)) Variants.none c none) Set.univ (bodyAt0 t) (fun _ => aggPost0 V c t) := by
  unfold aggPre0 aggPost0 bodyAt0
  simp only [aggDat0_before_0, aggDat0_before_1, aggDat0_before_2]
  rw [show (aggDat0 V c).Φ t.succ = (aggDat0 V c).Φ t.castSucc from rfl,
    show (aggDat0 V c).owesAt () t.succ = (aggDat0 V c).owesAt () t.castSucc from rfl,
    aggDat0_after_0, aggDat0_after_1, aggDat0_after_2, aggDat0_after_3]
  iintro ⟨HΦ, Ho, ⟨%d0, H0⟩, ⟨%d1, H1⟩, ⟨%d2, H2⟩, ⟨%d3, H3⟩⟩
  iapply (aggKernel0_triple c Set.univ (grid0.coords t) _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation for layer 0, at every point. -/
theorem aggBody0_obligation (c : Dev nD) : BodyObligation (aggDat0 (F := F) V c) (defs₀ (F := F)) Variants.none () Set.univ := fun t => by
  rw [bigSep_W0, bigSep_W0]
  exact aggBody0_triple V c t

end Layer0

end Cert.Kernel.KRun

end
-- ==== Proof.KBits1.lean ====
/- Layer 1 of the graph convolution as the kernel runs it: grid point `t` multiplies rows 256·t … 256·t+255 of the
   normalised adjacency matrix (a 256 × 10240 block) by the whole 10240 × 128 feature matrix, adds the bias row, and
   stores the 256 × 128 result as the output's block `t`. This module runs that body once, on any staging buffers, and packages
   the result as the pipeline's proof data at an arbitrary valuation `V` of the core's buffers on entry. -/
import proofs.«130217_j58256936403151_1_alg».proof.Proof.Gen.Kernel.Launch
import proofs.«130217_j58256936403151_1_alg».proof.Proof.Gen.Kernel.Skeleton
import proofs.«130217_j58256936403151_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KRun

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Layer1
variable (V : (c : Dev nD) → (b : Ref sig .tc) → Buf (Elt F) ((c : Thread nD τ).loc b))

/-- Window `w`'s block at point `t`, read off its array as layer 1 finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the pipeline fetched it there or not. -/
theorem staged1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's staging buffer holds its block at every point, whether the pipeline fetched it there or not. -/
theorem staged1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's staging buffer holds its block at every point, whether the pipeline fetched it there or not. -/
theorem staged1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- The whole-buffer rectangles the body loads and stores through. -/
abbrev rA1 : Rect S256x10240 := Rect.unit (s := S256x10240) ![0, 0] S256x10240.size inb_S256x10240_S256x10240_0_0
abbrev rM1 : Rect S10240x128 := Rect.unit (s := S10240x128) ![0, 0] S10240x128.size inb_S10240x128_S10240x128_0_0
abbrev rB1 : Rect S1x128 := Rect.unit (s := S1x128) ![0, 0] S1x128.size inb_S1x128_S1x128_0_0
abbrev rO1 : Rect S256x128 := Rect.unit (s := S256x128) ![0, 0] S256x128.size inb_S256x128_S256x128_0_0

/-- The output block after the body: one store of the whole block, whose value is the layer's arithmetic on the three input blocks. -/
def aggOut1 (x0 : Vec F S256x10240 .bf16) (x1 : Vec F S10240x128 .f32) (x2 : Vec F S1x128 .f32) : Vec F S256x128 .f32 :=
  View.canon [⟨rO1, k1_pay1 (View.ld x0 rA1) (View.ld x1 rM1) (View.ld x2 rB1)⟩]

/-- That one store covers the block. -/
theorem aggCover1 (p0 : Vec F S256x128 .f32) (y : S256x128.Idx) :
    ∃ pc ∈ ([⟨rO1, p0⟩] : List (View.Piece (Elt F) S256x128 .f32)), y ∈ pc.1.set :=
  View.cover_of_tiled [⟨rO1, p0⟩] S256x128.size (by rfl) y

set_option maxHeartbeats 1000000 in
/-- The body on whole staging buffers: the three inputs are read and left as they were, the output block (whatever it held) ends at `aggOut1`. -/
theorem aggKernel1_triple (c : Dev nD) (E : Set ℕ) (i : grid1.Coords)
    (arg1 : Memref sig .tc .vmem S256x10240 .bf16) (harg1 : arg1.IsWhole) (arg2 : Memref sig .tc .vmem S10240x128 .f32) (harg2 : arg2.IsWhole)
    (arg3 : Memref sig .tc .vmem S1x128 .f32) (harg3 : arg3.IsWhole) (arg4 : Memref sig .tc .vmem S256x128 .f32) (harg4 : arg4.IsWhole)
    (x0 : Vec F S256x10240 .bf16) (x1 : Vec F S10240x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (aggOut1 x0 x1 x2)) -∗ K ⟨⟩))
      ⊢ wp frame (wpE (defs₀ (F := F)) Variants.none c none) E (cc1__agg_kernel i arg1 harg1 arg2 harg2 arg3 harg3 arg4 harg4) K := by
  simp only [cc1__agg_kernel_eq_skeleton]; unfold cc1__agg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (aggCover1 _)

/-- Layer 1's proof data on core `c`: the arrays as found (`V`); after the body at point `t` the inputs' buffers still hold their blocks
    and the output's holds `aggOut1` of them; nothing owed, full shares, the pipeline's plain invariant. -/
def aggDat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => aggOut1 (blk1 V c 0 t) (blk1 V c 1 t) (blk1 V c 2 t)
  Φ _ := Pipeline.ΦA spec1 c
  q _ := fullShare
  owed _ := 0

theorem aggDat1_A (c : Dev nD) (w : Fin cfg1.W) : (aggDat1 V c).A w = V c (Pipeline.arrRef spec1 w) := by
  dsimp only [aggDat1]

theorem aggDat1_after_0 (c : Dev nD) (t : Fin cfg1.N) : (aggDat1 V c).after 0 t = blk1 V c 0 t := by dsimp only [aggDat1]
theorem aggDat1_after_1 (c : Dev nD) (t : Fin cfg1.N) : (aggDat1 V c).after 1 t = blk1 V c 1 t := by dsimp only [aggDat1]
theorem aggDat1_after_2 (c : Dev nD) (t : Fin cfg1.N) : (aggDat1 V c).after 2 t = blk1 V c 2 t := by dsimp only [aggDat1]
/-- What layer 1 leaves in its output's staging buffer at point `t`: the layer's arithmetic (`Gen.k1_pay1`) on the three input blocks at `t`. -/
theorem aggDat1_after_3 (c : Dev nD) (t : Fin cfg1.N) :
    (aggDat1 V c).after 3 t = aggOut1 (blk1 V c 0 t) (blk1 V c 1 t) (blk1 V c 2 t) := by dsimp only [aggDat1]

theorem aggDat1_before_0 (c : Dev nD) (t : Fin cfg1.N) (d) : (aggDat1 V c).before 0 t d = blk1 V c 0 t :=
  staged1_0_of V (aggDat1 V c) (aggDat1_A V c 0) (aggDat1_after_0 V c) t d
theorem aggDat1_before_1 (c : Dev nD) (t : Fin cfg1.N) (d) : (aggDat1 V c).before 1 t d = blk1 V c 1 t :=
  staged1_1_of V (aggDat1 V c) (aggDat1_A V c 1) (aggDat1_after_1 V c) t d
theorem aggDat1_before_2 (c : Dev nD) (t : Fin cfg1.N) (d) : (aggDat1 V c).before 2 t d = blk1 V c 2 t :=
  staged1_2_of V (aggDat1 V c) (aggDat1_A V c 2) (aggDat1_after_2 V c) t d

/-- What the pipeline hands the body at point `t`, -/
def aggPre1 (c : Dev nD) (t : Fin cfg1.N) : sProp 𝕄 :=
  iprop((aggDat1 V c).Φ t.castSucc ∗ (aggDat1 V c).owesAt () t.castSucc
    ∗ (∃ d, owns (c : Thread nD τ) (st1_0 t) fullShare ((aggDat1 V c).before 0 t d))
    ∗ (∃ d, owns (c : Thread nD τ) (st1_1 t) fullShare ((aggDat1 V c).before 1 t d))
    ∗ (∃ d, owns (c : Thread nD τ) (st1_2 t) fullShare ((aggDat1 V c).before 2 t d))
    ∗ (∃ d, owns (c : Thread nD τ) (st1_3 t) fullShare ((aggDat1 V c).before 3 t d)))

/-- and what the body hands back. -/
def aggPost1 (c : Dev nD) (t : Fin cfg1.N) : sProp 𝕄 :=
  iprop((aggDat1 V c).Φ t.succ ∗ (aggDat1 V c).owesAt () t.succ
    ∗ owns (c : Thread nD τ) (st1_0 t) fullShare ((aggDat1 V c).after 0 t)
    ∗ owns (c : Thread nD τ) (st1_1 t) fullShare ((aggDat1 V c).after 1 t)
    ∗ owns (c : Thread nD τ) (st1_2 t) fullShare ((aggDat1 V c).after 2 t)
    ∗ owns (c : Thread nD τ) (st1_3 t) fullShare ((aggDat1 V c).after 3 t))

/-- The body at any grid point. -/
theorem aggBody1_triple (c : Dev nD) (t : Fin cfg1.N) :
    aggPre1 V c t ⊢ wp frame (wpE (defs₀ (F := F)) Variants.none c none) Set.univ (bodyAt1 t) (fun _ => aggPost1 V c t) := by
  unfold aggPre1 aggPost1 bodyAt1
  simp only [aggDat1_before_0, aggDat1_before_1, aggDat1_before_2]
  rw [show (aggDat1 V c).Φ t.succ = (aggDat1 V c).Φ t.castSucc from rfl,
    show (aggDat1 V c).owesAt () t.succ = (aggDat1 V c).owesAt () t.castSucc from rfl,
    aggDat1_after_0, aggDat1_after_1, aggDat1_after_2, aggDat1_after_3]
  iintro ⟨HΦ, Ho, ⟨%d0, H0⟩, ⟨%d1, H1⟩, ⟨%d2, H2⟩, ⟨%d3, H3⟩⟩
  iapply (aggKernel1_triple c Set.univ (grid1.coords t) _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation for layer 1, at every point. -/
theorem aggBody1_obligation (c : Dev nD) : BodyObligation (aggDat1 (F := F) V c) (defs₀ (F := F)) Variants.none () Set.univ := fun t => by
  rw [bigSep_W1, bigSep_W1]
  exact aggBody1_triple V c t

end Layer1

end Cert.Kernel.KRun

end
-- ==== Proof.KBits2.lean ====
/- Layer 2 of the graph convolution as the kernel runs it: grid point `t` multiplies rows 256·t … 256·t+255 of the
   normalised adjacency matrix (a 256 × 10240 block) by the whole 10240 × 128 feature matrix, adds the bias row and clamps at zero, and
   stores the 256 × 128 result as the output's block `t`. This module runs that body once, on any staging buffers, and packages
   the result as the pipeline's proof data at an arbitrary valuation `V` of the core's buffers on entry. -/
import proofs.«130217_j58256936403151_1_alg».proof.Proof.Gen.Kernel.Launch
import proofs.«130217_j58256936403151_1_alg».proof.Proof.Gen.Kernel.Skeleton
import proofs.«130217_j58256936403151_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KRun

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Layer2
variable (V : (c : Dev nD) → (b : Ref sig .tc) → Buf (Elt F) ((c : Thread nD τ).loc b))

/-- Window `w`'s block at point `t`, read off its array as layer 2 finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the pipeline fetched it there or not. -/
theorem staged2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- Input window 1's staging buffer holds its block at every point, whether the pipeline fetched it there or not. -/
theorem staged2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- Input window 2's staging buffer holds its block at every point, whether the pipeline fetched it there or not. -/
theorem staged2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- The whole-buffer rectangles the body loads and stores through. -/
abbrev rA2 : Rect S256x10240 := Rect.unit (s := S256x10240) ![0, 0] S256x10240.size inb_S256x10240_S256x10240_0_0
abbrev rM2 : Rect S10240x128 := Rect.unit (s := S10240x128) ![0, 0] S10240x128.size inb_S10240x128_S10240x128_0_0
abbrev rB2 : Rect S1x128 := Rect.unit (s := S1x128) ![0, 0] S1x128.size inb_S1x128_S1x128_0_0
abbrev rO2 : Rect S256x128 := Rect.unit (s := S256x128) ![0, 0] S256x128.size inb_S256x128_S256x128_0_0

/-- The output block after the body: one store of the whole block, whose value is the layer's arithmetic on the three input blocks. -/
def aggOut2 (x0 : Vec F S256x10240 .bf16) (x1 : Vec F S10240x128 .f32) (x2 : Vec F S1x128 .f32) : Vec F S256x128 .f32 :=
  View.canon [⟨rO2, k2_pay1 (View.ld x0 rA2) (View.ld x1 rM2) (View.ld x2 rB2)⟩]

/-- That one store covers the block. -/
theorem aggCover2 (p0 : Vec F S256x128 .f32) (y : S256x128.Idx) :
    ∃ pc ∈ ([⟨rO2, p0⟩] : List (View.Piece (Elt F) S256x128 .f32)), y ∈ pc.1.set :=
  View.cover_of_tiled [⟨rO2, p0⟩] S256x128.size (by rfl) y

set_option maxHeartbeats 1000000 in
/-- The body on whole staging buffers: the three inputs are read and left as they were, the output block (whatever it held) ends at `aggOut2`. -/
theorem aggKernel2_triple (c : Dev nD) (E : Set ℕ) (i : grid2.Coords)
    (arg1 : Memref sig .tc .vmem S256x10240 .bf16) (harg1 : arg1.IsWhole) (arg2 : Memref sig .tc .vmem S10240x128 .f32) (harg2 : arg2.IsWhole)
    (arg3 : Memref sig .tc .vmem S1x128 .f32) (harg3 : arg3.IsWhole) (arg4 : Memref sig .tc .vmem S256x128 .f32) (harg4 : arg4.IsWhole)
    (x0 : Vec F S256x10240 .bf16) (x1 : Vec F S10240x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (aggOut2 x0 x1 x2)) -∗ K ⟨⟩))
      ⊢ wp frame (wpE (defs₀ (F := F)) Variants.none c none) E (cc2__agg_kernel i arg1 harg1 arg2 harg2 arg3 harg3 arg4 harg4) K := by
  simp only [cc2__agg_kernel_eq_skeleton]; unfold cc2__agg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (aggCover2 _)

/-- Layer 2's proof data on core `c`: the arrays as found (`V`); after the body at point `t` the inputs' buffers still hold their blocks
    and the output's holds `aggOut2` of them; nothing owed, full shares, the pipeline's plain invariant. -/
def aggDat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => aggOut2 (blk2 V c 0 t) (blk2 V c 1 t) (blk2 V c 2 t)
  Φ _ := Pipeline.ΦA spec2 c
  q _ := fullShare
  owed _ := 0

theorem aggDat2_A (c : Dev nD) (w : Fin cfg2.W) : (aggDat2 V c).A w = V c (Pipeline.arrRef spec2 w) := by
  dsimp only [aggDat2]

theorem aggDat2_after_0 (c : Dev nD) (t : Fin cfg2.N) : (aggDat2 V c).after 0 t = blk2 V c 0 t := by dsimp only [aggDat2]
theorem aggDat2_after_1 (c : Dev nD) (t : Fin cfg2.N) : (aggDat2 V c).after 1 t = blk2 V c 1 t := by dsimp only [aggDat2]
theorem aggDat2_after_2 (c : Dev nD) (t : Fin cfg2.N) : (aggDat2 V c).after 2 t = blk2 V c 2 t := by dsimp only [aggDat2]
/-- What layer 2 leaves in its output's staging buffer at point `t`: the layer's arithmetic (`Gen.k2_pay1`) on the three input blocks at `t`. -/
theorem aggDat2_after_3 (c : Dev nD) (t : Fin cfg2.N) :
    (aggDat2 V c).after 3 t = aggOut2 (blk2 V c 0 t) (blk2 V c 1 t) (blk2 V c 2 t) := by dsimp only [aggDat2]

theorem aggDat2_before_0 (c : Dev nD) (t : Fin cfg2.N) (d) : (aggDat2 V c).before 0 t d = blk2 V c 0 t :=
  staged2_0_of V (aggDat2 V c) (aggDat2_A V c 0) (aggDat2_after_0 V c) t d
theorem aggDat2_before_1 (c : Dev nD) (t : Fin cfg2.N) (d) : (aggDat2 V c).before 1 t d = blk2 V c 1 t :=
  staged2_1_of V (aggDat2 V c) (aggDat2_A V c 1) (aggDat2_after_1 V c) t d
theorem aggDat2_before_2 (c : Dev nD) (t : Fin cfg2.N) (d) : (aggDat2 V c).before 2 t d = blk2 V c 2 t :=
  staged2_2_of V (aggDat2 V c) (aggDat2_A V c 2) (aggDat2_after_2 V c) t d

/-- What the pipeline hands the body at point `t`, -/
def aggPre2 (c : Dev nD) (t : Fin cfg2.N) : sProp 𝕄 :=
  iprop((aggDat2 V c).Φ t.castSucc ∗ (aggDat2 V c).owesAt () t.castSucc
    ∗ (∃ d, owns (c : Thread nD τ) (st2_0 t) fullShare ((aggDat2 V c).before 0 t d))
    ∗ (∃ d, owns (c : Thread nD τ) (st2_1 t) fullShare ((aggDat2 V c).before 1 t d))
    ∗ (∃ d, owns (c : Thread nD τ) (st2_2 t) fullShare ((aggDat2 V c).before 2 t d))
    ∗ (∃ d, owns (c : Thread nD τ) (st2_3 t) fullShare ((aggDat2 V c).before 3 t d)))

/-- and what the body hands back. -/
def aggPost2 (c : Dev nD) (t : Fin cfg2.N) : sProp 𝕄 :=
  iprop((aggDat2 V c).Φ t.succ ∗ (aggDat2 V c).owesAt () t.succ
    ∗ owns (c : Thread nD τ) (st2_0 t) fullShare ((aggDat2 V c).after 0 t)
    ∗ owns (c : Thread nD τ) (st2_1 t) fullShare ((aggDat2 V c).after 1 t)
    ∗ owns (c : Thread nD τ) (st2_2 t) fullShare ((aggDat2 V c).after 2 t)
    ∗ owns (c : Thread nD τ) (st2_3 t) fullShare ((aggDat2 V c).after 3 t))

/-- The body at any grid point. -/
theorem aggBody2_triple (c : Dev nD) (t : Fin cfg2.N) :
    aggPre2 V c t ⊢ wp frame (wpE (defs₀ (F := F)) Variants.none c none) Set.univ (bodyAt2 t) (fun _ => aggPost2 V c t) := by
  unfold aggPre2 aggPost2 bodyAt2
  simp only [aggDat2_before_0, aggDat2_before_1, aggDat2_before_2]
  rw [show (aggDat2 V c).Φ t.succ = (aggDat2 V c).Φ t.castSucc from rfl,
    show (aggDat2 V c).owesAt () t.succ = (aggDat2 V c).owesAt () t.castSucc from rfl,
    aggDat2_after_0, aggDat2_after_1, aggDat2_after_2, aggDat2_after_3]
  iintro ⟨HΦ, Ho, ⟨%d0, H0⟩, ⟨%d1, H1⟩, ⟨%d2, H2⟩, ⟨%d3, H3⟩⟩
  iapply (aggKernel2_triple c Set.univ (grid2.coords t) _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation for layer 2, at every point. -/
theorem aggBody2_obligation (c : Dev nD) : BodyObligation (aggDat2 (F := F) V c) (defs₀ (F := F)) Variants.none () Set.univ := fun t => by
  rw [bigSep_W2, bigSep_W2]
  exact aggBody2_triple V c t

end Layer2

end Cert.Kernel.KRun

end
-- ==== Proof.KBits3.lean ====
/- Layer 3 of the graph convolution as the kernel runs it: grid point `t` multiplies rows 256·t … 256·t+255 of the
   normalised adjacency matrix (a 256 × 10240 block) by the whole 10240 × 256 feature matrix, adds the bias row, and
   stores the 256 × 256 result as the output's block `t`. This module runs that body once, on any staging buffers, and packages
   the result as the pipeline's proof data at an arbitrary valuation `V` of the core's buffers on entry. -/
import proofs.«130217_j58256936403151_1_alg».proof.Proof.Gen.Kernel.Launch
import proofs.«130217_j58256936403151_1_alg».proof.Proof.Gen.Kernel.Skeleton
import proofs.«130217_j58256936403151_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KRun

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Layer3
variable (V : (c : Dev nD) → (b : Ref sig .tc) → Buf (Elt F) ((c : Thread nD τ).loc b))

/-- Window `w`'s block at point `t`, read off its array as layer 3 finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether the pipeline fetched it there or not. -/
theorem staged3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- Input window 1's staging buffer holds its block at every point, whether the pipeline fetched it there or not. -/
theorem staged3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- Input window 2's staging buffer holds its block at every point, whether the pipeline fetched it there or not. -/
theorem staged3_2_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-- The whole-buffer rectangles the body loads and stores through. -/
abbrev rA3 : Rect S256x10240 := Rect.unit (s := S256x10240) ![0, 0] S256x10240.size inb_S256x10240_S256x10240_0_0
abbrev rM3 : Rect S10240x256 := Rect.unit (s := S10240x256) ![0, 0] S10240x256.size inb_S10240x256_S10240x256_0_0
abbrev rB3 : Rect S1x256 := Rect.unit (s := S1x256) ![0, 0] S1x256.size inb_S1x256_S1x256_0_0
abbrev rO3 : Rect S256x256 := Rect.unit (s := S256x256) ![0, 0] S256x256.size inb_S256x256_S256x256_0_0

/-- The output block after the body: one store of the whole block, whose value is the layer's arithmetic on the three input blocks. -/
def aggOut3 (x0 : Vec F S256x10240 .bf16) (x1 : Vec F S10240x256 .f32) (x2 : Vec F S1x256 .f32) : Vec F S256x256 .f32 :=
  View.canon [⟨rO3, k3_pay1 (View.ld x0 rA3) (View.ld x1 rM3) (View.ld x2 rB3)⟩]

/-- That one store covers the block. -/
theorem aggCover3 (p0 : Vec F S256x256 .f32) (y : S256x256.Idx) :
    ∃ pc ∈ ([⟨rO3, p0⟩] : List (View.Piece (Elt F) S256x256 .f32)), y ∈ pc.1.set :=
  View.cover_of_tiled [⟨rO3, p0⟩] S256x256.size (by rfl) y

set_option maxHeartbeats 1000000 in
/-- The body on whole staging buffers: the three inputs are read and left as they were, the output block (whatever it held) ends at `aggOut3`. -/
theorem aggKernel3_triple (c : Dev nD) (E : Set ℕ) (i : grid3.Coords)
    (arg1 : Memref sig .tc .vmem S256x10240 .bf16) (harg1 : arg1.IsWhole) (arg2 : Memref sig .tc .vmem S10240x256 .f32) (harg2 : arg2.IsWhole)
    (arg3 : Memref sig .tc .vmem S1x256 .f32) (harg3 : arg3.IsWhole) (arg4 : Memref sig .tc .vmem S256x256 .f32) (harg4 : arg4.IsWhole)
    (x0 : Vec F S256x10240 .bf16) (x1 : Vec F S10240x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (aggOut3 x0 x1 x2)) -∗ K ⟨⟩))
      ⊢ wp frame (wpE (defs₀ (F := F)) Variants.none c none) E (cc3__agg_kernel i arg1 harg1 arg2 harg2 arg3 harg3 arg4 harg4) K := by
  simp only [cc3__agg_kernel_eq_skeleton]; unfold cc3__agg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (aggCover3 _)

/-- Layer 3's proof data on core `c`: the arrays as found (`V`); after the body at point `t` the inputs' buffers still hold their blocks
    and the output's holds `aggOut3` of them; nothing owed, full shares, the pipeline's plain invariant. -/
def aggDat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => aggOut3 (blk3 V c 0 t) (blk3 V c 1 t) (blk3 V c 2 t)
  Φ _ := Pipeline.ΦA spec3 c
  q _ := fullShare
  owed _ := 0

theorem aggDat3_A (c : Dev nD) (w : Fin cfg3.W) : (aggDat3 V c).A w = V c (Pipeline.arrRef spec3 w) := by
  dsimp only [aggDat3]

theorem aggDat3_after_0 (c : Dev nD) (t : Fin cfg3.N) : (aggDat3 V c).after 0 t = blk3 V c 0 t := by dsimp only [aggDat3]
theorem aggDat3_after_1 (c : Dev nD) (t : Fin cfg3.N) : (aggDat3 V c).after 1 t = blk3 V c 1 t := by dsimp only [aggDat3]
theorem aggDat3_after_2 (c : Dev nD) (t : Fin cfg3.N) : (aggDat3 V c).after 2 t = blk3 V c 2 t := by dsimp only [aggDat3]
/-- What layer 3 leaves in its output's staging buffer at point `t`: the layer's arithmetic (`Gen.k3_pay1`) on the three input blocks at `t`. -/
theorem aggDat3_after_3 (c : Dev nD) (t : Fin cfg3.N) :
    (aggDat3 V c).after 3 t = aggOut3 (blk3 V c 0 t) (blk3 V c 1 t) (blk3 V c 2 t) := by dsimp only [aggDat3]

theorem aggDat3_before_0 (c : Dev nD) (t : Fin cfg3.N) (d) : (aggDat3 V c).before 0 t d = blk3 V c 0 t :=
  staged3_0_of V (aggDat3 V c) (aggDat3_A V c 0) (aggDat3_after_0 V c) t d
theorem aggDat3_before_1 (c : Dev nD) (t : Fin cfg3.N) (d) : (aggDat3 V c).before 1 t d = blk3 V c 1 t :=
  staged3_1_of V (aggDat3 V c) (aggDat3_A V c 1) (aggDat3_after_1 V c) t d
theorem aggDat3_before_2 (c : Dev nD) (t : Fin cfg3.N) (d) : (aggDat3 V c).before 2 t d = blk3 V c 2 t :=
  staged3_2_of V (aggDat3 V c) (aggDat3_A V c 2) (aggDat3_after_2 V c) t d

/-- What the pipeline hands the body at point `t`, -/
def aggPre3 (c : Dev nD) (t : Fin cfg3.N) : sProp 𝕄 :=
  iprop((aggDat3 V c).Φ t.castSucc ∗ (aggDat3 V c).owesAt () t.castSucc
    ∗ (∃ d, owns (c : Thread nD τ) (st3_0 t) fullShare ((aggDat3 V c).before 0 t d))
    ∗ (∃ d, owns (c : Thread nD τ) (st3_1 t) fullShare ((aggDat3 V c).before 1 t d))
    ∗ (∃ d, owns (c : Thread nD τ) (st3_2 t) fullShare ((aggDat3 V c).before 2 t d))
    ∗ (∃ d, owns (c : Thread nD τ) (st3_3 t) fullShare ((aggDat3 V c).before 3 t d)))

/-- and what the body hands back. -/
def aggPost3 (c : Dev nD) (t : Fin cfg3.N) : sProp 𝕄 :=
  iprop((aggDat3 V c).Φ t.succ ∗ (aggDat3 V c).owesAt () t.succ
    ∗ owns (c : Thread nD τ) (st3_0 t) fullShare ((aggDat3 V c).after 0 t)
    ∗ owns (c : Thread nD τ) (st3_1 t) fullShare ((aggDat3 V c).after 1 t)
    ∗ owns (c : Thread nD τ) (st3_2 t) fullShare ((aggDat3 V c).after 2 t)
    ∗ owns (c : Thread nD τ) (st3_3 t) fullShare ((aggDat3 V c).after 3 t))

/-- The body at any grid point. -/
theorem aggBody3_triple (c : Dev nD) (t : Fin cfg3.N) :
    aggPre3 V c t ⊢ wp frame (wpE (defs₀ (F := F)) Variants.none c none) Set.univ (bodyAt3 t) (fun _ => aggPost3 V c t) := by
  unfold aggPre3 aggPost3 bodyAt3
  simp only [aggDat3_before_0, aggDat3_before_1, aggDat3_before_2]
  rw [show (aggDat3 V c).Φ t.succ = (aggDat3 V c).Φ t.castSucc from rfl,
    show (aggDat3 V c).owesAt () t.succ = (aggDat3 V c).owesAt () t.castSucc from rfl,
    aggDat3_after_0, aggDat3_after_1, aggDat3_after_2, aggDat3_after_3]
  iintro ⟨HΦ, Ho, ⟨%d0, H0⟩, ⟨%d1, H1⟩, ⟨%d2, H2⟩, ⟨%d3, H3⟩⟩
  iapply (aggKernel3_triple c Set.univ (grid3.coords t) _ _ _ _ _ _ _ _ (blk3 V c 0 t) (blk3 V c 1 t) (blk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation for layer 3, at every point. -/
theorem aggBody3_obligation (c : Dev nD) : BodyObligation (aggDat3 (F := F) V c) (defs₀ (F := F)) Variants.none () Set.univ := fun t => by
  rw [bigSep_W3, bigSep_W3]
  exact aggBody3_triple V c t

end Layer3

end Cert.Kernel.KRun

end
-- ==== Proof.KBits4.lean ====
/- Layer 4 of the graph convolution as the kernel runs it: grid point `t` multiplies rows 256·t … 256·t+255 of the
   normalised adjacency matrix (a 256 × 10240 block) by the whole 10240 × 128 feature matrix, adds the bias row, and
   stores the 256 × 128 result as the output's block `t`. This module runs that body once, on any staging buffers, and packages
   the result as the pipeline's proof data at an arbitrary valuation `V` of the core's buffers on entry. -/
import proofs.«130217_j58256936403151_1_alg».proof.Proof.Gen.Kernel.Launch
import proofs.«130217_j58256936403151_1_alg».proof.Proof.Gen.Kernel.Skeleton
import proofs.«130217_j58256936403151_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KRun

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Layer4
variable (V : (c : Dev nD) → (b : Ref sig .tc) → Buf (Elt F) ((c : Thread nD τ).loc b))

/-- Window `w`'s block at point `t`, read off its array as layer 4 finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, whether the pipeline fetched it there or not. -/
theorem staged4_0_of {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)

/-- Input window 1's staging buffer holds its block at every point, whether the pipeline fetched it there or not. -/
theorem staged4_1_of {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)

/-- Input window 2's staging buffer holds its block at every point, whether the pipeline fetched it there or not. -/
theorem staged4_2_of {c : Dev nD} (dat : Dat τ (Elt F) Unit ℕ (UR sig nD τ) ℕ cfg4 c) (hA : dat.A 2 = V c (Pipeline.arrRef spec4 2))
    (hafter : ∀ t, dat.after 2 t = blk4 V c 2 t) (t : Fin cfg4.N) (d) : dat.before 2 t d = blk4 V c 2 t :=
  (dat.before_in_eq_fetched 2 rfl (fun _ => rfl) (fun _ _ _ => rfl) (fun t => by rw [hafter]; unfold Dat.blockOf blk4; rw [hA]; try rfl) t d).trans
    (by unfold Dat.fetched Dat.blockOf blk4; rw [hA]; try rfl)

/-- The whole-buffer rectangles the body loads and stores through. -/
abbrev rA4 : Rect S256x10240 := Rect.unit (s := S256x10240) ![0, 0] S256x10240.size inb_S256x10240_S256x10240_0_0
abbrev rM4 : Rect S10240x128 := Rect.unit (s := S10240x128) ![0, 0] S10240x128.size inb_S10240x128_S10240x128_0_0
abbrev rB4 : Rect S1x128 := Rect.unit (s := S1x128) ![0, 0] S1x128.size inb_S1x128_S1x128_0_0
abbrev rO4 : Rect S256x128 := Rect.unit (s := S256x128) ![0, 0] S256x128.size inb_S256x128_S256x128_0_0

/-- The output block after the body: one store of the whole block, whose value is the layer's arithmetic on the three input blocks. -/
def aggOut4 (x0 : Vec F S256x10240 .bf16) (x1 : Vec F S10240x128 .f32) (x2 : Vec F S1x128 .f32) : Vec F S256x128 .f32 :=
  View.canon [⟨rO4, k4_pay1 (View.ld x0 rA4) (View.ld x1 rM4) (View.ld x2 rB4)⟩]

/-- That one store covers the block. -/
theorem aggCover4 (p0 : Vec F S256x128 .f32) (y : S256x128.Idx) :
    ∃ pc ∈ ([⟨rO4, p0⟩] : List (View.Piece (Elt F) S256x128 .f32)), y ∈ pc.1.set :=
  View.cover_of_tiled [⟨rO4, p0⟩] S256x128.size (by rfl) y

set_option maxHeartbeats 1000000 in
/-- The body on whole staging buffers: the three inputs are read and left as they were, the output block (whatever it held) ends at `aggOut4`. -/
theorem aggKernel4_triple (c : Dev nD) (E : Set ℕ) (i : grid4.Coords)
    (arg1 : Memref sig .tc .vmem S256x10240 .bf16) (harg1 : arg1.IsWhole) (arg2 : Memref sig .tc .vmem S10240x128 .f32) (harg2 : arg2.IsWhole)
    (arg3 : Memref sig .tc .vmem S1x128 .f32) (harg3 : arg3.IsWhole) (arg4 : Memref sig .tc .vmem S256x128 .f32) (harg4 : arg4.IsWhole)
    (x0 : Vec F S256x10240 .bf16) (x1 : Vec F S10240x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (aggOut4 x0 x1 x2)) -∗ K ⟨⟩))
      ⊢ wp frame (wpE (defs₀ (F := F)) Variants.none c none) E (cc4__agg_kernel i arg1 harg1 arg2 harg2 arg3 harg3 arg4 harg4) K := by
  simp only [cc4__agg_kernel_eq_skeleton]; unfold cc4__agg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (aggCover4 _)

/-- Layer 4's proof data on core `c`: the arrays as found (`V`); after the body at point `t` the inputs' buffers still hold their blocks
    and the output's holds `aggOut4` of them; nothing owed, full shares, the pipeline's plain invariant. -/
def aggDat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => aggOut4 (blk4 V c 0 t) (blk4 V c 1 t) (blk4 V c 2 t)
  Φ _ := Pipeline.ΦA spec4 c
  q _ := fullShare
  owed _ := 0

theorem aggDat4_A (c : Dev nD) (w : Fin cfg4.W) : (aggDat4 V c).A w = V c (Pipeline.arrRef spec4 w) := by
  dsimp only [aggDat4]

theorem aggDat4_after_0 (c : Dev nD) (t : Fin cfg4.N) : (aggDat4 V c).after 0 t = blk4 V c 0 t := by dsimp only [aggDat4]
theorem aggDat4_after_1 (c : Dev nD) (t : Fin cfg4.N) : (aggDat4 V c).after 1 t = blk4 V c 1 t := by dsimp only [aggDat4]
theorem aggDat4_after_2 (c : Dev nD) (t : Fin cfg4.N) : (aggDat4 V c).after 2 t = blk4 V c 2 t := by dsimp only [aggDat4]
/-- What layer 4 leaves in its output's staging buffer at point `t`: the layer's arithmetic (`Gen.k4_pay1`) on the three input blocks at `t`. -/
theorem aggDat4_after_3 (c : Dev nD) (t : Fin cfg4.N) :
    (aggDat4 V c).after 3 t = aggOut4 (blk4 V c 0 t) (blk4 V c 1 t) (blk4 V c 2 t) := by dsimp only [aggDat4]

theorem aggDat4_before_0 (c : Dev nD) (t : Fin cfg4.N) (d) : (aggDat4 V c).before 0 t d = blk4 V c 0 t :=
  staged4_0_of V (aggDat4 V c) (aggDat4_A V c 0) (aggDat4_after_0 V c) t d
theorem aggDat4_before_1 (c : Dev nD) (t : Fin cfg4.N) (d) : (aggDat4 V c).before 1 t d = blk4 V c 1 t :=
  staged4_1_of V (aggDat4 V c) (aggDat4_A V c 1) (aggDat4_after_1 V c) t d
theorem aggDat4_before_2 (c : Dev nD) (t : Fin cfg4.N) (d) : (aggDat4 V c).before 2 t d = blk4 V c 2 t :=
  staged4_2_of V (aggDat4 V c) (aggDat4_A V c 2) (aggDat4_after_2 V c) t d

/-- What the pipeline hands the body at point `t`, -/
def aggPre4 (c : Dev nD) (t : Fin cfg4.N) : sProp 𝕄 :=
  iprop((aggDat4 V c).Φ t.castSucc ∗ (aggDat4 V c).owesAt () t.castSucc
    ∗ (∃ d, owns (c : Thread nD τ) (st4_0 t) fullShare ((aggDat4 V c).before 0 t d))
    ∗ (∃ d, owns (c : Thread nD τ) (st4_1 t) fullShare ((aggDat4 V c).before 1 t d))
    ∗ (∃ d, owns (c : Thread nD τ) (st4_2 t) fullShare ((aggDat4 V c).before 2 t d))
    ∗ (∃ d, owns (c : Thread nD τ) (st4_3 t) fullShare ((aggDat4 V c).before 3 t d)))

/-- and what the body hands back. -/
def aggPost4 (c : Dev nD) (t : Fin cfg4.N) : sProp 𝕄 :=
  iprop((aggDat4 V c).Φ t.succ ∗ (aggDat4 V c).owesAt () t.succ
    ∗ owns (c : Thread nD τ) (st4_0 t) fullShare ((aggDat4 V c).after 0 t)
    ∗ owns (c : Thread nD τ) (st4_1 t) fullShare ((aggDat4 V c).after 1 t)
    ∗ owns (c : Thread nD τ) (st4_2 t) fullShare ((aggDat4 V c).after 2 t)
    ∗ owns (c : Thread nD τ) (st4_3 t) fullShare ((aggDat4 V c).after 3 t))

/-- The body at any grid point. -/
theorem aggBody4_triple (c : Dev nD) (t : Fin cfg4.N) :
    aggPre4 V c t ⊢ wp frame (wpE (defs₀ (F := F)) Variants.none c none) Set.univ (bodyAt4 t) (fun _ => aggPost4 V c t) := by
  unfold aggPre4 aggPost4 bodyAt4
  simp only [aggDat4_before_0, aggDat4_before_1, aggDat4_before_2]
  rw [show (aggDat4 V c).Φ t.succ = (aggDat4 V c).Φ t.castSucc from rfl,
    show (aggDat4 V c).owesAt () t.succ = (aggDat4 V c).owesAt () t.castSucc from rfl,
    aggDat4_after_0, aggDat4_after_1, aggDat4_after_2, aggDat4_after_3]
  iintro ⟨HΦ, Ho, ⟨%d0, H0⟩, ⟨%d1, H1⟩, ⟨%d2, H2⟩, ⟨%d3, H3⟩⟩
  iapply (aggKernel4_triple c Set.univ (grid4.coords t) _ _ _ _ _ _ _ _ (blk4 V c 0 t) (blk4 V c 1 t) (blk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation for layer 4, at every point. -/
theorem aggBody4_obligation (c : Dev nD) : BodyObligation (aggDat4 (F := F) V c) (defs₀ (F := F)) Variants.none () Set.univ := fun t => by
  rw [bigSep_W4, bigSep_W4]
  exact aggBody4_triple V c t

end Layer4

end Cert.Kernel.KRun

end
-- ==== Proof.KBits5.lean ====
/- The Gram product as the kernel runs it: grid point (i, j) loads row blocks i and j (1024 × 128 each) of ONE array, the last layer's
   output, and stores block (i, j) of the 10240 × 10240 product of that array with its own transpose. Both input windows stage
   blocks of the same array, so the core holds that array in two halves of its share, one per window. This module runs the body
   once on any staging buffers and packages the result as the pipeline's proof data at an arbitrary valuation `V` of the core's
   buffers on entry. -/
import proofs.«130217_j58256936403151_1_alg».proof.Proof.Gen.Kernel.Launch
import proofs.«130217_j58256936403151_1_alg».proof.Proof.Gen.Kernel.Skeleton
import proofs.«130217_j58256936403151_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KRun

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Gram
variable (V : (c : Dev nD) → (b : Ref sig .tc) → Buf (Elt F) ((c : Thread nD τ).loc b))

/-- Window `w`'s block at point `t`, read off its array as the product finds it. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, whether the pipeline fetched it there or not. -/
theorem staged5_0_of {c : Dev nD} (dat : Dat τ (Elt F) Unit ℕ (UR sig nD τ) ℕ cfg5 c) (hA : dat.A 0 = V c (Pipeline.arrRef spec5 0))
    (hafter : ∀ t, dat.after 0 t = blk5 V c 0 t) (t : Fin cfg5.N) (d) : dat.before 0 t d = blk5 V c 0 t :=
  (dat.before_in_eq_fetched 0 rfl (fun _ => rfl) (fun _ _ _ => rfl) (fun t => by rw [hafter]; unfold Dat.blockOf blk5; rw [hA]; try rfl) t d).trans
    (by unfold Dat.fetched Dat.blockOf blk5; rw [hA]; try rfl)

/-- Input window 1's staging buffer holds its block at every point, whether the pipeline fetched it there or not. -/
theorem staged5_1_of {c : Dev nD} (dat : Dat τ (Elt F) Unit ℕ (UR sig nD τ) ℕ cfg5 c) (hA : dat.A 1 = V c (Pipeline.arrRef spec5 1))
    (hafter : ∀ t, dat.after 1 t = blk5 V c 1 t) (t : Fin cfg5.N) (d) : dat.before 1 t d = blk5 V c 1 t :=
  (dat.before_in_eq_fetched 1 rfl (fun _ => rfl) (fun _ _ _ => rfl) (fun t => by rw [hafter]; unfold Dat.blockOf blk5; rw [hA]; try rfl) t d).trans
    (by unfold Dat.fetched Dat.blockOf blk5; rw [hA]; try rfl)

/-- The whole-buffer rectangles the body loads and stores through. -/
abbrev rI5 : Rect S1024x128 := Rect.unit (s := S1024x128) ![0, 0] S1024x128.size inb_S1024x128_S1024x128_0_0
abbrev rO5 : Rect S1024x1024 := Rect.unit (s := S1024x1024) ![0, 0] S1024x1024.size inb_S1024x1024_S1024x1024_0_0

/-- The output block after the body: one store of the whole block, the product of the first row block with the transpose of the second. -/
def gramOut5 (x0 : Vec F S1024x128 .bf16) (x1 : Vec F S1024x128 .bf16) : Vec F S1024x1024 .f32 :=
  View.canon [⟨rO5, k5_pay1 (View.ld x0 rI5) (View.ld x1 rI5)⟩]

/-- That one store covers the block. -/
theorem gramCover5 (p0 : Vec F S1024x1024 .f32) (y : S1024x1024.Idx) :
    ∃ pc ∈ ([⟨rO5, p0⟩] : List (View.Piece (Elt F) S1024x1024 .f32)), y ∈ pc.1.set :=
  View.cover_of_tiled [⟨rO5, p0⟩] S1024x1024.size (by rfl) y

set_option maxHeartbeats 1000000 in
/-- The body on whole staging buffers: the two inputs are read and left as they were, the output block (whatever it held) ends at `gramOut5`. -/
theorem gramKernel5_triple (c : Dev nD) (E : Set ℕ) (i : grid5.Coords)
    (arg2 : Memref sig .tc .vmem S1024x128 .bf16) (harg2 : arg2.IsWhole) (arg3 : Memref sig .tc .vmem S1024x128 .bf16) (harg3 : arg3.IsWhole)
    (arg4 : Memref sig .tc .vmem S1024x1024 .f32) (harg4 : arg4.IsWhole)
    (x0 : Vec F S1024x128 .bf16) (x1 : Vec F S1024x128 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (gramOut5 x0 x1)) -∗ K ⟨⟩))
      ⊢ wp frame (wpE (defs₀ (F := F)) Variants.none c none) E (cc5__dot_kernel i arg2 harg2 arg3 harg3 arg4 harg4) K := by
  simp only [cc5__dot_kernel_eq_skeleton]; unfold cc5__dot_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (gramCover5 _)

/-- The product's proof data on core `c`: the arrays as found (`V`); after the body at point `t` the inputs' buffers still hold their
    blocks and the output's holds `gramOut5` of them; nothing owed; the shared input array held in two halves, one per window. -/
def gramDat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => gramOut5 (blk5 V c 0 t) (blk5 V c 1 t)
  Φ _ := Pipeline.ΦA spec5 c
  q w := match w with
    | ⟨0, _⟩ => (fullShare : PosShare TreeShare).left
    | ⟨1, _⟩ => (fullShare : PosShare TreeShare).right
    | ⟨2, _⟩ => fullShare
  owed _ := 0

theorem gramDat5_A (c : Dev nD) (w : Fin cfg5.W) : (gramDat5 V c).A w = V c (Pipeline.arrRef spec5 w) := by
  dsimp only [gramDat5]

theorem gramDat5_after_0 (c : Dev nD) (t : Fin cfg5.N) : (gramDat5 V c).after 0 t = blk5 V c 0 t := by dsimp only [gramDat5]
theorem gramDat5_after_1 (c : Dev nD) (t : Fin cfg5.N) : (gramDat5 V c).after 1 t = blk5 V c 1 t := by dsimp only [gramDat5]
/-- What the product leaves in its output's staging buffer at point `t`: `Gen.k5_pay1` of the two row blocks at `t`. -/
theorem gramDat5_after_2 (c : Dev nD) (t : Fin cfg5.N) :
    (gramDat5 V c).after 2 t = gramOut5 (blk5 V c 0 t) (blk5 V c 1 t) := by dsimp only [gramDat5]

theorem gramDat5_before_0 (c : Dev nD) (t : Fin cfg5.N) (d) : (gramDat5 V c).before 0 t d = blk5 V c 0 t :=
  staged5_0_of V (gramDat5 V c) (gramDat5_A V c 0) (gramDat5_after_0 V c) t d
theorem gramDat5_before_1 (c : Dev nD) (t : Fin cfg5.N) (d) : (gramDat5 V c).before 1 t d = blk5 V c 1 t :=
  staged5_1_of V (gramDat5 V c) (gramDat5_A V c 1) (gramDat5_after_1 V c) t d

/-- What the pipeline hands the body at point `t`, -/
def gramPre5 (c : Dev nD) (t : Fin cfg5.N) : sProp 𝕄 :=
  iprop((gramDat5 V c).Φ t.castSucc ∗ (gramDat5 V c).owesAt () t.castSucc
    ∗ (∃ d, owns (c : Thread nD τ) (st5_0 t) fullShare ((gramDat5 V c).before 0 t d))
    ∗ (∃ d, owns (c : Thread nD τ) (st5_1 t) fullShare ((gramDat5 V c).before 1 t d))
    ∗ (∃ d, owns (c : Thread nD τ) (st5_2 t) fullShare ((gramDat5 V c).before 2 t d)))

/-- and what the body hands back. -/
def gramPost5 (c : Dev nD) (t : Fin cfg5.N) : sProp 𝕄 :=
  iprop((gramDat5 V c).Φ t.succ ∗ (gramDat5 V c).owesAt () t.succ
    ∗ owns (c : Thread nD τ) (st5_0 t) fullShare ((gramDat5 V c).after 0 t)
    ∗ owns (c : Thread nD τ) (st5_1 t) fullShare ((gramDat5 V c).after 1 t)
    ∗ owns (c : Thread nD τ) (st5_2 t) fullShare ((gramDat5 V c).after 2 t))

/-- The body at any grid point. -/
theorem gramBody5_triple (c : Dev nD) (t : Fin cfg5.N) :
    gramPre5 V c t ⊢ wp frame (wpE (defs₀ (F := F)) Variants.none c none) Set.univ (bodyAt5 t) (fun _ => gramPost5 V c t) := by
  unfold gramPre5 gramPost5 bodyAt5
  simp only [gramDat5_before_0, gramDat5_before_1]
  rw [show (gramDat5 V c).Φ t.succ = (gramDat5 V c).Φ t.castSucc from rfl,
    show (gramDat5 V c).owesAt () t.succ = (gramDat5 V c).owesAt () t.castSucc from rfl,
    gramDat5_after_0, gramDat5_after_1, gramDat5_after_2]
  iintro ⟨HΦ, Ho, ⟨%d0, H0⟩, ⟨%d1, H1⟩, ⟨%d2, H2⟩⟩
  iapply (gramKernel5_triple c Set.univ (grid5.coords t) _ _ _ _ _ _ (blk5 V c 0 t) (blk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation for the product, at every point. -/
theorem gramBody5_obligation (c : Dev nD) : BodyObligation (gramDat5 (F := F) V c) (defs₀ (F := F)) Variants.none () Set.univ := fun t => by
  rw [bigSep_W5, bigSep_W5]
  exact gramBody5_triple V c t

end Gram

end Cert.Kernel.KRun

end
-- ==== Proof.KBitsFold.lean ====
/- The contents of the core's buffers between the items of the program, as a fold from the launch memory: a host stretch maps
   the valuation through its operations; a kernel region replaces its output array by what its grid's write-backs leave (the pipeline
   library's `arrAt` at the last point) and changes nothing else. The six regions' proof data are taken at the valuations this fold
   gives on their entry, and the generated conditional frame's unknown contents `outs` are instantiated by the same fold. -/
import proofs.«130217_j58256936403151_1_alg».proof.Proof.KBits0
import proofs.«130217_j58256936403151_1_alg».proof.Proof.KBits1
import proofs.«130217_j58256936403151_1_alg».proof.Proof.KBits2
import proofs.«130217_j58256936403151_1_alg».proof.Proof.KBits3
import proofs.«130217_j58256936403151_1_alg».proof.Proof.KBits4
import proofs.«130217_j58256936403151_1_alg».proof.Proof.KBits5
import proofs.«130217_j58256936403151_1_alg».proof.Proof.Gen.Kernel.Regions

set_option maxRecDepth 16384

noncomputable section

namespace Cert.Kernel.KRun

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation of the core's buffers read at the TensorCore's references (the form the regions' proof data take). -/
abbrev atTc (W : Dev nD → Valuation τ sig (Elt F)) : (c : Dev nD) → (b : Ref sig .tc) → Buf (Elt F) ((c : Thread nD τ).loc b) :=
  fun c b => W c b

/-- The buffers when layer 0 is entered: the launch memory after the three host stretches that build the adjacency matrix and the
    first feature product. -/
def Y3 (c : Dev nD) : Valuation τ sig (Elt F) := Gen.V3 m c

/-- What region 0 leaves in its output array `main_v53`: its grid's write-backs folded over the array as entered. -/
def layer0Left (c : Dev nD) : Buf (Elt F) ((c : Thread nD τ).loc main_v53) :=
  (aggDat0 (atTc (Y3 m)) c).arrAt 3 cfg0.N
/-- The buffers when region 0 is left: only its output array has changed. -/
def Y4 (c : Dev nD) : Valuation τ sig (Elt F) := Function.update (Y3 m c) main_v53 (layer0Left m c)
/-- The buffers after the host stretch that follows region 0. -/
def Y5 (c : Dev nD) : Valuation τ sig (Elt F) := StableHlo.after hostOps1 (Y4 m c)

/-- What region 1 leaves in its output array `main_v56`: its grid's write-backs folded over the array as entered. -/
def layer1Left (c : Dev nD) : Buf (Elt F) ((c : Thread nD τ).loc main_v56) :=
  (aggDat1 (atTc (Y5 m)) c).arrAt 3 cfg1.N
/-- The buffers when region 1 is left: only its output array has changed. -/
def Y6 (c : Dev nD) : Valuation τ sig (Elt F) := Function.update (Y5 m c) main_v56 (layer1Left m c)
/-- The buffers after the host stretch that follows region 1. -/
def Y7 (c : Dev nD) : Valuation τ sig (Elt F) := StableHlo.after hostOps2 (Y6 m c)

/-- What region 2 leaves in its output array `main_v59`: its grid's write-backs folded over the array as entered. -/
def layer2Left (c : Dev nD) : Buf (Elt F) ((c : Thread nD τ).loc main_v59) :=
  (aggDat2 (atTc (Y7 m)) c).arrAt 3 cfg2.N
/-- The buffers when region 2 is left: only its output array has changed. -/
def Y8 (c : Dev nD) : Valuation τ sig (Elt F) := Function.update (Y7 m c) main_v59 (layer2Left m c)
/-- The buffers after the host stretch that follows region 2. -/
def Y9 (c : Dev nD) : Valuation τ sig (Elt F) := StableHlo.after hostOps3 (Y8 m c)

/-- What region 3 leaves in its output array `main_v62`: its grid's write-backs folded over the array as entered. -/
def layer3Left (c : Dev nD) : Buf (Elt F) ((c : Thread nD τ).loc main_v62) :=
  (aggDat3 (atTc (Y9 m)) c).arrAt 3 cfg3.N
/-- The buffers when region 3 is left: only its output array has changed. -/
def Y10 (c : Dev nD) : Valuation τ sig (Elt F) := Function.update (Y9 m c) main_v62 (layer3Left m c)
/-- The buffers after the host stretch that follows region 3. -/
def Y11 (c : Dev nD) : Valuation τ sig (Elt F) := StableHlo.after hostOps4 (Y10 m c)

/-- What region 4 leaves in its output array `main_v65`: its grid's write-backs folded over the array as entered. -/
def layer4Left (c : Dev nD) : Buf (Elt F) ((c : Thread nD τ).loc main_v65) :=
  (aggDat4 (atTc (Y11 m)) c).arrAt 3 cfg4.N
/-- The buffers when region 4 is left: only its output array has changed. -/
def Y12 (c : Dev nD) : Valuation τ sig (Elt F) := Function.update (Y11 m c) main_v65 (layer4Left m c)
/-- The buffers after the host stretch that follows region 4. -/
def Y13 (c : Dev nD) : Valuation τ sig (Elt F) := StableHlo.after hostOps5 (Y12 m c)

/-- What region 5 leaves in its output array `main_v67`: its grid's write-backs folded over the array as entered. -/
def gramLeft (c : Dev nD) : Buf (Elt F) ((c : Thread nD τ).loc main_v67) :=
  (gramDat5 (atTc (Y13 m)) c).arrAt 2 cfg5.N
/-- The buffers when region 5 is left: only its output array has changed. -/
def Y14 (c : Dev nD) : Valuation τ sig (Elt F) := Function.update (Y13 m c) main_v67 (gramLeft m c)
/-- The buffers after the host stretch that follows region 5. -/
def Y15 (c : Dev nD) : Valuation τ sig (Elt F) := StableHlo.after hostOps6 (Y14 m c)

/-- The generated conditional frame's unknown contents, instantiated: after item J−1 every buffer holds what the fold says. -/
def outs : Gen.Outs (F := F) := fun J r c => match J with
  | 4 => Y4 m c r
  | 6 => Y6 m c r
  | 8 => Y8 m c r
  | 10 => Y10 m c r
  | 12 => Y12 m c r
  | 14 => Y14 m c r
  | _ => m ((c : Thread nD τ).loc r)

/-! ## The generated valuations at these contents are the fold -/

theorem V3_eq (c : Dev nD) : Gen.V3 m c = Y3 m c := rfl

/-- `outs` read where region 0's exit valuation reads it is what region 0 leaves. -/
theorem outs_4 (c : Dev nD) : outs m 4 main_v53 c = layer0Left m c := by
  show Y4 m c main_v53 = _
  unfold Y4
  exact Function.update_self _ _ _
theorem V4_eq (c : Dev nD) : Gen.V4 m (outs m) c = Y4 m c := by
  show Function.update (Gen.V3 m c) main_v53 (outs m 4 main_v53 c) = _
  rw [outs_4, V3_eq]; rfl
theorem V5_eq (c : Dev nD) : Gen.V5 m (outs m) c = Y5 m c := by
  show StableHlo.after hostOps1 (Gen.V4 m (outs m) c) = _
  rw [V4_eq]; rfl

/-- `outs` read where region 1's exit valuation reads it is what region 1 leaves. -/
theorem outs_6 (c : Dev nD) : outs m 6 main_v56 c = layer1Left m c := by
  show Y6 m c main_v56 = _
  unfold Y6
  exact Function.update_self _ _ _
theorem V6_eq (c : Dev nD) : Gen.V6 m (outs m) c = Y6 m c := by
  show Function.update (Gen.V5 m (outs m) c) main_v56 (outs m 6 main_v56 c) = _
  rw [outs_6, V5_eq]; rfl
theorem V7_eq (c : Dev nD) : Gen.V7 m (outs m) c = Y7 m c := by
  show StableHlo.after hostOps2 (Gen.V6 m (outs m) c) = _
  rw [V6_eq]; rfl

/-- `outs` read where region 2's exit valuation reads it is what region 2 leaves. -/
theorem outs_8 (c : Dev nD) : outs m 8 main_v59 c = layer2Left m c := by
  show Y8 m c main_v59 = _
  unfold Y8
  exact Function.update_self _ _ _
theorem V8_eq (c : Dev nD) : Gen.V8 m (outs m) c = Y8 m c := by
  show Function.update (Gen.V7 m (outs m) c) main_v59 (outs m 8 main_v59 c) = _
  rw [outs_8, V7_eq]; rfl
theorem V9_eq (c : Dev nD) : Gen.V9 m (outs m) c = Y9 m c := by
  show StableHlo.after hostOps3 (Gen.V8 m (outs m) c) = _
  rw [V8_eq]; rfl

/-- `outs` read where region 3's exit valuation reads it is what region 3 leaves. -/
theorem outs_10 (c : Dev nD) : outs m 10 main_v62 c = layer3Left m c := by
  show Y10 m c main_v62 = _
  unfold Y10
  exact Function.update_self _ _ _
theorem V10_eq (c : Dev nD) : Gen.V10 m (outs m) c = Y10 m c := by
  show Function.update (Gen.V9 m (outs m) c) main_v62 (outs m 10 main_v62 c) = _
  rw [outs_10, V9_eq]; rfl
theorem V11_eq (c : Dev nD) : Gen.V11 m (outs m) c = Y11 m c := by
  show StableHlo.after hostOps4 (Gen.V10 m (outs m) c) = _
  rw [V10_eq]; rfl

/-- `outs` read where region 4's exit valuation reads it is what region 4 leaves. -/
theorem outs_12 (c : Dev nD) : outs m 12 main_v65 c = layer4Left m c := by
  show Y12 m c main_v65 = _
  unfold Y12
  exact Function.update_self _ _ _
theorem V12_eq (c : Dev nD) : Gen.V12 m (outs m) c = Y12 m c := by
  show Function.update (Gen.V11 m (outs m) c) main_v65 (outs m 12 main_v65 c) = _
  rw [outs_12, V11_eq]; rfl
theorem V13_eq (c : Dev nD) : Gen.V13 m (outs m) c = Y13 m c := by
  show StableHlo.after hostOps5 (Gen.V12 m (outs m) c) = _
  rw [V12_eq]; rfl

/-- `outs` read where region 5's exit valuation reads it is what region 5 leaves. -/
theorem outs_14 (c : Dev nD) : outs m 14 main_v67 c = gramLeft m c := by
  show Y14 m c main_v67 = _
  unfold Y14
  exact Function.update_self _ _ _
theorem V14_eq (c : Dev nD) : Gen.V14 m (outs m) c = Y14 m c := by
  show Function.update (Gen.V13 m (outs m) c) main_v67 (outs m 14 main_v67 c) = _
  rw [outs_14, V13_eq]; rfl
theorem V15_eq (c : Dev nD) : Gen.V15 m (outs m) c = Y15 m c := by
  show StableHlo.after hostOps6 (Gen.V14 m (outs m) c) = _
  rw [V14_eq]; rfl

/-! ## Every region's proof data, each at its entry valuation -/

/-- A literal match on the region's number, so that the library's pinned configuration at a numeral reduces to the printed one. -/
def pdats : (p : Fin 6) → (c : Dev nD) → Dat τ (Elt F) Unit ℕ (UR sig nD τ) ℕ (cfgs p) c
  | ⟨0, _⟩ => fun c => aggDat0 (atTc (Y3 m)) c
  | ⟨1, _⟩ => fun c => aggDat1 (atTc (Y5 m)) c
  | ⟨2, _⟩ => fun c => aggDat2 (atTc (Y7 m)) c
  | ⟨3, _⟩ => fun c => aggDat3 (atTc (Y9 m)) c
  | ⟨4, _⟩ => fun c => aggDat4 (atTc (Y11 m)) c
  | ⟨5, _⟩ => fun c => gramDat5 (atTc (Y13 m)) c

/-! ## A region's exit: its arrays at what the pipeline leaves, every other buffer as entered -/

theorem exit0_arr (c : Dev nD) (w : Fin cfg0.W) :
    (aggDat0 (atTc (Y3 m)) c).arrAt w cfg0.N = atTc (Y4 m) c (Pipeline.arrRef spec0 w) := by
  match w with
  | ⟨0, _⟩ => exact ((aggDat0 (atTc (Y3 m)) c).arrAt_in 0 rfl _).trans ((aggDat0_A _ c 0).trans (by
      unfold Y4; exact (Function.update_of_ne (StableHlo.devRef_ne_of_ne (by decide)) _ _).symm))
  | ⟨1, _⟩ => exact ((aggDat0 (atTc (Y3 m)) c).arrAt_in 1 rfl _).trans ((aggDat0_A _ c 1).trans (by
      unfold Y4; exact (Function.update_of_ne (StableHlo.devRef_ne_of_ne (by decide)) _ _).symm))
  | ⟨2, _⟩ => exact ((aggDat0 (atTc (Y3 m)) c).arrAt_in 2 rfl _).trans ((aggDat0_A _ c 2).trans (by
      unfold Y4; exact (Function.update_of_ne (StableHlo.devRef_ne_of_ne (by decide)) _ _).symm))
  | ⟨3, _⟩ => exact (outs_4 m c).symm
theorem exit0_rest (c : Dev nD) : ∀ b, b ∉ Finset.univ.image (Pipeline.arrRef spec0) → atTc (Y4 m) c b = atTc (Y3 m) c b :=
  fun b hb => by
    unfold Y4
    exact Function.update_of_ne (StableHlo.devRef_ne_of_ne fun e => hb (Finset.mem_image.mpr ⟨3, Finset.mem_univ _, e.symm⟩)) _ _

theorem exit1_arr (c : Dev nD) (w : Fin cfg1.W) :
    (aggDat1 (atTc (Y5 m)) c).arrAt w cfg1.N = atTc (Y6 m) c (Pipeline.arrRef spec1 w) := by
  match w with
  | ⟨0, _⟩ => exact ((aggDat1 (atTc (Y5 m)) c).arrAt_in 0 rfl _).trans ((aggDat1_A _ c 0).trans (by
      unfold Y6; exact (Function.update_of_ne (StableHlo.devRef_ne_of_ne (by decide)) _ _).symm))
  | ⟨1, _⟩ => exact ((aggDat1 (atTc (Y5 m)) c).arrAt_in 1 rfl _).trans ((aggDat1_A _ c 1).trans (by
      unfold Y6; exact (Function.update_of_ne (StableHlo.devRef_ne_of_ne (by decide)) _ _).symm))
  | ⟨2, _⟩ => exact ((aggDat1 (atTc (Y5 m)) c).arrAt_in 2 rfl _).trans ((aggDat1_A _ c 2).trans (by
      unfold Y6; exact (Function.update_of_ne (StableHlo.devRef_ne_of_ne (by decide)) _ _).symm))
  | ⟨3, _⟩ => exact (outs_6 m c).symm
theorem exit1_rest (c : Dev nD) : ∀ b, b ∉ Finset.univ.image (Pipeline.arrRef spec1) → atTc (Y6 m) c b = atTc (Y5 m) c b :=
  fun b hb => by
    unfold Y6
    exact Function.update_of_ne (StableHlo.devRef_ne_of_ne fun e => hb (Finset.mem_image.mpr ⟨3, Finset.mem_univ _, e.symm⟩)) _ _

theorem exit2_arr (c : Dev nD) (w : Fin cfg2.W) :
    (aggDat2 (atTc (Y7 m)) c).arrAt w cfg2.N = atTc (Y8 m) c (Pipeline.arrRef spec2 w) := by
  match w with
  | ⟨0, _⟩ => exact ((aggDat2 (atTc (Y7 m)) c).arrAt_in 0 rfl _).trans ((aggDat2_A _ c 0).trans (by
      unfold Y8; exact (Function.update_of_ne (StableHlo.devRef_ne_of_ne (by decide)) _ _).symm))
  | ⟨1, _⟩ => exact ((aggDat2 (atTc (Y7 m)) c).arrAt_in 1 rfl _).trans ((aggDat2_A _ c 1).trans (by
      unfold Y8; exact (Function.update_of_ne (StableHlo.devRef_ne_of_ne (by decide)) _ _).symm))
  | ⟨2, _⟩ => exact ((aggDat2 (atTc (Y7 m)) c).arrAt_in 2 rfl _).trans ((aggDat2_A _ c 2).trans (by
      unfold Y8; exact (Function.update_of_ne (StableHlo.devRef_ne_of_ne (by decide)) _ _).symm))
  | ⟨3, _⟩ => exact (outs_8 m c).symm
theorem exit2_rest (c : Dev nD) : ∀ b, b ∉ Finset.univ.image (Pipeline.arrRef spec2) → atTc (Y8 m) c b = atTc (Y7 m) c b :=
  fun b hb => by
    unfold Y8
    exact Function.update_of_ne (StableHlo.devRef_ne_of_ne fun e => hb (Finset.mem_image.mpr ⟨3, Finset.mem_univ _, e.symm⟩)) _ _

theorem exit3_arr (c : Dev nD) (w : Fin cfg3.W) :
    (aggDat3 (atTc (Y9 m)) c).arrAt w cfg3.N = atTc (Y10 m) c (Pipeline.arrRef spec3 w) := by
  match w with
  | ⟨0, _⟩ => exact ((aggDat3 (atTc (Y9 m)) c).arrAt_in 0 rfl _).trans ((aggDat3_A _ c 0).trans (by
      unfold Y10; exact (Function.update_of_ne (StableHlo.devRef_ne_of_ne (by decide)) _ _).symm))
  | ⟨1, _⟩ => exact ((aggDat3 (atTc (Y9 m)) c).arrAt_in 1 rfl _).trans ((aggDat3_A _ c 1).trans (by
      unfold Y10; exact (Function.update_of_ne (StableHlo.devRef_ne_of_ne (by decide)) _ _).symm))
  | ⟨2, _⟩ => exact ((aggDat3 (atTc (Y9 m)) c).arrAt_in 2 rfl _).trans ((aggDat3_A _ c 2).trans (by
      unfold Y10; exact (Function.update_of_ne (StableHlo.devRef_ne_of_ne (by decide)) _ _).symm))
  | ⟨3, _⟩ => exact (outs_10 m c).symm
theorem exit3_rest (c : Dev nD) : ∀ b, b ∉ Finset.univ.image (Pipeline.arrRef spec3) → atTc (Y10 m) c b = atTc (Y9 m) c b :=
  fun b hb => by
    unfold Y10
    exact Function.update_of_ne (StableHlo.devRef_ne_of_ne fun e => hb (Finset.mem_image.mpr ⟨3, Finset.mem_univ _, e.symm⟩)) _ _

theorem exit4_arr (c : Dev nD) (w : Fin cfg4.W) :
    (aggDat4 (atTc (Y11 m)) c).arrAt w cfg4.N = atTc (Y12 m) c (Pipeline.arrRef spec4 w) := by
  match w with
  | ⟨0, _⟩ => exact ((aggDat4 (atTc (Y11 m)) c).arrAt_in 0 rfl _).trans ((aggDat4_A _ c 0).trans (by
      unfold Y12; exact (Function.update_of_ne (StableHlo.devRef_ne_of_ne (by decide)) _ _).symm))
  | ⟨1, _⟩ => exact ((aggDat4 (atTc (Y11 m)) c).arrAt_in 1 rfl _).trans ((aggDat4_A _ c 1).trans (by
      unfold Y12; exact (Function.update_of_ne (StableHlo.devRef_ne_of_ne (by decide)) _ _).symm))
  | ⟨2, _⟩ => exact ((aggDat4 (atTc (Y11 m)) c).arrAt_in 2 rfl _).trans ((aggDat4_A _ c 2).trans (by
      unfold Y12; exact (Function.update_of_ne (StableHlo.devRef_ne_of_ne (by decide)) _ _).symm))
  | ⟨3, _⟩ => exact (outs_12 m c).symm
theorem exit4_rest (c : Dev nD) : ∀ b, b ∉ Finset.univ.image (Pipeline.arrRef spec4) → atTc (Y12 m) c b = atTc (Y11 m) c b :=
  fun b hb => by
    unfold Y12
    exact Function.update_of_ne (StableHlo.devRef_ne_of_ne fun e => hb (Finset.mem_image.mpr ⟨3, Finset.mem_univ _, e.symm⟩)) _ _

/-! ## What every region's segment record shares -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)

end Cert.Kernel.KRun

end
-- ==== Proof.KBitsRec0.lean ====
/- Layer 0 of the graph convolution as one segment of the program's run. -/
import proofs.«130217_j58256936403151_1_alg».proof.Proof.KBitsFold

set_option maxRecDepth 16384

noncomputable section

namespace Cert.Kernel.KRun

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Layer 0 as a segment of the program: entered with every unscoped buffer at the fold's entry valuation, left with them at the exit
    valuation. Its four arrays are split out of the unscoped buffers on entry and put back on exit; the generator register goes
    into the pipeline's invariant and comes back; nothing is owed; the kernel has no semaphore of its own. -/
def rec0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (aggBody0_obligation (atTc (Y3 m)) c).loose
  hwaits := Pipeline.hwaits_of_owed_zero _ _ _ _ L lv 0 fun _ _ => rfl
  pre c := iprop(StableHlo.held (c : Thread nD τ) (Pipeline.ucRefs τ sig) (Y3 m c) ∗ R c)
  post c := iprop(StableHlo.held (c : Thread nD τ) (Pipeline.ucRefs τ sig) (Y4 m c) ∗ R c)
  X c := iprop(∃ r, prngReg c r)
  Y c := iprop(∃ r, prngReg c r)
  Z c := Pipeline.unscopedRest (Ix := Unit) (Name := ℕ) (U := UR sig nD τ) (Lvl := ℕ) spec0 c (atTc (Y3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (Y3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (Y3 m) c) (atTc (Y4 m) c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.KRun

end
-- ==== Proof.KBitsRec1.lean ====
/- Layer 1 of the graph convolution as one segment of the program's run. -/
import proofs.«130217_j58256936403151_1_alg».proof.Proof.KBitsFold

set_option maxRecDepth 16384

noncomputable section

namespace Cert.Kernel.KRun

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Layer 1 as a segment of the program: entered with every unscoped buffer at the fold's entry valuation, left with them at the exit
    valuation. Its four arrays are split out of the unscoped buffers on entry and put back on exit; the generator register goes
    into the pipeline's invariant and comes back; nothing is owed; the kernel has no semaphore of its own. -/
def rec1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (aggBody1_obligation (atTc (Y5 m)) c).loose
  hwaits := Pipeline.hwaits_of_owed_zero _ _ _ _ L lv 1 fun _ _ => rfl
  pre c := iprop(StableHlo.held (c : Thread nD τ) (Pipeline.ucRefs τ sig) (Y5 m c) ∗ R c)
  post c := iprop(StableHlo.held (c : Thread nD τ) (Pipeline.ucRefs τ sig) (Y6 m c) ∗ R c)
  X c := iprop(∃ r, prngReg c r)
  Y c := iprop(∃ r, prngReg c r)
  Z c := Pipeline.unscopedRest (Ix := Unit) (Name := ℕ) (U := UR sig nD τ) (Lvl := ℕ) spec1 c (atTc (Y5 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (Y5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (Y5 m) c) (atTc (Y6 m) c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.KRun

end
-- ==== Proof.KBitsRec2.lean ====
/- Layer 2 of the graph convolution as one segment of the program's run. -/
import proofs.«130217_j58256936403151_1_alg».proof.Proof.KBitsFold

set_option maxRecDepth 16384

noncomputable section

namespace Cert.Kernel.KRun

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Layer 2 as a segment of the program: entered with every unscoped buffer at the fold's entry valuation, left with them at the exit
    valuation. Its four arrays are split out of the unscoped buffers on entry and put back on exit; the generator register goes
    into the pipeline's invariant and comes back; nothing is owed; the kernel has no semaphore of its own. -/
def rec2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (aggBody2_obligation (atTc (Y7 m)) c).loose
  hwaits := Pipeline.hwaits_of_owed_zero _ _ _ _ L lv 2 fun _ _ => rfl
  pre c := iprop(StableHlo.held (c : Thread nD τ) (Pipeline.ucRefs τ sig) (Y7 m c) ∗ R c)
  post c := iprop(StableHlo.held (c : Thread nD τ) (Pipeline.ucRefs τ sig) (Y8 m c) ∗ R c)
  X c := iprop(∃ r, prngReg c r)
  Y c := iprop(∃ r, prngReg c r)
  Z c := Pipeline.unscopedRest (Ix := Unit) (Name := ℕ) (U := UR sig nD τ) (Lvl := ℕ) spec2 c (atTc (Y7 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (Y7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (Y7 m) c) (atTc (Y8 m) c) ((pdats m 2 c).arrAt · cfg2.N) (exit2_arr m c) (exit2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.KRun

end
-- ==== Proof.KBitsRec3.lean ====
/- Layer 3 of the graph convolution as one segment of the program's run. -/
import proofs.«130217_j58256936403151_1_alg».proof.Proof.KBitsFold

set_option maxRecDepth 16384

noncomputable section

namespace Cert.Kernel.KRun

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Layer 3 as a segment of the program: entered with every unscoped buffer at the fold's entry valuation, left with them at the exit
    valuation. Its four arrays are split out of the unscoped buffers on entry and put back on exit; the generator register goes
    into the pipeline's invariant and comes back; nothing is owed; the kernel has no semaphore of its own. -/
def rec3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (aggBody3_obligation (atTc (Y9 m)) c).loose
  hwaits := Pipeline.hwaits_of_owed_zero _ _ _ _ L lv 3 fun _ _ => rfl
  pre c := iprop(StableHlo.held (c : Thread nD τ) (Pipeline.ucRefs τ sig) (Y9 m c) ∗ R c)
  post c := iprop(StableHlo.held (c : Thread nD τ) (Pipeline.ucRefs τ sig) (Y10 m c) ∗ R c)
  X c := iprop(∃ r, prngReg c r)
  Y c := iprop(∃ r, prngReg c r)
  Z c := Pipeline.unscopedRest (Ix := Unit) (Name := ℕ) (U := UR sig nD τ) (Lvl := ℕ) spec3 c (atTc (Y9 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (Y9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (Y9 m) c) (atTc (Y10 m) c) ((pdats m 3 c).arrAt · cfg3.N) (exit3_arr m c) (exit3_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.KRun

end
-- ==== Proof.KBitsRec4.lean ====
/- Layer 4 of the graph convolution as one segment of the program's run. -/
import proofs.«130217_j58256936403151_1_alg».proof.Proof.KBitsFold

set_option maxRecDepth 16384

noncomputable section

namespace Cert.Kernel.KRun

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Layer 4 as a segment of the program: entered with every unscoped buffer at the fold's entry valuation, left with them at the exit
    valuation. Its four arrays are split out of the unscoped buffers on entry and put back on exit; the generator register goes
    into the pipeline's invariant and comes back; nothing is owed; the kernel has no semaphore of its own. -/
def rec4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (aggBody4_obligation (atTc (Y11 m)) c).loose
  hwaits := Pipeline.hwaits_of_owed_zero _ _ _ _ L lv 4 fun _ _ => rfl
  pre c := iprop(StableHlo.held (c : Thread nD τ) (Pipeline.ucRefs τ sig) (Y11 m c) ∗ R c)
  post c := iprop(StableHlo.held (c : Thread nD τ) (Pipeline.ucRefs τ sig) (Y12 m c) ∗ R c)
  X c := iprop(∃ r, prngReg c r)
  Y c := iprop(∃ r, prngReg c r)
  Z c := Pipeline.unscopedRest (Ix := Unit) (Name := ℕ) (U := UR sig nD τ) (Lvl := ℕ) spec4 c (atTc (Y11 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (Y11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (Y11 m) c) (atTc (Y12 m) c) ((pdats m 4 c).arrAt · cfg4.N) (exit4_arr m c) (exit4_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.KRun

end
-- ==== Proof.KBitsRec5.lean ====
/- The Gram product as one segment of the program's run. Its two input windows stage blocks of one array, so on entry that array's
   ownership is cut into two halves of the full share, one per window, and on exit the halves — both still at the array's contents,
   the product never writing it — are joined again. -/
import proofs.«130217_j58256936403151_1_alg».proof.Proof.KBitsFold

set_option maxRecDepth 16384

noncomputable section

namespace Cert.Kernel.KRun

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The product's arrays, window by window: each is a whole buffer, held at the window's share. -/
theorem gram_arrays (c : Dev nD) (Fw : (w : Fin cfg5.W) → Buf (Elt F) ((cfg5.win w).arr.view.loc (c : Thread nD τ))) :
    ((gramDat5 (atTc (Y13 m)) c).arrays Fw : sProp 𝕄)
      = iprop((((c : Thread nD τ).loc (Pipeline.arrRef spec5 0)) ↦{(fullShare : PosShare TreeShare).left} Fw 0)
        ∗ (((c : Thread nD τ).loc (Pipeline.arrRef spec5 1)) ↦{(fullShare : PosShare TreeShare).right} Fw 1)
        ∗ (((c : Thread nD τ).loc (Pipeline.arrRef spec5 2)) ↦{fullShare} Fw 2)) := by
  have h : ((gramDat5 (atTc (Y13 m)) c).arrays Fw : sProp 𝕄)
      = bigSep Finset.univ fun w : Fin cfg5.W => ((((c : Thread nD τ).loc (Pipeline.arrRef spec5 w)) ↦{(gramDat5 (atTc (Y13 m)) c).share w} Fw w : sProp 𝕄)) := by
    unfold Dat.arrays
    exact bigSep_congr fun w _ => by rw [(arr_whole5 w).set_eq_univ]
  rw [h, bigSep_W5]
  rfl

/-- The distinct buffers behind the product's arrays: the last layer's output and the product's own. -/
theorem gram_arrBufs (c : Dev nD) (W : (b : Ref sig .tc) → Buf (Elt F) ((c : Thread nD τ).loc b)) :
    (Pipeline.arrBufs (Ix := Unit) (Name := ℕ) (U := UR sig nD τ) (Lvl := ℕ) spec5 c W : sProp 𝕄)
      = iprop((((c : Thread nD τ).loc main_v66) ↦{fullShare} W main_v66) ∗ (((c : Thread nD τ).loc main_v67) ↦{fullShare} W main_v67)) := by
  unfold Pipeline.arrBufs
  rw [show Finset.univ.image (Pipeline.arrRef spec5) = {main_v66, main_v67} from by decide, bigSep_insert (by decide), bigSep_singleton]
  rfl

/-- On exit the inputs' array is as entered and the output's holds what the pipeline leaves; no other buffer has changed. -/
theorem exit5_in (c : Dev nD) : atTc (Y14 m) c main_v66 = atTc (Y13 m) c main_v66 := by
  unfold Y14; exact Function.update_of_ne (StableHlo.devRef_ne_of_ne (by decide)) _ _
theorem exit5_out (c : Dev nD) : atTc (Y14 m) c main_v67 = (gramDat5 (atTc (Y13 m)) c).arrAt 2 cfg5.N := outs_14 m c
theorem exit5_rest (c : Dev nD) : ∀ b, b ∉ Finset.univ.image (Pipeline.arrRef spec5) → atTc (Y14 m) c b = atTc (Y13 m) c b :=
  fun b hb => by
    unfold Y14
    exact Function.update_of_ne (StableHlo.devRef_ne_of_ne fun e => hb (Finset.mem_image.mpr ⟨2, Finset.mem_univ _, e.symm⟩)) _ _

/-- ENTRY: the core's unscoped buffers are the product's arrays at their entry contents — the shared array in two halves — and the rest. -/
theorem gram_entry (c : Dev nD) :
    (unscopedBufs (Ix := Unit) (Name := ℕ) (U := UR sig nD τ) (Lvl := ℕ) c (atTc (Y13 m) c) : sProp 𝕄)
      ⊢ iprop((gramDat5 (atTc (Y13 m)) c).arrays ((gramDat5 (atTc (Y13 m)) c).arrAt · 0)
          ∗ Pipeline.unscopedRest (Ix := Unit) (Name := ℕ) (U := UR sig nD τ) (Lvl := ℕ) spec5 c (atTc (Y13 m) c)) := by
  have hs : (unscopedBufs (Ix := Unit) (Name := ℕ) (U := UR sig nD τ) (Lvl := ℕ) c (atTc (Y13 m) c) : sProp 𝕄)
      = iprop(Pipeline.arrBufs spec5 c (atTc (Y13 m) c) ∗ Pipeline.unscopedRest spec5 c (atTc (Y13 m) c)) :=
    Pipeline.unscopedBufs_split₀ cfgs 5 winFacts₀5.arr_unscoped c (atTc (Y13 m) c)
  rw [hs, gram_arrays, gram_arrBufs]
  iintro ⟨⟨H66, H67⟩, Hrest⟩
  ihave H := (pointsTo_share (PosShare.mem_left_op_right fullShare)).1 $$ H66
  icases H with ⟨Hl, Hr⟩
  isplitr [Hrest]
  · isplitl [Hl]; · iexact Hl
    isplitl [Hr]; · iexact Hr
    iexact H67
  iexact Hrest

/-- The product's arrays at contents that agree with a valuation `W'` — both halves of the shared array at `W'`'s contents of it —
    are the distinct buffers behind them at `W'`: the two halves join into the full share. -/
theorem gram_join (c : Dev nD) (Fw : (w : Fin cfg5.W) → Buf (Elt F) ((cfg5.win w).arr.view.loc (c : Thread nD τ)))
    (W' : (b : Ref sig .tc) → Buf (Elt F) ((c : Thread nD τ).loc b))
    (h0 : Fw 0 = W' main_v66) (h1 : Fw 1 = W' main_v66) (h2 : Fw 2 = W' main_v67) :
    ((gramDat5 (atTc (Y13 m)) c).arrays Fw : sProp 𝕄)
      ⊢ (Pipeline.arrBufs (Ix := Unit) (Name := ℕ) (U := UR sig nD τ) (Lvl := ℕ) spec5 c W' : sProp 𝕄) := by
  rw [gram_arrays, gram_arrBufs, h0, h1, h2]
  iintro ⟨Hl, Hr, H67⟩
  isplitl [Hl Hr]
  · iapply (pointsTo_share (PosShare.mem_left_op_right fullShare)).2
    isplitl [Hl]; · iexact Hl
    iexact Hr
  iexact H67

/-- EXIT: the product's arrays at what the pipeline leaves, and the rest as entered, are the core's unscoped buffers at the exit valuation. -/
theorem gram_exit (c : Dev nD) :
    iprop((gramDat5 (atTc (Y13 m)) c).arrays ((gramDat5 (atTc (Y13 m)) c).arrAt · cfg5.N)
        ∗ Pipeline.unscopedRest (Ix := Unit) (Name := ℕ) (U := UR sig nD τ) (Lvl := ℕ) spec5 c (atTc (Y13 m) c))
      ⊢ (unscopedBufs (Ix := Unit) (Name := ℕ) (U := UR sig nD τ) (Lvl := ℕ) c (atTc (Y14 m) c) : sProp 𝕄) := by
  have hR : (Pipeline.unscopedRest (Ix := Unit) (Name := ℕ) (U := UR sig nD τ) (Lvl := ℕ) spec5 c (atTc (Y13 m) c) : sProp 𝕄)
      = Pipeline.unscopedRest spec5 c (atTc (Y14 m) c) := by
    unfold Pipeline.unscopedRest
    exact bigSep_congr fun b hb => by rw [exit5_rest m c b (Finset.mem_sdiff.mp hb).2]
  have h0 : (gramDat5 (atTc (Y13 m)) c).arrAt 0 cfg5.N = atTc (Y14 m) c main_v66 :=
    ((gramDat5 (atTc (Y13 m)) c).arrAt_in 0 rfl _).trans ((gramDat5_A _ c 0).trans (exit5_in m c).symm)
  have h1 : (gramDat5 (atTc (Y13 m)) c).arrAt 1 cfg5.N = atTc (Y14 m) c main_v66 :=
    ((gramDat5 (atTc (Y13 m)) c).arrAt_in 1 rfl _).trans ((gramDat5_A _ c 1).trans (exit5_in m c).symm)
  have h2 : (gramDat5 (atTc (Y13 m)) c).arrAt 2 cfg5.N = atTc (Y14 m) c main_v67 := (exit5_out m c).symm
  have hs : (unscopedBufs (Ix := Unit) (Name := ℕ) (U := UR sig nD τ) (Lvl := ℕ) c (atTc (Y14 m) c) : sProp 𝕄)
      = iprop(Pipeline.arrBufs spec5 c (atTc (Y14 m) c) ∗ Pipeline.unscopedRest spec5 c (atTc (Y14 m) c)) :=
    Pipeline.unscopedBufs_split₀ cfgs 5 winFacts₀5.arr_unscoped c (atTc (Y14 m) c)
  rw [hs, hR]
  exact sep_mono (gram_join m c _ (atTc (Y14 m) c) h0 h1 h2) .rfl

set_option backward.isDefEq.respectTransparency.types false in
/-- The Gram product as a segment of the program: entered with every unscoped buffer at the fold's entry valuation, left with them at
    the exit valuation; the generator register goes into the pipeline's invariant and comes back; nothing is owed; no semaphore of its own. -/
def rec5 : Pipeline.RegionSeg (pcfgs (F := F)) adm (pdats m) () defs₀ 𝒱₀ L lv 5 where
  win := winFacts₀5
  block_pos := block_pos5
  stage_whole := stage_whole5
  K := PEmpty
  osem k := k.elim
  ho := Pipeline.OwnSemFacts.none _
  hbody c := (gramBody5_obligation (atTc (Y13 m)) c).loose
  hwaits := Pipeline.hwaits_of_owed_zero _ _ _ _ L lv 5 fun _ _ => rfl
  pre c := iprop(StableHlo.held (c : Thread nD τ) (Pipeline.ucRefs τ sig) (Y13 m c) ∗ R c)
  post c := iprop(StableHlo.held (c : Thread nD τ) (Pipeline.ucRefs τ sig) (Y14 m c) ∗ R c)
  X c := iprop(∃ r, prngReg c r)
  Y c := iprop(∃ r, prngReg c r)
  Z c := Pipeline.unscopedRest (Ix := Unit) (Name := ℕ) (U := UR sig nD τ) (Lvl := ℕ) spec5 c (atTc (Y13 m) c)
  hentry c := by
    rw [Pipeline.ownSems0_none]
    have hsplit := gram_entry m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := gram_exit m c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.KRun

end
-- ==== Proof.KBitsMain.lean ====
/- The word-level program's run: the host stretches and the six kernel regions composed in order. Every weakly fair execution
   terminates without a fault and the twelve arguments end as launched. -/
import proofs.«130217_j58256936403151_1_alg».proof.Proof.KBitsRec0
import proofs.«130217_j58256936403151_1_alg».proof.Proof.KBitsRec1
import proofs.«130217_j58256936403151_1_alg».proof.Proof.KBitsRec2
import proofs.«130217_j58256936403151_1_alg».proof.Proof.KBitsRec3
import proofs.«130217_j58256936403151_1_alg».proof.Proof.KBitsRec4
import proofs.«130217_j58256936403151_1_alg».proof.Proof.KBitsRec5

set_option maxRecDepth 16384

noncomputable section

namespace Cert.Kernel.KRun

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- The launch's ghost element is the pipeline library's, and no core holds a ghost resource of its own. -/
theorem launch_elem : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals every core, less its buffers, makes what rides beside them: the generator register and the dues at nothing. -/
theorem launch_rest : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

/-- The launch's first thread state: the unscoped buffers held at the launch memory, beside any rest `E0` that what the launch deals
    every core, less its buffers, makes on all cores at once. -/
theorem launch_init_of (E0 : Dev nD → sProp 𝕄)
    (hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
      ⊢ (|={Set.univ}=> bigSep Finset.univ E0 : sProp 𝕄)) :
    iprop((bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ fun c : Dev nD => iprop(StableHlo.held (c : Thread nD τ) (Pipeline.ucRefs τ sig) (Gen.V0 m c) ∗ E0 c) : sProp 𝕄) := by
  have hsplit : (bigSep Finset.univ fun c : Dev nD => iprop(unscopedBufs c (fun b => m ((c.tc : Thread nD τ).loc b)) ∗ unscopedSems0 c
        ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (iprop((bigSep Finset.univ fun c : Dev nD => StableHlo.held (c : Thread nD τ) (Pipeline.ucRefs τ sig) (Gen.V0 m c))
          ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
          : sProp 𝕄) := by
    rw [← bigSep_sep']
    exact bigSep_mono fun c _ => by rw [← Pipeline.unscopedBufs_held (Ix := Unit) (Name := ℕ) (U := UR sig nD τ) (Lvl := ℕ) c (Gen.V0 m c)]; exact BI.Entails.refl _
  iintro ⟨H, Hla⟩
  ihave H' := hsplit $$ H
  icases H' with ⟨Hh, Hr⟩
  imod hE0 $$ [Hr Hla] with HE
  · isplitl [Hr]; · iexact Hr
    iexact Hla
  imodintro
  rw [bigSep_sep']
  isplitl [Hh]; · iexact Hh
  iexact HE

theorem hpre0 (c : Dev nD) : iprop(StableHlo.held (c : Thread nD τ) (Pipeline.ucRefs τ sig) (Gen.V3 m c) ∗ R c) ⊢ (rec0 m).pre c := by
  rw [V3_eq]; exact .rfl
theorem hpost0 (c : Dev nD) : (rec0 m).post c ⊢ iprop(StableHlo.held (c : Thread nD τ) (Pipeline.ucRefs τ sig) (Gen.V4 m (outs m) c) ∗ R c) := by
  rw [V4_eq]; exact .rfl

theorem hpre1 (c : Dev nD) : iprop(StableHlo.held (c : Thread nD τ) (Pipeline.ucRefs τ sig) (Gen.V5 m (outs m) c) ∗ R c) ⊢ (rec1 m).pre c := by
  rw [V5_eq]; exact .rfl
theorem hpost1 (c : Dev nD) : (rec1 m).post c ⊢ iprop(StableHlo.held (c : Thread nD τ) (Pipeline.ucRefs τ sig) (Gen.V6 m (outs m) c) ∗ R c) := by
  rw [V6_eq]; exact .rfl

theorem hpre2 (c : Dev nD) : iprop(StableHlo.held (c : Thread nD τ) (Pipeline.ucRefs τ sig) (Gen.V7 m (outs m) c) ∗ R c) ⊢ (rec2 m).pre c := by
  rw [V7_eq]; exact .rfl
theorem hpost2 (c : Dev nD) : (rec2 m).post c ⊢ iprop(StableHlo.held (c : Thread nD τ) (Pipeline.ucRefs τ sig) (Gen.V8 m (outs m) c) ∗ R c) := by
  rw [V8_eq]; exact .rfl

theorem hpre3 (c : Dev nD) : iprop(StableHlo.held (c : Thread nD τ) (Pipeline.ucRefs τ sig) (Gen.V9 m (outs m) c) ∗ R c) ⊢ (rec3 m).pre c := by
  rw [V9_eq]; exact .rfl
theorem hpost3 (c : Dev nD) : (rec3 m).post c ⊢ iprop(StableHlo.held (c : Thread nD τ) (Pipeline.ucRefs τ sig) (Gen.V10 m (outs m) c) ∗ R c) := by
  rw [V10_eq]; exact .rfl

theorem hpre4 (c : Dev nD) : iprop(StableHlo.held (c : Thread nD τ) (Pipeline.ucRefs τ sig) (Gen.V11 m (outs m) c) ∗ R c) ⊢ (rec4 m).pre c := by
  rw [V11_eq]; exact .rfl
theorem hpost4 (c : Dev nD) : (rec4 m).post c ⊢ iprop(StableHlo.held (c : Thread nD τ) (Pipeline.ucRefs τ sig) (Gen.V12 m (outs m) c) ∗ R c) := by
  rw [V12_eq]; exact .rfl

theorem hpre5 (c : Dev nD) : iprop(StableHlo.held (c : Thread nD τ) (Pipeline.ucRefs τ sig) (Gen.V13 m (outs m) c) ∗ R c) ⊢ (rec5 m).pre c := by
  rw [V13_eq]; exact .rfl
theorem hpost5 (c : Dev nD) : (rec5 m).post c ⊢ iprop(StableHlo.held (c : Thread nD τ) (Pipeline.ucRefs τ sig) (Gen.V14 m (outs m) c) ∗ R c) := by
  rw [V14_eq]; exact .rfl

set_option backward.isDefEq.respectTransparency.types false in
/-- THE FRAME at any float model: every weakly fair execution of the program terminates without a fault and the twelve argument arrays end
    as launched. The host side, the chaining and the read-back are the generated conditional frame's; the six regions are the records above. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond m emb₁ () 𝒱₀ L lv (fun _ _ => rfl) ρ (outs m) (pdats m) 0 (fun _ => iprop(emp))
    (initOf (Pipeline.cells cfgs cellOf_inj) (Pipeline.launchToks cfgs cellOf_inj)) launch_elem
    (fun _ c => R c) (launch_rest ρ) (fun c => by iintro ⟨-, HO⟩; iexact HO)
    (rec0 m) (hpre0 m) (hpost0 m) (rec1 m) (hpre1 m) (hpost1 m) (rec2 m) (hpre2 m) (hpost2 m)
    (rec3 m) (hpre3 m) (hpost3 m) (rec4 m) (hpre4 m) (hpost4 m) (rec5 m) (hpre5 m) (hpost5 m)

end Cert.Kernel.KRun

end
-- ==== Proof.LibScatterRows.lean ====
/-
  A scatter of whole rows, read through its target.

  `stablehlo.scatter` with one scatter index per update row, the row axis inserted and the column axis a window,
  adds row `e` of the updates onto the operand's row whose number is the scatter index `idx[e, 0]`, read as a signed
  integer and NOT clamped: an update whose row number falls outside the operand is dropped.  Hence every update
  entry that lands on operand row `n` has `idx[e, 0] = n` as an integer.
-/
import Idealize.ShloMosaic.Lib.ValueIdx
import Idealize.ShloMosaic.PureOps.Ideal

noncomputable section

namespace Cert.ScatterRows

open Idealize.ShloMosaic Idealize.ShloMosaic.ValueIdx

/-- The dimension numbers of a scatter of whole rows onto an N×C operand, one scatter index per update row. -/
def rowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- On the row axis the window starts at the update row's scatter index, read signed. -/
theorem start_row {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowDims N R C wf).start j idx (0 : Fin 2) = (idx (ix2 (j 0) (0 : Fin 1))).toInt := by
  unfold ScatterDims.start
  rw [dif_pos (show (0 : Fin 2) ∈ (rowDims N R C wf).scatterDimsToOperandDims from List.mem_singleton.mpr rfl)]
  have hsi : (rowDims N R C wf).siIdx j ⟨List.idxOf (0 : Fin 2) (rowDims N R C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The row axis is inserted: the window adds nothing on it. -/
theorem window_row {N R C : Nat} (wf : ScatterDims.WF ⟨2, ![N, C]⟩ ⟨2, ![R, 1]⟩ ⟨2, ![R, C]⟩ [1] [0] [0] 1)
    (j : (⟨2, ![R, C]⟩ : Shape).Idx) : (rowDims N R C wf).window j (0 : Fin 2) = 0 := by
  unfold ScatterDims.window
  rw [dif_neg]
  intro h
  have : (0 : Fin 2) ∉ (rowDims N R C wf).insertedWindowDims := by
    simpa [ScatterDims.sKept, Shape.kept, List.mem_filter, List.mem_finRange] using h
  exact this (List.mem_singleton.mpr rfl)

/-- An update entry that lands on operand row `i 0` has that row number as its scatter index. -/
theorem target_row {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx)
    (h : (rowDims N R C wf).resultIdx? j idx = some i) :
    (idx (ix2 (j 0) (0 : Fin 1))).toInt = ((i 0).val : Int) := by
  unfold ScatterDims.resultIdx? at h
  split at h
  · rename_i hall
    have hi := Option.some.inj h
    have h0 := (hall 0).1
    have hv : (i 0).val = ((rowDims N R C wf).start j idx 0 + ((rowDims N R C wf).window j 0 : Int)).toNat := by
      rw [← hi]
    rw [start_row, window_row] at hv h0
    omega
  · exact absurd h (by simp)

end Cert.ScatterRows

end
-- ==== Proof.LibScatterSum.lean ====
/-
  A scatter-add read at an entry, at the exact values.

  A `stablehlo.scatter` with an `add` body and one scatter index per update row adds update row `e` onto the operand's
  row whose number is the scatter index `idx[e, 0]`, read as a signed integer and not clamped; an update whose row
  number falls outside the operand is dropped.  Over the extended reals the result's entry `(p, k)` is therefore the
  operand's entry plus the sum, over the update rows `e` whose scatter index is `p`, of the update's entry `(e, k)`.
  The same holds for a scatter of single entries onto a vector.
-/
import Idealize.ShloMosaic.Lib.ValueIdx
import Idealize.ShloMosaic.PureOps.Ideal
import proofs.«130217_j58256936403151_1_alg».proof.Proof.LibScatterRows

noncomputable section

namespace Cert.ScatterSum

open Idealize.ShloMosaic Idealize.ShloMosaic.ValueIdx Cert.ScatterRows

/-! ## Whole rows onto an N×C operand -/

/-- The column axis carries no scatter index: the window starts at column zero. -/
theorem start_col {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowDims N R C wf).start j idx (1 : Fin 2) = 0 := by
  unfold ScatterDims.start
  rw [dif_neg]
  intro h
  exact Nat.one_ne_zero (congrArg Fin.val (List.mem_singleton.mp h))

/-- The column axis is the window axis: the window coordinate is the update's own column. -/
theorem window_col {N R C : Nat} (wf : ScatterDims.WF ⟨2, ![N, C]⟩ ⟨2, ![R, 1]⟩ ⟨2, ![R, C]⟩ [1] [0] [0] 1)
    (j : (⟨2, ![R, C]⟩ : Shape).Idx) : (rowDims N R C wf).window j (1 : Fin 2) = (j 1).val := by
  unfold ScatterDims.window
  rw [dif_pos (show (1 : Fin 2) ∈ (rowDims N R C wf).sKept by
    simp [ScatterDims.sKept, Shape.kept, List.mem_filter, List.mem_finRange, rowDims])]
  rfl

/-- An update entry lands on operand entry `i` exactly when its row's scatter index is `i`'s row and its column is
    `i`'s column. -/
theorem lands_iff {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx) :
    (rowDims N R C wf).resultIdx? j idx = some i ↔
      ((idx (ix2 (j 0) (0 : Fin 1))).toInt = ((i 0).val : Int) ∧ (j 1).val = (i 1).val) := by
  have hi0 : (i 0).val < N := (i 0).isLt
  have hi1 : (i 1).val < C := (i 1).isLt
  have hj1 : (j 1).val < C := (j 1).isLt
  unfold ScatterDims.resultIdx?
  constructor
  · intro h
    split at h
    · rename_i hall
      have hi := Option.some.inj h
      have h0 := (hall 0).1
      have h1 := (hall 1).1
      have e0 : (i 0).val = ((rowDims N R C wf).start j idx 0 + ((rowDims N R C wf).window j 0 : Int)).toNat := by
        rw [← hi]
      have e1 : (i 1).val = ((rowDims N R C wf).start j idx 1 + ((rowDims N R C wf).window j 1 : Int)).toNat := by
        rw [← hi]
      rw [start_row, window_row] at e0 h0
      rw [start_col, window_col] at e1 h1
      constructor <;> omega
    · exact absurd h (by simp)
  · rintro ⟨h0, h1⟩
    have hall : ∀ a, 0 ≤ (rowDims N R C wf).start j idx a + ((rowDims N R C wf).window j a : Int)
        ∧ (rowDims N R C wf).start j idx a + ((rowDims N R C wf).window j a : Int) < ((⟨2, ![N, C]⟩ : Shape).size a : Int) := by
      refine Fin.forall_fin_two.mpr ⟨?_, ?_⟩
      · rw [start_row, window_row]
        show _ ∧ _ < ((N : Nat) : Int)
        omega
      · rw [start_col, window_col]
        show _ ∧ _ < ((C : Nat) : Int)
        omega
    rw [dif_pos hall]
    congr 1
    funext a
    refine Fin.ext ?_
    revert a
    refine Fin.forall_fin_two.mpr ⟨?_, ?_⟩
    · show ((rowDims N R C wf).start j idx 0 + ((rowDims N R C wf).window j 0 : Int)).toNat = (i 0).val
      rw [start_row, window_row]; omega
    · show ((rowDims N R C wf).start j idx 1 + ((rowDims N R C wf).window j 1 : Int)).toNat = (i 1).val
      rw [start_col, window_col]; omega

/-- Entry `(p, k)` of a scatter-add of whole rows: the operand's entry plus the sum over the update rows whose
    scatter index is `p` of their entries in column `k`. -/
theorem scatterAdd_rows_apply {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (p : Fin N) (k : Fin C) :
    Ideal.hostScatterAdd (rowDims N R C wf) x idx upd (ix2 p k)
      = x (ix2 p k) + ∑ e : Fin R, if (idx (ix2 e (0 : Fin 1))).toInt = (p.val : Int) then upd (ix2 e k) else 0 := by
  unfold Ideal.hostScatterAdd
  congr 1
  rw [Finset.sum_filter, sum_idx2]
  refine Finset.sum_congr rfl fun e _ => ?_
  have hpt : ∀ b : Fin C, (if (rowDims N R C wf).resultIdx? (ix2 e b) idx = some (ix2 p k) then upd (ix2 e b) else 0)
      = if b = k then (if (idx (ix2 e (0 : Fin 1))).toInt = (p.val : Int) then upd (ix2 e k) else 0) else 0 := by
    intro b
    by_cases hb : b = k
    · subst hb
      rw [if_pos rfl]
      refine if_congr ?_ rfl rfl
      rw [lands_iff]
      exact ⟨fun h => h.1, fun h => ⟨h, rfl⟩⟩
    · rw [if_neg hb, if_neg]
      rw [lands_iff]
      exact fun h => hb (Fin.ext h.2)
  rw [Finset.sum_congr rfl fun b _ => hpt b, Finset.sum_ite_eq' Finset.univ k, if_pos (Finset.mem_univ k)]

/-! ## Single entries onto a length-N vector -/

/-- The dimension numbers of a scatter of single entries onto a length-N vector, one scatter index per update entry. -/
def vecDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The window of an update entry starts at its scatter index, read signed. -/
theorem start_entry {N R w : Nat} (wf : ScatterDims.WF ⟨1, ![N]⟩ ⟨2, ![R, 1]⟩ ⟨1, ![R]⟩ [] [0] [0] 1)
    (idx : IVec ⟨2, ![R, 1]⟩ w) (j : (⟨1, ![R]⟩ : Shape).Idx) :
    (vecDims N R wf).start j idx (0 : Fin 1) = (idx (ix2 (j 0) (0 : Fin 1))).toInt := by
  unfold ScatterDims.start
  rw [dif_pos (show (0 : Fin 1) ∈ (vecDims N R wf).scatterDimsToOperandDims from List.mem_singleton.mpr rfl)]
  have hsi : (vecDims N R wf).siIdx j ⟨List.idxOf (0 : Fin 1) (vecDims N R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The one axis is inserted: the window adds nothing. -/
theorem window_entry {N R : Nat} (wf : ScatterDims.WF ⟨1, ![N]⟩ ⟨2, ![R, 1]⟩ ⟨1, ![R]⟩ [] [0] [0] 1)
    (j : (⟨1, ![R]⟩ : Shape).Idx) : (vecDims N R wf).window j (0 : Fin 1) = 0 := by
  unfold ScatterDims.window
  rw [dif_neg]
  intro h
  have : (0 : Fin 1) ∉ (vecDims N R wf).insertedWindowDims := by
    simpa [ScatterDims.sKept, Shape.kept, List.mem_filter, List.mem_finRange] using h
  exact this (List.mem_singleton.mpr rfl)

/-- An update entry lands on operand entry `i` exactly when its scatter index is `i`. -/
theorem lands_entry_iff {N R w : Nat} (wf : ScatterDims.WF ⟨1, ![N]⟩ ⟨2, ![R, 1]⟩ ⟨1, ![R]⟩ [] [0] [0] 1)
    (idx : IVec ⟨2, ![R, 1]⟩ w) (j : (⟨1, ![R]⟩ : Shape).Idx) (i : (⟨1, ![N]⟩ : Shape).Idx) :
    (vecDims N R wf).resultIdx? j idx = some i ↔ (idx (ix2 (j 0) (0 : Fin 1))).toInt = ((i 0).val : Int) := by
  have hi0 : (i 0).val < N := (i 0).isLt
  unfold ScatterDims.resultIdx?
  constructor
  · intro h
    split at h
    · rename_i hall
      have hi := Option.some.inj h
      have h0 := (hall 0).1
      have e0 : (i 0).val = ((vecDims N R wf).start j idx 0 + ((vecDims N R wf).window j 0 : Int)).toNat := by
        rw [← hi]
      rw [start_entry, window_entry] at e0 h0
      omega
    · exact absurd h (by simp)
  · intro h0
    have hall : ∀ a, 0 ≤ (vecDims N R wf).start j idx a + ((vecDims N R wf).window j a : Int)
        ∧ (vecDims N R wf).start j idx a + ((vecDims N R wf).window j a : Int) < ((⟨1, ![N]⟩ : Shape).size a : Int) := by
      intro a
      have ha : a = 0 := Subsingleton.elim _ _
      subst ha
      rw [start_entry, window_entry]
      show _ ∧ _ < ((N : Nat) : Int)
      omega
    rw [dif_pos hall]
    congr 1
    funext a
    have ha : a = 0 := Subsingleton.elim _ _
    subst ha
    refine Fin.ext ?_
    show ((vecDims N R wf).start j idx 0 + ((vecDims N R wf).window j 0 : Int)).toNat = (i 0).val
    rw [start_entry, window_entry]; omega

/-- Entry `p` of a scatter-add of single entries: the operand's entry plus the sum of the updates whose scatter
    index is `p`. -/
theorem scatterAdd_vec_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (p : Fin N) :
    Ideal.hostScatterAdd (vecDims N R wf) x idx upd (ix1 p)
      = x (ix1 p) + ∑ e : Fin R, if (idx (ix2 e (0 : Fin 1))).toInt = (p.val : Int) then upd (ix1 e) else 0 := by
  unfold Ideal.hostScatterAdd
  congr 1
  rw [Finset.sum_filter]
  have hre : ∀ f : (⟨1, ![R]⟩ : Shape).Idx → EReal, ∑ j, f j = ∑ e : Fin R, f (ix1 e) := fun f =>
    (Equiv.sum_comp (⟨fun e => ix1 e, fun j => j 0, fun _ => rfl, fun j => (eq_ix1 j).symm⟩ : Fin R ≃ (⟨1, ![R]⟩ : Shape).Idx) f).symm
  rw [hre]
  refine Finset.sum_congr rfl fun e _ => ?_
  refine if_congr ?_ rfl rfl
  exact lands_entry_iff wf idx (ix1 e) (ix1 p)

end Cert.ScatterSum

end
-- ==== Proof.LibGatherRows.lean ====
/-
  A gather of whole rows, read at an entry.

  `stablehlo.gather` with one start index per result row, the row axis collapsed and the column axis kept whole,
  copies rows of an N×C table: row `r` of the result is the table's row whose number is the start index `idx[r, 0]`,
  read as a signed integer and clamped into `[0, N − 1]` (a gather clamps every start index so that its slice fits).
-/
import Idealize.ShloMosaic.Lib.ValueIdx

noncomputable section

namespace Cert.GatherRows

open Idealize.ShloMosaic Idealize.ShloMosaic.ValueIdx

variable {α : Type}

/-- The dimension numbers of a gather of whole rows of an N×C table, one start index per result row. -/
def rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row that result row `r` copies: its start index read signed and clamped into `[0, N − 1]`. -/
def clampRow (N : Nat) (hN : 0 < N) {R w : Nat} (idx : IVec ⟨2, ![R, 1]⟩ w) (r : Fin R) : Fin N :=
  ⟨min (idx (ix2 r (0 : Fin 1))).toInt.toNat (N - 1), by omega⟩

/-- The row coordinate a gather of rows reads: the clamped start index (no batching, the row axis collapsed). -/
theorem operandIdx_row {N R C w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (k : Fin C) :
    ((rowDims N R C wf).operandIdx (ix2 r k) idx (0 : Fin 2)).val = (clampRow N hN idx r).val := by
  show (rowDims N R C wf).start (ix2 r k) idx 0 + (rowDims N R C wf).batchCoord (ix2 r k) 0
    + (rowDims N R C wf).offCoord (ix2 r k) 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 2) ∈ (rowDims N R C wf).startIndexMap from List.mem_singleton.mpr rfl)]
  have hsi : (rowDims N R C wf).siIdx (ix2 r k) ⟨List.idxOf (0 : Fin 2) (rowDims N R C wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- The column coordinate a gather of rows reads: the result's own column (no start index on that axis). -/
theorem operandIdx_col {N R C w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (k : Fin C) :
    ((rowDims N R C wf).operandIdx (ix2 r k) idx (1 : Fin 2)).val = k.val := by
  show (rowDims N R C wf).start (ix2 r k) idx 1 + (rowDims N R C wf).batchCoord (ix2 r k) 1
    + (rowDims N R C wf).offCoord (ix2 r k) 1 = _
  rw [GatherDims.batchCoord_eq_zero _ _ _ List.not_mem_nil]
  unfold GatherDims.start
  rw [dif_neg (show (1 : Fin 2) ∉ (rowDims N R C wf).startIndexMap from
    fun h => Nat.one_ne_zero (congrArg Fin.val (List.mem_singleton.mp h)))]
  simp only [Nat.add_zero, Nat.zero_add]
  unfold GatherDims.offCoord
  rw [dif_pos (show (1 : Fin 2) ∈ (rowDims N R C wf).sKept from
    (GatherDims.mem_sKept _ _).mpr ⟨fun h => Nat.one_ne_zero (congrArg Fin.val (List.mem_singleton.mp h)), List.not_mem_nil⟩)]
  rfl

/-- Entry `(r, k)` of a gather of rows is entry `k` of the table's row `clampRow idx r`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowDims N R C wf) x idx (ix2 r k) = x (ix2 (clampRow N hN idx r) k) := by
  unfold Host.gather
  congr 1
  funext a
  refine Fin.ext ?_
  match a with
  | ⟨0, _⟩ => exact operandIdx_row hN wf idx r k
  | ⟨1, _⟩ => exact operandIdx_col wf idx r k

end Cert.GatherRows

end
-- ==== Proof.LibHostRows.lean ====
/-
  Host-side row operations read at one entry, at the exact values.

  * A `dot_general` of an `M × K` by a `K × N` matrix along the one shared axis: entry `(p, j)` is
    `∑ k, l[p,k] · r[k,j]` — at the exact values the host's product has no accumulator, no rounding and no order.
  * A vector of length `C` viewed as one row and that row spread over `R` rows: entry `(p, k)` is the vector's `k`.
  * A vector of length `C` re-laid as a `1 × C` block: entry `(0, k)` is the vector's `k`.
-/
import Idealize.ShloMosaic.PureOps.Ideal.Laws
import Idealize.ShloMosaic.Lib.ValueIdx
import Idealize.ShloMosaic.Lib.Pipeline.Value

noncomputable section

open scoped BigOperators

namespace Cert.LibHostRows

open Idealize.ShloMosaic Idealize.ShloMosaic.ValueIdx

/-- `(l · r)[p, j] = ∑ k, l[p,k] · r[k,j]` for the host's product whose left operand index at output `i` and
    contraction position `q` is `(i 0, q)` and whose right operand index is `(q, i 1)`. -/
theorem hostDot_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    Host.dotGeneral (F := Ideal) D prec l r (ix2 p j) = ∑ k : Fin K, l (ix2 p k) * r (ix2 k j) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A vector viewed as one row, the row spread over `R` rows: entry `(p, k)` is the vector's entry `k`. -/
theorem rowOfVec_spread_apply {α : Type} {R C : ℕ} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (p : Fin R) (k : Fin C) :
    broadcastInDim ⟨2, ![R, C]⟩ ![0, 1] h2 (broadcastInDim ⟨2, ![1, C]⟩ ![1] h1 b) (ix2 p k) = b (ix1 k) := by
  rw [broadcastInDim_apply ![0, 1] h2 _ (ix2 p k) (ix2 (0 : Fin 1) k) (fun a => match a with
    | ⟨0, _⟩ => by show 0 = if (1 : Nat) = 1 then 0 else _; rw [if_pos rfl]
    | ⟨1, _⟩ => by show k.val = if C = 1 then 0 else k.val; rw [if_neg hC])]
  exact broadcastInDim_apply ![1] h1 b (ix2 (0 : Fin 1) k) (ix1 k) (fun a => match a with
    | ⟨0, _⟩ => by show k.val = if C = 1 then 0 else k.val; rw [if_neg hC])

/-- A vector re-laid as a one-row block: entry `(0, k)` is the vector's entry `k` (the same row-major position). -/
theorem rowOfVec_cast_apply {α : Type} {C : ℕ} (b : (⟨1, ![C]⟩ : Shape).Idx → α)
    (h : (⟨1, ![C]⟩ : Shape).ShapeCasts ⟨2, ![1, C]⟩) (k : Fin C) :
    shapeCast ⟨2, ![1, C]⟩ b h (ix2 (0 : Fin 1) k) = b (ix1 k) :=
  shapeCast_apply b h (ix2 (0 : Fin 1) k) (ix1 k) (by
    rw [Shape.rowMajor_val_one, Shape.rowMajor_val_two]
    show k.val = 0 * C + k.val
    omega)

end Cert.LibHostRows

end
-- ==== Proof.LibColumnSpread.lean ====
/-
  A per-row quantity spread along the rows of a matrix.

  A vector of `R` entries viewed as an `R × 1` column, and a column spread over `C` columns: at row `p` every column
  holds the vector's entry `p`.  (The companion of the row forms: a vector viewed as one row, a row spread over the
  rows.)
-/
import Idealize.ShloMosaic.Lib.Pipeline.Value
import Idealize.ShloMosaic.Lib.ValueIdx

noncomputable section

namespace Cert.LibColumnSpread

open Idealize.ShloMosaic Idealize.ShloMosaic.ValueIdx

/-- A vector viewed as a column: entry `(p, u)` is the vector's entry `p`. -/
theorem colOfVec_apply {α : Type} {R : ℕ} (hR : R ≠ 1) (v : (⟨1, ![R]⟩ : Shape).Idx → α)
    (h : (⟨1, ![R]⟩ : Shape).BroadcastsInDim ⟨2, ![R, 1]⟩ ![0]) (p : Fin R) (u : Fin 1) :
    broadcastInDim ⟨2, ![R, 1]⟩ ![0] h v (ix2 p u) = v (ix1 p) :=
  broadcastInDim_apply ![0] h v (ix2 p u) (ix1 p) (fun a => match a with
    | ⟨0, _⟩ => by show p.val = if R = 1 then 0 else p.val; rw [if_neg hR])

/-- A column spread over `C` columns: entry `(p, k)` is the column's entry of row `p`. -/
theorem col_spread_apply {α : Type} {R C : ℕ} (hR : R ≠ 1) (v : (⟨2, ![R, 1]⟩ : Shape).Idx → α)
    (h : (⟨2, ![R, 1]⟩ : Shape).BroadcastsInDim ⟨2, ![R, C]⟩ ![0, 1]) (p : Fin R) (k : Fin C) :
    broadcastInDim ⟨2, ![R, C]⟩ ![0, 1] h v (ix2 p k) = v (ix2 p (0 : Fin 1)) :=
  broadcastInDim_apply ![0, 1] h v (ix2 p k) (ix2 p (0 : Fin 1)) (fun a => match a with
    | ⟨0, _⟩ => by show p.val = if R = 1 then 0 else p.val; rw [if_neg hR]
    | ⟨1, _⟩ => by show 0 = if (1 : Nat) = 1 then 0 else _; rw [if_pos rfl])

/-- A vector viewed as a column and the column spread over `C` columns: entry `(p, k)` is the vector's entry `p`. -/
theorem colOfVec_spread_apply {α : Type} {R C : ℕ} (hR : R ≠ 1) (v : (⟨1, ![R]⟩ : Shape).Idx → α)
    (h1 : (⟨1, ![R]⟩ : Shape).BroadcastsInDim ⟨2, ![R, 1]⟩ ![0])
    (h2 : (⟨2, ![R, 1]⟩ : Shape).BroadcastsInDim ⟨2, ![R, C]⟩ ![0, 1]) (p : Fin R) (k : Fin C) :
    broadcastInDim ⟨2, ![R, C]⟩ ![0, 1] h2 (broadcastInDim ⟨2, ![R, 1]⟩ ![0] h1 v) (ix2 p k) = v (ix1 p) :=
  (col_spread_apply hR _ h2 p k).trans (colOfVec_apply hR v h1 p 0)

end Cert.LibColumnSpread

end
-- ==== Proof.Spec.lean ====
/-
  The two arrangements of the five graph-convolution layers, as plain functions over literal index types with
  extended-real entries.  A layer sends node features `h` to `Â · (h W) + b`, where `Â` is the normalized
  adjacency of the edge list (`nrm e` the weight of edge `e`, from node `src e` into node `dst e`):

  * `convE` sums over the edge list directly: row `i` collects `nrm e · (h W)[src e]` over the edges with `dst e = i`;
  * `convA` first gathers the weights into the dense matrix `adj` on 10240 padded nodes
    (`adj i j` = the sum of the weights of the edges `j → i`) and multiplies that matrix with `h W`.

  The structure decoder is the Gram matrix of the last hidden features.
-/
import Mathlib.Data.EReal.Basic
import Mathlib.Algebra.BigOperators.Fin

noncomputable section

namespace Cert.GcnSpec

open scoped BigOperators

/-- The rectifier on the extended reals. -/
def relu (v : EReal) : EReal := max v 0

/-- One layer over the edge list: `(∑_{e : dst e = i} nrm e · (h W)[src e, f]) + b f`. -/
def convE (nrm : Fin 330000 → EReal) (src dst : Fin 330000 → Fin 10000) {K C : ℕ}
    (h : Fin 10000 → Fin K → EReal) (W : Fin K → Fin C → EReal) (b : Fin C → EReal) :
    Fin 10000 → Fin C → EReal :=
  fun i f => (∑ e : Fin 330000, if dst e = i then nrm e * (∑ k : Fin K, h (src e) k * W k f) else 0) + b f

/-- The dense normalized adjacency on the 10240 padded nodes: entry `(i, j)` sums the weights of the edges `j → i`. -/
def adj (nrm : Fin 330000 → EReal) (src dst : Fin 330000 → Fin 10000) : Fin 10240 → Fin 10240 → EReal :=
  fun i j => ∑ e : Fin 330000, if (dst e).val = i.val ∧ (src e).val = j.val then nrm e else 0

/-- One layer through a dense matrix `A` on the padded nodes: `(∑_j A i j · (h W)[j, f]) + b f`. -/
def convA (A : Fin 10240 → Fin 10240 → EReal) {K C : ℕ}
    (h : Fin 10240 → Fin K → EReal) (W : Fin K → Fin C → EReal) (b : Fin C → EReal) :
    Fin 10240 → Fin C → EReal :=
  fun i f => (∑ j : Fin 10240, A i j * (∑ k : Fin K, h j k * W k f)) + b f

/-- The node features padded with zero rows up to 10240 nodes. -/
def xpad (x : Fin 10000 → Fin 256 → EReal) : Fin 10240 → Fin 256 → EReal :=
  fun i k => if hi : i.val < 10000 then x ⟨i.val, hi⟩ k else 0

/-- The Gram matrix of 128-wide rows. -/
def gram {R : ℕ} (hs : Fin R → Fin 128 → EReal) : Fin R → Fin R → EReal :=
  fun i j => ∑ k : Fin 128, hs i k * hs j k

section Nets

variable (nrm : Fin 330000 → EReal) (src dst : Fin 330000 → Fin 10000)
  (x : Fin 10000 → Fin 256 → EReal)
  (We1 : Fin 256 → Fin 128 → EReal) (be1 : Fin 128 → EReal)
  (We2 : Fin 128 → Fin 128 → EReal) (be2 : Fin 128 → EReal)
  (Wa1 : Fin 128 → Fin 128 → EReal) (ba1 : Fin 128 → EReal)
  (Wa2 : Fin 128 → Fin 256 → EReal) (ba2 : Fin 256 → EReal)
  (Ws1 : Fin 128 → Fin 128 → EReal) (bs1 : Fin 128 → EReal)

/-! ### Over the edge list -/

def eH1 : Fin 10000 → Fin 128 → EReal := fun i f => relu (convE nrm src dst x We1 be1 i f)
def eH2 : Fin 10000 → Fin 128 → EReal := convE nrm src dst (eH1 nrm src dst x We1 be1) We2 be2
def eA1 : Fin 10000 → Fin 128 → EReal :=
  fun i f => relu (convE nrm src dst (eH2 nrm src dst x We1 be1 We2 be2) Wa1 ba1 i f)
/-- The reconstructed attributes. -/
def xo : Fin 10000 → Fin 256 → EReal :=
  convE nrm src dst (eA1 nrm src dst x We1 be1 We2 be2 Wa1 ba1) Wa2 ba2
def eHs : Fin 10000 → Fin 128 → EReal :=
  convE nrm src dst (eH2 nrm src dst x We1 be1 We2 be2) Ws1 bs1
/-- The reconstructed structure. -/
def so : Fin 10000 → Fin 10000 → EReal := gram (eHs nrm src dst x We1 be1 We2 be2 Ws1 bs1)

/-! ### Through the dense adjacency, on padded nodes -/

def aH1 : Fin 10240 → Fin 128 → EReal := fun i f => relu (convA (adj nrm src dst) (xpad x) We1 be1 i f)
def aH2 : Fin 10240 → Fin 128 → EReal := convA (adj nrm src dst) (aH1 nrm src dst x We1 be1) We2 be2
def aA1 : Fin 10240 → Fin 128 → EReal :=
  fun i f => relu (convA (adj nrm src dst) (aH2 nrm src dst x We1 be1 We2 be2) Wa1 ba1 i f)
def aXo : Fin 10240 → Fin 256 → EReal :=
  convA (adj nrm src dst) (aA1 nrm src dst x We1 be1 We2 be2 Wa1 ba1) Wa2 ba2
def aHs : Fin 10240 → Fin 128 → EReal :=
  convA (adj nrm src dst) (aH2 nrm src dst x We1 be1 We2 be2) Ws1 bs1
def aSo : Fin 10240 → Fin 10240 → EReal := gram (aHs nrm src dst x We1 be1 We2 be2 Ws1 bs1)

end Nets

end Cert.GcnSpec

end
-- ==== Proof.RefValueLayer.lean ====
/-
  One graph-convolution layer over the edge list, read at an entry.

  The layer multiplies the node features by the weights, copies for every edge `e` the product's row of the edge's
  source node, scales that row by the edge's weight, adds it onto the row of the edge's target node (starting from
  zeros), and finally adds the bias to every row.  A source index is first wrapped (a negative index counts from
  the end) and then clamped by the copy; for an index that is already a node number both are the identity.  Entry
  `(i, f)` of the result is therefore `(∑ over the edges e into i of nrm e · (h W)[src e, f]) + b f`.
-/
import Idealize.ShloMosaic.PureOps.Ideal.Laws
import Idealize.ShloMosaic.Lib.ValueIdx
import Idealize.ShloMosaic.Lib.ValueLayout
import Idealize.ShloMosaic.Lib.IdealHost
import proofs.«130217_j58256936403151_1_alg».proof.Proof.LibScatterSum
import proofs.«130217_j58256936403151_1_alg».proof.Proof.LibGatherRows
import proofs.«130217_j58256936403151_1_alg».proof.Proof.LibHostRows
import proofs.«130217_j58256936403151_1_alg».proof.Proof.LibColumnSpread
import proofs.«130217_j58256936403151_1_alg».proof.Proof.Spec

noncomputable section

open scoped BigOperators

namespace Cert.ReferenceIdeal.RefValue

open Idealize.ShloMosaic Idealize.ShloMosaic.ValueIdx

/-- A word whose signed reading is a natural number is not negative, so wrapping it leaves it as it is. -/
theorem wrap_nonneg (v : BitVec 32) (n : ℕ) (hv : v.toInt = (n : Int)) :
    Scalar.select (IntOp.cmpi .slt v 0#32) (IntOp.addi v 10000#32) v = v := by
  have h0 : IntOp.cmpi .slt v 0#32 = 0#1 := by
    unfold IntOp.cmpi
    have : v.slt 0#32 = false := by
      have hz : (0#32 : BitVec 32).toInt = 0 := by decide
      simp only [BitVec.slt, hz, hv]
      exact decide_eq_false (by omega)
    rw [this]; rfl
  rw [h0, select_zero]

/-- The wrapped source indices, viewed as a column, read at row `e`: the index itself when it is a node number. -/
theorem wrapped_col_apply
    (hcol : (⟨1, ![330000]⟩ : Shape).BroadcastsInDim ⟨2, ![330000, 1]⟩ ![0])
    (hs0 : (⟨0, ![]⟩ : Shape).BroadcastsInDim ⟨1, ![330000]⟩ ![])
    (srcv : IVec ⟨1, ![330000]⟩ 32) (e : Fin 330000) (n : ℕ) (hv : (srcv (ix1 e)).toInt = (n : Int)) :
    (broadcastInDim ⟨2, ![330000, 1]⟩ ![0] hcol
      (select (cmpi .slt srcv (broadcastInDim ⟨1, ![330000]⟩ ![] hs0 (constantI ⟨0, ![]⟩ 32 0#32)))
        (addi srcv (broadcastInDim ⟨1, ![330000]⟩ ![] hs0 (constantI ⟨0, ![]⟩ 32 10000#32))) srcv))
      (ix2 e (0 : Fin 1)) = srcv (ix1 e) := by
  rw [LibColumnSpread.colOfVec_apply (by decide) _ hcol e 0, select_apply]
  show Scalar.select (IntOp.cmpi .slt (srcv (ix1 e)) (broadcastInDim ⟨1, ![330000]⟩ ![] hs0 (constantI ⟨0, ![]⟩ 32 0#32) (ix1 e)))
    (IntOp.addi (srcv (ix1 e)) (broadcastInDim ⟨1, ![330000]⟩ ![] hs0 (constantI ⟨0, ![]⟩ 32 10000#32) (ix1 e))) (srcv (ix1 e)) = _
  rw [broadcastInDim_scalar_apply, broadcastInDim_scalar_apply, constantI_apply, constantI_apply]
  exact wrap_nonneg _ n hv

/-- One layer over the edge list, as the program composes it, read at entry `(i, f)`. -/
theorem edge_conv_apply {K C : ℕ} (hC : C ≠ 1)
    (D : DotDims ⟨2, ![10000, K]⟩ ⟨2, ![K, C]⟩ ⟨2, ![10000, C]⟩)
    (hr : D.contr.rank = 1) (hs : D.contr.size ⟨0, by omega⟩ = K)
    (hl0 : ∀ (i : (⟨2, ![10000, C]⟩ : Shape).Idx) (q : D.contr.Idx), (D.lhsIdx i q 0).val = (i 0).val)
    (hl1 : ∀ (i : (⟨2, ![10000, C]⟩ : Shape).Idx) (q : D.contr.Idx), (D.lhsIdx i q 1).val = (q ⟨0, by omega⟩).val)
    (hr0 : ∀ (i : (⟨2, ![10000, C]⟩ : Shape).Idx) (q : D.contr.Idx), (D.rhsIdx i q 0).val = (q ⟨0, by omega⟩).val)
    (hr1 : ∀ (i : (⟨2, ![10000, C]⟩ : Shape).Idx) (q : D.contr.Idx), (D.rhsIdx i q 1).val = (i 1).val)
    (wfG : GatherDims.WF ⟨2, ![10000, C]⟩ ⟨2, ![330000, 1]⟩ ⟨2, ![330000, C]⟩ [1] [0] [] [0] [] 1 ![1, C])
    (dG : GatherDims ⟨2, ![10000, C]⟩ ⟨2, ![330000, 1]⟩ ⟨2, ![330000, C]⟩)
    (hdG : dG = GatherRows.rowDims 10000 330000 C wfG)
    (wfS : ScatterDims.WF ⟨2, ![10000, C]⟩ ⟨2, ![330000, 1]⟩ ⟨2, ![330000, C]⟩ [1] [0] [0] 1)
    (dS : ScatterDims ⟨2, ![10000, C]⟩ ⟨2, ![330000, 1]⟩ ⟨2, ![330000, C]⟩)
    (hdS : dS = ScatterRows.rowDims 10000 330000 C wfS)
    (hcol : (⟨1, ![330000]⟩ : Shape).BroadcastsInDim ⟨2, ![330000, 1]⟩ ![0])
    (hspr : (⟨2, ![330000, 1]⟩ : Shape).BroadcastsInDim ⟨2, ![330000, C]⟩ ![0, 1])
    (hz : (⟨0, ![]⟩ : Shape).BroadcastsInDim ⟨2, ![10000, C]⟩ ![])
    (hs0 : (⟨0, ![]⟩ : Shape).BroadcastsInDim ⟨1, ![330000]⟩ ![])
    (hb1 : (⟨1, ![C]⟩ : Shape).BroadcastsInDim ⟨2, ![1, C]⟩ ![1])
    (hb2 : (⟨2, ![1, C]⟩ : Shape).BroadcastsInDim ⟨2, ![10000, C]⟩ ![0, 1])
    (Hin : FVec Ideal ⟨2, ![10000, K]⟩ .f32) (W : FVec Ideal ⟨2, ![K, C]⟩ .f32) (b : FVec Ideal ⟨1, ![C]⟩ .f32)
    (nrmv : FVec Ideal ⟨1, ![330000]⟩ .f32) (srcv dstv : IVec ⟨1, ![330000]⟩ 32)
    (src dst : Fin 330000 → Fin 10000)
    (hsrc : ∀ e, (srcv (ix1 e)).toInt = ((src e).val : Int))
    (hdst : ∀ e, (dstv (ix1 e)).toInt = ((dst e).val : Int))
    (i : Fin 10000) (f : Fin C) :
    addf
      (Host.scatterAdd dS
        (broadcastInDim ⟨2, ![10000, C]⟩ ![] hz (constant (F := Ideal) ⟨0, ![]⟩ .f32 0x00000000#32))
        (broadcastInDim ⟨2, ![330000, 1]⟩ ![0] hcol dstv)
        (mulf (broadcastInDim ⟨2, ![330000, C]⟩ ![0, 1] hspr (broadcastInDim ⟨2, ![330000, 1]⟩ ![0] hcol nrmv))
          (Host.gather dG (Host.dotGeneral D none Hin W)
            (broadcastInDim ⟨2, ![330000, 1]⟩ ![0] hcol
              (select (cmpi .slt srcv (broadcastInDim ⟨1, ![330000]⟩ ![] hs0 (constantI ⟨0, ![]⟩ 32 0#32)))
                (addi srcv (broadcastInDim ⟨1, ![330000]⟩ ![] hs0 (constantI ⟨0, ![]⟩ 32 10000#32))) srcv)))))
      (broadcastInDim ⟨2, ![10000, C]⟩ ![0, 1] hb2 (broadcastInDim ⟨2, ![1, C]⟩ ![1] hb1 b)) (ix2 i f)
    = Cert.GcnSpec.convE (fun e => nrmv (ix1 e)) src dst (fun p k => Hin (ix2 p k)) (fun k c => W (ix2 k c))
        (fun c => b (ix1 c)) i f := by
  subst hdG hdS
  rw [addf_apply]
  show Ideal.hostScatterAdd (ScatterRows.rowDims 10000 330000 C wfS) _ _ _ (ix2 i f) + _ = _
  rw [ScatterSum.scatterAdd_rows_apply, LibHostRows.rowOfVec_spread_apply hC, broadcastInDim_scalar_apply,
    constant_apply, Ideal.ofBits_zero_f32, zero_add]
  show _ = (∑ e : Fin 330000, if dst e = i then nrmv (ix1 e) * (∑ k : Fin K, Hin (ix2 (src e) k) * W (ix2 k f)) else 0)
    + b (ix1 f)
  refine congrArg (· + b (ix1 f)) ?_
  refine Finset.sum_congr rfl fun e _ => ?_
  rw [LibColumnSpread.colOfVec_apply (by decide) dstv hcol e 0, hdst e]
  have hiff : (((dst e).val : Int) = (i.val : Int)) ↔ dst e = i :=
    ⟨fun h => Fin.ext (by exact_mod_cast h), fun h => by rw [h]⟩
  refine if_congr hiff ?_ rfl
  rw [mulf_apply, LibColumnSpread.colOfVec_spread_apply (by decide) nrmv hcol hspr e f,
    GatherRows.gather_rows_apply (by decide) wfG]
  have hcl : GatherRows.clampRow 10000 (by decide)
      (broadcastInDim ⟨2, ![330000, 1]⟩ ![0] hcol
        (select (cmpi .slt srcv (broadcastInDim ⟨1, ![330000]⟩ ![] hs0 (constantI ⟨0, ![]⟩ 32 0#32)))
          (addi srcv (broadcastInDim ⟨1, ![330000]⟩ ![] hs0 (constantI ⟨0, ![]⟩ 32 10000#32))) srcv)) e = src e := by
    refine Fin.ext ?_
    show min (BitVec.toInt (_ : BitVec 32)).toNat (10000 - 1) = (src e).val
    rw [wrapped_col_apply hcol hs0 srcv e (src e).val (hsrc e), hsrc e]
    have := (src e).isLt
    omega
  rw [hcl, LibHostRows.hostDot_apply D hr hs hl0 hl1 hr0 hr1 none Hin W (src e) f]

end Cert.ReferenceIdeal.RefValue

end
-- ==== Proof.RefValueStages.lean ====
/-
  The reference program's five graph-convolution layers, stage by stage.

  Every layer of the program is the same composition — weights, copy of source rows, scaling by the edge weight,
  sum onto target rows, bias — applied to the previous layer's features; two layers are followed by the
  rectifier (the maximum with a zero array), and the last result is the Gram matrix of the structure decoder's
  features (a product with the transposed array).  Each stage read at an entry is the matching function of
  `Cert.GcnSpec` over the edge list.  The edge weights stay the program's own array, read entry by entry; the
  source and target nodes are any node-valued functions agreeing with the program's two index arrays.
-/
import proofs.«130217_j58256936403151_1_alg».proof.Proof.RefRead
import proofs.«130217_j58256936403151_1_alg».proof.Proof.RefValueLayer

noncomputable section

open scoped BigOperators

namespace Cert.ReferenceIdeal.RefValue

open Cert.ReferenceIdeal Cert.ReferenceIdeal.Gen Cert.ReferenceIdeal.ReadP Idealize.ShloMosaic
  Idealize.ShloMosaic.ValueIdx Cert.GcnSpec

/-- A matrix read at literal coordinates. -/
abbrev rd2 {R C : ℕ} (a : FVec Ideal ⟨2, ![R, C]⟩ .f32) : Fin R → Fin C → EReal := fun p k => a (ix2 p k)

/-- A vector read at a literal coordinate. -/
abbrev rd1 {C : ℕ} (a : FVec Ideal ⟨1, ![C]⟩ .f32) : Fin C → EReal := fun k => a (ix1 k)

/-- The edge weights: the program's own normalization array, entry by entry. -/
abbrev nrmOf (x1 : (⟨S2x320000, .i32⟩ : BufTy).Contents (Elt Ideal)) : Fin 330000 → EReal :=
  fun e => val_main_v31 (F := Ideal) x1 (ix1 e)

/-- The rectifier's zero array (first use). -/
theorem zeros1_apply (i : S10000x128.Idx) : val_main_call1_v0 (F := Ideal) i = 0 := by
  rw [val_main_call1_v0_apply, val_main_call1_cst_apply]; exact Ideal.ofBits_zero_f32

/-- The rectifier's zero array (second use). -/
theorem zeros2_apply (i : S10000x128.Idx) : val_main_call2_v0 (F := Ideal) i = 0 := by
  rw [val_main_call2_v0_apply, val_main_call2_cst_apply]; exact Ideal.ofBits_zero_f32

section Stages

variable (x0 : (⟨S10000x256, .f32⟩ : BufTy).Contents (Elt Ideal)) (x1 : (⟨S2x320000, .i32⟩ : BufTy).Contents (Elt Ideal))
  (x2 : (⟨S256x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x256, .f32⟩ : BufTy).Contents (Elt Ideal)) (x9 : (⟨S256, .f32⟩ : BufTy).Contents (Elt Ideal))
  (x10 : (⟨S128x128, .f32⟩ : BufTy).Contents (Elt Ideal)) (x11 : (⟨S128, .f32⟩ : BufTy).Contents (Elt Ideal))
  (src dst : Fin 330000 → Fin 10000)
  (hsrc : ∀ e, (val_main_v3 (F := Ideal) x1 (ix1 e)).toInt = ((src e).val : Int))
  (hdst : ∀ e, (val_main_v6 (F := Ideal) x1 (ix1 e)).toInt = ((dst e).val : Int))

include hsrc hdst

/-- The first encoder layer before its rectifier. -/
theorem v48_apply (i : Fin 10000) (f : Fin 128) :
    val_main_v48 (F := Ideal) x0 x1 x2 x3 (ix2 i f)
      = convE (nrmOf x1) src dst (rd2 x0) (rd2 x2) (rd1 x3) i f :=
  edge_conv_apply (K := 256) (C := 128) (by decide) dot_S10000x256_S256x128_S10000x128_1_0_0_1_n_n rfl rfl
    lhs_main_v32_0 lhs_main_v32_1 rhs_main_v32_0 rhs_main_v32_1
    gather_S10000x128_S330000x1_S330000x128_1_0_n_n_0_1_1128_wf gather_S10000x128_S330000x1_S330000x128_1_0_n_n_0_1_1128 rfl
    scatter_S10000x128_S330000x1_S330000x128_1_0_0_1_wf scatter_S10000x128_S330000x1_S330000x128_1_0_0_1 rfl
    bcast_S330000_S330000x1_0 bcast_S330000x1_S330000x128_0_1 bcast_S_S10000x128 bcast_S_S330000
    bcast_S128_S1x128_1 bcast_S1x128_S10000x128_0_1
    x0 x2 x3 (val_main_v31 (F := Ideal) x1) (val_main_v3 (F := Ideal) x1) (val_main_v6 (F := Ideal) x1)
    src dst hsrc hdst i f

/-- The first encoder layer. -/
theorem v49_apply (i : Fin 10000) (f : Fin 128) :
    val_main_v49 (F := Ideal) x0 x1 x2 x3 (ix2 i f)
      = eH1 (nrmOf x1) src dst (rd2 x0) (rd2 x2) (rd1 x3) i f := by
  rw [val_main_v49_apply]
  show max (val_main_v48 (F := Ideal) x0 x1 x2 x3 (ix2 i f)) (val_main_call1_v0 (F := Ideal) (ix2 i f)) = _
  rw [zeros1_apply, v48_apply x0 x1 x2 x3 src dst hsrc hdst]
  rfl

/-- The second encoder layer: the hidden features both decoders start from. -/
theorem v66_apply (i : Fin 10000) (f : Fin 128) :
    val_main_v66 (F := Ideal) x0 x1 x2 x3 x4 x5 (ix2 i f) = eH2 (nrmOf x1) src dst (rd2 x0) (rd2 x2) (rd1 x3) (rd2 x4) (rd1 x5) i f := by
  refine (edge_conv_apply (K := 128) (C := 128) (by decide) dot_S10000x128_S128x128_S10000x128_1_0_0_1_n_n rfl rfl
    lhs_main_v50_0 lhs_main_v50_1 rhs_main_v50_0 rhs_main_v50_1
    gather_S10000x128_S330000x1_S330000x128_1_0_n_n_0_1_1128_wf gather_S10000x128_S330000x1_S330000x128_1_0_n_n_0_1_1128 rfl
    scatter_S10000x128_S330000x1_S330000x128_1_0_0_1_wf scatter_S10000x128_S330000x1_S330000x128_1_0_0_1 rfl
    bcast_S330000_S330000x1_0 bcast_S330000x1_S330000x128_0_1 bcast_S_S10000x128 bcast_S_S330000
    bcast_S128_S1x128_1 bcast_S1x128_S10000x128_0_1
    (val_main_v49 (F := Ideal) x0 x1 x2 x3) x4 x5 (val_main_v31 (F := Ideal) x1) (val_main_v3 (F := Ideal) x1) (val_main_v6 (F := Ideal) x1)
    src dst hsrc hdst i f).trans ?_
  have hH : (fun p k => val_main_v49 (F := Ideal) x0 x1 x2 x3 (ix2 p k)) = eH1 (nrmOf x1) src dst (rd2 x0) (rd2 x2) (rd1 x3) :=
    funext fun p => funext fun k => v49_apply x0 x1 x2 x3 src dst hsrc hdst p k
  rw [hH]
  rfl

/-- The attribute decoder's first layer before its rectifier. -/
theorem v83_apply (i : Fin 10000) (f : Fin 128) :
    val_main_v83 (F := Ideal) x0 x1 x2 x3 x4 x5 x6 x7 (ix2 i f)
      = convE (nrmOf x1) src dst (eH2 (nrmOf x1) src dst (rd2 x0) (rd2 x2) (rd1 x3) (rd2 x4) (rd1 x5)) (rd2 x6) (rd1 x7) i f := by
  refine (edge_conv_apply (K := 128) (C := 128) (by decide) dot_S10000x128_S128x128_S10000x128_1_0_0_1_n_n rfl rfl
    lhs_main_v67_0 lhs_main_v67_1 rhs_main_v67_0 rhs_main_v67_1
    gather_S10000x128_S330000x1_S330000x128_1_0_n_n_0_1_1128_wf gather_S10000x128_S330000x1_S330000x128_1_0_n_n_0_1_1128 rfl
    scatter_S10000x128_S330000x1_S330000x128_1_0_0_1_wf scatter_S10000x128_S330000x1_S330000x128_1_0_0_1 rfl
    bcast_S330000_S330000x1_0 bcast_S330000x1_S330000x128_0_1 bcast_S_S10000x128 bcast_S_S330000
    bcast_S128_S1x128_1 bcast_S1x128_S10000x128_0_1
    (val_main_v66 (F := Ideal) x0 x1 x2 x3 x4 x5) x6 x7 (val_main_v31 (F := Ideal) x1) (val_main_v3 (F := Ideal) x1) (val_main_v6 (F := Ideal) x1)
    src dst hsrc hdst i f).trans ?_
  have hH : (fun p k => val_main_v66 (F := Ideal) x0 x1 x2 x3 x4 x5 (ix2 p k)) = eH2 (nrmOf x1) src dst (rd2 x0) (rd2 x2) (rd1 x3) (rd2 x4) (rd1 x5) :=
    funext fun p => funext fun k => v66_apply x0 x1 x2 x3 x4 x5 src dst hsrc hdst p k
  rw [hH]

/-- The attribute decoder's first layer. -/
theorem v84_apply (i : Fin 10000) (f : Fin 128) :
    val_main_v84 (F := Ideal) x0 x1 x2 x3 x4 x5 x6 x7 (ix2 i f) = eA1 (nrmOf x1) src dst (rd2 x0) (rd2 x2) (rd1 x3) (rd2 x4) (rd1 x5) (rd2 x6) (rd1 x7) i f := by
  rw [val_main_v84_apply]
  show max (val_main_v83 (F := Ideal) x0 x1 x2 x3 x4 x5 x6 x7 (ix2 i f)) (val_main_call2_v0 (F := Ideal) (ix2 i f)) = _
  rw [zeros2_apply, v83_apply x0 x1 x2 x3 x4 x5 x6 x7 src dst hsrc hdst]
  rfl

/-- The attribute decoder's second layer: the reconstructed attributes. -/
theorem v101_apply (i : Fin 10000) (f : Fin 256) :
    val_main_v101 (F := Ideal) x0 x1 x2 x3 x4 x5 x6 x7 x8 x9 (ix2 i f) = xo (nrmOf x1) src dst (rd2 x0) (rd2 x2) (rd1 x3) (rd2 x4) (rd1 x5) (rd2 x6) (rd1 x7) (rd2 x8) (rd1 x9) i f := by
  refine (edge_conv_apply (K := 128) (C := 256) (by decide) dot_S10000x128_S128x256_S10000x256_1_0_0_1_n_n rfl rfl
    lhs_main_v85_0 lhs_main_v85_1 rhs_main_v85_0 rhs_main_v85_1
    gather_S10000x256_S330000x1_S330000x256_1_0_n_n_0_1_1256_wf gather_S10000x256_S330000x1_S330000x256_1_0_n_n_0_1_1256 rfl
    scatter_S10000x256_S330000x1_S330000x256_1_0_0_1_wf scatter_S10000x256_S330000x1_S330000x256_1_0_0_1 rfl
    bcast_S330000_S330000x1_0 bcast_S330000x1_S330000x256_0_1 bcast_S_S10000x256 bcast_S_S330000
    bcast_S256_S1x256_1 bcast_S1x256_S10000x256_0_1
    (val_main_v84 (F := Ideal) x0 x1 x2 x3 x4 x5 x6 x7) x8 x9 (val_main_v31 (F := Ideal) x1) (val_main_v3 (F := Ideal) x1) (val_main_v6 (F := Ideal) x1)
    src dst hsrc hdst i f).trans ?_
  have hH : (fun p k => val_main_v84 (F := Ideal) x0 x1 x2 x3 x4 x5 x6 x7 (ix2 p k)) = eA1 (nrmOf x1) src dst (rd2 x0) (rd2 x2) (rd1 x3) (rd2 x4) (rd1 x5) (rd2 x6) (rd1 x7) :=
    funext fun p => funext fun k => v84_apply x0 x1 x2 x3 x4 x5 x6 x7 src dst hsrc hdst p k
  rw [hH]
  rfl

/-- The structure decoder's layer. -/
theorem v118_apply (i : Fin 10000) (f : Fin 128) :
    val_main_v118 (F := Ideal) x0 x1 x2 x3 x4 x5 x10 x11 (ix2 i f) = eHs (nrmOf x1) src dst (rd2 x0) (rd2 x2) (rd1 x3) (rd2 x4) (rd1 x5) (rd2 x10) (rd1 x11) i f := by
  refine (edge_conv_apply (K := 128) (C := 128) (by decide) dot_S10000x128_S128x128_S10000x128_1_0_0_1_n_n rfl rfl
    lhs_main_v102_0 lhs_main_v102_1 rhs_main_v102_0 rhs_main_v102_1
    gather_S10000x128_S330000x1_S330000x128_1_0_n_n_0_1_1128_wf gather_S10000x128_S330000x1_S330000x128_1_0_n_n_0_1_1128 rfl
    scatter_S10000x128_S330000x1_S330000x128_1_0_0_1_wf scatter_S10000x128_S330000x1_S330000x128_1_0_0_1 rfl
    bcast_S330000_S330000x1_0 bcast_S330000x1_S330000x128_0_1 bcast_S_S10000x128 bcast_S_S330000
    bcast_S128_S1x128_1 bcast_S1x128_S10000x128_0_1
    (val_main_v66 (F := Ideal) x0 x1 x2 x3 x4 x5) x10 x11 (val_main_v31 (F := Ideal) x1) (val_main_v3 (F := Ideal) x1) (val_main_v6 (F := Ideal) x1)
    src dst hsrc hdst i f).trans ?_
  have hH : (fun p k => val_main_v66 (F := Ideal) x0 x1 x2 x3 x4 x5 (ix2 p k)) = eH2 (nrmOf x1) src dst (rd2 x0) (rd2 x2) (rd1 x3) (rd2 x4) (rd1 x5) :=
    funext fun p => funext fun k => v66_apply x0 x1 x2 x3 x4 x5 src dst hsrc hdst p k
  rw [hH]
  rfl

/-- The reconstructed structure: the Gram matrix of the structure decoder's features. -/
theorem v120_apply (i j : Fin 10000) :
    val_main_v120 (F := Ideal) x0 x1 x2 x3 x4 x5 x10 x11 (ix2 i j) = so (nrmOf x1) src dst (rd2 x0) (rd2 x2) (rd1 x3) (rd2 x4) (rd1 x5) (rd2 x10) (rd1 x11) i j := by
  unfold val_main_v120
  refine (LibHostRows.hostDot_apply dot_S10000x128_S128x10000_S10000x10000_1_0_0_1_n_n rfl rfl
    lhs_main_v120_0 lhs_main_v120_1 rhs_main_v120_0 rhs_main_v120_1 none
    (val_main_v118 (F := Ideal) x0 x1 x2 x3 x4 x5 x10 x11) (val_main_v119 (F := Ideal) x0 x1 x2 x3 x4 x5 x10 x11) i j).trans ?_
  show _ = ∑ k : Fin 128, eHs (nrmOf x1) src dst (rd2 x0) (rd2 x2) (rd1 x3) (rd2 x4) (rd1 x5) (rd2 x10) (rd1 x11) i k * eHs (nrmOf x1) src dst (rd2 x0) (rd2 x2) (rd1 x3) (rd2 x4) (rd1 x5) (rd2 x10) (rd1 x11) j k
  refine Finset.sum_congr rfl fun k _ => ?_
  have hidx : idx_main_v119 (ix2 k j) = ix2 j k := funext fun a => Fin.ext (by
    match a with
    | ⟨0, _⟩ => rfl
    | ⟨1, _⟩ => rfl)
  rw [val_main_v119_apply, hidx, v118_apply x0 x1 x2 x3 x4 x5 x10 x11 src dst hsrc hdst i k,
    v118_apply x0 x1 x2 x3 x4 x5 x10 x11 src dst hsrc hdst j k]

end Stages

end Cert.ReferenceIdeal.RefValue

end
-- ==== Proof.RefValue.lean ====
/-
  The reference's two results, read at an entry.

  The run of the reference ends with the reconstructed attributes (a 10000 × 256 array) and the reconstructed
  structure (a 10000 × 10000 array).  Read at an entry, each is the edge-list network of `Cert.GcnSpec` applied to
  the argument arrays: `xo` for the attributes, `so` for the structure.
-/
import proofs.«130217_j58256936403151_1_alg».proof.Proof.RefValueStages

noncomputable section

namespace Cert.ReferenceIdeal.RefValue

open Cert.ReferenceIdeal Cert.ReferenceIdeal.Gen Cert.ReferenceIdeal.ReadP Idealize.ShloMosaic
  Idealize.ShloMosaic.TcCoe Idealize.SL.Sem Idealize.ShloMosaic.ValueIdx Cert.GcnSpec

variable (m : (ℓ : Loc nD τ sig) → Buf (Elt Ideal) ℓ) (c : Dev nD) (src dst : Fin 330000 → Fin 10000)

/-- The reconstructed attributes of the run, at entry `(i, f)`. -/
theorem res_v101_apply
    (hsrc : ∀ e, (val_main_v3 (F := Ideal) (m ((c.tc : Thread nD τ).loc main_arg1)) (ix1 e)).toInt = ((src e).val : Int))
    (hdst : ∀ e, (val_main_v6 (F := Ideal) (m ((c.tc : Thread nD τ).loc main_arg1)) (ix1 e)).toInt = ((dst e).val : Int))
    (i : Fin 10000) (f : Fin 256) :
    Cert.ReferenceIdeal.ValueP.res_main_v101 m c (ix2 i f)
      = xo (nrmOf (m ((c.tc : Thread nD τ).loc main_arg1))) src dst
          (rd2 (R := 10000) (C := 256) (m ((c.tc : Thread nD τ).loc main_arg0)))
          (rd2 (R := 256) (C := 128) (m ((c.tc : Thread nD τ).loc main_arg2)))
          (rd1 (C := 128) (m ((c.tc : Thread nD τ).loc main_arg3)))
          (rd2 (R := 128) (C := 128) (m ((c.tc : Thread nD τ).loc main_arg4)))
          (rd1 (C := 128) (m ((c.tc : Thread nD τ).loc main_arg5)))
          (rd2 (R := 128) (C := 128) (m ((c.tc : Thread nD τ).loc main_arg6)))
          (rd1 (C := 128) (m ((c.tc : Thread nD τ).loc main_arg7)))
          (rd2 (R := 128) (C := 256) (m ((c.tc : Thread nD τ).loc main_arg8)))
          (rd1 (C := 256) (m ((c.tc : Thread nD τ).loc main_arg9))) i f := by
  rw [val_main_v101_eq]
  exact v101_apply _ _ _ _ _ _ _ _ _ _ src dst hsrc hdst i f

/-- The reconstructed structure of the run, at entry `(i, j)`. -/
theorem res_v120_apply
    (hsrc : ∀ e, (val_main_v3 (F := Ideal) (m ((c.tc : Thread nD τ).loc main_arg1)) (ix1 e)).toInt = ((src e).val : Int))
    (hdst : ∀ e, (val_main_v6 (F := Ideal) (m ((c.tc : Thread nD τ).loc main_arg1)) (ix1 e)).toInt = ((dst e).val : Int))
    (i j : Fin 10000) :
    Cert.ReferenceIdeal.ValueP.res_main_v120 m c (ix2 i j)
      = so (nrmOf (m ((c.tc : Thread nD τ).loc main_arg1))) src dst
          (rd2 (R := 10000) (C := 256) (m ((c.tc : Thread nD τ).loc main_arg0)))
          (rd2 (R := 256) (C := 128) (m ((c.tc : Thread nD τ).loc main_arg2)))
          (rd1 (C := 128) (m ((c.tc : Thread nD τ).loc main_arg3)))
          (rd2 (R := 128) (C := 128) (m ((c.tc : Thread nD τ).loc main_arg4)))
          (rd1 (C := 128) (m ((c.tc : Thread nD τ).loc main_arg5)))
          (rd2 (R := 128) (C := 128) (m ((c.tc : Thread nD τ).loc main_arg10)))
          (rd1 (C := 128) (m ((c.tc : Thread nD τ).loc main_arg11))) i j := by
  rw [val_main_v120_eq]
  exact v120_apply _ _ _ _ _ _ _ _ src dst hsrc hdst i j

end Cert.ReferenceIdeal.RefValue

end
-- ==== Proof.RefClaims.lean ====
/-
  The reference program's part of the claim.

  The run of the reference (read back operation by operation) ends with its two results at the composed terms of the
  arguments and leaves every argument array as it was.  Dropping the results gives the reference's frame.  Reading
  the results entry by entry gives the edge-list network of `Cert.GcnSpec`: the reconstructed attributes `xo` and the
  reconstructed structure `so`, for any node-valued source and target functions that agree with the program's two
  index arrays.
-/
import proofs.«130217_j58256936403151_1_alg».proof.Defs
import proofs.«130217_j58256936403151_1_alg».proof.Proof.Gen.ReferenceIdeal
import proofs.«130217_j58256936403151_1_alg».proof.Proof.Gen.Pre_finite_inputs
import proofs.«130217_j58256936403151_1_alg».proof.Proof.RefValue

noncomputable section

namespace Cert.ReferenceIdeal.RefValue

open Cert.ReferenceIdeal Cert.ReferenceIdeal.Gen Cert.ReferenceIdeal.ReadP Idealize.ShloMosaic
  Idealize.ShloMosaic.TcCoe Idealize.SL.Sem Idealize.ShloMosaic.ValueIdx Cert.GcnSpec

/-- The reference terminates without a fault and leaves its arguments unchanged: its run with the results dropped. -/
theorem frame_ri : Cert.frame_ReferenceIdeal :=
  fun m ρ _ => (θ_run Cert.ReferenceIdeal.defs _ _).mono (fun _ h c => (h c).2.2)
    (Cert.ReferenceIdeal.ValueP.run (F := Ideal) m ρ)

section Results

variable (m : (ℓ : Loc nD τ sig) → Buf (Elt Ideal) ℓ) (c : Dev nD) (src dst : Fin 330000 → Fin 10000)
  (hsrc : ∀ e, (val_main_v3 (F := Ideal) (m ((c.tc : Thread nD τ).loc main_arg1)) (ix1 e)).toInt = ((src e).val : Int))
  (hdst : ∀ e, (val_main_v6 (F := Ideal) (m ((c.tc : Thread nD τ).loc main_arg1)) (ix1 e)).toInt = ((dst e).val : Int))

include hsrc hdst

/-- The reconstructed attributes as one function of the index. -/
theorem res_v101_fun :
    Cert.ReferenceIdeal.ValueP.res_main_v101 m c
      = fun j : S10000x256.Idx => xo (nrmOf (m ((c.tc : Thread nD τ).loc main_arg1))) src dst
          (rd2 (R := 10000) (C := 256) (m ((c.tc : Thread nD τ).loc main_arg0)))
          (rd2 (R := 256) (C := 128) (m ((c.tc : Thread nD τ).loc main_arg2)))
          (rd1 (C := 128) (m ((c.tc : Thread nD τ).loc main_arg3)))
          (rd2 (R := 128) (C := 128) (m ((c.tc : Thread nD τ).loc main_arg4)))
          (rd1 (C := 128) (m ((c.tc : Thread nD τ).loc main_arg5)))
          (rd2 (R := 128) (C := 128) (m ((c.tc : Thread nD τ).loc main_arg6)))
          (rd1 (C := 128) (m ((c.tc : Thread nD τ).loc main_arg7)))
          (rd2 (R := 128) (C := 256) (m ((c.tc : Thread nD τ).loc main_arg8)))
          (rd1 (C := 256) (m ((c.tc : Thread nD τ).loc main_arg9))) (j 0) (j 1) :=
  funext fun j => (congrArg (Cert.ReferenceIdeal.ValueP.res_main_v101 m c) (eq_ix2 j)).trans
    (res_v101_apply m c src dst hsrc hdst (j 0) (j 1))

/-- The reconstructed structure as one function of the index. -/
theorem res_v120_fun :
    Cert.ReferenceIdeal.ValueP.res_main_v120 m c
      = fun j : S10000x10000.Idx => so (nrmOf (m ((c.tc : Thread nD τ).loc main_arg1))) src dst
          (rd2 (R := 10000) (C := 256) (m ((c.tc : Thread nD τ).loc main_arg0)))
          (rd2 (R := 256) (C := 128) (m ((c.tc : Thread nD τ).loc main_arg2)))
          (rd1 (C := 128) (m ((c.tc : Thread nD τ).loc main_arg3)))
          (rd2 (R := 128) (C := 128) (m ((c.tc : Thread nD τ).loc main_arg4)))
          (rd1 (C := 128) (m ((c.tc : Thread nD τ).loc main_arg5)))
          (rd2 (R := 128) (C := 128) (m ((c.tc : Thread nD τ).loc main_arg10)))
          (rd1 (C := 128) (m ((c.tc : Thread nD τ).loc main_arg11))) (j 0) (j 1) :=
  funext fun j => (congrArg (Cert.ReferenceIdeal.ValueP.res_main_v120 m c) (eq_ix2 j)).trans
    (res_v120_apply m c src dst hsrc hdst (j 0) (j 1))

end Results

end Cert.ReferenceIdeal.RefValue

end
-- ==== Proof.KValueBlocks.lean ====
/-
  Which rows and columns of its output each grid point of the six calls owns.

  The five aggregation calls run 40 points; point `t` reads rows [256 t, 256 t + 256) of the adjacency, all of the
  projected features and the bias row, and writes rows [256 t, 256 t + 256) of the output.  The decoder call runs
  10 × 10 points; point `t = 10 a + b` reads row blocks `a` and `b` (1024 rows each) of the hidden features and writes
  the 1024 × 1024 block at block row `a`, block column `b`.  In both cases every entry of the output lies in exactly
  the block of the point its coordinates fall to, so the blocks cover the output.
-/
import proofs.«130217_j58256936403151_1_alg».proof.Proof.Gen.KernelIdeal.Points

noncomputable section

namespace Cert.KernelIdeal.KValue

open Idealize.ShloMosaic Cert.KernelIdeal Cert.KernelIdeal.Gen

/-! ## Aggregation call 0: 40 points, point `t` owns rows [256 t, 256 t + 256) -/

/-- The index maps at every point: the adjacency and the output move down one block of 256 rows per point, the
    projected features and the bias stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- An entry of the output is in point `t`'s block iff each coordinate is in the block's range on its axis. -/
theorem mem_blk0 (t : Fin cfg0.N) (i : S10240x128.Idx) :
    i ∈ ((cfg0.win 3).blk t).view.set ↔ ∀ a : Fin 2, win0_3.index t a * S256x128.size a ≤ (i a).val
      ∧ (i a).val < win0_3.index t a * S256x128.size a + S256x128.size a := by
  show i ∈ ((View.whole main_v53).slice (win0_3.rect t)).set ↔ _
  rw [View.set_slice_whole, Rect.mem_set_unit]
  exact Iff.rfl

/-- Every entry of the output is in the block of the point its row falls to. -/
theorem cover0 (i : S10240x128.Idx) :
    ∃ t : Fin cfg0.N, (cfg0.win 3).flush t = true ∧ i ∈ ((cfg0.win 3).blk t).view.set := by
  have hi0 : (i 0).val < 10240 := (i 0).isLt
  have hi1 : (i 1).val < 128 := (i 1).isLt
  have hN : cfg0.N = 40 := by decide
  have ht : (i 0).val / 256 < cfg0.N := by rw [hN]; omega
  obtain ⟨-, -, -, -, -, -, e6, e7⟩ := idx_facts0 ⟨(i 0).val / 256, ht⟩
  refine ⟨⟨(i 0).val / 256, ht⟩, flush0_3 _, ?_⟩
  rw [mem_blk0]
  intro a
  match a with
  | ⟨0, _⟩ =>
    show win0_3.index ⟨(i 0).val / 256, ht⟩ (0 : Fin 2) * 256 ≤ (i 0).val
      ∧ (i 0).val < win0_3.index ⟨(i 0).val / 256, ht⟩ (0 : Fin 2) * 256 + 256
    rw [e6]
    show (i 0).val / 256 * 256 ≤ (i 0).val ∧ (i 0).val < (i 0).val / 256 * 256 + 256
    omega
  | ⟨1, _⟩ =>
    show win0_3.index ⟨(i 0).val / 256, ht⟩ (1 : Fin 2) * 128 ≤ (i 1).val
      ∧ (i 1).val < win0_3.index ⟨(i 0).val / 256, ht⟩ (1 : Fin 2) * 128 + 128
    rw [e7]
    omega

/-! ## Aggregation call 1: 40 points, point `t` owns rows [256 t, 256 t + 256) -/

/-- The index maps at every point: the adjacency and the output move down one block of 256 rows per point, the
    projected features and the bias stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- An entry of the output is in point `t`'s block iff each coordinate is in the block's range on its axis. -/
theorem mem_blk1 (t : Fin cfg1.N) (i : S10240x128.Idx) :
    i ∈ ((cfg1.win 3).blk t).view.set ↔ ∀ a : Fin 2, win1_3.index t a * S256x128.size a ≤ (i a).val
      ∧ (i a).val < win1_3.index t a * S256x128.size a + S256x128.size a := by
  show i ∈ ((View.whole main_v56).slice (win1_3.rect t)).set ↔ _
  rw [View.set_slice_whole, Rect.mem_set_unit]
  exact Iff.rfl

/-- Every entry of the output is in the block of the point its row falls to. -/
theorem cover1 (i : S10240x128.Idx) :
    ∃ t : Fin cfg1.N, (cfg1.win 3).flush t = true ∧ i ∈ ((cfg1.win 3).blk t).view.set := by
  have hi0 : (i 0).val < 10240 := (i 0).isLt
  have hi1 : (i 1).val < 128 := (i 1).isLt
  have hN : cfg1.N = 40 := by decide
  have ht : (i 0).val / 256 < cfg1.N := by rw [hN]; omega
  obtain ⟨-, -, -, -, -, -, e6, e7⟩ := idx_facts1 ⟨(i 0).val / 256, ht⟩
  refine ⟨⟨(i 0).val / 256, ht⟩, flush1_3 _, ?_⟩
  rw [mem_blk1]
  intro a
  match a with
  | ⟨0, _⟩ =>
    show win1_3.index ⟨(i 0).val / 256, ht⟩ (0 : Fin 2) * 256 ≤ (i 0).val
      ∧ (i 0).val < win1_3.index ⟨(i 0).val / 256, ht⟩ (0 : Fin 2) * 256 + 256
    rw [e6]
    show (i 0).val / 256 * 256 ≤ (i 0).val ∧ (i 0).val < (i 0).val / 256 * 256 + 256
    omega
  | ⟨1, _⟩ =>
    show win1_3.index ⟨(i 0).val / 256, ht⟩ (1 : Fin 2) * 128 ≤ (i 1).val
      ∧ (i 1).val < win1_3.index ⟨(i 0).val / 256, ht⟩ (1 : Fin 2) * 128 + 128
    rw [e7]
    omega

/-! ## Aggregation call 2: 40 points, point `t` owns rows [256 t, 256 t + 256) -/

/-- The index maps at every point: the adjacency and the output move down one block of 256 rows per point, the
    projected features and the bias stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- An entry of the output is in point `t`'s block iff each coordinate is in the block's range on its axis. -/
theorem mem_blk2 (t : Fin cfg2.N) (i : S10240x128.Idx) :
    i ∈ ((cfg2.win 3).blk t).view.set ↔ ∀ a : Fin 2, win2_3.index t a * S256x128.size a ≤ (i a).val
      ∧ (i a).val < win2_3.index t a * S256x128.size a + S256x128.size a := by
  show i ∈ ((View.whole main_v59).slice (win2_3.rect t)).set ↔ _
  rw [View.set_slice_whole, Rect.mem_set_unit]
  exact Iff.rfl

/-- Every entry of the output is in the block of the point its row falls to. -/
theorem cover2 (i : S10240x128.Idx) :
    ∃ t : Fin cfg2.N, (cfg2.win 3).flush t = true ∧ i ∈ ((cfg2.win 3).blk t).view.set := by
  have hi0 : (i 0).val < 10240 := (i 0).isLt
  have hi1 : (i 1).val < 128 := (i 1).isLt
  have hN : cfg2.N = 40 := by decide
  have ht : (i 0).val / 256 < cfg2.N := by rw [hN]; omega
  obtain ⟨-, -, -, -, -, -, e6, e7⟩ := idx_facts2 ⟨(i 0).val / 256, ht⟩
  refine ⟨⟨(i 0).val / 256, ht⟩, flush2_3 _, ?_⟩
  rw [mem_blk2]
  intro a
  match a with
  | ⟨0, _⟩ =>
    show win2_3.index ⟨(i 0).val / 256, ht⟩ (0 : Fin 2) * 256 ≤ (i 0).val
      ∧ (i 0).val < win2_3.index ⟨(i 0).val / 256, ht⟩ (0 : Fin 2) * 256 + 256
    rw [e6]
    show (i 0).val / 256 * 256 ≤ (i 0).val ∧ (i 0).val < (i 0).val / 256 * 256 + 256
    omega
  | ⟨1, _⟩ =>
    show win2_3.index ⟨(i 0).val / 256, ht⟩ (1 : Fin 2) * 128 ≤ (i 1).val
      ∧ (i 1).val < win2_3.index ⟨(i 0).val / 256, ht⟩ (1 : Fin 2) * 128 + 128
    rw [e7]
    omega

/-! ## Aggregation call 3: 40 points, point `t` owns rows [256 t, 256 t + 256) -/

/-- The index maps at every point: the adjacency and the output move down one block of 256 rows per point, the
    projected features and the bias stay. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- An entry of the output is in point `t`'s block iff each coordinate is in the block's range on its axis. -/
theorem mem_blk3 (t : Fin cfg3.N) (i : S10240x256.Idx) :
    i ∈ ((cfg3.win 3).blk t).view.set ↔ ∀ a : Fin 2, win3_3.index t a * S256x256.size a ≤ (i a).val
      ∧ (i a).val < win3_3.index t a * S256x256.size a + S256x256.size a := by
  show i ∈ ((View.whole main_v62).slice (win3_3.rect t)).set ↔ _
  rw [View.set_slice_whole, Rect.mem_set_unit]
  exact Iff.rfl

/-- Every entry of the output is in the block of the point its row falls to. -/
theorem cover3 (i : S10240x256.Idx) :
    ∃ t : Fin cfg3.N, (cfg3.win 3).flush t = true ∧ i ∈ ((cfg3.win 3).blk t).view.set := by
  have hi0 : (i 0).val < 10240 := (i 0).isLt
  have hi1 : (i 1).val < 256 := (i 1).isLt
  have hN : cfg3.N = 40 := by decide
  have ht : (i 0).val / 256 < cfg3.N := by rw [hN]; omega
  obtain ⟨-, -, -, -, -, -, e6, e7⟩ := idx_facts3 ⟨(i 0).val / 256, ht⟩
  refine ⟨⟨(i 0).val / 256, ht⟩, flush3_3 _, ?_⟩
  rw [mem_blk3]
  intro a
  match a with
  | ⟨0, _⟩ =>
    show win3_3.index ⟨(i 0).val / 256, ht⟩ (0 : Fin 2) * 256 ≤ (i 0).val
      ∧ (i 0).val < win3_3.index ⟨(i 0).val / 256, ht⟩ (0 : Fin 2) * 256 + 256
    rw [e6]
    show (i 0).val / 256 * 256 ≤ (i 0).val ∧ (i 0).val < (i 0).val / 256 * 256 + 256
    omega
  | ⟨1, _⟩ =>
    show win3_3.index ⟨(i 0).val / 256, ht⟩ (1 : Fin 2) * 256 ≤ (i 1).val
      ∧ (i 1).val < win3_3.index ⟨(i 0).val / 256, ht⟩ (1 : Fin 2) * 256 + 256
    rw [e7]
    omega

/-! ## Aggregation call 4: 40 points, point `t` owns rows [256 t, 256 t + 256) -/

/-- The index maps at every point: the adjacency and the output move down one block of 256 rows per point, the
    projected features and the bias stay. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- An entry of the output is in point `t`'s block iff each coordinate is in the block's range on its axis. -/
theorem mem_blk4 (t : Fin cfg4.N) (i : S10240x128.Idx) :
    i ∈ ((cfg4.win 3).blk t).view.set ↔ ∀ a : Fin 2, win4_3.index t a * S256x128.size a ≤ (i a).val
      ∧ (i a).val < win4_3.index t a * S256x128.size a + S256x128.size a := by
  show i ∈ ((View.whole main_v65).slice (win4_3.rect t)).set ↔ _
  rw [View.set_slice_whole, Rect.mem_set_unit]
  exact Iff.rfl

/-- Every entry of the output is in the block of the point its row falls to. -/
theorem cover4 (i : S10240x128.Idx) :
    ∃ t : Fin cfg4.N, (cfg4.win 3).flush t = true ∧ i ∈ ((cfg4.win 3).blk t).view.set := by
  have hi0 : (i 0).val < 10240 := (i 0).isLt
  have hi1 : (i 1).val < 128 := (i 1).isLt
  have hN : cfg4.N = 40 := by decide
  have ht : (i 0).val / 256 < cfg4.N := by rw [hN]; omega
  obtain ⟨-, -, -, -, -, -, e6, e7⟩ := idx_facts4 ⟨(i 0).val / 256, ht⟩
  refine ⟨⟨(i 0).val / 256, ht⟩, flush4_3 _, ?_⟩
  rw [mem_blk4]
  intro a
  match a with
  | ⟨0, _⟩ =>
    show win4_3.index ⟨(i 0).val / 256, ht⟩ (0 : Fin 2) * 256 ≤ (i 0).val
      ∧ (i 0).val < win4_3.index ⟨(i 0).val / 256, ht⟩ (0 : Fin 2) * 256 + 256
    rw [e6]
    show (i 0).val / 256 * 256 ≤ (i 0).val ∧ (i 0).val < (i 0).val / 256 * 256 + 256
    omega
  | ⟨1, _⟩ =>
    show win4_3.index ⟨(i 0).val / 256, ht⟩ (1 : Fin 2) * 128 ≤ (i 1).val
      ∧ (i 1).val < win4_3.index ⟨(i 0).val / 256, ht⟩ (1 : Fin 2) * 128 + 128
    rw [e7]
    omega

/-! ## The decoder call: 10 × 10 points, point `10 a + b` owns block row `a`, block column `b` -/

/-- The index maps at every point. -/
theorem idx_facts5 : ∀ t : Fin cfg5.N, win5_0.index t (0 : Fin 2) = t.val / 10 ∧ win5_0.index t (1 : Fin 2) = 0
    ∧ win5_1.index t (0 : Fin 2) = t.val % 10 ∧ win5_1.index t (1 : Fin 2) = 0
    ∧ win5_2.index t (0 : Fin 2) = t.val / 10 ∧ win5_2.index t (1 : Fin 2) = t.val % 10 :=
  (by decide +kernel : ∀ t : Fin grid5.N, _)

/-- An entry of the output is in point `t`'s block iff each coordinate is in the block's range on its axis. -/
theorem mem_blk5 (t : Fin cfg5.N) (i : S10240x10240.Idx) :
    i ∈ ((cfg5.win 2).blk t).view.set ↔ ∀ a : Fin 2, win5_2.index t a * S1024x1024.size a ≤ (i a).val
      ∧ (i a).val < win5_2.index t a * S1024x1024.size a + S1024x1024.size a := by
  show i ∈ ((View.whole main_v67).slice (win5_2.rect t)).set ↔ _
  rw [View.set_slice_whole, Rect.mem_set_unit]
  exact Iff.rfl

/-- Every entry of the output is in the block of the point its row and column fall to. -/
theorem cover5 (i : S10240x10240.Idx) :
    ∃ t : Fin cfg5.N, (cfg5.win 2).flush t = true ∧ i ∈ ((cfg5.win 2).blk t).view.set := by
  have hi0 : (i 0).val < 10240 := (i 0).isLt
  have hi1 : (i 1).val < 10240 := (i 1).isLt
  have hN : cfg5.N = 100 := by decide
  have ht : (i 0).val / 1024 * 10 + (i 1).val / 1024 < cfg5.N := by rw [hN]; omega
  obtain ⟨-, -, -, -, e4, e5⟩ := idx_facts5 ⟨(i 0).val / 1024 * 10 + (i 1).val / 1024, ht⟩
  refine ⟨⟨(i 0).val / 1024 * 10 + (i 1).val / 1024, ht⟩, flush5_2 _, ?_⟩
  rw [mem_blk5]
  intro a
  match a with
  | ⟨0, _⟩ =>
    show win5_2.index ⟨(i 0).val / 1024 * 10 + (i 1).val / 1024, ht⟩ (0 : Fin 2) * 1024 ≤ (i 0).val
      ∧ (i 0).val < win5_2.index ⟨(i 0).val / 1024 * 10 + (i 1).val / 1024, ht⟩ (0 : Fin 2) * 1024 + 1024
    rw [e4]
    show ((i 0).val / 1024 * 10 + (i 1).val / 1024) / 10 * 1024 ≤ (i 0).val
      ∧ (i 0).val < ((i 0).val / 1024 * 10 + (i 1).val / 1024) / 10 * 1024 + 1024
    omega
  | ⟨1, _⟩ =>
    show win5_2.index ⟨(i 0).val / 1024 * 10 + (i 1).val / 1024, ht⟩ (1 : Fin 2) * 1024 ≤ (i 1).val
      ∧ (i 1).val < win5_2.index ⟨(i 0).val / 1024 * 10 + (i 1).val / 1024, ht⟩ (1 : Fin 2) * 1024 + 1024
    rw [e5]
    show ((i 0).val / 1024 * 10 + (i 1).val / 1024) % 10 * 1024 ≤ (i 1).val
      ∧ (i 1).val < ((i 0).val / 1024 * 10 + (i 1).val / 1024) % 10 * 1024 + 1024
    omega

end Cert.KernelIdeal.KValue

end
-- ==== Proof.LibMatmulRows.lean ====
/-
  A matrix product into a zero accumulator, read at one row and one column.

  For an `M × K` matrix `l` and a `K × N` matrix `r` contracted along the one shared axis, the entry of
  `l · r` at row `p` and column `j` is `∑ k, l[p,k] · r[k,j]`.  At the exact values the product unit's result
  is the accumulator plus the sum over the contraction index of the operands' products; the accumulator is
  the zero word, and the contraction index — a one-axis multi-index — is identified with its one
  coordinate `k : Fin K`.  The dimension numbers enter only through four coordinate facts (which axis of
  each operand is the output's and which is the contracted one), so the lemma serves every plain
  row-by-column product whatever the name of its dimension record.
-/
import Idealize.ShloMosaic.PureOps.Ideal.Laws
import Idealize.ShloMosaic.Lib.ValueIdx

noncomputable section

open scoped BigOperators

namespace Cert.LibMatmulRows

open Idealize.ShloMosaic Idealize.ShloMosaic.ValueIdx

/-- `(l · r)[p, j] = ∑ k, l[p,k] · r[k,j]` for a product into the zero accumulator whose left operand index at
    output `i` and contraction position `q` is `(i 0, q)` and whose right operand index is `(q, i 1)`. -/
theorem matmul_zero_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    matmul D prec l r (constant (F := Ideal) ⟨2, ![M, N]⟩ .f32 0x00000000#32) (ix2 p j)
      = ∑ k : Fin K, l (ix2 p k) * r (ix2 k j) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibMatmulRows

end
-- ==== Proof.KValuePay.lean ====
/-
  What each kernel body stores, read at one row and one column, at the exact values.

  The five aggregation bodies load a 256-row block of the dense adjacency, the whole matrix of projected features
  and the bias row, and store  A_blk · m + b  (rectified in the first and third layer): entry (p, q) of the stored
  block is  (∑ j, A_blk[p, j] · m[j, q]) + b[0, q].  A change of float format is the identity on exact values, the
  product unit starts from the zero accumulator, and the bias row is spread over the 256 rows.

  The decoder body loads two 1024-row blocks u, v of the hidden features and stores  u · vᵀ : entry (p, q) is the
  inner product of row p of u with row q of v.
-/
import proofs.«130217_j58256936403151_1_alg».proof.Proof.Gen.KernelIdeal.Skeleton
import proofs.«130217_j58256936403151_1_alg».proof.Proof.LibMatmulRows
import Idealize.ShloMosaic.Lib.ValueLayout
import Idealize.ShloMosaic.Lib.Pipeline.Value

noncomputable section

open scoped BigOperators

namespace Cert.KernelIdeal.KValue

open Idealize.ShloMosaic Idealize.ShloMosaic.ValueIdx Cert.KernelIdeal Cert.KernelIdeal.Gen

/-- Closes a coordinate fact of a product's operand index on an axis that is not contracted. -/
local macro "dot_free_axis" : tactic =>
  `(tactic| first
    | (unfold DotDims.lhsIdx; rw [dif_neg (by decide), dif_pos (by decide)]; rfl)
    | (unfold DotDims.rhsIdx; rw [dif_neg (by decide), dif_pos (by decide)]; rfl))

/-- The 256×10240 by 10240×128 product into the zero accumulator, at row `p` and column `q`. -/
theorem mm128_apply (a : FVec Ideal S256x10240 .bf16) (m : FVec Ideal S10240x128 .bf16) (p : Fin 256) (q : Fin 128) :
    matmul dot_S256x10240_S10240x128_S256x128_1_0_0_1_n_n none a m (constant (F := Ideal) S256x128 .f32 0x00000000#32) (ix2 p q)
      = ∑ j : Fin 10240, a (ix2 p j) * m (ix2 j q) :=
  Cert.LibMatmulRows.matmul_zero_apply dot_S256x10240_S10240x128_S256x128_1_0_0_1_n_n rfl rfl
    (fun i k => by dot_free_axis)
    (fun i k => dot_S256x10240_S10240x128_S256x128_1_0_0_1_n_n.lhsIdx_val_of_single rfl i k)
    (fun i k => dot_S256x10240_S10240x128_S256x128_1_0_0_1_n_n.rhsIdx_val_of_single rfl i k)
    (fun i k => by dot_free_axis)
    none a m p q

/-- The 256×10240 by 10240×256 product into the zero accumulator, at row `p` and column `q`. -/
theorem mm256_apply (a : FVec Ideal S256x10240 .bf16) (m : FVec Ideal S10240x256 .bf16) (p : Fin 256) (q : Fin 256) :
    matmul dot_S256x10240_S10240x256_S256x256_1_0_0_1_n_n none a m (constant (F := Ideal) S256x256 .f32 0x00000000#32) (ix2 p q)
      = ∑ j : Fin 10240, a (ix2 p j) * m (ix2 j q) :=
  Cert.LibMatmulRows.matmul_zero_apply dot_S256x10240_S10240x256_S256x256_1_0_0_1_n_n rfl rfl
    (fun i k => by dot_free_axis)
    (fun i k => dot_S256x10240_S10240x256_S256x256_1_0_0_1_n_n.lhsIdx_val_of_single rfl i k)
    (fun i k => dot_S256x10240_S10240x256_S256x256_1_0_0_1_n_n.rhsIdx_val_of_single rfl i k)
    (fun i k => by dot_free_axis)
    none a m p q

/-- The 1024×128 by 128×1024 product into the zero accumulator, at row `p` and column `q`. -/
theorem mmGram_apply (a : FVec Ideal S1024x128 .bf16) (m : FVec Ideal S128x1024 .bf16) (p : Fin 1024) (q : Fin 1024) :
    matmul dot_S1024x128_S128x1024_S1024x1024_1_0_0_1_n_n none a m (constant (F := Ideal) S1024x1024 .f32 0x00000000#32) (ix2 p q)
      = ∑ j : Fin 128, a (ix2 p j) * m (ix2 j q) :=
  Cert.LibMatmulRows.matmul_zero_apply dot_S1024x128_S128x1024_S1024x1024_1_0_0_1_n_n rfl rfl
    (fun i k => by dot_free_axis)
    (fun i k => dot_S1024x128_S128x1024_S1024x1024_1_0_0_1_n_n.lhsIdx_val_of_single rfl i k)
    (fun i k => dot_S1024x128_S128x1024_S1024x1024_1_0_0_1_n_n.rhsIdx_val_of_single rfl i k)
    (fun i k => by dot_free_axis)
    none a m p q

/-- Stored block of aggregation body 0: the rectified  A_blk · m + b . -/
theorem k0_pay1_apply (a : FVec Ideal S256x10240 .bf16) (mm : FVec Ideal S10240x128 .f32) (bb : FVec Ideal S1x128 .f32)
    (p : Fin 256) (q : Fin 128) :
    k0_pay1 (F := Ideal) a mm bb (ix2 p q)
      = max ((∑ j : Fin 10240, a (ix2 p j) * mm (ix2 j q)) + bb (ix2 (0 : Fin 1) q)) 0 := by
  refine (?_ : _ = max (matmul dot_S256x10240_S10240x128_S256x128_1_0_0_1_n_n none a (truncf .bf16 mm bitsLt_bf16_f32)
      (constant (F := Ideal) S256x128 .f32 0x00000000#32) (ix2 p q)
      + broadcastTo S256x128 bb broadcasts_S1x128_S256x128 (ix2 p q)) (Ideal.ofBits .f32 0x00000000#32)).trans ?_
  · unfold k0_pay1
    simp only [shapeCast_self]
    rfl
  · rw [mm128_apply, broadcastTo_1b_ab_apply, Ideal.ofBits_zero_f32]
    rfl

/-- Stored block of aggregation body 1: A_blk · m + b . -/
theorem k1_pay1_apply (a : FVec Ideal S256x10240 .bf16) (mm : FVec Ideal S10240x128 .f32) (bb : FVec Ideal S1x128 .f32)
    (p : Fin 256) (q : Fin 128) :
    k1_pay1 (F := Ideal) a mm bb (ix2 p q)
      = (∑ j : Fin 10240, a (ix2 p j) * mm (ix2 j q)) + bb (ix2 (0 : Fin 1) q) := by
  refine (?_ : _ = matmul dot_S256x10240_S10240x128_S256x128_1_0_0_1_n_n none a (truncf .bf16 mm bitsLt_bf16_f32)
      (constant (F := Ideal) S256x128 .f32 0x00000000#32) (ix2 p q)
      + broadcastTo S256x128 bb broadcasts_S1x128_S256x128 (ix2 p q)).trans ?_
  · unfold k1_pay1
    simp only [shapeCast_self]
    rfl
  · rw [mm128_apply, broadcastTo_1b_ab_apply]
    rfl

/-- Stored block of aggregation body 2: the rectified  A_blk · m + b . -/
theorem k2_pay1_apply (a : FVec Ideal S256x10240 .bf16) (mm : FVec Ideal S10240x128 .f32) (bb : FVec Ideal S1x128 .f32)
    (p : Fin 256) (q : Fin 128) :
    k2_pay1 (F := Ideal) a mm bb (ix2 p q)
      = max ((∑ j : Fin 10240, a (ix2 p j) * mm (ix2 j q)) + bb (ix2 (0 : Fin 1) q)) 0 := by
  refine (?_ : _ = max (matmul dot_S256x10240_S10240x128_S256x128_1_0_0_1_n_n none a (truncf .bf16 mm bitsLt_bf16_f32)
      (constant (F := Ideal) S256x128 .f32 0x00000000#32) (ix2 p q)
      + broadcastTo S256x128 bb broadcasts_S1x128_S256x128 (ix2 p q)) (Ideal.ofBits .f32 0x00000000#32)).trans ?_
  · unfold k2_pay1
    simp only [shapeCast_self]
    rfl
  · rw [mm128_apply, broadcastTo_1b_ab_apply, Ideal.ofBits_zero_f32]
    rfl

/-- Stored block of aggregation body 3: A_blk · m + b . -/
theorem k3_pay1_apply (a : FVec Ideal S256x10240 .bf16) (mm : FVec Ideal S10240x256 .f32) (bb : FVec Ideal S1x256 .f32)
    (p : Fin 256) (q : Fin 256) :
    k3_pay1 (F := Ideal) a mm bb (ix2 p q)
      = (∑ j : Fin 10240, a (ix2 p j) * mm (ix2 j q)) + bb (ix2 (0 : Fin 1) q) := by
  refine (?_ : _ = matmul dot_S256x10240_S10240x256_S256x256_1_0_0_1_n_n none a (truncf .bf16 mm bitsLt_bf16_f32)
      (constant (F := Ideal) S256x256 .f32 0x00000000#32) (ix2 p q)
      + broadcastTo S256x256 bb broadcasts_S1x256_S256x256 (ix2 p q)).trans ?_
  · unfold k3_pay1
    simp only [shapeCast_self]
    rfl
  · rw [mm256_apply, broadcastTo_1b_ab_apply]
    rfl

/-- Stored block of aggregation body 4: A_blk · m + b . -/
theorem k4_pay1_apply (a : FVec Ideal S256x10240 .bf16) (mm : FVec Ideal S10240x128 .f32) (bb : FVec Ideal S1x128 .f32)
    (p : Fin 256) (q : Fin 128) :
    k4_pay1 (F := Ideal) a mm bb (ix2 p q)
      = (∑ j : Fin 10240, a (ix2 p j) * mm (ix2 j q)) + bb (ix2 (0 : Fin 1) q) := by
  refine (?_ : _ = matmul dot_S256x10240_S10240x128_S256x128_1_0_0_1_n_n none a (truncf .bf16 mm bitsLt_bf16_f32)
      (constant (F := Ideal) S256x128 .f32 0x00000000#32) (ix2 p q)
      + broadcastTo S256x128 bb broadcasts_S1x128_S256x128 (ix2 p q)).trans ?_
  · unfold k4_pay1
    simp only [shapeCast_self]
    rfl
  · rw [mm128_apply, broadcastTo_1b_ab_apply]
    rfl

/-- Stored block of the decoder body:  u · vᵀ , entry (p, q) the inner product of row p of u with row q of v. -/
theorem k5_pay1_apply (u v : FVec Ideal S1024x128 .bf16) (p q : Fin 1024) :
    k5_pay1 (F := Ideal) u v (ix2 p q) = ∑ k : Fin 128, u (ix2 p k) * v (ix2 q k) := by
  refine (?_ : _ = matmul dot_S1024x128_S128x1024_S1024x1024_1_0_0_1_n_n none u
      (transpose S128x1024 [1, 0] v transposes_S1024x128_p1_0_S128x1024)
      (constant (F := Ideal) S1024x1024 .f32 0x00000000#32) (ix2 p q)).trans ?_
  · unfold k5_pay1
    simp only [shapeCast_self]
  · rw [mmGram_apply]
    refine Finset.sum_congr rfl fun k _ => ?_
    rw [transpose_ix2_apply]

end Cert.KernelIdeal.KValue

end
-- ==== Proof.LibScatterBlock.lean ====
/-
  A scatter that writes one block of rows into a matrix, read at one entry.

  A `stablehlo.scatter` whose body returns the update, with ONE start index naming the first row and both axes of the
  update a window, overwrites rows `[r₀, r₀ + R)` of an `N × C` operand with the `R × C` update and leaves the other rows.
  The host folds the update's entries one after the other; since each operand entry is met by at most one of them,
  the order does not matter: an entry inside the block holds the update's entry, an entry outside keeps the operand's.
-/
import Idealize.ShloMosaic.Lib.ValueIdx
import Idealize.ShloMosaic.PureOps.Ideal

noncomputable section

namespace Cert.ScatterBlock

open Idealize.ShloMosaic Idealize.ShloMosaic.ValueIdx

section Fold

variable {s si u : Shape} {w : Nat} {α : Type} (d : ScatterDims s si u)
  (x : s.Idx → α) (idx : IVec si w) (upd : u.Idx → α)

/-- The fold over any list of update positions, read at an operand entry `i` that only the update entry `j0` can
    land on: the update's entry once `j0` has been met, the starting contents before. -/
theorem fold_set_apply (i : s.Idx) (j0 : u.Idx) (huniq : ∀ j, d.resultIdx? j idx = some i → j = j0)
    (L : List (Fin u.numel)) (r : s.Idx → α) :
    (L.foldl (fun r n =>
        match d.resultIdx? (u.rowMajor.symm n) idx with
        | some i => fun i' => if i' = i then (fun (_ b : α) => b) (r i) (upd (u.rowMajor.symm n)) else r i'
        | none => r) r) i
      = if ∃ n ∈ L, d.resultIdx? (u.rowMajor.symm n) idx = some i then upd j0 else r i := by
  induction L generalizing r with
  | nil => simp
  | cons n L ih =>
    rw [List.foldl_cons, ih]
    by_cases hL : ∃ m ∈ L, d.resultIdx? (u.rowMajor.symm m) idx = some i
    · rw [if_pos hL, if_pos (by obtain ⟨m, hm, h⟩ := hL; exact ⟨m, List.mem_cons_of_mem _ hm, h⟩)]
    · rw [if_neg hL]
      cases hres : d.resultIdx? (u.rowMajor.symm n) idx with
      | none =>
        dsimp only
        rw [if_neg]
        rintro ⟨m, hm, h⟩
        rcases List.mem_cons.mp hm with rfl | hm
        · rw [hres] at h; exact absurd h (by simp)
        · exact hL ⟨m, hm, h⟩
      | some i' =>
        dsimp only
        by_cases hi : i = i'
        · subst hi
          have hex : ∃ m ∈ n :: L, d.resultIdx? (u.rowMajor.symm m) idx = some i := ⟨n, List.mem_cons_self, hres⟩
          rw [if_pos rfl, if_pos hex, huniq _ hres]
        · rw [if_neg hi, if_neg]
          rintro ⟨m, hm, h⟩
          rcases List.mem_cons.mp hm with rfl | hm
          · rw [hres] at h; exact hi (Option.some.inj h).symm
          · exact hL ⟨m, hm, h⟩

/-- An operand entry that exactly one update entry lands on holds that update entry. -/
theorem scatter_set_apply_of_unique (i : s.Idx) (j0 : u.Idx) (h0 : d.resultIdx? j0 idx = some i)
    (huniq : ∀ j, d.resultIdx? j idx = some i → j = j0) :
    Host.scatter d (fun _ b => b) x idx upd i = upd j0 := by
  unfold Host.scatter
  refine (fold_set_apply d idx upd i j0 huniq (List.finRange u.numel) x).trans (if_pos ?_)
  exact ⟨u.rowMajor j0, List.mem_finRange _, by rw [Equiv.symm_apply_apply]; exact h0⟩

/-- An operand entry that no update entry lands on keeps the operand's value. -/
theorem scatter_set_apply_of_none (i : s.Idx) (hnone : ∀ j, d.resultIdx? j idx ≠ some i) :
    Host.scatter d (fun _ b => b) x idx upd i = x i := by
  unfold Host.scatter
  by_cases hu : Nonempty u.Idx
  · obtain ⟨j0⟩ := hu
    refine (fold_set_apply d idx upd i j0 (fun j h => absurd h (hnone j)) (List.finRange u.numel) x).trans (if_neg ?_)
    rintro ⟨m, _, h⟩
    exact hnone _ h
  · have : List.finRange u.numel = [] := by
      rcases hn : List.finRange u.numel with _ | ⟨n, L⟩
      · rfl
      · exact absurd ⟨u.rowMajor.symm n⟩ hu
    rw [this]
    rfl

end Fold

/-! ## An R×C block of rows written at one start row of an N×C operand -/

/-- The dimension numbers: both update axes are window axes, the one start index names the row. -/
def blockDims (N R C : Nat) (wf : ScatterDims.WF ⟨2, ![N, C]⟩ ⟨1, ![1]⟩ ⟨2, ![R, C]⟩ [0, 1] [] [0] 0) :
    ScatterDims ⟨2, ![N, C]⟩ ⟨1, ![1]⟩ ⟨2, ![R, C]⟩ where
  updateWindowDims := [0, 1]
  insertedWindowDims := []
  scatterDimsToOperandDims := [0]
  indexVectorDim := 0
  wf := wf

variable {N R C w : Nat}

/-- On the row axis the window starts at the one start index, read signed. -/
theorem start_row (wf : ScatterDims.WF ⟨2, ![N, C]⟩ ⟨1, ![1]⟩ ⟨2, ![R, C]⟩ [0, 1] [] [0] 0)
    (idx : IVec ⟨1, ![1]⟩ w) (j : (⟨2, ![R, C]⟩ : Shape).Idx) :
    (blockDims N R C wf).start j idx (0 : Fin 2) = (idx (ix1 (0 : Fin 1))).toInt := by
  unfold ScatterDims.start
  rw [dif_pos (show (0 : Fin 2) ∈ (blockDims N R C wf).scatterDimsToOperandDims from List.mem_singleton.mpr rfl)]
  have hsi : (blockDims N R C wf).siIdx j ⟨List.idxOf (0 : Fin 2) (blockDims N R C wf).scatterDimsToOperandDims,
      List.idxOf_lt_length_iff.2 (List.mem_singleton.mpr rfl)⟩ = ix1 (0 : Fin 1) := by
    funext b; refine Fin.ext ?_
    match b with
    | ⟨0, _⟩ => rfl
  rw [hsi]

/-- The column axis carries no start index. -/
theorem start_col (wf : ScatterDims.WF ⟨2, ![N, C]⟩ ⟨1, ![1]⟩ ⟨2, ![R, C]⟩ [0, 1] [] [0] 0)
    (idx : IVec ⟨1, ![1]⟩ w) (j : (⟨2, ![R, C]⟩ : Shape).Idx) :
    (blockDims N R C wf).start j idx (1 : Fin 2) = 0 := by
  unfold ScatterDims.start
  rw [dif_neg]
  intro h
  exact Nat.one_ne_zero (congrArg Fin.val (List.mem_singleton.mp h))

/-- Both operand axes are window axes: the window coordinate is the update's own coordinate. -/
theorem window_row (wf : ScatterDims.WF ⟨2, ![N, C]⟩ ⟨1, ![1]⟩ ⟨2, ![R, C]⟩ [0, 1] [] [0] 0)
    (j : (⟨2, ![R, C]⟩ : Shape).Idx) : (blockDims N R C wf).window j (0 : Fin 2) = (j 0).val := by
  unfold ScatterDims.window
  rw [dif_pos (show (0 : Fin 2) ∈ (blockDims N R C wf).sKept by
    simp [ScatterDims.sKept, Shape.kept, List.mem_filter, List.mem_finRange, blockDims])]
  rfl

theorem window_col (wf : ScatterDims.WF ⟨2, ![N, C]⟩ ⟨1, ![1]⟩ ⟨2, ![R, C]⟩ [0, 1] [] [0] 0)
    (j : (⟨2, ![R, C]⟩ : Shape).Idx) : (blockDims N R C wf).window j (1 : Fin 2) = (j 1).val := by
  unfold ScatterDims.window
  rw [dif_pos (show (1 : Fin 2) ∈ (blockDims N R C wf).sKept by
    simp [ScatterDims.sKept, Shape.kept, List.mem_filter, List.mem_finRange, blockDims])]
  rfl

/-- An update entry lands on operand entry `i` exactly when `i`'s row is the start row plus the entry's row and the
    columns agree. -/
theorem lands_iff (wf : ScatterDims.WF ⟨2, ![N, C]⟩ ⟨1, ![1]⟩ ⟨2, ![R, C]⟩ [0, 1] [] [0] 0)
    (idx : IVec ⟨1, ![1]⟩ w) (j : (⟨2, ![R, C]⟩ : Shape).Idx) (i : (⟨2, ![N, C]⟩ : Shape).Idx) :
    (blockDims N R C wf).resultIdx? j idx = some i ↔
      ((idx (ix1 (0 : Fin 1))).toInt + ((j 0).val : Int) = ((i 0).val : Int) ∧ (j 1).val = (i 1).val) := by
  have hi0 : (i 0).val < N := (i 0).isLt
  have hi1 : (i 1).val < C := (i 1).isLt
  have hj1 : (j 1).val < C := (j 1).isLt
  unfold ScatterDims.resultIdx?
  constructor
  · intro h
    split at h
    · rename_i hall
      have hi := Option.some.inj h
      have h0 := (hall 0).1
      have h1 := (hall 1).1
      have e0 : (i 0).val = ((blockDims N R C wf).start j idx 0 + ((blockDims N R C wf).window j 0 : Int)).toNat := by
        rw [← hi]
      have e1 : (i 1).val = ((blockDims N R C wf).start j idx 1 + ((blockDims N R C wf).window j 1 : Int)).toNat := by
        rw [← hi]
      rw [start_row, window_row] at e0 h0
      rw [start_col, window_col] at e1 h1
      constructor <;> omega
    · exact absurd h (by simp)
  · rintro ⟨h0, h1⟩
    have hall : ∀ a, 0 ≤ (blockDims N R C wf).start j idx a + ((blockDims N R C wf).window j a : Int)
        ∧ (blockDims N R C wf).start j idx a + ((blockDims N R C wf).window j a : Int) < ((⟨2, ![N, C]⟩ : Shape).size a : Int) := by
      refine Fin.forall_fin_two.mpr ⟨?_, ?_⟩
      · rw [start_row, window_row]
        show _ ∧ _ < ((N : Nat) : Int)
        omega
      · rw [start_col, window_col]
        show _ ∧ _ < ((C : Nat) : Int)
        omega
    rw [dif_pos hall]
    congr 1
    funext a
    refine Fin.ext ?_
    revert a
    refine Fin.forall_fin_two.mpr ⟨?_, ?_⟩
    · show ((blockDims N R C wf).start j idx 0 + ((blockDims N R C wf).window j 0 : Int)).toNat = (i 0).val
      rw [start_row, window_row]; omega
    · show ((blockDims N R C wf).start j idx 1 + ((blockDims N R C wf).window j 1 : Int)).toNat = (i 1).val
      rw [start_col, window_col]; omega

/-- The block written at start row zero, read at `(p, k)`: the update's row `p` where `p < R`, the operand's row elsewhere. -/
theorem scatter_block_zero_apply {α : Type} (wf : ScatterDims.WF ⟨2, ![N, C]⟩ ⟨1, ![1]⟩ ⟨2, ![R, C]⟩ [0, 1] [] [0] 0)
    (x : (⟨2, ![N, C]⟩ : Shape).Idx → α) (idx : IVec ⟨1, ![1]⟩ w) (hidx : (idx (ix1 (0 : Fin 1))).toInt = 0)
    (upd : (⟨2, ![R, C]⟩ : Shape).Idx → α) (p : Fin N) (k : Fin C) :
    Host.scatter (blockDims N R C wf) (fun _ b => b) x idx upd (ix2 p k)
      = if hp : p.val < R then upd (ix2 ⟨p.val, hp⟩ k) else x (ix2 p k) := by
  by_cases hp : p.val < R
  · rw [dif_pos hp]
    refine scatter_set_apply_of_unique _ x idx upd (ix2 p k) (ix2 ⟨p.val, hp⟩ k) ?_ ?_
    · rw [lands_iff, hidx]
      exact ⟨by show (0 : Int) + ((p.val : Nat) : Int) = ((p.val : Nat) : Int); omega, rfl⟩
    · intro j hj
      rw [lands_iff, hidx] at hj
      obtain ⟨h0, h1⟩ := hj
      have h0' : (j 0).val = p.val := by
        have : ((j 0).val : Int) = ((p.val : Nat) : Int) := by
          have e : (((ix2 p k : (⟨2, ![N, C]⟩ : Shape).Idx) 0).val : Int) = ((p.val : Nat) : Int) := rfl
          omega
        exact_mod_cast this
      rw [eq_ix2 j]
      have e0 : j 0 = (⟨p.val, hp⟩ : Fin R) := Fin.ext h0'
      have e1 : j 1 = k := Fin.ext h1
      rw [e0, e1]
      rfl
  · rw [dif_neg hp]
    refine scatter_set_apply_of_none _ x idx upd (ix2 p k) fun j hj => ?_
    rw [lands_iff, hidx] at hj
    have hj0 : (j 0).val < R := (j 0).isLt
    have e : (((ix2 p k : (⟨2, ![N, C]⟩ : Shape).Idx) 0).val : Int) = ((p.val : Nat) : Int) := rfl
    omega

end Cert.ScatterBlock

end
-- ==== Proof.KValueHostOps.lean ====
/-
  The other host operations around the six kernels, each read at one entry, at the exact values.

  * The node features are written into the first 10000 rows of a zero matrix with 10240 rows.
  * Each layer's projection  h · W  is the host's matrix product: entry `(p, q)` is `∑ k, h[p,k] · W[k,q]`.
  * Each bias vector is re-laid as one row.
  * The two results are the first 10000 rows (and columns) of the padded outputs.
-/
import proofs.«130217_j58256936403151_1_alg».proof.Proof.Gen.KernelIdeal
import proofs.«130217_j58256936403151_1_alg».proof.Proof.LibScatterBlock
import proofs.«130217_j58256936403151_1_alg».proof.Proof.LibHostRows
import proofs.«130217_j58256936403151_1_alg».proof.Proof.Spec
import Idealize.ShloMosaic.Lib.ValueLayout
import Idealize.ShloMosaic.Lib.Pipeline.Value

noncomputable section

open scoped BigOperators

namespace Cert.KernelIdeal.KValue

open Idealize.ShloMosaic Idealize.ShloMosaic.ValueIdx Cert.KernelIdeal Cert.KernelIdeal.Gen

variable {F : FTy → Type} [FloatOps F]

/-! ## The padded node features -/

/-- The node features written at row zero of a zero matrix with 10240 rows. -/
def padRows (x : FVec F S10000x256 .f32) : FVec F S10240x256 .f32 :=
  Host.scatter scatter_S10240x256_S1_S10000x256_01_n_0_0 (fun _ b => b)
    (broadcastInDim S10240x256 ![] bcast_S_S10240x256 (constant S_ .f32 0x00000000#32))
    (broadcastInDim S1 ![] bcast_S_S1 (constantI S_ 32 0#32)) x

/-- Row `i` of the padded features is row `i` of the features for `i < 10000` and zero beyond. -/
theorem padRows_apply (x : FVec Ideal S10000x256 .f32) (i : Fin 10240) (k : Fin 256) :
    padRows (F := Ideal) x (ix2 i k) = Cert.GcnSpec.xpad (fun r c => x (ix2 r c)) i k := by
  have hrec : scatter_S10240x256_S1_S10000x256_01_n_0_0
      = Cert.ScatterBlock.blockDims 10240 10000 256 scatter_S10240x256_S1_S10000x256_01_n_0_0_wf := rfl
  unfold padRows
  rw [hrec, Cert.ScatterBlock.scatter_block_zero_apply _ _ _ (by rfl)]
  unfold Cert.GcnSpec.xpad
  by_cases hp : i.val < 10000
  · rw [dif_pos hp, dif_pos hp]
  · rw [dif_neg hp, dif_neg hp]
    exact Ideal.ofBits_zero_f32

/-! ## The projections -/

/-- Closes a coordinate fact of a product's operand index on an axis that is not contracted. -/
local macro "dot_free_axis" : tactic =>
  `(tactic| first
    | (unfold DotDims.lhsIdx; rw [dif_neg (by decide), dif_pos (by decide)]; rfl)
    | (unfold DotDims.rhsIdx; rw [dif_neg (by decide), dif_pos (by decide)]; rfl))

/-- The first layer's projection of the padded features. -/
theorem proj256_128_apply (h : FVec Ideal S10240x256 .f32) (W : FVec Ideal S256x128 .f32) (p : Fin 10240) (q : Fin 128) :
    Host.dotGeneral (F := Ideal) dot_S10240x256_S256x128_S10240x128_1_0_0_1_n_n none h W (ix2 p q)
      = ∑ k : Fin 256, h (ix2 p k) * W (ix2 k q) :=
  Cert.LibHostRows.hostDot_apply dot_S10240x256_S256x128_S10240x128_1_0_0_1_n_n rfl rfl
    (fun i k => by dot_free_axis)
    (fun i k => dot_S10240x256_S256x128_S10240x128_1_0_0_1_n_n.lhsIdx_val_of_single rfl i k)
    (fun i k => dot_S10240x256_S256x128_S10240x128_1_0_0_1_n_n.rhsIdx_val_of_single rfl i k)
    (fun i k => by dot_free_axis)
    none h W p q

/-- A projection of 128 hidden features onto 128. -/
theorem proj128_128_apply (h : FVec Ideal S10240x128 .f32) (W : FVec Ideal S128x128 .f32) (p : Fin 10240) (q : Fin 128) :
    Host.dotGeneral (F := Ideal) dot_S10240x128_S128x128_S10240x128_1_0_0_1_n_n none h W (ix2 p q)
      = ∑ k : Fin 128, h (ix2 p k) * W (ix2 k q) :=
  Cert.LibHostRows.hostDot_apply dot_S10240x128_S128x128_S10240x128_1_0_0_1_n_n rfl rfl
    (fun i k => by dot_free_axis)
    (fun i k => dot_S10240x128_S128x128_S10240x128_1_0_0_1_n_n.lhsIdx_val_of_single rfl i k)
    (fun i k => dot_S10240x128_S128x128_S10240x128_1_0_0_1_n_n.rhsIdx_val_of_single rfl i k)
    (fun i k => by dot_free_axis)
    none h W p q

/-- The attribute decoder's projection of 128 hidden features onto 256. -/
theorem proj128_256_apply (h : FVec Ideal S10240x128 .f32) (W : FVec Ideal S128x256 .f32) (p : Fin 10240) (q : Fin 256) :
    Host.dotGeneral (F := Ideal) dot_S10240x128_S128x256_S10240x256_1_0_0_1_n_n none h W (ix2 p q)
      = ∑ k : Fin 128, h (ix2 p k) * W (ix2 k q) :=
  Cert.LibHostRows.hostDot_apply dot_S10240x128_S128x256_S10240x256_1_0_0_1_n_n rfl rfl
    (fun i k => by dot_free_axis)
    (fun i k => dot_S10240x128_S128x256_S10240x256_1_0_0_1_n_n.lhsIdx_val_of_single rfl i k)
    (fun i k => dot_S10240x128_S128x256_S10240x256_1_0_0_1_n_n.rhsIdx_val_of_single rfl i k)
    (fun i k => by dot_free_axis)
    none h W p q

/-! ## The bias rows -/

/-- A 128-long bias re-laid as one row. -/
theorem biasRow128_apply {α : Type} (b : S128.Idx → α) (q : Fin 128) :
    shapeCast S1x128 b shapeCasts_S128_S1x128 (ix2 (0 : Fin 1) q) = b (ix1 q) :=
  Cert.LibHostRows.rowOfVec_cast_apply b shapeCasts_S128_S1x128 q

/-- A 256-long bias re-laid as one row. -/
theorem biasRow256_apply {α : Type} (b : S256.Idx → α) (q : Fin 256) :
    shapeCast S1x256 b shapeCasts_S256_S1x256 (ix2 (0 : Fin 1) q) = b (ix1 q) :=
  Cert.LibHostRows.rowOfVec_cast_apply b shapeCasts_S256_S1x256 q

/-! ## The results: the rows and columns of the 10000 real nodes -/

/-- The reconstructed attributes: the first 10000 rows of the padded output. -/
theorem sliceRows_apply {α : Type} (X : S10240x256.Idx → α) (i : Fin 10000) (f : Fin 256) :
    extractStridedSlice S10000x256 ![0, 0] X slices_S10240x256_S10000x256_0_0 (ix2 i f)
      = X (ix2 (⟨i.val, by have := i.isLt; omega⟩ : Fin 10240) f) :=
  extractStridedSlice_apply _ X slices_S10240x256_S10000x256_0_0 (ix2 i f) _ (fun a => match a with
    | ⟨0, _⟩ => by show i.val = 0 + i.val; omega
    | ⟨1, _⟩ => by show f.val = 0 + f.val; omega)

/-- The reconstructed structure: the first 10000 rows and columns of the padded Gram matrix. -/
theorem sliceSquare_apply {α : Type} (X : S10240x10240.Idx → α) (i j : Fin 10000) :
    extractStridedSlice S10000x10000 ![0, 0] X slices_S10240x10240_S10000x10000_0_0 (ix2 i j)
      = X (ix2 (⟨i.val, by have := i.isLt; omega⟩ : Fin 10240) (⟨j.val, by have := j.isLt; omega⟩ : Fin 10240)) :=
  extractStridedSlice_apply _ X slices_S10240x10240_S10000x10000_0_0 (ix2 i j) _ (fun a => match a with
    | ⟨0, _⟩ => by show i.val = 0 + i.val; omega
    | ⟨1, _⟩ => by show j.val = 0 + j.val; omega)

end Cert.KernelIdeal.KValue

end
-- ==== Proof.KValueLayers.lean ====
/-
  What each call leaves in its output, as one function of the whole arrays it is given.

  An aggregation call given the dense adjacency `A`, the projected features `m` and the bias row `b` leaves
  `A · m + b` (rectified in the first and third layer): the point that owns rows [256 t, 256 t + 256) computes exactly
  those rows, from the same rows of `A`.  With `m = h · W` computed by the host and the bias re-laid as one row this is
  one layer `convA A h W b` through the dense adjacency.  The decoder call leaves the Gram matrix of the hidden
  features: the point at block row `a`, block column `b` computes the inner products of rows [1024 a, 1024 a + 1024)
  with rows [1024 b, 1024 b + 1024).
-/
import proofs.«130217_j58256936403151_1_alg».proof.Proof.KValuePay
import proofs.«130217_j58256936403151_1_alg».proof.Proof.KValueHostOps

noncomputable section

open scoped BigOperators

namespace Cert.KernelIdeal.KValue

open Idealize.ShloMosaic Idealize.ShloMosaic.ValueIdx Cert.KernelIdeal Cert.KernelIdeal.Gen

/-- Entry `(i, f)` of `A · m + b`, over whole arrays. -/
def aggAt {C : ℕ} (A : S10240x10240.Idx → EReal) (m : (⟨2, ![10240, C]⟩ : Shape).Idx → EReal)
    (b : (⟨2, ![1, C]⟩ : Shape).Idx → EReal) (i : Fin 10240) (f : Fin C) : EReal :=
  (∑ j : Fin 10240, A (ix2 i j) * m (ix2 j f)) + b (ix2 (0 : Fin 1) f)

/-- Row `p` of the block of point `t` is row `256 t + p` of the array. -/
abbrev rowOf (t : Fin 40) (p : Fin 256) : Fin 10240 := ⟨256 * t.val + p.val, by have := t.isLt; have := p.isLt; omega⟩

/-- Row `p` of block `a` of the hidden features is row `1024 a + p`. -/
abbrev rowOfG (a : Fin 10) (p : Fin 1024) : Fin 10240 := ⟨1024 * a.val + p.val, by have := a.isLt; have := p.isLt; omega⟩

/-! ## A point's stored block is its rows of the whole-array function -/

theorem k0_block (A : FVec Ideal S10240x10240 .bf16) (a : FVec Ideal S256x10240 .bf16) (mm : FVec Ideal S10240x128 .f32)
    (bb : FVec Ideal S1x128 .f32) (t : Fin 40)
    (ha : ∀ (p : Fin 256) (j : Fin 10240), a (ix2 p j) = A (ix2 (rowOf t p) j)) (p : Fin 256) (q : Fin 128) :
    k0_pay1 (F := Ideal) a mm bb (ix2 p q) = max (aggAt A mm bb (rowOf t p) q) 0 := by
  rw [k0_pay1_apply]
  unfold aggAt
  simp only [ha]

theorem k1_block (A : FVec Ideal S10240x10240 .bf16) (a : FVec Ideal S256x10240 .bf16) (mm : FVec Ideal S10240x128 .f32)
    (bb : FVec Ideal S1x128 .f32) (t : Fin 40)
    (ha : ∀ (p : Fin 256) (j : Fin 10240), a (ix2 p j) = A (ix2 (rowOf t p) j)) (p : Fin 256) (q : Fin 128) :
    k1_pay1 (F := Ideal) a mm bb (ix2 p q) = aggAt A mm bb (rowOf t p) q := by
  rw [k1_pay1_apply]
  unfold aggAt
  simp only [ha]

theorem k2_block (A : FVec Ideal S10240x10240 .bf16) (a : FVec Ideal S256x10240 .bf16) (mm : FVec Ideal S10240x128 .f32)
    (bb : FVec Ideal S1x128 .f32) (t : Fin 40)
    (ha : ∀ (p : Fin 256) (j : Fin 10240), a (ix2 p j) = A (ix2 (rowOf t p) j)) (p : Fin 256) (q : Fin 128) :
    k2_pay1 (F := Ideal) a mm bb (ix2 p q) = max (aggAt A mm bb (rowOf t p) q) 0 := by
  rw [k2_pay1_apply]
  unfold aggAt
  simp only [ha]

theorem k3_block (A : FVec Ideal S10240x10240 .bf16) (a : FVec Ideal S256x10240 .bf16) (mm : FVec Ideal S10240x256 .f32)
    (bb : FVec Ideal S1x256 .f32) (t : Fin 40)
    (ha : ∀ (p : Fin 256) (j : Fin 10240), a (ix2 p j) = A (ix2 (rowOf t p) j)) (p : Fin 256) (q : Fin 256) :
    k3_pay1 (F := Ideal) a mm bb (ix2 p q) = aggAt A mm bb (rowOf t p) q := by
  rw [k3_pay1_apply]
  unfold aggAt
  simp only [ha]

theorem k4_block (A : FVec Ideal S10240x10240 .bf16) (a : FVec Ideal S256x10240 .bf16) (mm : FVec Ideal S10240x128 .f32)
    (bb : FVec Ideal S1x128 .f32) (t : Fin 40)
    (ha : ∀ (p : Fin 256) (j : Fin 10240), a (ix2 p j) = A (ix2 (rowOf t p) j)) (p : Fin 256) (q : Fin 128) :
    k4_pay1 (F := Ideal) a mm bb (ix2 p q) = aggAt A mm bb (rowOf t p) q := by
  rw [k4_pay1_apply]
  unfold aggAt
  simp only [ha]

theorem k5_block (hs : FVec Ideal S10240x128 .bf16) (u v : FVec Ideal S1024x128 .bf16) (a b : Fin 10)
    (hu : ∀ (p : Fin 1024) (k : Fin 128), u (ix2 p k) = hs (ix2 (rowOfG a p) k))
    (hv : ∀ (q : Fin 1024) (k : Fin 128), v (ix2 q k) = hs (ix2 (rowOfG b q) k)) (p q : Fin 1024) :
    k5_pay1 (F := Ideal) u v (ix2 p q)
      = Cert.GcnSpec.gram (fun r k => hs (ix2 r k)) (rowOfG a p) (rowOfG b q) := by
  rw [k5_pay1_apply]
  unfold Cert.GcnSpec.gram
  simp only [hu, hv]

/-! ## With the host's projection and bias row: one layer through the dense adjacency -/

theorem aggAt_layer256_128 (A : FVec Ideal S10240x10240 .bf16) (h : FVec Ideal S10240x256 .f32) (W : FVec Ideal S256x128 .f32)
    (bv : FVec Ideal S128 .f32) (i : Fin 10240) (f : Fin 128) :
    aggAt A (Host.dotGeneral (F := Ideal) dot_S10240x256_S256x128_S10240x128_1_0_0_1_n_n none h W)
        (shapeCast S1x128 bv shapeCasts_S128_S1x128) i f
      = Cert.GcnSpec.convA (fun i j => A (ix2 i j)) (fun j k => h (ix2 j k)) (fun k f => W (ix2 k f)) (fun f => bv (ix1 f)) i f := by
  unfold aggAt Cert.GcnSpec.convA
  rw [biasRow128_apply]
  simp only [proj256_128_apply]

theorem aggAt_layer128_128 (A : FVec Ideal S10240x10240 .bf16) (h : FVec Ideal S10240x128 .f32) (W : FVec Ideal S128x128 .f32)
    (bv : FVec Ideal S128 .f32) (i : Fin 10240) (f : Fin 128) :
    aggAt A (Host.dotGeneral (F := Ideal) dot_S10240x128_S128x128_S10240x128_1_0_0_1_n_n none h W)
        (shapeCast S1x128 bv shapeCasts_S128_S1x128) i f
      = Cert.GcnSpec.convA (fun i j => A (ix2 i j)) (fun j k => h (ix2 j k)) (fun k f => W (ix2 k f)) (fun f => bv (ix1 f)) i f := by
  unfold aggAt Cert.GcnSpec.convA
  rw [biasRow128_apply]
  simp only [proj128_128_apply]

theorem aggAt_layer128_256 (A : FVec Ideal S10240x10240 .bf16) (h : FVec Ideal S10240x128 .f32) (W : FVec Ideal S128x256 .f32)
    (bv : FVec Ideal S256 .f32) (i : Fin 10240) (f : Fin 256) :
    aggAt A (Host.dotGeneral (F := Ideal) dot_S10240x128_S128x256_S10240x256_1_0_0_1_n_n none h W)
        (shapeCast S1x256 bv shapeCasts_S256_S1x256) i f
      = Cert.GcnSpec.convA (fun i j => A (ix2 i j)) (fun j k => h (ix2 j k)) (fun k f => W (ix2 k f)) (fun f => bv (ix1 f)) i f := by
  unfold aggAt Cert.GcnSpec.convA
  rw [biasRow256_apply]
  simp only [proj128_256_apply]

/-- The same, with the adjacency and the incoming features known entry by entry. -/
theorem layer256_128_of (A : FVec Ideal S10240x10240 .bf16) (A' : Fin 10240 → Fin 10240 → EReal)
    (hA : ∀ i j, A (ix2 i j) = A' i j) (h : FVec Ideal S10240x256 .f32) (h' : Fin 10240 → Fin 256 → EReal)
    (hh : ∀ j k, h (ix2 j k) = h' j k) (W : FVec Ideal S256x128 .f32) (bv : FVec Ideal S128 .f32) (i : Fin 10240) (f : Fin 128) :
    aggAt A (Host.dotGeneral (F := Ideal) dot_S10240x256_S256x128_S10240x128_1_0_0_1_n_n none h W)
        (shapeCast S1x128 bv shapeCasts_S128_S1x128) i f
      = Cert.GcnSpec.convA A' h' (fun k f => W (ix2 k f)) (fun f => bv (ix1 f)) i f := by
  rw [aggAt_layer256_128]
  have e1 : (fun i j => A (ix2 i j)) = A' := funext fun i => funext fun j => hA i j
  have e2 : (fun j k => h (ix2 j k)) = h' := funext fun j => funext fun k => hh j k
  rw [e1, e2]

/-- The same, with the adjacency and the incoming features known entry by entry. -/
theorem layer128_128_of (A : FVec Ideal S10240x10240 .bf16) (A' : Fin 10240 → Fin 10240 → EReal)
    (hA : ∀ i j, A (ix2 i j) = A' i j) (h : FVec Ideal S10240x128 .f32) (h' : Fin 10240 → Fin 128 → EReal)
    (hh : ∀ j k, h (ix2 j k) = h' j k) (W : FVec Ideal S128x128 .f32) (bv : FVec Ideal S128 .f32) (i : Fin 10240) (f : Fin 128) :
    aggAt A (Host.dotGeneral (F := Ideal) dot_S10240x128_S128x128_S10240x128_1_0_0_1_n_n none h W)
        (shapeCast S1x128 bv shapeCasts_S128_S1x128) i f
      = Cert.GcnSpec.convA A' h' (fun k f => W (ix2 k f)) (fun f => bv (ix1 f)) i f := by
  rw [aggAt_layer128_128]
  have e1 : (fun i j => A (ix2 i j)) = A' := funext fun i => funext fun j => hA i j
  have e2 : (fun j k => h (ix2 j k)) = h' := funext fun j => funext fun k => hh j k
  rw [e1, e2]

/-- The same, with the adjacency and the incoming features known entry by entry. -/
theorem layer128_256_of (A : FVec Ideal S10240x10240 .bf16) (A' : Fin 10240 → Fin 10240 → EReal)
    (hA : ∀ i j, A (ix2 i j) = A' i j) (h : FVec Ideal S10240x128 .f32) (h' : Fin 10240 → Fin 128 → EReal)
    (hh : ∀ j k, h (ix2 j k) = h' j k) (W : FVec Ideal S128x256 .f32) (bv : FVec Ideal S256 .f32) (i : Fin 10240) (f : Fin 256) :
    aggAt A (Host.dotGeneral (F := Ideal) dot_S10240x128_S128x256_S10240x256_1_0_0_1_n_n none h W)
        (shapeCast S1x256 bv shapeCasts_S256_S1x256) i f
      = Cert.GcnSpec.convA A' h' (fun k f => W (ix2 k f)) (fun f => bv (ix1 f)) i f := by
  rw [aggAt_layer128_256]
  have e1 : (fun i j => A (ix2 i j)) = A' := funext fun i => funext fun j => hA i j
  have e2 : (fun j k => h (ix2 j k)) = h' := funext fun j => funext fun k => hh j k
  rw [e1, e2]

end Cert.KernelIdeal.KValue

end
-- ==== Proof.KValueArr0.lean ====
/-
  What aggregation call 0 leaves in its output array, entry by entry, from the whole arrays it is entered with.

  Point `t` of the 40 is handed rows [256 t, 256 t + 256) of the adjacency and the whole of the projected features
  and of the bias row, and writes rows [256 t, 256 t + 256) of the output; the 40 blocks tile the output, so the array
  ends holding the rectified  A · m + b  at every entry.
-/
import proofs.«130217_j58256936403151_1_alg».proof.Proof.KRun0
import proofs.«130217_j58256936403151_1_alg».proof.Proof.KValueBlocks
import proofs.«130217_j58256936403151_1_alg».proof.Proof.KValueLayers

noncomputable section

open scoped BigOperators

namespace Cert.KernelIdeal.KValue

open Idealize.ShloMosaic Idealize.ShloMosaic.ValueIdx Idealize.ShloMosaic.TcCoe Idealize.SL.Sem
open Cert.KernelIdeal Cert.KernelIdeal.Gen Cert.KernelIdeal.KRun
open Idealize.ShloMosaic.Pipeline (Dat)

/-- The stored block of a point, at block coordinates `(p, q)`, is the whole-array function at the entry `i` those
    coordinates name, when the point's adjacency block is rows [256 t, 256 t + 256) and its other two blocks are whole. -/
theorem block0_at (A : S10240x10240.Idx → EReal) (M : S10240x128.Idx → EReal) (B : S1x128.Idx → EReal)
    (a : FVec Ideal S256x10240 .bf16) (mm : FVec Ideal S10240x128 .f32) (bb : FVec Ideal S1x128 .f32) (t : Fin 40)
    (ha : ∀ (p : Fin 256) (j : Fin 10240), a (ix2 p j) = A (ix2 (rowOf t p) j))
    (hm : ∀ (j : Fin 10240) (q : Fin 128), mm (ix2 j q) = M (ix2 j q))
    (hb : ∀ q : Fin 128, bb (ix2 (0 : Fin 1) q) = B (ix2 (0 : Fin 1) q))
    (p : Fin 256) (q : Fin 128) (i : S10240x128.Idx) (hi0 : (i 0).val = 256 * t.val + p.val) (hi1 : (i 1).val = q.val) :
    k0_pay1 (F := Ideal) a mm bb (ix2 p q) = max (aggAt A M B (i 0) (i 1)) 0 := by
  have e0 : i 0 = rowOf t p := Fin.ext hi0
  have e1 : i 1 = q := Fin.ext hi1
  rw [k0_pay1_apply, e0, e1]
  unfold aggAt
  simp only [ha, hm, hb]

theorem hz0 : (![0, 0] : Fin 2 → Nat) = fun _ => 0 := funext fun a => by fin_cases a <;> rfl

section Arr

variable (V : (c : Dev nD) → (b : Ref sig .tc) → Buf (Elt Ideal) ((c : Thread nD τ).loc b))

/-- The whole-array function the call leaves. -/
def left0 (c : Dev nD) : S10240x128.Idx → EReal :=
  fun i => max (aggAt (V c main_v47) (V c main_v51) (V c main_v52) (i 0) (i 1)) 0

/-- What point `t` writes back is block `t` of that function. -/
theorem flushed0_eq (c : Dev nD) (t : Fin cfg0.N) :
    (aggDat0 (F := Ideal) V c).flushed 3 t = ((cfg0.win 3).blk t).view.read (Elt Ideal) (left0 V c) := by
  show (cfg0.win 3).cut (grid0.coords t) ((aggDat0 (F := Ideal) V c).after 3 t) = _
  rw [aggDat0_after_3]
  unfold aggOut0
  rw [View.canon_unit_zero hz0]
  simp only [View.ld_unit_zero (S := S256x10240) hz0, View.ld_unit_zero (S := S10240x128) hz0, View.ld_unit_zero (S := S1x128) hz0]
  obtain ⟨e0, e1, e2, e3, e4, e5, e6, e7⟩ := idx_facts0 t
  have hN : cfg0.N = 40 := by decide
  have ht : t.val < 40 := hN ▸ t.isLt
  funext y
  have hy : y = ix2 (y 0) (y 1) := funext fun a => by
    match a with
    | ⟨0, _⟩ => rfl
    | ⟨1, _⟩ => rfl
  refine (congrArg (k0_pay1 (F := Ideal) (blk0 V c 0 t) (blk0 V c 1 t) (blk0 V c 2 t)) hy).trans ?_
  refine block0_at (V c main_v47) (V c main_v51) (V c main_v52) _ _ _ ⟨t.val, ht⟩ ?_ ?_ ?_ (y 0) (y 1)
    (((cfg0.win 3).blk t).view.emb y) ?_ ?_
  · intro p j
    show V c main_v47 (((cfg0.win 0).blk t).view.emb (ix2 p j)) = V c main_v47 (ix2 (rowOf ⟨t.val, ht⟩ p) j)
    refine congrArg (V c main_v47) (funext fun a => Fin.ext ?_)
    match a with
    | ⟨0, _⟩ =>
      show win0_0.index t (0 : Fin 2) * 256 + 1 * p.val = 256 * t.val + p.val
      rw [e0]; omega
    | ⟨1, _⟩ =>
      show win0_0.index t (1 : Fin 2) * 10240 + 1 * j.val = j.val
      rw [e1]; omega
  · intro j q
    show V c main_v51 (((cfg0.win 1).blk t).view.emb (ix2 j q)) = V c main_v51 (ix2 j q)
    refine congrArg (V c main_v51) (funext fun a => Fin.ext ?_)
    match a with
    | ⟨0, _⟩ =>
      show win0_1.index t (0 : Fin 2) * 10240 + 1 * j.val = j.val
      rw [e2]; omega
    | ⟨1, _⟩ =>
      show win0_1.index t (1 : Fin 2) * 128 + 1 * q.val = q.val
      rw [e3]; omega
  · intro q
    show V c main_v52 (((cfg0.win 2).blk t).view.emb (ix2 (0 : Fin 1) q)) = V c main_v52 (ix2 (0 : Fin 1) q)
    refine congrArg (V c main_v52) (funext fun a => Fin.ext ?_)
    match a with
    | ⟨0, _⟩ =>
      show win0_2.index t (0 : Fin 2) * 1 + 1 * 0 = 0
      rw [e4]
    | ⟨1, _⟩ =>
      show win0_2.index t (1 : Fin 2) * 128 + 1 * q.val = q.val
      rw [e5]; omega
  · show win0_3.index t (0 : Fin 2) * 256 + 1 * (y 0).val = 256 * t.val + (y 0).val
    rw [e6]; omega
  · show win0_3.index t (1 : Fin 2) * 128 + 1 * (y 1).val = (y 1).val
    rw [e7]; omega

/-- The output array after the 40 points. -/
theorem arr0_eq (c : Dev nD) : (aggDat0 (F := Ideal) V c).arrAt 3 cfg0.N = left0 V c :=
  (aggDat0 (F := Ideal) V c).arrAt_eq_of_cover 3 (left0 V c) (fun t _ => flushed0_eq V c t) cover0

/-- The same, read at one entry. -/
theorem arr0_apply (c : Dev nD) (i : Fin 10240) (f : Fin 128) :
    (aggDat0 (F := Ideal) V c).arrAt 3 cfg0.N (ix2 i f)
      = max (aggAt (V c main_v47) (V c main_v51) (V c main_v52) i f) 0 := by
  rw [arr0_eq]
  rfl

end Arr

end Cert.KernelIdeal.KValue

end
-- ==== Proof.KValueArr1.lean ====
/-
  What aggregation call 1 leaves in its output array, entry by entry, from the whole arrays it is entered with.

  Point `t` of the 40 is handed rows [256 t, 256 t + 256) of the adjacency and the whole of the projected features
  and of the bias row, and writes rows [256 t, 256 t + 256) of the output; the 40 blocks tile the output, so the array
  ends holding  A · m + b  at every entry.
-/
import proofs.«130217_j58256936403151_1_alg».proof.Proof.KRun1
import proofs.«130217_j58256936403151_1_alg».proof.Proof.KValueBlocks
import proofs.«130217_j58256936403151_1_alg».proof.Proof.KValueLayers

noncomputable section

open scoped BigOperators

namespace Cert.KernelIdeal.KValue

open Idealize.ShloMosaic Idealize.ShloMosaic.ValueIdx Idealize.ShloMosaic.TcCoe Idealize.SL.Sem
open Cert.KernelIdeal Cert.KernelIdeal.Gen Cert.KernelIdeal.KRun
open Idealize.ShloMosaic.Pipeline (Dat)

/-- The stored block of a point, at block coordinates `(p, q)`, is the whole-array function at the entry `i` those
    coordinates name, when the point's adjacency block is rows [256 t, 256 t + 256) and its other two blocks are whole. -/
theorem block1_at (A : S10240x10240.Idx → EReal) (M : S10240x128.Idx → EReal) (B : S1x128.Idx → EReal)
    (a : FVec Ideal S256x10240 .bf16) (mm : FVec Ideal S10240x128 .f32) (bb : FVec Ideal S1x128 .f32) (t : Fin 40)
    (ha : ∀ (p : Fin 256) (j : Fin 10240), a (ix2 p j) = A (ix2 (rowOf t p) j))
    (hm : ∀ (j : Fin 10240) (q : Fin 128), mm (ix2 j q) = M (ix2 j q))
    (hb : ∀ q : Fin 128, bb (ix2 (0 : Fin 1) q) = B (ix2 (0 : Fin 1) q))
    (p : Fin 256) (q : Fin 128) (i : S10240x128.Idx) (hi0 : (i 0).val = 256 * t.val + p.val) (hi1 : (i 1).val = q.val) :
    k1_pay1 (F := Ideal) a mm bb (ix2 p q) = aggAt A M B (i 0) (i 1) := by
  have e0 : i 0 = rowOf t p := Fin.ext hi0
  have e1 : i 1 = q := Fin.ext hi1
  rw [k1_pay1_apply, e0, e1]
  unfold aggAt
  simp only [ha, hm, hb]

theorem hz1 : (![0, 0] : Fin 2 → Nat) = fun _ => 0 := funext fun a => by fin_cases a <;> rfl

section Arr

variable (V : (c : Dev nD) → (b : Ref sig .tc) → Buf (Elt Ideal) ((c : Thread nD τ).loc b))

/-- The whole-array function the call leaves. -/
def left1 (c : Dev nD) : S10240x128.Idx → EReal :=
  fun i => aggAt (V c main_v47) (V c main_v54) (V c main_v55) (i 0) (i 1)

/-- What point `t` writes back is block `t` of that function. -/
theorem flushed1_eq (c : Dev nD) (t : Fin cfg1.N) :
    (aggDat1 (F := Ideal) V c).flushed 3 t = ((cfg1.win 3).blk t).view.read (Elt Ideal) (left1 V c) := by
  show (cfg1.win 3).cut (grid1.coords t) ((aggDat1 (F := Ideal) V c).after 3 t) = _
  rw [aggDat1_after_3]
  unfold aggOut1
  rw [View.canon_unit_zero hz1]
  simp only [View.ld_unit_zero (S := S256x10240) hz1, View.ld_unit_zero (S := S10240x128) hz1, View.ld_unit_zero (S := S1x128) hz1]
  obtain ⟨e0, e1, e2, e3, e4, e5, e6, e7⟩ := idx_facts1 t
  have hN : cfg1.N = 40 := by decide
  have ht : t.val < 40 := hN ▸ t.isLt
  funext y
  have hy : y = ix2 (y 0) (y 1) := funext fun a => by
    match a with
    | ⟨0, _⟩ => rfl
    | ⟨1, _⟩ => rfl
  refine (congrArg (k1_pay1 (F := Ideal) (blk1 V c 0 t) (blk1 V c 1 t) (blk1 V c 2 t)) hy).trans ?_
  refine block1_at (V c main_v47) (V c main_v54) (V c main_v55) _ _ _ ⟨t.val, ht⟩ ?_ ?_ ?_ (y 0) (y 1)
    (((cfg1.win 3).blk t).view.emb y) ?_ ?_
  · intro p j
    show V c main_v47 (((cfg1.win 0).blk t).view.emb (ix2 p j)) = V c main_v47 (ix2 (rowOf ⟨t.val, ht⟩ p) j)
    refine congrArg (V c main_v47) (funext fun a => Fin.ext ?_)
    match a with
    | ⟨0, _⟩ =>
      show win1_0.index t (0 : Fin 2) * 256 + 1 * p.val = 256 * t.val + p.val
      rw [e0]; omega
    | ⟨1, _⟩ =>
      show win1_0.index t (1 : Fin 2) * 10240 + 1 * j.val = j.val
      rw [e1]; omega
  · intro j q
    show V c main_v54 (((cfg1.win 1).blk t).view.emb (ix2 j q)) = V c main_v54 (ix2 j q)
    refine congrArg (V c main_v54) (funext fun a => Fin.ext ?_)
    match a with
    | ⟨0, _⟩ =>
      show win1_1.index t (0 : Fin 2) * 10240 + 1 * j.val = j.val
      rw [e2]; omega
    | ⟨1, _⟩ =>
      show win1_1.index t (1 : Fin 2) * 128 + 1 * q.val = q.val
      rw [e3]; omega
  · intro q
    show V c main_v55 (((cfg1.win 2).blk t).view.emb (ix2 (0 : Fin 1) q)) = V c main_v55 (ix2 (0 : Fin 1) q)
    refine congrArg (V c main_v55) (funext fun a => Fin.ext ?_)
    match a with
    | ⟨0, _⟩ =>
      show win1_2.index t (0 : Fin 2) * 1 + 1 * 0 = 0
      rw [e4]
    | ⟨1, _⟩ =>
      show win1_2.index t (1 : Fin 2) * 128 + 1 * q.val = q.val
      rw [e5]; omega
  · show win1_3.index t (0 : Fin 2) * 256 + 1 * (y 0).val = 256 * t.val + (y 0).val
    rw [e6]; omega
  · show win1_3.index t (1 : Fin 2) * 128 + 1 * (y 1).val = (y 1).val
    rw [e7]; omega

/-- The output array after the 40 points. -/
theorem arr1_eq (c : Dev nD) : (aggDat1 (F := Ideal) V c).arrAt 3 cfg1.N = left1 V c :=
  (aggDat1 (F := Ideal) V c).arrAt_eq_of_cover 3 (left1 V c) (fun t _ => flushed1_eq V c t) cover1

/-- The same, read at one entry. -/
theorem arr1_apply (c : Dev nD) (i : Fin 10240) (f : Fin 128) :
    (aggDat1 (F := Ideal) V c).arrAt 3 cfg1.N (ix2 i f)
      = aggAt (V c main_v47) (V c main_v54) (V c main_v55) i f := by
  rw [arr1_eq]
  rfl

end Arr

end Cert.KernelIdeal.KValue

end
-- ==== Proof.KValueArr2.lean ====
/-
  What aggregation call 2 leaves in its output array, entry by entry, from the whole arrays it is entered with.

  Point `t` of the 40 is handed rows [256 t, 256 t + 256) of the adjacency and the whole of the projected features
  and of the bias row, and writes rows [256 t, 256 t + 256) of the output; the 40 blocks tile the output, so the array
  ends holding the rectified  A · m + b  at every entry.
-/
import proofs.«130217_j58256936403151_1_alg».proof.Proof.KRun2
import proofs.«130217_j58256936403151_1_alg».proof.Proof.KValueBlocks
import proofs.«130217_j58256936403151_1_alg».proof.Proof.KValueLayers

noncomputable section

open scoped BigOperators

namespace Cert.KernelIdeal.KValue

open Idealize.ShloMosaic Idealize.ShloMosaic.ValueIdx Idealize.ShloMosaic.TcCoe Idealize.SL.Sem
open Cert.KernelIdeal Cert.KernelIdeal.Gen Cert.KernelIdeal.KRun
open Idealize.ShloMosaic.Pipeline (Dat)

/-- The stored block of a point, at block coordinates `(p, q)`, is the whole-array function at the entry `i` those
    coordinates name, when the point's adjacency block is rows [256 t, 256 t + 256) and its other two blocks are whole. -/
theorem block2_at (A : S10240x10240.Idx → EReal) (M : S10240x128.Idx → EReal) (B : S1x128.Idx → EReal)
    (a : FVec Ideal S256x10240 .bf16) (mm : FVec Ideal S10240x128 .f32) (bb : FVec Ideal S1x128 .f32) (t : Fin 40)
    (ha : ∀ (p : Fin 256) (j : Fin 10240), a (ix2 p j) = A (ix2 (rowOf t p) j))
    (hm : ∀ (j : Fin 10240) (q : Fin 128), mm (ix2 j q) = M (ix2 j q))
    (hb : ∀ q : Fin 128, bb (ix2 (0 : Fin 1) q) = B (ix2 (0 : Fin 1) q))
    (p : Fin 256) (q : Fin 128) (i : S10240x128.Idx) (hi0 : (i 0).val = 256 * t.val + p.val) (hi1 : (i 1).val = q.val) :
    k2_pay1 (F := Ideal) a mm bb (ix2 p q) = max (aggAt A M B (i 0) (i 1)) 0 := by
  have e0 : i 0 = rowOf t p := Fin.ext hi0
  have e1 : i 1 = q := Fin.ext hi1
  rw [k2_pay1_apply, e0, e1]
  unfold aggAt
  simp only [ha, hm, hb]

theorem hz2 : (![0, 0] : Fin 2 → Nat) = fun _ => 0 := funext fun a => by fin_cases a <;> rfl

section Arr

variable (V : (c : Dev nD) → (b : Ref sig .tc) → Buf (Elt Ideal) ((c : Thread nD τ).loc b))

/-- The whole-array function the call leaves. -/
def left2 (c : Dev nD) : S10240x128.Idx → EReal :=
  fun i => max (aggAt (V c main_v47) (V c main_v57) (V c main_v58) (i 0) (i 1)) 0

/-- What point `t` writes back is block `t` of that function. -/
theorem flushed2_eq (c : Dev nD) (t : Fin cfg2.N) :
    (aggDat2 (F := Ideal) V c).flushed 3 t = ((cfg2.win 3).blk t).view.read (Elt Ideal) (left2 V c) := by
  show (cfg2.win 3).cut (grid2.coords t) ((aggDat2 (F := Ideal) V c).after 3 t) = _
  rw [aggDat2_after_3]
  unfold aggOut2
  rw [View.canon_unit_zero hz2]
  simp only [View.ld_unit_zero (S := S256x10240) hz2, View.ld_unit_zero (S := S10240x128) hz2, View.ld_unit_zero (S := S1x128) hz2]
  obtain ⟨e0, e1, e2, e3, e4, e5, e6, e7⟩ := idx_facts2 t
  have hN : cfg2.N = 40 := by decide
  have ht : t.val < 40 := hN ▸ t.isLt
  funext y
  have hy : y = ix2 (y 0) (y 1) := funext fun a => by
    match a with
    | ⟨0, _⟩ => rfl
    | ⟨1, _⟩ => rfl
  refine (congrArg (k2_pay1 (F := Ideal) (blk2 V c 0 t) (blk2 V c 1 t) (blk2 V c 2 t)) hy).trans ?_
  refine block2_at (V c main_v47) (V c main_v57) (V c main_v58) _ _ _ ⟨t.val, ht⟩ ?_ ?_ ?_ (y 0) (y 1)
    (((cfg2.win 3).blk t).view.emb y) ?_ ?_
  · intro p j
    show V c main_v47 (((cfg2.win 0).blk t).view.emb (ix2 p j)) = V c main_v47 (ix2 (rowOf ⟨t.val, ht⟩ p) j)
    refine congrArg (V c main_v47) (funext fun a => Fin.ext ?_)
    match a with
    | ⟨0, _⟩ =>
      show win2_0.index t (0 : Fin 2) * 256 + 1 * p.val = 256 * t.val + p.val
      rw [e0]; omega
    | ⟨1, _⟩ =>
      show win2_0.index t (1 : Fin 2) * 10240 + 1 * j.val = j.val
      rw [e1]; omega
  · intro j q
    show V c main_v57 (((cfg2.win 1).blk t).view.emb (ix2 j q)) = V c main_v57 (ix2 j q)
    refine congrArg (V c main_v57) (funext fun a => Fin.ext ?_)
    match a with
    | ⟨0, _⟩ =>
      show win2_1.index t (0 : Fin 2) * 10240 + 1 * j.val = j.val
      rw [e2]; omega
    | ⟨1, _⟩ =>
      show win2_1.index t (1 : Fin 2) * 128 + 1 * q.val = q.val
      rw [e3]; omega
  · intro q
    show V c main_v58 (((cfg2.win 2).blk t).view.emb (ix2 (0 : Fin 1) q)) = V c main_v58 (ix2 (0 : Fin 1) q)
    refine congrArg (V c main_v58) (funext fun a => Fin.ext ?_)
    match a with
    | ⟨0, _⟩ =>
      show win2_2.index t (0 : Fin 2) * 1 + 1 * 0 = 0
      rw [e4]
    | ⟨1, _⟩ =>
      show win2_2.index t (1 : Fin 2) * 128 + 1 * q.val = q.val
      rw [e5]; omega
  · show win2_3.index t (0 : Fin 2) * 256 + 1 * (y 0).val = 256 * t.val + (y 0).val
    rw [e6]; omega
  · show win2_3.index t (1 : Fin 2) * 128 + 1 * (y 1).val = (y 1).val
    rw [e7]; omega

/-- The output array after the 40 points. -/
theorem arr2_eq (c : Dev nD) : (aggDat2 (F := Ideal) V c).arrAt 3 cfg2.N = left2 V c :=
  (aggDat2 (F := Ideal) V c).arrAt_eq_of_cover 3 (left2 V c) (fun t _ => flushed2_eq V c t) cover2

/-- The same, read at one entry. -/
theorem arr2_apply (c : Dev nD) (i : Fin 10240) (f : Fin 128) :
    (aggDat2 (F := Ideal) V c).arrAt 3 cfg2.N (ix2 i f)
      = max (aggAt (V c main_v47) (V c main_v57) (V c main_v58) i f) 0 := by
  rw [arr2_eq]
  rfl

end Arr

end Cert.KernelIdeal.KValue

end
-- ==== Proof.KValueArr3.lean ====
/-
  What aggregation call 3 leaves in its output array, entry by entry, from the whole arrays it is entered with.

  Point `t` of the 40 is handed rows [256 t, 256 t + 256) of the adjacency and the whole of the projected features
  and of the bias row, and writes rows [256 t, 256 t + 256) of the output; the 40 blocks tile the output, so the array
  ends holding  A · m + b  at every entry.
-/
import proofs.«130217_j58256936403151_1_alg».proof.Proof.KRun3
import proofs.«130217_j58256936403151_1_alg».proof.Proof.KValueBlocks
import proofs.«130217_j58256936403151_1_alg».proof.Proof.KValueLayers

noncomputable section

open scoped BigOperators

namespace Cert.KernelIdeal.KValue

open Idealize.ShloMosaic Idealize.ShloMosaic.ValueIdx Idealize.ShloMosaic.TcCoe Idealize.SL.Sem
open Cert.KernelIdeal Cert.KernelIdeal.Gen Cert.KernelIdeal.KRun
open Idealize.ShloMosaic.Pipeline (Dat)

/-- The stored block of a point, at block coordinates `(p, q)`, is the whole-array function at the entry `i` those
    coordinates name, when the point's adjacency block is rows [256 t, 256 t + 256) and its other two blocks are whole. -/
theorem block3_at (A : S10240x10240.Idx → EReal) (M : S10240x256.Idx → EReal) (B : S1x256.Idx → EReal)
    (a : FVec Ideal S256x10240 .bf16) (mm : FVec Ideal S10240x256 .f32) (bb : FVec Ideal S1x256 .f32) (t : Fin 40)
    (ha : ∀ (p : Fin 256) (j : Fin 10240), a (ix2 p j) = A (ix2 (rowOf t p) j))
    (hm : ∀ (j : Fin 10240) (q : Fin 256), mm (ix2 j q) = M (ix2 j q))
    (hb : ∀ q : Fin 256, bb (ix2 (0 : Fin 1) q) = B (ix2 (0 : Fin 1) q))
    (p : Fin 256) (q : Fin 256) (i : S10240x256.Idx) (hi0 : (i 0).val = 256 * t.val + p.val) (hi1 : (i 1).val = q.val) :
    k3_pay1 (F := Ideal) a mm bb (ix2 p q) = aggAt A M B (i 0) (i 1) := by
  have e0 : i 0 = rowOf t p := Fin.ext hi0
  have e1 : i 1 = q := Fin.ext hi1
  rw [k3_pay1_apply, e0, e1]
  unfold aggAt
  simp only [ha, hm, hb]

theorem hz3 : (![0, 0] : Fin 2 → Nat) = fun _ => 0 := funext fun a => by fin_cases a <;> rfl

section Arr

variable (V : (c : Dev nD) → (b : Ref sig .tc) → Buf (Elt Ideal) ((c : Thread nD τ).loc b))

/-- The whole-array function the call leaves. -/
def left3 (c : Dev nD) : S10240x256.Idx → EReal :=
  fun i => aggAt (V c main_v47) (V c main_v60) (V c main_v61) (i 0) (i 1)

/-- What point `t` writes back is block `t` of that function. -/
theorem flushed3_eq (c : Dev nD) (t : Fin cfg3.N) :
    (aggDat3 (F := Ideal) V c).flushed 3 t = ((cfg3.win 3).blk t).view.read (Elt Ideal) (left3 V c) := by
  show (cfg3.win 3).cut (grid3.coords t) ((aggDat3 (F := Ideal) V c).after 3 t) = _
  rw [aggDat3_after_3]
  unfold aggOut3
  rw [View.canon_unit_zero hz3]
  simp only [View.ld_unit_zero (S := S256x10240) hz3, View.ld_unit_zero (S := S10240x256) hz3, View.ld_unit_zero (S := S1x256) hz3]
  obtain ⟨e0, e1, e2, e3, e4, e5, e6, e7⟩ := idx_facts3 t
  have hN : cfg3.N = 40 := by decide
  have ht : t.val < 40 := hN ▸ t.isLt
  funext y
  have hy : y = ix2 (y 0) (y 1) := funext fun a => by
    match a with
    | ⟨0, _⟩ => rfl
    | ⟨1, _⟩ => rfl
  refine (congrArg (k3_pay1 (F := Ideal) (blk3 V c 0 t) (blk3 V c 1 t) (blk3 V c 2 t)) hy).trans ?_
  refine block3_at (V c main_v47) (V c main_v60) (V c main_v61) _ _ _ ⟨t.val, ht⟩ ?_ ?_ ?_ (y 0) (y 1)
    (((cfg3.win 3).blk t).view.emb y) ?_ ?_
  · intro p j
    show V c main_v47 (((cfg3.win 0).blk t).view.emb (ix2 p j)) = V c main_v47 (ix2 (rowOf ⟨t.val, ht⟩ p) j)
    refine congrArg (V c main_v47) (funext fun a => Fin.ext ?_)
    match a with
    | ⟨0, _⟩ =>
      show win3_0.index t (0 : Fin 2) * 256 + 1 * p.val = 256 * t.val + p.val
      rw [e0]; omega
    | ⟨1, _⟩ =>
      show win3_0.index t (1 : Fin 2) * 10240 + 1 * j.val = j.val
      rw [e1]; omega
  · intro j q
    show V c main_v60 (((cfg3.win 1).blk t).view.emb (ix2 j q)) = V c main_v60 (ix2 j q)
    refine congrArg (V c main_v60) (funext fun a => Fin.ext ?_)
    match a with
    | ⟨0, _⟩ =>
      show win3_1.index t (0 : Fin 2) * 10240 + 1 * j.val = j.val
      rw [e2]; omega
    | ⟨1, _⟩ =>
      show win3_1.index t (1 : Fin 2) * 256 + 1 * q.val = q.val
      rw [e3]; omega
  · intro q
    show V c main_v61 (((cfg3.win 2).blk t).view.emb (ix2 (0 : Fin 1) q)) = V c main_v61 (ix2 (0 : Fin 1) q)
    refine congrArg (V c main_v61) (funext fun a => Fin.ext ?_)
    match a with
    | ⟨0, _⟩ =>
      show win3_2.index t (0 : Fin 2) * 1 + 1 * 0 = 0
      rw [e4]
    | ⟨1, _⟩ =>
      show win3_2.index t (1 : Fin 2) * 256 + 1 * q.val = q.val
      rw [e5]; omega
  · show win3_3.index t (0 : Fin 2) * 256 + 1 * (y 0).val = 256 * t.val + (y 0).val
    rw [e6]; omega
  · show win3_3.index t (1 : Fin 2) * 256 + 1 * (y 1).val = (y 1).val
    rw [e7]; omega

/-- The output array after the 40 points. -/
theorem arr3_eq (c : Dev nD) : (aggDat3 (F := Ideal) V c).arrAt 3 cfg3.N = left3 V c :=
  (aggDat3 (F := Ideal) V c).arrAt_eq_of_cover 3 (left3 V c) (fun t _ => flushed3_eq V c t) cover3

/-- The same, read at one entry. -/
theorem arr3_apply (c : Dev nD) (i : Fin 10240) (f : Fin 256) :
    (aggDat3 (F := Ideal) V c).arrAt 3 cfg3.N (ix2 i f)
      = aggAt (V c main_v47) (V c main_v60) (V c main_v61) i f := by
  rw [arr3_eq]
  rfl

end Arr

end Cert.KernelIdeal.KValue

end
-- ==== Proof.KValueArr4.lean ====
/-
  What aggregation call 4 leaves in its output array, entry by entry, from the whole arrays it is entered with.

  Point `t` of the 40 is handed rows [256 t, 256 t + 256) of the adjacency and the whole of the projected features
  and of the bias row, and writes rows [256 t, 256 t + 256) of the output; the 40 blocks tile the output, so the array
  ends holding  A · m + b  at every entry.
-/
import proofs.«130217_j58256936403151_1_alg».proof.Proof.KRun4
import proofs.«130217_j58256936403151_1_alg».proof.Proof.KValueBlocks
import proofs.«130217_j58256936403151_1_alg».proof.Proof.KValueLayers

noncomputable section

open scoped BigOperators

namespace Cert.KernelIdeal.KValue

open Idealize.ShloMosaic Idealize.ShloMosaic.ValueIdx Idealize.ShloMosaic.TcCoe Idealize.SL.Sem
open Cert.KernelIdeal Cert.KernelIdeal.Gen Cert.KernelIdeal.KRun
open Idealize.ShloMosaic.Pipeline (Dat)

/-- The stored block of a point, at block coordinates `(p, q)`, is the whole-array function at the entry `i` those
    coordinates name, when the point's adjacency block is rows [256 t, 256 t + 256) and its other two blocks are whole. -/
theorem block4_at (A : S10240x10240.Idx → EReal) (M : S10240x128.Idx → EReal) (B : S1x128.Idx → EReal)
    (a : FVec Ideal S256x10240 .bf16) (mm : FVec Ideal S10240x128 .f32) (bb : FVec Ideal S1x128 .f32) (t : Fin 40)
    (ha : ∀ (p : Fin 256) (j : Fin 10240), a (ix2 p j) = A (ix2 (rowOf t p) j))
    (hm : ∀ (j : Fin 10240) (q : Fin 128), mm (ix2 j q) = M (ix2 j q))
    (hb : ∀ q : Fin 128, bb (ix2 (0 : Fin 1) q) = B (ix2 (0 : Fin 1) q))
    (p : Fin 256) (q : Fin 128) (i : S10240x128.Idx) (hi0 : (i 0).val = 256 * t.val + p.val) (hi1 : (i 1).val = q.val) :
    k4_pay1 (F := Ideal) a mm bb (ix2 p q) = aggAt A M B (i 0) (i 1) := by
  have e0 : i 0 = rowOf t p := Fin.ext hi0
  have e1 : i 1 = q := Fin.ext hi1
  rw [k4_pay1_apply, e0, e1]
  unfold aggAt
  simp only [ha, hm, hb]

theorem hz4 : (![0, 0] : Fin 2 → Nat) = fun _ => 0 := funext fun a => by fin_cases a <;> rfl

section Arr

variable (V : (c : Dev nD) → (b : Ref sig .tc) → Buf (Elt Ideal) ((c : Thread nD τ).loc b))

/-- The whole-array function the call leaves. -/
def left4 (c : Dev nD) : S10240x128.Idx → EReal :=
  fun i => aggAt (V c main_v47) (V c main_v63) (V c main_v64) (i 0) (i 1)

/-- What point `t` writes back is block `t` of that function. -/
theorem flushed4_eq (c : Dev nD) (t : Fin cfg4.N) :
    (aggDat4 (F := Ideal) V c).flushed 3 t = ((cfg4.win 3).blk t).view.read (Elt Ideal) (left4 V c) := by
  show (cfg4.win 3).cut (grid4.coords t) ((aggDat4 (F := Ideal) V c).after 3 t) = _
  rw [aggDat4_after_3]
  unfold aggOut4
  rw [View.canon_unit_zero hz4]
  simp only [View.ld_unit_zero (S := S256x10240) hz4, View.ld_unit_zero (S := S10240x128) hz4, View.ld_unit_zero (S := S1x128) hz4]
  obtain ⟨e0, e1, e2, e3, e4, e5, e6, e7⟩ := idx_facts4 t
  have hN : cfg4.N = 40 := by decide
  have ht : t.val < 40 := hN ▸ t.isLt
  funext y
  have hy : y = ix2 (y 0) (y 1) := funext fun a => by
    match a with
    | ⟨0, _⟩ => rfl
    | ⟨1, _⟩ => rfl
  refine (congrArg (k4_pay1 (F := Ideal) (blk4 V c 0 t) (blk4 V c 1 t) (blk4 V c 2 t)) hy).trans ?_
  refine block4_at (V c main_v47) (V c main_v63) (V c main_v64) _ _ _ ⟨t.val, ht⟩ ?_ ?_ ?_ (y 0) (y 1)
    (((cfg4.win 3).blk t).view.emb y) ?_ ?_
  · intro p j
    show V c main_v47 (((cfg4.win 0).blk t).view.emb (ix2 p j)) = V c main_v47 (ix2 (rowOf ⟨t.val, ht⟩ p) j)
    refine congrArg (V c main_v47) (funext fun a => Fin.ext ?_)
    match a with
    | ⟨0, _⟩ =>
      show win4_0.index t (0 : Fin 2) * 256 + 1 * p.val = 256 * t.val + p.val
      rw [e0]; omega
    | ⟨1, _⟩ =>
      show win4_0.index t (1 : Fin 2) * 10240 + 1 * j.val = j.val
      rw [e1]; omega
  · intro j q
    show V c main_v63 (((cfg4.win 1).blk t).view.emb (ix2 j q)) = V c main_v63 (ix2 j q)
    refine congrArg (V c main_v63) (funext fun a => Fin.ext ?_)
    match a with
    | ⟨0, _⟩ =>
      show win4_1.index t (0 : Fin 2) * 10240 + 1 * j.val = j.val
      rw [e2]; omega
    | ⟨1, _⟩ =>
      show win4_1.index t (1 : Fin 2) * 128 + 1 * q.val = q.val
      rw [e3]; omega
  · intro q
    show V c main_v64 (((cfg4.win 2).blk t).view.emb (ix2 (0 : Fin 1) q)) = V c main_v64 (ix2 (0 : Fin 1) q)
    refine congrArg (V c main_v64) (funext fun a => Fin.ext ?_)
    match a with
    | ⟨0, _⟩ =>
      show win4_2.index t (0 : Fin 2) * 1 + 1 * 0 = 0
      rw [e4]
    | ⟨1, _⟩ =>
      show win4_2.index t (1 : Fin 2) * 128 + 1 * q.val = q.val
      rw [e5]; omega
  · show win4_3.index t (0 : Fin 2) * 256 + 1 * (y 0).val = 256 * t.val + (y 0).val
    rw [e6]; omega
  · show win4_3.index t (1 : Fin 2) * 128 + 1 * (y 1).val = (y 1).val
    rw [e7]; omega

/-- The output array after the 40 points. -/
theorem arr4_eq (c : Dev nD) : (aggDat4 (F := Ideal) V c).arrAt 3 cfg4.N = left4 V c :=
  (aggDat4 (F := Ideal) V c).arrAt_eq_of_cover 3 (left4 V c) (fun t _ => flushed4_eq V c t) cover4

/-- The same, read at one entry. -/
theorem arr4_apply (c : Dev nD) (i : Fin 10240) (f : Fin 128) :
    (aggDat4 (F := Ideal) V c).arrAt 3 cfg4.N (ix2 i f)
      = aggAt (V c main_v47) (V c main_v63) (V c main_v64) i f := by
  rw [arr4_eq]
  rfl

end Arr

end Cert.KernelIdeal.KValue

end
-- ==== Proof.KValueArr5.lean ====
/-
  What the decoder call leaves in its output array, entry by entry, from the hidden features it is entered with.

  Point `t = 10 a + b` of the 10 × 10 is handed rows [1024 a, 1024 a + 1024) and rows [1024 b, 1024 b + 1024) of the
  hidden features and writes the 1024 × 1024 block at block row `a`, block column `b` of the output; the hundred blocks
  tile the output, so the array ends holding the Gram matrix of the hidden features at every entry.
-/
import proofs.«130217_j58256936403151_1_alg».proof.Proof.KRun5
import proofs.«130217_j58256936403151_1_alg».proof.Proof.KValueBlocks
import proofs.«130217_j58256936403151_1_alg».proof.Proof.KValueLayers

noncomputable section

open scoped BigOperators

namespace Cert.KernelIdeal.KValue

open Idealize.ShloMosaic Idealize.ShloMosaic.ValueIdx Idealize.ShloMosaic.TcCoe Idealize.SL.Sem
open Cert.KernelIdeal Cert.KernelIdeal.Gen Cert.KernelIdeal.KRun
open Idealize.ShloMosaic.Pipeline (Dat)

/-- The stored block of a point, at block coordinates `(p, q)`, is the Gram matrix at the entry `i` those coordinates
    name, when the point's two blocks are row blocks `a` and `b` of the hidden features. -/
theorem block5_at (hs : S10240x128.Idx → EReal) (u v : FVec Ideal S1024x128 .bf16) (a b : Fin 10)
    (hu : ∀ (p : Fin 1024) (k : Fin 128), u (ix2 p k) = hs (ix2 (rowOfG a p) k))
    (hv : ∀ (q : Fin 1024) (k : Fin 128), v (ix2 q k) = hs (ix2 (rowOfG b q) k))
    (p q : Fin 1024) (i : S10240x10240.Idx) (hi0 : (i 0).val = 1024 * a.val + p.val) (hi1 : (i 1).val = 1024 * b.val + q.val) :
    k5_pay1 (F := Ideal) u v (ix2 p q) = Cert.GcnSpec.gram (fun r k => hs (ix2 r k)) (i 0) (i 1) := by
  have e0 : i 0 = rowOfG a p := Fin.ext hi0
  have e1 : i 1 = rowOfG b q := Fin.ext hi1
  rw [e0, e1]
  exact k5_block hs u v a b hu hv p q

theorem hz5 : (![0, 0] : Fin 2 → Nat) = fun _ => 0 := funext fun a => by fin_cases a <;> rfl

section Arr

variable (V : (c : Dev nD) → (b : Ref sig .tc) → Buf (Elt Ideal) ((c : Thread nD τ).loc b))

/-- The whole-array function the call leaves. -/
def left5 (c : Dev nD) : S10240x10240.Idx → EReal :=
  fun i => Cert.GcnSpec.gram (fun r k => (V c main_v66 : S10240x128.Idx → EReal) (ix2 r k)) (i 0) (i 1)

/-- What point `t` writes back is block `t` of that function. -/
theorem flushed5_eq (c : Dev nD) (t : Fin cfg5.N) :
    (gramDat5 (F := Ideal) V c).flushed 2 t = ((cfg5.win 2).blk t).view.read (Elt Ideal) (left5 V c) := by
  show (cfg5.win 2).cut (grid5.coords t) ((gramDat5 (F := Ideal) V c).after 2 t) = _
  rw [gramDat5_after_2]
  unfold gramOut5
  rw [View.canon_unit_zero hz5]
  simp only [View.ld_unit_zero (S := S1024x128) hz5]
  obtain ⟨e0, e1, e2, e3, e4, e5⟩ := idx_facts5 t
  have hN : cfg5.N = 100 := by decide
  have ht : t.val < 100 := hN ▸ t.isLt
  have hta : t.val / 10 < 10 := by omega
  have htb : t.val % 10 < 10 := by omega
  funext y
  have hy : y = ix2 (y 0) (y 1) := funext fun a => by
    match a with
    | ⟨0, _⟩ => rfl
    | ⟨1, _⟩ => rfl
  refine (congrArg (k5_pay1 (F := Ideal) (blk5 V c 0 t) (blk5 V c 1 t)) hy).trans ?_
  refine block5_at (V c main_v66) _ _ ⟨t.val / 10, hta⟩ ⟨t.val % 10, htb⟩ ?_ ?_ (y 0) (y 1)
    (((cfg5.win 2).blk t).view.emb y) ?_ ?_
  · intro p k
    show V c main_v66 (((cfg5.win 0).blk t).view.emb (ix2 p k)) = V c main_v66 (ix2 (rowOfG ⟨t.val / 10, hta⟩ p) k)
    refine congrArg (V c main_v66) (funext fun a => Fin.ext ?_)
    match a with
    | ⟨0, _⟩ =>
      show win5_0.index t (0 : Fin 2) * 1024 + 1 * p.val = 1024 * (t.val / 10) + p.val
      rw [e0]; omega
    | ⟨1, _⟩ =>
      show win5_0.index t (1 : Fin 2) * 128 + 1 * k.val = k.val
      rw [e1]; omega
  · intro q k
    show V c main_v66 (((cfg5.win 1).blk t).view.emb (ix2 q k)) = V c main_v66 (ix2 (rowOfG ⟨t.val % 10, htb⟩ q) k)
    refine congrArg (V c main_v66) (funext fun a => Fin.ext ?_)
    match a with
    | ⟨0, _⟩ =>
      show win5_1.index t (0 : Fin 2) * 1024 + 1 * q.val = 1024 * (t.val % 10) + q.val
      rw [e2]; omega
    | ⟨1, _⟩ =>
      show win5_1.index t (1 : Fin 2) * 128 + 1 * k.val = k.val
      rw [e3]; omega
  · show win5_2.index t (0 : Fin 2) * 1024 + 1 * (y 0).val = 1024 * (t.val / 10) + (y 0).val
    rw [e4]; omega
  · show win5_2.index t (1 : Fin 2) * 1024 + 1 * (y 1).val = 1024 * (t.val % 10) + (y 1).val
    rw [e5]; omega

/-- The output array after the hundred points. -/
theorem arr5_eq (c : Dev nD) : (gramDat5 (F := Ideal) V c).arrAt 2 cfg5.N = left5 V c :=
  (gramDat5 (F := Ideal) V c).arrAt_eq_of_cover 2 (left5 V c) (fun t _ => flushed5_eq V c t) cover5

/-- The same, read at one entry. -/
theorem arr5_apply (c : Dev nD) (i j : Fin 10240) :
    (gramDat5 (F := Ideal) V c).arrAt 2 cfg5.N (ix2 i j)
      = Cert.GcnSpec.gram (fun r k => (V c main_v66 : S10240x128.Idx → EReal) (ix2 r k)) i j := by
  rw [arr5_eq]
  rfl

end Arr

end Cert.KernelIdeal.KValue

end
-- ==== Proof.KValueArr.lean ====
/-
  The six output arrays of the kernel's program, each as a whole-array function of the arrays its call is entered
  with: the five aggregation calls leave  A · m + b  (rectified in the first and third layer), the decoder call the
  Gram matrix of the hidden features.  One module per call; this one gathers them.
-/
import proofs.«130217_j58256936403151_1_alg».proof.Proof.KValueArr0
import proofs.«130217_j58256936403151_1_alg».proof.Proof.KValueArr1
import proofs.«130217_j58256936403151_1_alg».proof.Proof.KValueArr2
import proofs.«130217_j58256936403151_1_alg».proof.Proof.KValueArr3
import proofs.«130217_j58256936403151_1_alg».proof.Proof.KValueArr4
import proofs.«130217_j58256936403151_1_alg».proof.Proof.KValueArr5
-- ==== Proof.LibScatterPairs.lean ====
/-
  A scatter-add of single entries onto a matrix, read at one entry, at the exact values.

  A `stablehlo.scatter` with an `add` body whose scatter indices are pairs (row, column), one pair per update
  entry, both operand axes inserted, adds update `e` onto the operand's entry whose row and column are the pair
  `idx[e, 0]`, `idx[e, 1]`, each read as a signed integer and not clamped; an update whose pair falls outside the
  operand is dropped.  Over the extended reals the result's entry `(p, q)` is therefore the operand's entry plus
  the sum of the updates whose pair is `(p, q)`.
-/
import Idealize.ShloMosaic.Lib.ValueIdx
import Idealize.ShloMosaic.PureOps.Ideal

noncomputable section

namespace Cert.ScatterPairs

open Idealize.ShloMosaic Idealize.ShloMosaic.ValueIdx

/-- The dimension numbers of a scatter of single entries onto an N₀×N₁ operand, one (row, column) pair per update. -/
def pairDims (N0 N1 R : Nat) (wf : ScatterDims.WF ⟨2, ![N0, N1]⟩ ⟨2, ![R, 2]⟩ ⟨1, ![R]⟩ [] [0, 1] [0, 1] 1) :
    ScatterDims ⟨2, ![N0, N1]⟩ ⟨2, ![R, 2]⟩ ⟨1, ![R]⟩ where
  updateWindowDims := []
  insertedWindowDims := [0, 1]
  scatterDimsToOperandDims := [0, 1]
  indexVectorDim := 1
  wf := wf

variable {N0 N1 R w : Nat}

/-- On the row axis the window starts at the first component of the update's pair, read signed. -/
theorem start_row (wf : ScatterDims.WF ⟨2, ![N0, N1]⟩ ⟨2, ![R, 2]⟩ ⟨1, ![R]⟩ [] [0, 1] [0, 1] 1)
    (idx : IVec ⟨2, ![R, 2]⟩ w) (j : (⟨1, ![R]⟩ : Shape).Idx) :
    (pairDims N0 N1 R wf).start j idx (0 : Fin 2) = (idx (ix2 (j 0) (0 : Fin 2))).toInt := by
  unfold ScatterDims.start
  rw [dif_pos (show (0 : Fin 2) ∈ (pairDims N0 N1 R wf).scatterDimsToOperandDims from List.mem_cons_self)]
  have hsi : (pairDims N0 N1 R wf).siIdx j ⟨List.idxOf (0 : Fin 2) (pairDims N0 N1 R wf).scatterDimsToOperandDims,
      List.idxOf_lt_length_iff.2 List.mem_cons_self⟩ = ix2 (j 0) (0 : Fin 2) := by
    funext b; refine Fin.ext ?_
    match b with
    | ⟨0, _⟩ => rfl
    | ⟨1, _⟩ => rfl
  rw [hsi]
  rfl

/-- On the column axis the window starts at the second component of the update's pair, read signed. -/
theorem start_col (wf : ScatterDims.WF ⟨2, ![N0, N1]⟩ ⟨2, ![R, 2]⟩ ⟨1, ![R]⟩ [] [0, 1] [0, 1] 1)
    (idx : IVec ⟨2, ![R, 2]⟩ w) (j : (⟨1, ![R]⟩ : Shape).Idx) :
    (pairDims N0 N1 R wf).start j idx (1 : Fin 2) = (idx (ix2 (j 0) (1 : Fin 2))).toInt := by
  unfold ScatterDims.start
  rw [dif_pos (show (1 : Fin 2) ∈ (pairDims N0 N1 R wf).scatterDimsToOperandDims from
    List.mem_cons_of_mem _ List.mem_cons_self)]
  have hsi : (pairDims N0 N1 R wf).siIdx j ⟨List.idxOf (1 : Fin 2) (pairDims N0 N1 R wf).scatterDimsToOperandDims,
      List.idxOf_lt_length_iff.2 (List.mem_cons_of_mem _ List.mem_cons_self)⟩ = ix2 (j 0) (1 : Fin 2) := by
    funext b; refine Fin.ext ?_
    match b with
    | ⟨0, _⟩ => rfl
    | ⟨1, _⟩ => rfl
  rw [hsi]
  rfl

/-- Both operand axes are inserted: the window adds nothing on either. -/
theorem window_zero (wf : ScatterDims.WF ⟨2, ![N0, N1]⟩ ⟨2, ![R, 2]⟩ ⟨1, ![R]⟩ [] [0, 1] [0, 1] 1)
    (j : (⟨1, ![R]⟩ : Shape).Idx) (a : Fin 2) : (pairDims N0 N1 R wf).window j a = 0 := by
  unfold ScatterDims.window
  rw [dif_neg]
  intro h
  have : a ∉ (pairDims N0 N1 R wf).insertedWindowDims := by
    simpa [ScatterDims.sKept, Shape.kept, List.mem_filter, List.mem_finRange] using h
  have hmem : ∀ b : Fin 2, b ∈ ([0, 1] : List (Fin 2)) := by decide
  exact this (hmem a)

/-- An update lands on operand entry `i` exactly when its pair is `i`'s row and column. -/
theorem lands_iff (wf : ScatterDims.WF ⟨2, ![N0, N1]⟩ ⟨2, ![R, 2]⟩ ⟨1, ![R]⟩ [] [0, 1] [0, 1] 1)
    (idx : IVec ⟨2, ![R, 2]⟩ w) (j : (⟨1, ![R]⟩ : Shape).Idx) (i : (⟨2, ![N0, N1]⟩ : Shape).Idx) :
    (pairDims N0 N1 R wf).resultIdx? j idx = some i ↔
      ((idx (ix2 (j 0) (0 : Fin 2))).toInt = ((i 0).val : Int) ∧ (idx (ix2 (j 0) (1 : Fin 2))).toInt = ((i 1).val : Int)) := by
  have hi0 : (i 0).val < N0 := (i 0).isLt
  have hi1 : (i 1).val < N1 := (i 1).isLt
  unfold ScatterDims.resultIdx?
  constructor
  · intro h
    split at h
    · rename_i hall
      have hi := Option.some.inj h
      have h0 := (hall 0).1
      have h1 := (hall 1).1
      have e0 : (i 0).val = ((pairDims N0 N1 R wf).start j idx 0 + ((pairDims N0 N1 R wf).window j 0 : Int)).toNat := by
        rw [← hi]
      have e1 : (i 1).val = ((pairDims N0 N1 R wf).start j idx 1 + ((pairDims N0 N1 R wf).window j 1 : Int)).toNat := by
        rw [← hi]
      rw [start_row, window_zero] at e0 h0
      rw [start_col, window_zero] at e1 h1
      constructor <;> omega
    · exact absurd h (by simp)
  · rintro ⟨h0, h1⟩
    have hall : ∀ a, 0 ≤ (pairDims N0 N1 R wf).start j idx a + ((pairDims N0 N1 R wf).window j a : Int)
        ∧ (pairDims N0 N1 R wf).start j idx a + ((pairDims N0 N1 R wf).window j a : Int) < ((⟨2, ![N0, N1]⟩ : Shape).size a : Int) := by
      refine Fin.forall_fin_two.mpr ⟨?_, ?_⟩
      · rw [start_row, window_zero]
        show _ ∧ _ < ((N0 : Nat) : Int)
        omega
      · rw [start_col, window_zero]
        show _ ∧ _ < ((N1 : Nat) : Int)
        omega
    rw [dif_pos hall]
    congr 1
    funext a
    refine Fin.ext ?_
    revert a
    refine Fin.forall_fin_two.mpr ⟨?_, ?_⟩
    · show ((pairDims N0 N1 R wf).start j idx 0 + ((pairDims N0 N1 R wf).window j 0 : Int)).toNat = (i 0).val
      rw [start_row, window_zero]; omega
    · show ((pairDims N0 N1 R wf).start j idx 1 + ((pairDims N0 N1 R wf).window j 1 : Int)).toNat = (i 1).val
      rw [start_col, window_zero]; omega

/-- Entry `(p, q)` of a scatter-add of single entries onto a matrix: the operand's entry plus the sum of the
    updates whose (row, column) pair is `(p, q)`. -/
theorem scatterAdd_pairs_apply (wf : ScatterDims.WF ⟨2, ![N0, N1]⟩ ⟨2, ![R, 2]⟩ ⟨1, ![R]⟩ [] [0, 1] [0, 1] 1)
    (x : (⟨2, ![N0, N1]⟩ : Shape).Idx → EReal) (idx : IVec ⟨2, ![R, 2]⟩ w)
    (upd : (⟨1, ![R]⟩ : Shape).Idx → EReal) (p : Fin N0) (q : Fin N1) :
    Ideal.hostScatterAdd (pairDims N0 N1 R wf) x idx upd (ix2 p q)
      = x (ix2 p q) + ∑ e : Fin R, if (idx (ix2 e (0 : Fin 2))).toInt = (p.val : Int) ∧ (idx (ix2 e (1 : Fin 2))).toInt = (q.val : Int)
          then upd (ix1 e) else 0 := by
  unfold Ideal.hostScatterAdd
  congr 1
  rw [Finset.sum_filter]
  have hre : ∀ f : (⟨1, ![R]⟩ : Shape).Idx → EReal, ∑ j, f j = ∑ e : Fin R, f (ix1 e) := fun f =>
    (Equiv.sum_comp (⟨fun e => ix1 e, fun j => j 0, fun _ => rfl, fun j => (eq_ix1 j).symm⟩ : Fin R ≃ (⟨1, ![R]⟩ : Shape).Idx) f).symm
  rw [hre]
  refine Finset.sum_congr rfl fun e _ => ?_
  refine if_congr ?_ rfl rfl
  exact lands_iff wf idx (ix1 e) (ix2 p q)

end Cert.ScatterPairs

end
-- ==== Proof.KValueAdj.lean ====
/-
  The dense adjacency the host builds, read at one entry.

  From the two index vectors of the edge list (sources and targets, each followed by the self loops) and the edge
  weights, the host wraps negative indices (`v < 0 ↦ v + 10240`, the identity on indices that are node numbers), lays
  the wrapped targets and sources side by side as the (row, column) pairs of a scatter, and adds weight `e` onto entry
  `(target e, source e)` of a zero matrix; the change of float format after it is the identity on exact values.
  Entry `(i, j)` of the result is therefore the sum of the weights of the edges from node `j` into node `i`.
-/
import proofs.«130217_j58256936403151_1_alg».proof.Proof.Gen.KernelIdeal
import proofs.«130217_j58256936403151_1_alg».proof.Proof.LibScatterPairs
import proofs.«130217_j58256936403151_1_alg».proof.Proof.Spec
import Idealize.ShloMosaic.Lib.Pipeline.Value
import Idealize.ShloMosaic.PureOps.Ideal.Laws

noncomputable section

open scoped BigOperators

namespace Cert.KernelIdeal.KValue

open Idealize.ShloMosaic Idealize.ShloMosaic.ValueIdx Cert.KernelIdeal Cert.KernelIdeal.Gen

variable {F : FTy → Type} [FloatOps F]

/-- A negative index wrapped around the 10240 padded nodes: `select (v < 0) (v + 10240) v`. -/
def wrapIdx (v : IVec S330000 32) : IVec S330000 32 :=
  select (cmpi .slt v (broadcastInDim S330000 ![] bcast_S_S330000 (constantI S_ 32 0#32)))
    (addi v (broadcastInDim S330000 ![] bcast_S_S330000 (constantI S_ 32 10240#32))) v

/-- The (row, column) pairs of the scatter: wrapped targets in column 0, wrapped sources in column 1. -/
def pairIdx (vsrc vdst : IVec S330000 32) : IVec S330000x2 32 :=
  concatenate S330000x2 1
    [⟨S330000x1, broadcastInDim S330000x1 ![0] bcast_S330000_S330000x1_0 (wrapIdx vdst)⟩,
     ⟨S330000x1, broadcastInDim S330000x1 ![0] bcast_S330000_S330000x1_0 (wrapIdx vsrc)⟩]
    concatenates_S330000x1_S330000x1_S330000x2_d1

/-- The dense adjacency in the kernels' input format: the edge weights scattered onto a zero matrix. -/
def denseAdj (vsrc vdst : IVec S330000 32) (nrm : FVec F S330000 .f32) : FVec F S10240x10240 .bf16 :=
  truncf .bf16 (Host.scatterAdd scatter_S10240x10240_S330000x2_S330000_n_01_01_1
    (broadcastInDim S10240x10240 ![] bcast_S_S10240x10240 (constant S_ .f32 0x00000000#32))
    (pairIdx vsrc vdst) nrm) bitsLt_bf16_f32

/-- An index that is not negative is left as it is. -/
theorem wrapIdx_apply (v : IVec S330000 32) (e : Fin 330000) (h : 0 ≤ (v (ix1 e)).toInt) :
    wrapIdx v (ix1 e) = v (ix1 e) := by
  have hc : IntOp.cmpi .slt (v (ix1 e)) (0#32) = 0#1 := by
    have : (v (ix1 e)).slt (0#32) = false := by
      rw [BitVec.slt_eq_decide]
      simp only [BitVec.toInt_zero, decide_eq_false_iff_not, not_lt]
      exact h
    simp only [IntOp.cmpi, this]
    rfl
  show Scalar.select (IntOp.cmpi .slt (v (ix1 e)) (0#32)) _ _ = _
  rw [hc]
  rfl

/-- A vector laid as a column reads its entry `e` at `(e, 0)`. -/
theorem column_apply (v : IVec S330000 32) (e : Fin 330000) :
    broadcastInDim S330000x1 ![0] bcast_S330000_S330000x1_0 v (ix2 e (0 : Fin 1)) = v (ix1 e) :=
  broadcastInDim_apply _ bcast_S330000_S330000x1_0 v (ix2 e (0 : Fin 1)) (ix1 e) (fun a => match a with
    | ⟨0, _⟩ => by show e.val = if (330000 : Nat) = 1 then 0 else e.val; rw [if_neg (by decide)])

/-- Column 0 of the pairs holds the wrapped targets. -/
theorem pairIdx_row (vsrc vdst : IVec S330000 32) (e : Fin 330000) :
    pairIdx vsrc vdst (ix2 e (0 : Fin 2)) = wrapIdx vdst (ix1 e) :=
  (concatenate_pair_apply_left (t := S330000x2) (s₁ := S330000x1) (s₂ := S330000x1) (1 : Fin 2)
    (broadcastInDim S330000x1 ![0] bcast_S330000_S330000x1_0 (wrapIdx vdst))
    (broadcastInDim S330000x1 ![0] bcast_S330000_S330000x1_0 (wrapIdx vsrc))
    concatenates_S330000x1_S330000x1_S330000x2_d1 (ix2 e (0 : Fin 2)) rfl (ix2 e (0 : Fin 1))
    (fun b => match b with | ⟨0, _⟩ => rfl | ⟨1, _⟩ => rfl)).trans (column_apply _ e)

/-- Column 1 of the pairs holds the wrapped sources. -/
theorem pairIdx_col (vsrc vdst : IVec S330000 32) (e : Fin 330000) :
    pairIdx vsrc vdst (ix2 e (1 : Fin 2)) = wrapIdx vsrc (ix1 e) :=
  (concatenate_pair_apply_right (t := S330000x2) (s₁ := S330000x1) (s₂ := S330000x1) (1 : Fin 2)
    (broadcastInDim S330000x1 ![0] bcast_S330000_S330000x1_0 (wrapIdx vdst))
    (broadcastInDim S330000x1 ![0] bcast_S330000_S330000x1_0 (wrapIdx vsrc))
    concatenates_S330000x1_S330000x1_S330000x2_d1 (ix2 e (1 : Fin 2)) rfl rfl (ix2 e (0 : Fin 1))
    (fun b hb => match b, hb with
      | ⟨0, _⟩, _ => rfl
      | ⟨1, _⟩, hb => absurd rfl hb) rfl).trans (column_apply _ e)

/-- Entry `(i, j)` of the dense adjacency is the sum of the weights of the edges from node `j` into node `i`, when the
    two index vectors hold node numbers. -/
theorem denseAdj_apply (vsrc vdst : IVec S330000 32) (nrm : FVec Ideal S330000 .f32)
    (src dst : Fin 330000 → Fin 10000)
    (hsrc : ∀ e : Fin 330000, (vsrc (ix1 e)).toInt = ((src e).val : Int))
    (hdst : ∀ e : Fin 330000, (vdst (ix1 e)).toInt = ((dst e).val : Int)) (i j : Fin 10240) :
    denseAdj (F := Ideal) vsrc vdst nrm (ix2 i j) = Cert.GcnSpec.adj (fun e => nrm (ix1 e)) src dst i j := by
  have hrec : scatter_S10240x10240_S330000x2_S330000_n_01_01_1
      = Cert.ScatterPairs.pairDims 10240 10240 330000 scatter_S10240x10240_S330000x2_S330000_n_01_01_1_wf := rfl
  show Ideal.hostScatterAdd scatter_S10240x10240_S330000x2_S330000_n_01_01_1
      (broadcastInDim S10240x10240 ![] bcast_S_S10240x10240 (constant (F := Ideal) S_ .f32 0x00000000#32))
      (pairIdx vsrc vdst) nrm (ix2 i j) = _
  rw [hrec, Cert.ScatterPairs.scatterAdd_pairs_apply]
  have hz : broadcastInDim S10240x10240 ![] bcast_S_S10240x10240 (constant (F := Ideal) S_ .f32 0x00000000#32) (ix2 i j) = 0 :=
    Ideal.ofBits_zero_f32
  rw [hz, zero_add]
  unfold Cert.GcnSpec.adj
  refine Finset.sum_congr rfl fun e _ => ?_
  refine if_congr ?_ rfl rfl
  rw [pairIdx_row, pairIdx_col, wrapIdx_apply vdst e (by rw [hdst]; omega), wrapIdx_apply vsrc e (by rw [hsrc]; omega),
    hdst, hsrc]
  omega

end Cert.KernelIdeal.KValue

end
-- ==== Proof.KValueNet.lean ====
/-
  The six calls chained: what the kernel's program returns, as the dense-adjacency network of the specification.

  Each aggregation call leaves `A · (h · W) + b` of the arrays it is given (rectified in the first and third layer);
  fed the padded features and then each other's outputs in the program's order, with `A` the dense adjacency of the
  edge list, the arrays they leave are the layers `aH1, aH2, aA1, aXo, aHs` of the specification, the decoder call
  leaves the Gram matrix `aSo`, and the two results are their first 10000 rows (and columns).
-/
import proofs.«130217_j58256936403151_1_alg».proof.Proof.KValueAdj
import proofs.«130217_j58256936403151_1_alg».proof.Proof.KValueLayers

noncomputable section

open scoped BigOperators

namespace Cert.KernelIdeal.KValue

open Idealize.ShloMosaic Idealize.ShloMosaic.ValueIdx Cert.KernelIdeal Cert.KernelIdeal.Gen

/-- A row number below 10000 as a row of the padded arrays. -/
abbrev padRow (i : Fin 10000) : Fin 10240 := ⟨i.val, by have := i.isLt; omega⟩

section Net

variable (vsrc vdst : IVec S330000 32) (nrmv : FVec Ideal S330000 .f32) (src dst : Fin 330000 → Fin 10000)
  (hsrc : ∀ e : Fin 330000, (vsrc (ix1 e)).toInt = ((src e).val : Int))
  (hdst : ∀ e : Fin 330000, (vdst (ix1 e)).toInt = ((dst e).val : Int))
  (x : FVec Ideal S10000x256 .f32)
  (W1 : FVec Ideal S256x128 .f32) (b1 : FVec Ideal S128 .f32)
  (W2 : FVec Ideal S128x128 .f32) (b2 : FVec Ideal S128 .f32)
  (Wa1 : FVec Ideal S128x128 .f32) (ba1 : FVec Ideal S128 .f32)
  (Wa2 : FVec Ideal S128x256 .f32) (ba2 : FVec Ideal S256 .f32)
  (Ws1 : FVec Ideal S128x128 .f32) (bs1 : FVec Ideal S128 .f32)
  (R0 R1 R2 R4 : FVec Ideal S10240x128 .f32) (R3 : FVec Ideal S10240x256 .f32) (R5 : FVec Ideal S10240x10240 .f32)

include hsrc hdst in
/-- The arrays the six calls leave, each given as the whole-array function of the arrays the call was handed, are
    the layers of the dense-adjacency network; the two sliced results are its outputs on the 10000 real nodes. -/
theorem net_eq
    (h0 : ∀ i f, R0 (ix2 i f) = max (aggAt (denseAdj (F := Ideal) vsrc vdst nrmv) (Host.dotGeneral (F := Ideal) dot_S10240x256_S256x128_S10240x128_1_0_0_1_n_n none (padRows (F := Ideal) x) W1) (shapeCast S1x128 b1 shapeCasts_S128_S1x128) i f) 0)
    (h1 : ∀ i f, R1 (ix2 i f) = aggAt (denseAdj (F := Ideal) vsrc vdst nrmv) (Host.dotGeneral (F := Ideal) dot_S10240x128_S128x128_S10240x128_1_0_0_1_n_n none R0 W2) (shapeCast S1x128 b2 shapeCasts_S128_S1x128) i f)
    (h2 : ∀ i f, R2 (ix2 i f) = max (aggAt (denseAdj (F := Ideal) vsrc vdst nrmv) (Host.dotGeneral (F := Ideal) dot_S10240x128_S128x128_S10240x128_1_0_0_1_n_n none R1 Wa1) (shapeCast S1x128 ba1 shapeCasts_S128_S1x128) i f) 0)
    (h3 : ∀ i f, R3 (ix2 i f) = aggAt (denseAdj (F := Ideal) vsrc vdst nrmv) (Host.dotGeneral (F := Ideal) dot_S10240x128_S128x256_S10240x256_1_0_0_1_n_n none R2 Wa2) (shapeCast S1x256 ba2 shapeCasts_S256_S1x256) i f)
    (h4 : ∀ i f, R4 (ix2 i f) = aggAt (denseAdj (F := Ideal) vsrc vdst nrmv) (Host.dotGeneral (F := Ideal) dot_S10240x128_S128x128_S10240x128_1_0_0_1_n_n none R1 Ws1) (shapeCast S1x128 bs1 shapeCasts_S128_S1x128) i f)
    (h5 : ∀ i j, R5 (ix2 i j) = Cert.GcnSpec.gram (fun r k => (truncf .bf16 R4 bitsLt_bf16_f32 : FVec Ideal S10240x128 .bf16) (ix2 r k)) i j) :
    (∀ (i : Fin 10000) (f : Fin 256),
      extractStridedSlice S10000x256 ![0, 0] R3 slices_S10240x256_S10000x256_0_0 (ix2 i f)
        = Cert.GcnSpec.aXo (fun e => nrmv (ix1 e)) src dst (fun r c => x (ix2 r c)) (fun k f => W1 (ix2 k f)) (fun f => b1 (ix1 f)) (fun k f => W2 (ix2 k f)) (fun f => b2 (ix1 f)) (fun k f => Wa1 (ix2 k f)) (fun f => ba1 (ix1 f))
            (fun k f => Wa2 (ix2 k f)) (fun f => ba2 (ix1 f)) (padRow i) f)
    ∧ (∀ (i j : Fin 10000),
      extractStridedSlice S10000x10000 ![0, 0] R5 slices_S10240x10240_S10000x10000_0_0 (ix2 i j)
        = Cert.GcnSpec.aSo (fun e => nrmv (ix1 e)) src dst (fun r c => x (ix2 r c)) (fun k f => W1 (ix2 k f)) (fun f => b1 (ix1 f)) (fun k f => W2 (ix2 k f)) (fun f => b2 (ix1 f)) (fun k f => Ws1 (ix2 k f)) (fun f => bs1 (ix1 f)) (padRow i) (padRow j)) := by
  have hA := denseAdj_apply vsrc vdst nrmv src dst hsrc hdst
  have e0 : ∀ i f, R0 (ix2 i f) = Cert.GcnSpec.aH1 (fun e => nrmv (ix1 e)) src dst (fun r c => x (ix2 r c)) (fun k f => W1 (ix2 k f)) (fun f => b1 (ix1 f)) i f := fun i f => by
    rw [h0, layer256_128_of _ _ hA _ _ (padRows_apply x)]
    rfl
  have e1 : ∀ i f, R1 (ix2 i f) = Cert.GcnSpec.aH2 (fun e => nrmv (ix1 e)) src dst (fun r c => x (ix2 r c)) (fun k f => W1 (ix2 k f)) (fun f => b1 (ix1 f)) (fun k f => W2 (ix2 k f)) (fun f => b2 (ix1 f)) i f := fun i f => by
    rw [h1, layer128_128_of _ _ hA _ _ e0]
    rfl
  have e2 : ∀ i f, R2 (ix2 i f) = Cert.GcnSpec.aA1 (fun e => nrmv (ix1 e)) src dst (fun r c => x (ix2 r c)) (fun k f => W1 (ix2 k f)) (fun f => b1 (ix1 f)) (fun k f => W2 (ix2 k f)) (fun f => b2 (ix1 f)) (fun k f => Wa1 (ix2 k f)) (fun f => ba1 (ix1 f)) i f := fun i f => by
    rw [h2, layer128_128_of _ _ hA _ _ e1]
    rfl
  have e3 : ∀ i f, R3 (ix2 i f) = Cert.GcnSpec.aXo (fun e => nrmv (ix1 e)) src dst (fun r c => x (ix2 r c)) (fun k f => W1 (ix2 k f)) (fun f => b1 (ix1 f)) (fun k f => W2 (ix2 k f)) (fun f => b2 (ix1 f)) (fun k f => Wa1 (ix2 k f)) (fun f => ba1 (ix1 f))
      (fun k f => Wa2 (ix2 k f)) (fun f => ba2 (ix1 f)) i f := fun i f => by
    rw [h3, layer128_256_of _ _ hA _ _ e2]
    rfl
  have e4 : ∀ i f, R4 (ix2 i f) = Cert.GcnSpec.aHs (fun e => nrmv (ix1 e)) src dst (fun r c => x (ix2 r c)) (fun k f => W1 (ix2 k f)) (fun f => b1 (ix1 f)) (fun k f => W2 (ix2 k f)) (fun f => b2 (ix1 f)) (fun k f => Ws1 (ix2 k f)) (fun f => bs1 (ix1 f)) i f := fun i f => by
    rw [h4, layer128_128_of _ _ hA _ _ e1]
    rfl
  refine ⟨fun i f => ?_, fun i j => ?_⟩
  · rw [sliceRows_apply]
    exact e3 _ f
  · rw [sliceSquare_apply, h5]
    have eg : (fun r k => (truncf .bf16 R4 bitsLt_bf16_f32 : FVec Ideal S10240x128 .bf16) (ix2 r k))
        = Cert.GcnSpec.aHs (fun e => nrmv (ix1 e)) src dst (fun r c => x (ix2 r c)) (fun k f => W1 (ix2 k f)) (fun f => b1 (ix1 f)) (fun k f => W2 (ix2 k f)) (fun f => b2 (ix1 f)) (fun k f => Ws1 (ix2 k f)) (fun f => bs1 (ix1 f)) :=
      funext fun r => funext fun k => e4 r k
    rw [eg]
    rfl

end Net

end Cert.KernelIdeal.KValue

end
-- ==== Proof.KValueFold.lean ====
/-
  The contents of the buffers each call is entered with, and of the two results, read off the chain of the program's
  items: a host stretch writes each of its values as its operation applied to the values before it, a call changes
  only its output array, and an argument array is never written.  Chained through the six calls this gives the two
  results as the dense-adjacency network of the specification on the 10000 real nodes.
-/
import proofs.«130217_j58256936403151_1_alg».proof.Proof.KRunFold
import proofs.«130217_j58256936403151_1_alg».proof.Proof.KValueArr
import proofs.«130217_j58256936403151_1_alg».proof.Proof.KValueNet
import Idealize.ShloMosaic.Lib.StableHlo.Run

set_option maxRecDepth 16384

noncomputable section

namespace Cert.KernelIdeal.KValue

open Cert.KernelIdeal Cert.KernelIdeal.Gen Cert.KernelIdeal.KRun
open Idealize.ShloMosaic Idealize.ShloMosaic.ValueIdx Idealize.ShloMosaic.TcCoe Idealize.SL.Sem Idealize.ShloMosaic.StableHlo

variable (m : (ℓ : Loc nD τ sig) → Buf (Elt Ideal) ℓ) (c : Dev nD)

/-! ## What each item keeps -/

theorem keep3 (r : Ref sig .tc) (h0 : r ∉ hostOps0_W) (h1 : r ∉ hostOps0_1_W) (h2 : r ∉ hostOps0_2_W) :
    Y3 m c r = m ((c : Thread nD τ).loc r) := by
  show StableHlo.after hostOps0_2 (StableHlo.after hostOps0_1 (StableHlo.after hostOps0 (fun b => m (c, b)))) r = _
  rw [StableHlo.after_of_writes_sub hostOps0_2 _ hostOps0_2_writes h2,
    StableHlo.after_of_writes_sub hostOps0_1 _ hostOps0_1_writes h1,
    StableHlo.after_of_writes_sub hostOps0 _ hostOps0_writes h0]

theorem keep4 (r : Ref sig .tc) (h : r ≠ main_v53) : Y4 m c r = Y3 m c r := by
  unfold Y4; exact Function.update_of_ne (StableHlo.devRef_ne_of_ne h) _ _
theorem keep5 (r : Ref sig .tc) (h : r ∉ hostOps1_W) : Y5 m c r = Y4 m c r := by
  unfold Y5; exact StableHlo.after_of_writes_sub hostOps1 _ hostOps1_writes h
theorem keep6 (r : Ref sig .tc) (h : r ≠ main_v56) : Y6 m c r = Y5 m c r := by
  unfold Y6; exact Function.update_of_ne (StableHlo.devRef_ne_of_ne h) _ _
theorem keep7 (r : Ref sig .tc) (h : r ∉ hostOps2_W) : Y7 m c r = Y6 m c r := by
  unfold Y7; exact StableHlo.after_of_writes_sub hostOps2 _ hostOps2_writes h
theorem keep8 (r : Ref sig .tc) (h : r ≠ main_v59) : Y8 m c r = Y7 m c r := by
  unfold Y8; exact Function.update_of_ne (StableHlo.devRef_ne_of_ne h) _ _
theorem keep9 (r : Ref sig .tc) (h : r ∉ hostOps3_W) : Y9 m c r = Y8 m c r := by
  unfold Y9; exact StableHlo.after_of_writes_sub hostOps3 _ hostOps3_writes h
theorem keep10 (r : Ref sig .tc) (h : r ≠ main_v62) : Y10 m c r = Y9 m c r := by
  unfold Y10; exact Function.update_of_ne (StableHlo.devRef_ne_of_ne h) _ _
theorem keep11 (r : Ref sig .tc) (h : r ∉ hostOps4_W) : Y11 m c r = Y10 m c r := by
  unfold Y11; exact StableHlo.after_of_writes_sub hostOps4 _ hostOps4_writes h
theorem keep12 (r : Ref sig .tc) (h : r ≠ main_v65) : Y12 m c r = Y11 m c r := by
  unfold Y12; exact Function.update_of_ne (StableHlo.devRef_ne_of_ne h) _ _
theorem keep13 (r : Ref sig .tc) (h : r ∉ hostOps5_W) : Y13 m c r = Y12 m c r := by
  unfold Y13; exact StableHlo.after_of_writes_sub hostOps5 _ hostOps5_writes h
theorem keep14 (r : Ref sig .tc) (h : r ≠ main_v67) : Y14 m c r = Y13 m c r := by
  unfold Y14; exact Function.update_of_ne (StableHlo.devRef_ne_of_ne h) _ _
theorem keep15 (r : Ref sig .tc) (h : r ∉ hostOps6_W) : Y15 m c r = Y14 m c r := by
  unfold Y15; exact StableHlo.after_of_writes_sub hostOps6 _ hostOps6_writes h

theorem y4_v53 : Y4 m c main_v53 = layer0Left m c := by unfold Y4; exact Function.update_self _ _ _
theorem y6_v56 : Y6 m c main_v56 = layer1Left m c := by unfold Y6; exact Function.update_self _ _ _
theorem y8_v59 : Y8 m c main_v59 = layer2Left m c := by unfold Y8; exact Function.update_self _ _ _
theorem y10_v62 : Y10 m c main_v62 = layer3Left m c := by unfold Y10; exact Function.update_self _ _ _
theorem y12_v65 : Y12 m c main_v65 = layer4Left m c := by unfold Y12; exact Function.update_self _ _ _
theorem y14_v67 : Y14 m c main_v67 = gramLeft m c := by unfold Y14; exact Function.update_self _ _ _

/-- An argument array is the launch memory's at every stage up to the last call. -/
theorem arg_kept (r : Ref sig .tc) (h0 : r ∉ hostOps0_W) (h1 : r ∉ hostOps0_1_W) (h2 : r ∉ hostOps0_2_W)
    (h4 : r ≠ main_v53) (h5 : r ∉ hostOps1_W) (h6 : r ≠ main_v56) (h7 : r ∉ hostOps2_W) (h8 : r ≠ main_v59)
    (h9 : r ∉ hostOps3_W) (h10 : r ≠ main_v62) :
    Y4 m c r = m ((c : Thread nD τ).loc r) ∧ Y6 m c r = m ((c : Thread nD τ).loc r)
      ∧ Y8 m c r = m ((c : Thread nD τ).loc r) ∧ Y10 m c r = m ((c : Thread nD τ).loc r) := by
  have e3 := keep3 m c r h0 h1 h2
  have e4 : Y4 m c r = m ((c : Thread nD τ).loc r) := (keep4 m c r h4).trans e3
  have e6 : Y6 m c r = m ((c : Thread nD τ).loc r) := ((keep6 m c r h6).trans (keep5 m c r h5)).trans e4
  have e8 : Y8 m c r = m ((c : Thread nD τ).loc r) := ((keep8 m c r h8).trans (keep7 m c r h7)).trans e6
  have e10 : Y10 m c r = m ((c : Thread nD τ).loc r) := ((keep10 m c r h10).trans (keep9 m c r h9)).trans e8
  exact ⟨e4, e6, e8, e10⟩

/-! ## The dense adjacency is built once and never written again -/

/-- The third host stretch, from any contents `W` before it: the dense adjacency from the two index vectors and the weights. -/
theorem stretch_v47 (W : Valuation τ sig (Elt Ideal)) :
    (StableHlo.after hostOps0_2 W main_v47 : S10240x10240.Idx → EReal)
      = denseAdj (F := Ideal) (W main_v3) (W main_v6) (StableHlo.after hostOps0_2 W main_v31) := by
  unfold denseAdj pairIdx wrapIdx
  after_results_simp
  rfl

theorem y3_v47 : (Y3 m c main_v47 : S10240x10240.Idx → EReal)
    = denseAdj (F := Ideal) (Y3 m c main_v3) (Y3 m c main_v6) (Y3 m c main_v31) := by
  have e3 : Y3 m c main_v3 = Gen.V2 m c main_v3 := V3_of m c main_v3 (by decide)
  have e6 : Y3 m c main_v6 = Gen.V2 m c main_v6 := V3_of m c main_v6 (by decide)
  rw [e3, e6]
  unfold Y3
  exact stretch_v47 (Gen.V2 m c)

theorem y5_v47 : Y5 m c main_v47 = Y3 m c main_v47 := by
  rw [keep5 m c main_v47 (by decide), keep4 m c main_v47 (by decide)]
theorem y7_v47 : Y7 m c main_v47 = Y3 m c main_v47 := by
  rw [keep7 m c main_v47 (by decide), keep6 m c main_v47 (by decide), y5_v47]
theorem y9_v47 : Y9 m c main_v47 = Y3 m c main_v47 := by
  rw [keep9 m c main_v47 (by decide), keep8 m c main_v47 (by decide), y7_v47]
theorem y11_v47 : Y11 m c main_v47 = Y3 m c main_v47 := by
  rw [keep11 m c main_v47 (by decide), keep10 m c main_v47 (by decide), y9_v47]

/-! ## The first call's other two operands -/

/-- The third host stretch, from any contents `W` before it: the projection of the padded features and the bias row. -/
theorem stretch_v51 (W : Valuation τ sig (Elt Ideal)) :
    (StableHlo.after hostOps0_2 W main_v51 : S10240x128.Idx → EReal)
      = Host.dotGeneral (F := Ideal) (φ₁ := .f32) (φ₂ := .f32) dot_S10240x256_S256x128_S10240x128_1_0_0_1_n_n none (padRows (F := Ideal) (W main_arg0)) (W main_arg2) := by
  unfold padRows
  after_results_simp

theorem stretch_v52 (W : Valuation τ sig (Elt Ideal)) :
    (StableHlo.after hostOps0_2 W main_v52 : S1x128.Idx → EReal) = shapeCast S1x128 (W main_arg3) shapeCasts_S128_S1x128 := by
  after_results_simp <;> rfl

/-- An argument array before the third host stretch is the launch memory's. -/
theorem v2_arg (r : Ref sig .tc) (h0 : r ∉ hostOps0_W) (h1 : r ∉ hostOps0_1_W) :
    Gen.V2 m c r = m ((c : Thread nD τ).loc r) :=
  (V2_of m c r h1).trans (V1_of m c r h0)

theorem y3_v51 : (Y3 m c main_v51 : S10240x128.Idx → EReal) = Host.dotGeneral (F := Ideal) (φ₁ := .f32) (φ₂ := .f32) dot_S10240x256_S256x128_S10240x128_1_0_0_1_n_n none (padRows (F := Ideal) (m ((c : Thread nD τ).loc main_arg0))) (m ((c : Thread nD τ).loc main_arg2)) := by
  unfold Y3
  refine (stretch_v51 (Gen.V2 m c)).trans ?_
  rw [v2_arg m c main_arg0 (by decide) (by decide), v2_arg m c main_arg2 (by decide) (by decide)]

theorem y3_v52 : (Y3 m c main_v52 : S1x128.Idx → EReal) = shapeCast S1x128 (m ((c : Thread nD τ).loc main_arg3)) shapeCasts_S128_S1x128 := by
  unfold Y3
  refine (stretch_v52 (Gen.V2 m c)).trans ?_
  rw [v2_arg m c main_arg3 (by decide) (by decide)]

/-! ## The later calls' operands -/

theorem y5_v54 : (Y5 m c main_v54 : S10240x128.Idx → EReal) = Host.dotGeneral (F := Ideal) (φ₁ := .f32) (φ₂ := .f32) dot_S10240x128_S128x128_S10240x128_1_0_0_1_n_n none (layer0Left m c) (m ((c : Thread nD τ).loc main_arg4)) := by
  have e : (Y5 m c main_v54 : S10240x128.Idx → EReal) = Host.dotGeneral (F := Ideal) (φ₁ := .f32) (φ₂ := .f32) dot_S10240x128_S128x128_S10240x128_1_0_0_1_n_n none (Y4 m c main_v53) (Y4 m c main_arg4) := by
    unfold Y5
    after_results_simp <;> rfl
  rw [e, y4_v53, (arg_kept m c main_arg4 (by decide) (by decide) (by decide) (by decide) (by decide) (by decide) (by decide) (by decide) (by decide) (by decide)).1]

theorem y5_v55 : (Y5 m c main_v55 : S1x128.Idx → EReal) = shapeCast S1x128 (m ((c : Thread nD τ).loc main_arg5)) shapeCasts_S128_S1x128 := by
  have e : (Y5 m c main_v55 : S1x128.Idx → EReal) = shapeCast S1x128 (Y4 m c main_arg5) shapeCasts_S128_S1x128 := by
    unfold Y5
    after_results_simp <;> rfl
  rw [e, (arg_kept m c main_arg5 (by decide) (by decide) (by decide) (by decide) (by decide) (by decide) (by decide) (by decide) (by decide) (by decide)).1]

theorem y7_v57 : (Y7 m c main_v57 : S10240x128.Idx → EReal) = Host.dotGeneral (F := Ideal) (φ₁ := .f32) (φ₂ := .f32) dot_S10240x128_S128x128_S10240x128_1_0_0_1_n_n none (layer1Left m c) (m ((c : Thread nD τ).loc main_arg6)) := by
  have e : (Y7 m c main_v57 : S10240x128.Idx → EReal) = Host.dotGeneral (F := Ideal) (φ₁ := .f32) (φ₂ := .f32) dot_S10240x128_S128x128_S10240x128_1_0_0_1_n_n none (Y6 m c main_v56) (Y6 m c main_arg6) := by
    unfold Y7
    after_results_simp <;> rfl
  rw [e, y6_v56, (arg_kept m c main_arg6 (by decide) (by decide) (by decide) (by decide) (by decide) (by decide) (by decide) (by decide) (by decide) (by decide)).2.1]

theorem y7_v58 : (Y7 m c main_v58 : S1x128.Idx → EReal) = shapeCast S1x128 (m ((c : Thread nD τ).loc main_arg7)) shapeCasts_S128_S1x128 := by
  have e : (Y7 m c main_v58 : S1x128.Idx → EReal) = shapeCast S1x128 (Y6 m c main_arg7) shapeCasts_S128_S1x128 := by
    unfold Y7
    after_results_simp <;> rfl
  rw [e, (arg_kept m c main_arg7 (by decide) (by decide) (by decide) (by decide) (by decide) (by decide) (by decide) (by decide) (by decide) (by decide)).2.1]

theorem y9_v60 : (Y9 m c main_v60 : S10240x256.Idx → EReal) = Host.dotGeneral (F := Ideal) (φ₁ := .f32) (φ₂ := .f32) dot_S10240x128_S128x256_S10240x256_1_0_0_1_n_n none (layer2Left m c) (m ((c : Thread nD τ).loc main_arg8)) := by
  have e : (Y9 m c main_v60 : S10240x256.Idx → EReal) = Host.dotGeneral (F := Ideal) (φ₁ := .f32) (φ₂ := .f32) dot_S10240x128_S128x256_S10240x256_1_0_0_1_n_n none (Y8 m c main_v59) (Y8 m c main_arg8) := by
    unfold Y9
    after_results_simp <;> rfl
  rw [e, y8_v59, (arg_kept m c main_arg8 (by decide) (by decide) (by decide) (by decide) (by decide) (by decide) (by decide) (by decide) (by decide) (by decide)).2.2.1]

theorem y9_v61 : (Y9 m c main_v61 : S1x256.Idx → EReal) = shapeCast S1x256 (m ((c : Thread nD τ).loc main_arg9)) shapeCasts_S256_S1x256 := by
  have e : (Y9 m c main_v61 : S1x256.Idx → EReal) = shapeCast S1x256 (Y8 m c main_arg9) shapeCasts_S256_S1x256 := by
    unfold Y9
    after_results_simp <;> rfl
  rw [e, (arg_kept m c main_arg9 (by decide) (by decide) (by decide) (by decide) (by decide) (by decide) (by decide) (by decide) (by decide) (by decide)).2.2.1]

/-- The second layer's output is still in place when the structure branch reads it. -/
theorem y10_v56 : Y10 m c main_v56 = layer1Left m c := by
  rw [keep10 m c main_v56 (by decide), keep9 m c main_v56 (by decide), keep8 m c main_v56 (by decide),
    keep7 m c main_v56 (by decide), y6_v56]

theorem y11_v63 : (Y11 m c main_v63 : S10240x128.Idx → EReal) = Host.dotGeneral (F := Ideal) (φ₁ := .f32) (φ₂ := .f32) dot_S10240x128_S128x128_S10240x128_1_0_0_1_n_n none (layer1Left m c) (m ((c : Thread nD τ).loc main_arg10)) := by
  have e : (Y11 m c main_v63 : S10240x128.Idx → EReal) = Host.dotGeneral (F := Ideal) (φ₁ := .f32) (φ₂ := .f32) dot_S10240x128_S128x128_S10240x128_1_0_0_1_n_n none (Y10 m c main_v56) (Y10 m c main_arg10) := by
    unfold Y11
    after_results_simp <;> rfl
  rw [e, y10_v56, (arg_kept m c main_arg10 (by decide) (by decide) (by decide) (by decide) (by decide) (by decide) (by decide) (by decide) (by decide) (by decide)).2.2.2]

theorem y11_v64 : (Y11 m c main_v64 : S1x128.Idx → EReal) = shapeCast S1x128 (m ((c : Thread nD τ).loc main_arg11)) shapeCasts_S128_S1x128 := by
  have e : (Y11 m c main_v64 : S1x128.Idx → EReal) = shapeCast S1x128 (Y10 m c main_arg11) shapeCasts_S128_S1x128 := by
    unfold Y11
    after_results_simp <;> rfl
  rw [e, (arg_kept m c main_arg11 (by decide) (by decide) (by decide) (by decide) (by decide) (by decide) (by decide) (by decide) (by decide) (by decide)).2.2.2]

theorem y13_v66 : (Y13 m c main_v66 : S10240x128.Idx → EReal)
    = (truncf .bf16 (layer4Left m c : FVec Ideal S10240x128 .f32) bitsLt_bf16_f32 : FVec Ideal S10240x128 .bf16) := by
  have e : (Y13 m c main_v66 : S10240x128.Idx → EReal)
      = (truncf .bf16 (Y12 m c main_v65 : FVec Ideal S10240x128 .f32) bitsLt_bf16_f32 : FVec Ideal S10240x128 .bf16) := by
    unfold Y13
    after_results_simp <;> rfl
  rw [e, y12_v65]

/-! ## The two results -/

theorem y14_v62 : Y14 m c main_v62 = layer3Left m c := by
  rw [keep14 m c main_v62 (by decide), keep13 m c main_v62 (by decide), keep12 m c main_v62 (by decide),
    keep11 m c main_v62 (by decide), y10_v62]

theorem y15_v68 : (Y15 m c main_v68 : S10000x256.Idx → EReal)
    = extractStridedSlice S10000x256 ![0, 0] (layer3Left m c : S10240x256.Idx → EReal) slices_S10240x256_S10000x256_0_0 := by
  have e : (Y15 m c main_v68 : S10000x256.Idx → EReal)
      = extractStridedSlice S10000x256 ![0, 0] (Y14 m c main_v62 : S10240x256.Idx → EReal) slices_S10240x256_S10000x256_0_0 := by
    unfold Y15
    after_results_simp <;> rfl
  rw [e, y14_v62]

theorem y15_v69 : (Y15 m c main_v69 : S10000x10000.Idx → EReal)
    = extractStridedSlice S10000x10000 ![0, 0] (gramLeft m c : S10240x10240.Idx → EReal) slices_S10240x10240_S10000x10000_0_0 := by
  have e : (Y15 m c main_v69 : S10000x10000.Idx → EReal)
      = extractStridedSlice S10000x10000 ![0, 0] (Y14 m c main_v67 : S10240x10240.Idx → EReal) slices_S10240x10240_S10000x10000_0_0 := by
    unfold Y15
    after_results_simp <;> rfl
  rw [e, y14_v67]

/-! ## The chain -/

/-- The two results of the kernel's program are the dense-adjacency network of the specification on the 10000 real
    nodes, for any node-valued reading `src`, `dst` of the two index vectors the program builds. -/
theorem results_eq (src dst : Fin 330000 → Fin 10000)
    (hsrc : ∀ e : Fin 330000, ((Y3 m c main_v3 : S330000.Idx → BitVec 32) (ix1 e)).toInt = ((src e).val : Int))
    (hdst : ∀ e : Fin 330000, ((Y3 m c main_v6 : S330000.Idx → BitVec 32) (ix1 e)).toInt = ((dst e).val : Int)) :
    (∀ (i : Fin 10000) (f : Fin 256), (Y15 m c main_v68 : S10000x256.Idx → EReal) (ix2 i f)
        = Cert.GcnSpec.aXo (fun e => (Y3 m c main_v31 : S330000.Idx → EReal) (ix1 e)) src dst
          (fun r k => ((m ((c : Thread nD τ).loc main_arg0)) : S10000x256.Idx → EReal) (ix2 r k))
          (fun k f => ((m ((c : Thread nD τ).loc main_arg2)) : S256x128.Idx → EReal) (ix2 k f)) (fun f => ((m ((c : Thread nD τ).loc main_arg3)) : S128.Idx → EReal) (ix1 f))
          (fun k f => ((m ((c : Thread nD τ).loc main_arg4)) : S128x128.Idx → EReal) (ix2 k f)) (fun f => ((m ((c : Thread nD τ).loc main_arg5)) : S128.Idx → EReal) (ix1 f))
          (fun k f => ((m ((c : Thread nD τ).loc main_arg6)) : S128x128.Idx → EReal) (ix2 k f)) (fun f => ((m ((c : Thread nD τ).loc main_arg7)) : S128.Idx → EReal) (ix1 f))
          (fun k f => ((m ((c : Thread nD τ).loc main_arg8)) : S128x256.Idx → EReal) (ix2 k f)) (fun f => ((m ((c : Thread nD τ).loc main_arg9)) : S256.Idx → EReal) (ix1 f)) (padRow i) f)
    ∧ (∀ (i j : Fin 10000), (Y15 m c main_v69 : S10000x10000.Idx → EReal) (ix2 i j)
        = Cert.GcnSpec.aSo (fun e => (Y3 m c main_v31 : S330000.Idx → EReal) (ix1 e)) src dst
          (fun r k => ((m ((c : Thread nD τ).loc main_arg0)) : S10000x256.Idx → EReal) (ix2 r k))
          (fun k f => ((m ((c : Thread nD τ).loc main_arg2)) : S256x128.Idx → EReal) (ix2 k f)) (fun f => ((m ((c : Thread nD τ).loc main_arg3)) : S128.Idx → EReal) (ix1 f))
          (fun k f => ((m ((c : Thread nD τ).loc main_arg4)) : S128x128.Idx → EReal) (ix2 k f)) (fun f => ((m ((c : Thread nD τ).loc main_arg5)) : S128.Idx → EReal) (ix1 f))
          (fun k f => ((m ((c : Thread nD τ).loc main_arg10)) : S128x128.Idx → EReal) (ix2 k f)) (fun f => ((m ((c : Thread nD τ).loc main_arg11)) : S128.Idx → EReal) (ix1 f)) (padRow i) (padRow j)) := by
  have h0 : ∀ i f, (layer0Left m c : S10240x128.Idx → EReal) (ix2 i f)
      = max (aggAt (denseAdj (F := Ideal) (Y3 m c main_v3) (Y3 m c main_v6) (Y3 m c main_v31))
          (Host.dotGeneral (F := Ideal) (φ₁ := .f32) (φ₂ := .f32) dot_S10240x256_S256x128_S10240x128_1_0_0_1_n_n none (padRows (F := Ideal) (m ((c : Thread nD τ).loc main_arg0))) (m ((c : Thread nD τ).loc main_arg2))) (shapeCast S1x128 (m ((c : Thread nD τ).loc main_arg3)) shapeCasts_S128_S1x128) i f) 0 := fun i f => by
    rw [← y3_v47, ← y3_v51, ← y3_v52]
    exact arr0_apply (atTc (Y3 m)) c i f
  have h1 : ∀ i f, (layer1Left m c : S10240x128.Idx → EReal) (ix2 i f)
      = aggAt (denseAdj (F := Ideal) (Y3 m c main_v3) (Y3 m c main_v6) (Y3 m c main_v31))
          (Host.dotGeneral (F := Ideal) (φ₁ := .f32) (φ₂ := .f32) dot_S10240x128_S128x128_S10240x128_1_0_0_1_n_n none (layer0Left m c) (m ((c : Thread nD τ).loc main_arg4))) (shapeCast S1x128 (m ((c : Thread nD τ).loc main_arg5)) shapeCasts_S128_S1x128) i f := fun i f => by
    rw [← y3_v47, ← y5_v47, ← y5_v54, ← y5_v55]
    exact arr1_apply (atTc (Y5 m)) c i f
  have h2 : ∀ i f, (layer2Left m c : S10240x128.Idx → EReal) (ix2 i f)
      = max (aggAt (denseAdj (F := Ideal) (Y3 m c main_v3) (Y3 m c main_v6) (Y3 m c main_v31))
          (Host.dotGeneral (F := Ideal) (φ₁ := .f32) (φ₂ := .f32) dot_S10240x128_S128x128_S10240x128_1_0_0_1_n_n none (layer1Left m c) (m ((c : Thread nD τ).loc main_arg6))) (shapeCast S1x128 (m ((c : Thread nD τ).loc main_arg7)) shapeCasts_S128_S1x128) i f) 0 := fun i f => by
    rw [← y3_v47, ← y7_v47, ← y7_v57, ← y7_v58]
    exact arr2_apply (atTc (Y7 m)) c i f
  have h3 : ∀ i f, (layer3Left m c : S10240x256.Idx → EReal) (ix2 i f)
      = aggAt (denseAdj (F := Ideal) (Y3 m c main_v3) (Y3 m c main_v6) (Y3 m c main_v31))
          (Host.dotGeneral (F := Ideal) (φ₁ := .f32) (φ₂ := .f32) dot_S10240x128_S128x256_S10240x256_1_0_0_1_n_n none (layer2Left m c) (m ((c : Thread nD τ).loc main_arg8))) (shapeCast S1x256 (m ((c : Thread nD τ).loc main_arg9)) shapeCasts_S256_S1x256) i f := fun i f => by
    rw [← y3_v47, ← y9_v47, ← y9_v60, ← y9_v61]
    exact arr3_apply (atTc (Y9 m)) c i f
  have h4 : ∀ i f, (layer4Left m c : S10240x128.Idx → EReal) (ix2 i f)
      = aggAt (denseAdj (F := Ideal) (Y3 m c main_v3) (Y3 m c main_v6) (Y3 m c main_v31))
          (Host.dotGeneral (F := Ideal) (φ₁ := .f32) (φ₂ := .f32) dot_S10240x128_S128x128_S10240x128_1_0_0_1_n_n none (layer1Left m c) (m ((c : Thread nD τ).loc main_arg10))) (shapeCast S1x128 (m ((c : Thread nD τ).loc main_arg11)) shapeCasts_S128_S1x128) i f := fun i f => by
    rw [← y3_v47, ← y11_v47, ← y11_v63, ← y11_v64]
    exact arr4_apply (atTc (Y11 m)) c i f
  have h5 : ∀ i j, (gramLeft m c : S10240x10240.Idx → EReal) (ix2 i j)
      = Cert.GcnSpec.gram (fun r k => (truncf .bf16 (layer4Left m c : FVec Ideal S10240x128 .f32) bitsLt_bf16_f32
          : FVec Ideal S10240x128 .bf16) (ix2 r k)) i j := fun i j => by
    rw [← y13_v66]
    exact arr5_apply (atTc (Y13 m)) c i j
  rw [y15_v68, y15_v69]
  exact net_eq (Y3 m c main_v3) (Y3 m c main_v6) (Y3 m c main_v31) src dst hsrc hdst
    (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
    (layer0Left m c) (layer1Left m c) (layer2Left m c) (layer4Left m c) (layer3Left m c) (gramLeft m c) h0 h1 h2 h3 h4 h5

end Cert.KernelIdeal.KValue

end
-- ==== Proof.KBridge.lean ====
/-
  The first host operations of the kernel's program — the edges' source and target nodes and the edge weights, computed
  from the edge list alone — are, value by value, the reference's own: the two programs apply the same operations.
  Read stretch by stretch: the degrees and their inverse square roots in the first stretch, the choice between that
  and zero in the second, the two gathers and their product in the third.
-/
import proofs.«130217_j58256936403151_1_alg».proof.Proof.KRunFold
import proofs.«130217_j58256936403151_1_alg».proof.Proof.RefRead
import Idealize.ShloMosaic.Lib.StableHlo.Run

set_option maxRecDepth 16384

noncomputable section

namespace Cert.KernelIdeal.KBridge

open Cert.KernelIdeal Cert.KernelIdeal.Gen Cert.KernelIdeal.KRun
open Idealize.ShloMosaic Idealize.ShloMosaic.TcCoe Idealize.SL.Sem Idealize.ShloMosaic.StableHlo

variable (m : (ℓ : Loc nD τ sig) → Buf (Elt Ideal) ℓ) (c : Dev nD)

/-! ## The first stretch -/

theorem v1_v3 : (Gen.V1 m c main_v3 : S330000.Idx → BitVec 32) = Cert.ReferenceIdeal.ReadP.val_main_v3 (F := Ideal) (m ((c : Thread nD τ).loc main_arg1)) := by
  dsimp only [Gen.V1, Gen.V0]
  after_results_simp
  rfl
theorem v1_v6 : (Gen.V1 m c main_v6 : S330000.Idx → BitVec 32) = Cert.ReferenceIdeal.ReadP.val_main_v6 (F := Ideal) (m ((c : Thread nD τ).loc main_arg1)) := by
  dsimp only [Gen.V1, Gen.V0]
  after_results_simp
  rfl
theorem v1_v12 : (Gen.V1 m c main_v12 : S10000.Idx → BitVec 1) = Cert.ReferenceIdeal.ReadP.val_main_v12 (F := Ideal) (m ((c : Thread nD τ).loc main_arg1)) := by
  dsimp only [Gen.V1, Gen.V0]
  after_results_simp
  rfl
theorem v1_v15 : (Gen.V1 m c main_v15 : S10000.Idx → EReal) = Cert.ReferenceIdeal.ReadP.val_main_v15 (F := Ideal) (m ((c : Thread nD τ).loc main_arg1)) := by
  dsimp only [Gen.V1, Gen.V0]
  after_results_simp
  rfl
theorem v1_cst_3 : (Gen.V1 m c main_cst_3 : S_.Idx → EReal) = Cert.ReferenceIdeal.ReadP.val_main_cst_3 (F := Ideal) := by
  dsimp only [Gen.V1, Gen.V0]
  after_results_simp
  rfl

/-! ## The second stretch: the choice between the inverse square root and zero -/

theorem step2 (W : Valuation τ sig (Elt Ideal)) :
    (StableHlo.after hostOps0_1 W main_v16 : S10000.Idx → EReal)
      = select (W main_v12 : S10000.Idx → BitVec 1) (W main_v15 : S10000.Idx → EReal)
          (broadcastInDim S10000 ![] bcast_S_S10000 (id (W main_cst_3 : S_.Idx → EReal))) := by
  after_results_simp
  rfl

theorem v2_v16 : (Gen.V2 m c main_v16 : S10000.Idx → EReal) = Cert.ReferenceIdeal.ReadP.val_main_v16 (F := Ideal) (m ((c : Thread nD τ).loc main_arg1)) := by
  show (StableHlo.after hostOps0_1 (Gen.V1 m c) main_v16 : S10000.Idx → EReal) = _
  rw [step2, v1_v12, v1_v15, v1_cst_3]
  rfl

theorem v2_v3 : (Gen.V2 m c main_v3 : S330000.Idx → BitVec 32) = Cert.ReferenceIdeal.ReadP.val_main_v3 (F := Ideal) (m ((c : Thread nD τ).loc main_arg1)) := by
  show (StableHlo.after hostOps0_1 (Gen.V1 m c) main_v3 : S330000.Idx → BitVec 32) = _
  rw [StableHlo.after_of_writes_sub hostOps0_1 _ hostOps0_1_writes (by decide)]
  exact v1_v3 m c
theorem v2_v6 : (Gen.V2 m c main_v6 : S330000.Idx → BitVec 32) = Cert.ReferenceIdeal.ReadP.val_main_v6 (F := Ideal) (m ((c : Thread nD τ).loc main_arg1)) := by
  show (StableHlo.after hostOps0_1 (Gen.V1 m c) main_v6 : S330000.Idx → BitVec 32) = _
  rw [StableHlo.after_of_writes_sub hostOps0_1 _ hostOps0_1_writes (by decide)]
  exact v1_v6 m c

/-! ## The third stretch: the two gathers and their product -/

/-- An index array with its negative entries moved up by the number of nodes, as a column. -/
def wrapCol (s : S330000.Idx → BitVec 32) : S330000x1.Idx → BitVec 32 :=
  broadcastInDim S330000x1 ![0] bcast_S330000_S330000x1_0
    (select (cmpi .slt s (broadcastInDim S330000 ![] bcast_S_S330000 (constantI S_ 32 0#32)))
      (addi s (broadcastInDim S330000 ![] bcast_S_S330000 (constantI S_ 32 10000#32))) s)

theorem step3 (W : Valuation τ sig (Elt Ideal)) :
    (StableHlo.after hostOps0_2 W main_v31 : S330000.Idx → EReal)
      = (mulf (F := Ideal) (φ := .f32)
          (Host.gather gather_S10000_S330000x1_S330000_n_0_n_n_0_1_1 (W main_v16 : S10000.Idx → EReal) (wrapCol (W main_v3)))
          (Host.gather gather_S10000_S330000x1_S330000_n_0_n_n_0_1_1 (W main_v16 : S10000.Idx → EReal) (wrapCol (W main_v6)))
          : S330000.Idx → EReal) := by
  after_results_simp
  rfl

theorem y3_v31 : (Y3 m c main_v31 : S330000.Idx → EReal) = Cert.ReferenceIdeal.ReadP.val_main_v31 (F := Ideal) (m ((c : Thread nD τ).loc main_arg1)) := by
  show (StableHlo.after hostOps0_2 (Gen.V2 m c) main_v31 : S330000.Idx → EReal) = _
  rw [step3, v2_v16, v2_v3, v2_v6]
  rfl

theorem y3_v3 : (Y3 m c main_v3 : S330000.Idx → BitVec 32) = Cert.ReferenceIdeal.ReadP.val_main_v3 (F := Ideal) (m ((c : Thread nD τ).loc main_arg1)) := by
  show (StableHlo.after hostOps0_2 (Gen.V2 m c) main_v3 : S330000.Idx → BitVec 32) = _
  rw [StableHlo.after_of_writes_sub hostOps0_2 _ hostOps0_2_writes (by decide)]
  exact v2_v3 m c
theorem y3_v6 : (Y3 m c main_v6 : S330000.Idx → BitVec 32) = Cert.ReferenceIdeal.ReadP.val_main_v6 (F := Ideal) (m ((c : Thread nD τ).loc main_arg1)) := by
  show (StableHlo.after hostOps0_2 (Gen.V2 m c) main_v6 : S330000.Idx → BitVec 32) = _
  rw [StableHlo.after_of_writes_sub hostOps0_2 _ hostOps0_2_writes (by decide)]
  exact v2_v6 m c

end Cert.KernelIdeal.KBridge

end
-- ==== Proof.LibGatherVec.lean ====
/-
  A gather of single entries of a vector, read at an entry.

  `stablehlo.gather` with one start index per result entry and the one operand axis collapsed copies entries of a
  length-N vector: entry `r` of the result is the vector's entry whose number is the start index `idx[r, 0]`, read as
  a signed integer and clamped into `[0, N − 1]`.
-/
import Idealize.ShloMosaic.Lib.ValueIdx

noncomputable section

namespace Cert.GatherVec

open Idealize.ShloMosaic Idealize.ShloMosaic.ValueIdx

variable {α : Type}

/-- The dimension numbers of a gather of single entries of a length-N vector, one start index per result entry. -/
def vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The entry that result entry `r` copies: its start index read signed and clamped into `[0, N − 1]`. -/
def clampAt (N : Nat) (hN : 0 < N) {R w : Nat} (idx : IVec ⟨2, ![R, 1]⟩ w) (r : Fin R) : Fin N :=
  ⟨min (idx (ix2 r (0 : Fin 1))).toInt.toNat (N - 1), by omega⟩

/-- The coordinate a gather of entries reads: the clamped start index. -/
theorem operandIdx_entry {N R w : Nat} (hN : 0 < N)
    (wf : GatherDims.WF ⟨1, ![N]⟩ ⟨2, ![R, 1]⟩ ⟨1, ![R]⟩ [] [0] [] [0] [] 1 ![1])
    (idx : IVec ⟨2, ![R, 1]⟩ w) (r : Fin R) :
    ((vecDims N R wf).operandIdx (ix1 r) idx (0 : Fin 1)).val = (clampAt N hN idx r).val := by
  show (vecDims N R wf).start (ix1 r) idx 0 + (vecDims N R wf).batchCoord (ix1 r) 0
    + (vecDims N R wf).offCoord (ix1 r) 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 r) ⟨List.idxOf (0 : Fin 1) (vecDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- Entry `r` of a gather of entries is the vector's entry `clampAt idx r`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r) = x (ix1 (clampAt N hN idx r)) := by
  unfold Host.gather
  congr 1
  funext a
  refine Fin.ext ?_
  match a with
  | ⟨0, _⟩ => exact operandIdx_entry hN wf idx r

end Cert.GatherVec

end
-- ==== Proof.LibRealLaw.lean ====
/-
  Real-valued extended reals, and distributing a factor over a finite sum of them.

  On the extended reals a product does not distribute over a sum when infinities of both signs meet, so
  `(∑ d, A d) * w = ∑ d, A d * w` is proved for REAL entries only: each `A d` and `w` the coercion of a real number.
  Being real is kept by sums, products, the logistic function and a choice between two real values, so a
  value computed from real inputs by these operations is real.
-/
import Idealize.ShloMosaic.PureOps.Ideal

noncomputable section

open scoped BigOperators

namespace Cert.RealLaw

open Idealize.ShloMosaic

/-- An extended real that is a real number. -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} (s : Finset ι) (A : ι → EReal) (h : ∀ d, IsReal (A d)) : IsReal (∑ d ∈ s, A d) := by
  classical
  induction s using Finset.induction_on with
  | empty => rw [Finset.sum_empty]; exact IsReal.zero
  | insert a s ha ih => rw [Finset.sum_insert ha]; exact (h a).add ih

/-- The logistic of a real number is a real number: `1 + e^(−r)` is a nonzero real. -/
theorem IsReal.logistic {x : EReal} (hx : IsReal x) : IsReal (Ideal.logistic x) := by
  obtain ⟨r, rfl⟩ := hx
  have hpos : (0 : ℝ) < 1 + Real.exp (-r) := by positivity
  have h1 : (1 : EReal) + Ideal.exp (-(r : EReal)) = ((1 + Real.exp (-r) : ℝ) : EReal) := by
    rw [← EReal.coe_neg, Ideal.exp_coe, EReal.coe_add, EReal.coe_one]
  unfold Ideal.logistic
  rw [h1, Ideal.div_coe (ne_of_gt hpos)]
  exact ⟨1 * (1 / (1 + Real.exp (-r))), by rw [EReal.coe_mul, EReal.coe_one]⟩

/-- A choice between two real values is real. -/
theorem IsReal.select {c : BitVec 1} {x y : EReal} (hx : IsReal x) (hy : IsReal y) : IsReal (Scalar.select c x y) := by
  unfold Scalar.select
  split
  · exact hx
  · exact hy

/-- The coercion of a finite sum of reals is the sum of the coercions. -/
theorem coe_sum {ι : Type*} (s : Finset ι) (a : ι → ℝ) : ((∑ d ∈ s, a d : ℝ) : EReal) = ∑ d ∈ s, (a d : EReal) := by
  classical
  induction s using Finset.induction_on with
  | empty => simp
  | insert b s hb ih => rw [Finset.sum_insert hb, Finset.sum_insert hb, EReal.coe_add, ih]

/-- For real entries a common factor moves inside a finite sum. -/
theorem sum_mul_of_real {ι : Type*} (s : Finset ι) (A : ι → EReal) (w : EReal) (hA : ∀ d, IsReal (A d)) (hw : IsReal w) :
    (∑ d ∈ s, A d) * w = ∑ d ∈ s, A d * w := by
  obtain ⟨v, rfl⟩ := hw
  choose a ha using hA
  simp only [ha]
  rw [← coe_sum, ← EReal.coe_mul, Finset.sum_mul, coe_sum]
  exact Finset.sum_congr rfl fun d _ => EReal.coe_mul _ _

end Cert.RealLaw

end
-- ==== Proof.Shared.lean ====
/-
  What both programs compute first, from the edge list alone, read at an entry: the edges' source and target nodes
  (the given edges followed by one self loop per node) are node numbers when the given entries are, and every edge
  weight `dis[src] · dis[dst]` is a real number — the degree of a node is a finite sum of ones, its inverse square
  root (taken of at least one) is a positive real, and a gathered entry is one of those.
-/
import proofs.«130217_j58256936403151_1_alg».proof.Proof.RefRead
import proofs.«130217_j58256936403151_1_alg».proof.Proof.LibGatherVec
import proofs.«130217_j58256936403151_1_alg».proof.Proof.LibScatterSum
import proofs.«130217_j58256936403151_1_alg».proof.Proof.LibRealLaw

noncomputable section

namespace Cert.Shared

open Idealize.ShloMosaic Idealize.ShloMosaic.ValueIdx Cert.RealLaw
open Cert.ReferenceIdeal Cert.ReferenceIdeal.Gen Cert.ReferenceIdeal.ReadP
open scoped BigOperators

theorem one_f32 : Ideal.ofBits .f32 0x3F800000#32 = 1 := by
  simp [Ideal.ofBits, Ideal.ieee, -EReal.coe_mul]; norm_num

/-- The inverse square root of a real number that is at least one is a real number. -/
theorem isReal_rsqrt_max_one {d : EReal} (hd : IsReal d) : IsReal (Ideal.rsqrt (max d 1)) := by
  obtain ⟨r, rfl⟩ := hd
  have hm : ∃ s : ℝ, 1 ≤ s ∧ max (r : EReal) 1 = (s : EReal) := by
    rcases le_total (r : EReal) 1 with h | h
    · exact ⟨1, le_refl _, by rw [max_eq_right h]; rfl⟩
    · exact ⟨r, by exact_mod_cast h, by rw [max_eq_left h]⟩
  obtain ⟨s, hs, hm⟩ := hm
  rw [hm, Ideal.rsqrt_coe, if_neg (by linarith), if_neg (by linarith)]
  exact ⟨_, rfl⟩

variable (x1 : IVec S2x320000 32)

/-- The degree of a node — a scatter of ones onto zeros — is a real number. -/
theorem deg_real (p : Fin 10000) : IsReal (val_main_v10 (F := Ideal) x1 (ix1 p)) := by
  have key : val_main_v10 (F := Ideal) x1 (ix1 p)
      = val_main_v8 (F := Ideal) (ix1 p) + ∑ e : Fin 330000,
          if (val_main_v9 (F := Ideal) x1 (ix2 e (0 : Fin 1))).toInt = (p.val : Int) then val_main_v7 (F := Ideal) (ix1 e) else 0 :=
    Cert.ScatterSum.scatterAdd_vec_apply (N := 10000) (R := 330000)
      (show ScatterDims.WF ⟨1, ![10000]⟩ ⟨2, ![330000, 1]⟩ ⟨1, ![330000]⟩ [] [0] [0] 1 from
        scatter_S10000_S330000x1_S330000_n_0_0_1.wf) _ _ _ p
  rw [key]
  refine IsReal.add ?_ (IsReal.sum _ _ fun e => ?_)
  · rw [val_main_v8_apply, val_main_cst_0_apply]
    exact ⟨0, by simp⟩
  · split
    · rw [val_main_v7_apply, val_main_cst_apply]
      exact ⟨1, by simp [one_f32]⟩
    · exact IsReal.zero

/-- The normalizer `dis` of a node — the inverse square root of its degree (at least one), or zero — is a real number. -/
theorem dis_real (p : Fin 10000) : IsReal (val_main_v16 (F := Ideal) x1 (ix1 p)) := by
  rw [val_main_v16_apply]
  refine IsReal.select ?_ ?_
  · rw [val_main_v15_apply, val_main_v14_apply, val_main_v13_apply, val_main_cst_2_apply]
    simp only [Ideal.hostUnary_rsqrt_def, Ideal.maximumf_def, Ideal.ofBits_def, one_f32]
    exact isReal_rsqrt_max_one (deg_real x1 p)
  · rw [val_main_call0_v1_apply, val_main_call0_v0_apply, val_main_cst_3_apply]
    exact ⟨0, by simp⟩

/-- Every edge weight is a real number. -/
theorem nrm_real (e : Fin 330000) : IsReal (val_main_v31 (F := Ideal) x1 (ix1 e)) := by
  rw [val_main_v31_apply]
  simp only [Ideal.mulf_def]
  refine IsReal.mul ?_ ?_
  · have key : val_main_v23 (F := Ideal) x1 (ix1 e)
        = val_main_v16 (F := Ideal) x1 (ix1 (Cert.GatherVec.clampAt 10000 (by norm_num) (val_main_v22 (F := Ideal) x1) e)) :=
      Cert.GatherVec.gather_vec_apply (N := 10000) (R := 330000) (by norm_num)
        (show GatherDims.WF ⟨1, ![10000]⟩ ⟨2, ![330000, 1]⟩ ⟨1, ![330000]⟩ [] [0] [] [0] [] 1 ![1] from
          gather_S10000_S330000x1_S330000_n_0_n_n_0_1_1.wf) _ _ e
    rw [key]
    exact dis_real x1 _
  · have key : val_main_v30 (F := Ideal) x1 (ix1 e)
        = val_main_v16 (F := Ideal) x1 (ix1 (Cert.GatherVec.clampAt 10000 (by norm_num) (val_main_v29 (F := Ideal) x1) e)) :=
      Cert.GatherVec.gather_vec_apply (N := 10000) (R := 330000) (by norm_num)
        (show GatherDims.WF ⟨1, ![10000]⟩ ⟨2, ![330000, 1]⟩ ⟨1, ![330000]⟩ [] [0] [] [0] [] 1 ![1] from
          gather_S10000_S330000x1_S330000_n_0_n_n_0_1_1.wf) _ _ e
    rw [key]
    exact dis_real x1 _

/-- A small natural number as a 32-bit word reads back, signed, as itself. -/
theorem toInt_ofNat_small (n : ℕ) (hn : n < 10000) : (BitVec.ofNat 32 n).toInt = (n : Int) := by
  unfold BitVec.toInt
  simp only [BitVec.toNat_ofNat]
  have h2 : n % 2 ^ 32 = n := Nat.mod_eq_of_lt (by omega)
  rw [h2]
  split <;> omega

variable (hx1 : ∀ i, 0 ≤ (x1 i).toInt ∧ (x1 i).toInt < 10000)

/-! The edges' source nodes (the first row of the edge list, then one self loop per node) and target nodes (the second
    row, then the self loops) are node numbers. -/

include hx1 in
theorem v3_range (e : Fin 330000) :
    0 ≤ (val_main_v3 (F := Ideal) x1 (ix1 e)).toInt ∧ (val_main_v3 (F := Ideal) x1 (ix1 e)).toInt < 10000 := by
  unfold val_main_v3
  by_cases he : e.val < 320000
  · have key := concatenate_pair_apply_left (t := S330000) (s₁ := S320000) (s₂ := S10000) (0 : Fin 1)
      (val_main_v2 (F := Ideal) x1) (val_main_v0 (F := Ideal)) concatenates_S320000_S10000_S330000_d0 (ix1 e) rfl
      (ix1 (⟨e.val, he⟩ : Fin 320000))
      (fun b => by
        have hb1 : b.val < 1 := b.isLt
        have hb0 : b = (0 : Fin 1) := Fin.ext (by show b.val = 0; omega)
        subst hb0; rfl)
    rw [key, val_main_v2_apply, val_main_v1_apply]
    exact hx1 _
  · have he' : e.val - 320000 < 10000 := by have := e.isLt; omega
    have key := concatenate_pair_apply_right (t := S330000) (s₁ := S320000) (s₂ := S10000) (0 : Fin 1)
      (val_main_v2 (F := Ideal) x1) (val_main_v0 (F := Ideal)) concatenates_S320000_S10000_S330000_d0 (ix1 e) rfl rfl
      (ix1 (⟨e.val - 320000, he'⟩ : Fin 10000))
      (fun b hb => absurd (Fin.ext (by have hb1 : b.val < 1 := b.isLt; show b.val = 0; omega)) hb)
      (by show (e.val - 320000) + 320000 = e.val; omega)
    rw [key, val_main_v0_apply]
    show 0 ≤ (BitVec.ofNat 32 (e.val - 320000)).toInt ∧ (BitVec.ofNat 32 (e.val - 320000)).toInt < 10000
    rw [toInt_ofNat_small _ he']
    omega

include hx1 in
theorem v6_range (e : Fin 330000) :
    0 ≤ (val_main_v6 (F := Ideal) x1 (ix1 e)).toInt ∧ (val_main_v6 (F := Ideal) x1 (ix1 e)).toInt < 10000 := by
  unfold val_main_v6
  by_cases he : e.val < 320000
  · have key := concatenate_pair_apply_left (t := S330000) (s₁ := S320000) (s₂ := S10000) (0 : Fin 1)
      (val_main_v5 (F := Ideal) x1) (val_main_v0 (F := Ideal)) concatenates_S320000_S10000_S330000_d0 (ix1 e) rfl
      (ix1 (⟨e.val, he⟩ : Fin 320000))
      (fun b => by
        have hb1 : b.val < 1 := b.isLt
        have hb0 : b = (0 : Fin 1) := Fin.ext (by show b.val = 0; omega)
        subst hb0; rfl)
    rw [key, val_main_v5_apply, val_main_v4_apply]
    exact hx1 _
  · have he' : e.val - 320000 < 10000 := by have := e.isLt; omega
    have key := concatenate_pair_apply_right (t := S330000) (s₁ := S320000) (s₂ := S10000) (0 : Fin 1)
      (val_main_v5 (F := Ideal) x1) (val_main_v0 (F := Ideal)) concatenates_S320000_S10000_S330000_d0 (ix1 e) rfl rfl
      (ix1 (⟨e.val - 320000, he'⟩ : Fin 10000))
      (fun b hb => absurd (Fin.ext (by have hb1 : b.val < 1 := b.isLt; show b.val = 0; omega)) hb)
      (by show (e.val - 320000) + 320000 = e.val; omega)
    rw [key, val_main_v0_apply]
    show 0 ≤ (BitVec.ofNat 32 (e.val - 320000)).toInt ∧ (BitVec.ofNat 32 (e.val - 320000)).toInt < 10000
    rw [toInt_ofNat_small _ he']
    omega

include hx1 in
/-- The source and target nodes as functions into the node numbers. -/
theorem exists_src_dst : ∃ src dst : Fin 330000 → Fin 10000,
    (∀ e, (val_main_v3 (F := Ideal) x1 (ix1 e)).toInt = ((src e).val : Int))
      ∧ (∀ e, (val_main_v6 (F := Ideal) x1 (ix1 e)).toInt = ((dst e).val : Int)) :=
  ⟨fun e => ⟨(val_main_v3 (F := Ideal) x1 (ix1 e)).toInt.toNat, by have := v3_range x1 hx1 e; omega⟩,
   fun e => ⟨(val_main_v6 (F := Ideal) x1 (ix1 e)).toInt.toNat, by have := v6_range x1 hx1 e; omega⟩,
   fun e => by have := v3_range x1 hx1 e; show _ = ((Int.toNat _ : ℕ) : Int); omega,
   fun e => by have := v6_range x1 hx1 e; show _ = ((Int.toNat _ : ℕ) : Int); omega⟩

end Cert.Shared

end
-- ==== Proof.PreFacts.lean ====
/-
  What the precondition says, entry by entry: every entry of the eleven float arguments is a real number (its absolute
  value is below +∞), and every entry of the edge list is a node number, `0 ≤ v < 10000` read as a signed word.
  The precondition is one bit, the conjunction of one "all entries" reduction per conjunct.
-/
import proofs.«130217_j58256936403151_1_alg».proof.Pre_finite_inputs
import proofs.«130217_j58256936403151_1_alg».proof.Proof.LibRealLaw
import Idealize.ShloMosaic.Lib.ReduceAll
import Idealize.ShloMosaic.Lib.ValueIdx
import Idealize.ShloMosaic.Lib.Affine

noncomputable section

namespace Cert.PreFacts

open Idealize.ShloMosaic Cert.Pre_finite_inputs Cert.RealLaw

instance : Subsingleton S_.Idx := ⟨fun a b => funext fun d => d.elim0⟩

/-- An extended real whose absolute value is below +∞ is a real number. -/
theorem isReal_of_abs_lt (v : EReal)
    (h : FloatOps.cmpf (F := Ideal) .olt (FloatOps.hostAbsf (F := Ideal) (φ := .f32) v) (FloatOps.ofBits (F := Ideal) .f32 0x7F800000#32) = 1#1) :
    IsReal v := by
  have htop : Ideal.ofBits .f32 0x7F800000#32 = ⊤ := by simp [Ideal.ofBits, Ideal.ieee]
  change Ideal.cmp .olt (max v (-v)) (Ideal.ofBits .f32 0x7F800000#32) = 1#1 at h
  rw [htop] at h
  unfold Ideal.cmp at h
  induction v using EReal.rec with
  | bot => simp at h
  | top => simp at h
  | coe r => exact ⟨r, rfl⟩

/-- One "all entries are finite" conjunct, read at an entry. -/
theorem real_of_all (S : Shape) (bc : S_.BroadcastsInDim S ![]) {axes : List (Fin S.rank)} (hr : S.ReducesTo axes S_) (hu : 0 < S_.numel)
    (a : FVec Ideal S .f32)
    (h : Host.reduce IntOp.andi (cmpf .olt (Host.absf a) (broadcastInDim S ![] bc (constant (F := Ideal) S_ .f32 0x7F800000#32)))
      (constantI S_ 1 1#1) hr hu ValueIdx.ix0 = 1#1) (i : S.Idx) : IsReal (a i) := by
  have e := Host.reduce_andi_all _ _ hr hu ValueIdx.ix0 h i
  simp only [cmpf, Host.absf, broadcastInDim, constant] at e
  exact isReal_of_abs_lt _ e

/-- An "all entries ≥ 0" and an "all entries < 10000" conjunct over the edge list, read at an entry. -/
theorem range_of_all {axes : List (Fin S2x320000.rank)} (hr : S2x320000.ReducesTo axes S_) (hu : 0 < S_.numel)
    (bc : S_.BroadcastsInDim S2x320000 ![]) (ei : IVec S2x320000 32)
    (h0 : Host.reduce IntOp.andi (cmpi .sge ei (broadcastInDim S2x320000 ![] bc (constantI S_ 32 0#32))) (constantI S_ 1 1#1) hr hu ValueIdx.ix0 = 1#1)
    (h1 : Host.reduce IntOp.andi (cmpi .slt ei (broadcastInDim S2x320000 ![] bc (constantI S_ 32 10000#32))) (constantI S_ 1 1#1) hr hu ValueIdx.ix0 = 1#1)
    (i : S2x320000.Idx) : 0 ≤ (ei i).toInt ∧ (ei i).toInt < 10000 := by
  have e0 := Host.reduce_andi_all _ _ hr hu ValueIdx.ix0 h0 i
  have e1 := Host.reduce_andi_all _ _ hr hu ValueIdx.ix0 h1 i
  simp only [cmpi, broadcastInDim, constantI] at e0 e1
  rw [IntOp.cmpi_sge] at e0
  rw [IntOp.cmpi_slt] at e1
  exact ⟨by simpa using e0, by simpa using e1⟩

variable [hF : Cert.Pre_finite_inputs.Facts]

/-- THE PRECONDITION DECODED. -/
theorem decode (a0 : FVec Ideal S10000x256 .f32) (a1 : IVec S2x320000 32) (a2 : FVec Ideal S256x128 .f32) (a3 : FVec Ideal S128 .f32)
    (a4 : FVec Ideal S128x128 .f32) (a5 : FVec Ideal S128 .f32) (a6 : FVec Ideal S128x128 .f32) (a7 : FVec Ideal S128 .f32)
    (a8 : FVec Ideal S128x256 .f32) (a9 : FVec Ideal S256 .f32) (a10 : FVec Ideal S128x128 .f32) (a11 : FVec Ideal S128 .f32)
    (h : fn (F := Ideal) a0 a1 a2 a3 a4 a5 a6 a7 a8 a9 a10 a11 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i)) ∧ (∀ i, IsReal (a10 i))
      ∧ (∀ i, IsReal (a11 i)) ∧ (∀ i, 0 ≤ (a1 i).toInt ∧ (a1 i).toInt < 10000) := by
  have e := congrFun h ValueIdx.ix0
  unfold fn fn_part1 fn_part2 fn_part3 at e
  dsimp only at e
  simp only [andi, IntOp.andi_eq_one] at e
  obtain ⟨⟨⟨⟨⟨⟨⟨⟨⟨⟨⟨⟨h0, h2⟩, h3⟩, h4⟩, h5⟩, h6⟩, h7⟩, h8⟩, h9⟩, h10⟩, h11⟩, hge⟩, hlt⟩ := e
  exact ⟨real_of_all _ _ _ _ a0 h0, real_of_all _ _ _ _ a2 h2, real_of_all _ _ _ _ a3 h3, real_of_all _ _ _ _ a4 h4,
    real_of_all _ _ _ _ a5 h5, real_of_all _ _ _ _ a6 h6, real_of_all _ _ _ _ a7 h7, real_of_all _ _ _ _ a8 h8,
    real_of_all _ _ _ _ a9 h9, real_of_all _ _ _ _ a10 h10, real_of_all _ _ _ _ a11 h11, range_of_all _ _ _ a1 hge hlt⟩

end Cert.PreFacts

end
-- ==== Proof.Algebra.lean ====
/-
  The law between the two arrangements of a graph-convolution layer — the dense adjacency times `h W` against the sum
  over the edge list — for real weights and real features, and that every layer keeps real numbers real.
-/
import proofs.«130217_j58256936403151_1_alg».proof.Proof.Spec
import proofs.«130217_j58256936403151_1_alg».proof.Proof.LibRealLaw

noncomputable section

namespace Cert.GcnSpec

open Cert.RealLaw
open scoped BigOperators

theorem isReal_ite {p : Prop} [Decidable p] {v : EReal} (hv : IsReal v) : IsReal (if p then v else 0) := by
  split
  · exact hv
  · exact IsReal.zero

/-- The rectifier keeps real numbers real. -/
theorem isReal_relu {v : EReal} (hv : IsReal v) : IsReal (relu v) := by
  unfold relu
  rcases le_total v 0 with h0 | h0
  · rw [max_eq_right h0]; exact IsReal.zero
  · rw [max_eq_left h0]; exact hv

/-- A finite dot product of real entries is real. -/
theorem isReal_dot {K : ℕ} (u v : Fin K → EReal) (hu : ∀ k, IsReal (u k)) (hv : ∀ k, IsReal (v k)) :
    IsReal (∑ k : Fin K, u k * v k) :=
  IsReal.sum _ _ fun k => (hu k).mul (hv k)

/-- A layer over the edge list keeps real numbers real. -/
theorem isReal_convE (nrm : Fin 330000 → EReal) (src dst : Fin 330000 → Fin 10000) {K C : ℕ}
    (h : Fin 10000 → Fin K → EReal) (W : Fin K → Fin C → EReal) (b : Fin C → EReal)
    (hn : ∀ e, IsReal (nrm e)) (hh : ∀ i k, IsReal (h i k)) (hW : ∀ k f, IsReal (W k f)) (hb : ∀ f, IsReal (b f))
    (i : Fin 10000) (f : Fin C) : IsReal (convE nrm src dst h W b i f) := by
  unfold convE
  exact (IsReal.sum _ _ fun e => isReal_ite ((hn e).mul (isReal_dot _ _ (hh _) (fun k => hW k f)))).add (hb f)

/-- THE LAW THAT JOINS THE TWO ARRANGEMENTS.  On a row `i` of a real node, multiplying the dense adjacency with `h W` is
    summing `nrm e · (h W)[src e]` over the edges into `i`: the weight sum `adj i j` distributes over its edges because
    every weight and every entry of `h W` on a real node is a real number; the columns `j ≥ 10000` of the adjacency
    are sums of zeros, so the padded rows of `h` do not matter; and the sum over `j` of the edges `j → i` is the sum over
    the edges into `i`. -/
theorem convA_eq_convE (nrm : Fin 330000 → EReal) (src dst : Fin 330000 → Fin 10000) {K C : ℕ}
    (hp : Fin 10240 → Fin K → EReal) (h : Fin 10000 → Fin K → EReal) (W : Fin K → Fin C → EReal) (b : Fin C → EReal)
    (hn : ∀ e, IsReal (nrm e)) (hh : ∀ i k, IsReal (h i k)) (hW : ∀ k f, IsReal (W k f))
    (hag : ∀ (j : Fin 10240) (hj : j.val < 10000) (k : Fin K), hp j k = h ⟨j.val, hj⟩ k)
    (i : Fin 10240) (hi : i.val < 10000) (f : Fin C) :
    convA (adj nrm src dst) hp W b i f = convE nrm src dst h W b ⟨i.val, hi⟩ f := by
  unfold convA convE adj
  refine congrArg (· + b f) ?_
  have hterm : ∀ j : Fin 10240,
      (∑ e : Fin 330000, if (dst e).val = i.val ∧ (src e).val = j.val then nrm e else 0) * (∑ k : Fin K, hp j k * W k f)
        = ∑ e : Fin 330000, if (dst e).val = i.val ∧ (src e).val = j.val
            then nrm e * (∑ k : Fin K, h (src e) k * W k f) else 0 := by
    intro j
    by_cases hj : j.val < 10000
    · rw [sum_mul_of_real _ _ _ (fun e => isReal_ite (hn e))
        (isReal_dot _ _ (fun k => by rw [hag j hj k]; exact hh _ _) (fun k => hW k f))]
      refine Finset.sum_congr rfl fun e _ => ?_
      by_cases hc : (dst e).val = i.val ∧ (src e).val = j.val
      · rw [if_pos hc, if_pos hc]
        have hs : (⟨j.val, hj⟩ : Fin 10000) = src e := Fin.ext hc.2.symm
        refine congrArg (nrm e * ·) (Finset.sum_congr rfl fun k _ => ?_)
        rw [hag j hj k, hs]
      · rw [if_neg hc, if_neg hc, zero_mul]
    · have hz : ∀ e : Fin 330000, ¬ ((dst e).val = i.val ∧ (src e).val = j.val) :=
        fun e hc => hj (by rw [← hc.2]; exact (src e).isLt)
      rw [Finset.sum_eq_zero (fun e _ => if_neg (hz e)), zero_mul,
        Finset.sum_eq_zero (fun e _ => if_neg (hz e))]
  rw [Finset.sum_congr rfl (fun j _ => hterm j), Finset.sum_comm]
  refine Finset.sum_congr rfl fun e _ => ?_
  by_cases hd : dst e = ⟨i.val, hi⟩
  · have hd' : (dst e).val = i.val := congrArg Fin.val hd
    rw [if_pos hd]
    have hj0 : (src e).val < 10240 := (src e).isLt.trans (by norm_num)
    rw [Finset.sum_eq_single (⟨(src e).val, hj0⟩ : Fin 10240)]
    · exact if_pos ⟨hd', rfl⟩
    · intro j _ hne
      exact if_neg fun hc => hne (Fin.ext hc.2.symm)
    · intro hne; exact absurd (Finset.mem_univ _) hne
  · have hd' : ¬ (dst e).val = i.val := fun hc => hd (Fin.ext hc)
    rw [if_neg hd]
    exact Finset.sum_eq_zero fun j _ => if_neg fun hc => hd' hc.1

end Cert.GcnSpec

end
-- ==== Proof.Nets.lean ====
/-
  Layer by layer, the network through the dense adjacency on the padded nodes agrees, on the real nodes, with the
  network over the edge list: every layer's features are real numbers (so the law of the previous module applies to
  the next layer), the padded rows never reach a real node, and the rectifier and the Gram matrix act entry by entry.
-/
import proofs.«130217_j58256936403151_1_alg».proof.Proof.Algebra

noncomputable section

namespace Cert.GcnSpec

open Cert.RealLaw
open scoped BigOperators

/-- Features on the padded nodes that agree with features on the real nodes, row by row. -/
def Agree {K : ℕ} (hp : Fin 10240 → Fin K → EReal) (h : Fin 10000 → Fin K → EReal) : Prop :=
  ∀ (j : Fin 10240) (hj : j.val < 10000) (k : Fin K), hp j k = h ⟨j.val, hj⟩ k

theorem agree_xpad (x : Fin 10000 → Fin 256 → EReal) : Agree (xpad x) x := fun j hj k => by
  unfold xpad; rw [dif_pos hj]

theorem agree_relu {K : ℕ} {a : Fin 10240 → Fin K → EReal} {c : Fin 10000 → Fin K → EReal} (hag : Agree a c) :
    Agree (fun i f => relu (a i f)) (fun i f => relu (c i f)) := fun j hj k => congrArg relu (hag j hj k)

theorem agree_conv (nrm : Fin 330000 → EReal) (src dst : Fin 330000 → Fin 10000) {K C : ℕ}
    {hp : Fin 10240 → Fin K → EReal} {h : Fin 10000 → Fin K → EReal} (W : Fin K → Fin C → EReal) (b : Fin C → EReal)
    (hn : ∀ e, IsReal (nrm e)) (hh : ∀ i k, IsReal (h i k)) (hW : ∀ k f, IsReal (W k f)) (hag : Agree hp h) :
    Agree (convA (adj nrm src dst) hp W b) (convE nrm src dst h W b) :=
  fun j hj f => convA_eq_convE nrm src dst hp h W b hn hh hW hag j hj f

section Nets

variable (nrm : Fin 330000 → EReal) (src dst : Fin 330000 → Fin 10000)
  (x : Fin 10000 → Fin 256 → EReal)
  (We1 : Fin 256 → Fin 128 → EReal) (be1 : Fin 128 → EReal)
  (We2 : Fin 128 → Fin 128 → EReal) (be2 : Fin 128 → EReal)
  (Wa1 : Fin 128 → Fin 128 → EReal) (ba1 : Fin 128 → EReal)
  (Wa2 : Fin 128 → Fin 256 → EReal) (ba2 : Fin 256 → EReal)
  (Ws1 : Fin 128 → Fin 128 → EReal) (bs1 : Fin 128 → EReal)
  (hn : ∀ e, IsReal (nrm e)) (hx : ∀ i k, IsReal (x i k))
  (hWe1 : ∀ k f, IsReal (We1 k f)) (hbe1 : ∀ f, IsReal (be1 f))
  (hWe2 : ∀ k f, IsReal (We2 k f)) (hbe2 : ∀ f, IsReal (be2 f))
  (hWa1 : ∀ k f, IsReal (Wa1 k f)) (hba1 : ∀ f, IsReal (ba1 f))
  (hWa2 : ∀ k f, IsReal (Wa2 k f))
  (hWs1 : ∀ k f, IsReal (Ws1 k f))

include hn hx hWe1 hbe1 in
theorem real_eH1 (i : Fin 10000) (f : Fin 128) : IsReal (eH1 nrm src dst x We1 be1 i f) :=
  isReal_relu (isReal_convE nrm src dst x We1 be1 hn hx hWe1 hbe1 i f)

include hn hx hWe1 hbe1 hWe2 hbe2 in
theorem real_eH2 (i : Fin 10000) (f : Fin 128) : IsReal (eH2 nrm src dst x We1 be1 We2 be2 i f) :=
  isReal_convE nrm src dst _ We2 be2 hn (real_eH1 nrm src dst x We1 be1 hn hx hWe1 hbe1) hWe2 hbe2 i f

include hn hx hWe1 hbe1 hWe2 hbe2 hWa1 hba1 in
theorem real_eA1 (i : Fin 10000) (f : Fin 128) : IsReal (eA1 nrm src dst x We1 be1 We2 be2 Wa1 ba1 i f) :=
  isReal_relu (isReal_convE nrm src dst _ Wa1 ba1 hn
    (real_eH2 nrm src dst x We1 be1 We2 be2 hn hx hWe1 hbe1 hWe2 hbe2) hWa1 hba1 i f)

include hn hx hWe1 in
theorem agree_H1 : Agree (aH1 nrm src dst x We1 be1) (eH1 nrm src dst x We1 be1) :=
  agree_relu (agree_conv nrm src dst We1 be1 hn hx hWe1 (agree_xpad x))

include hn hx hWe1 hbe1 hWe2 in
theorem agree_H2 : Agree (aH2 nrm src dst x We1 be1 We2 be2) (eH2 nrm src dst x We1 be1 We2 be2) :=
  agree_conv nrm src dst We2 be2 hn (real_eH1 nrm src dst x We1 be1 hn hx hWe1 hbe1) hWe2
    (agree_H1 nrm src dst x We1 be1 hn hx hWe1)

include hn hx hWe1 hbe1 hWe2 hbe2 hWa1 in
theorem agree_A1 : Agree (aA1 nrm src dst x We1 be1 We2 be2 Wa1 ba1) (eA1 nrm src dst x We1 be1 We2 be2 Wa1 ba1) :=
  agree_relu (agree_conv nrm src dst Wa1 ba1 hn (real_eH2 nrm src dst x We1 be1 We2 be2 hn hx hWe1 hbe1 hWe2 hbe2) hWa1
    (agree_H2 nrm src dst x We1 be1 We2 be2 hn hx hWe1 hbe1 hWe2))

include hn hx hWe1 hbe1 hWe2 hbe2 hWa1 hba1 hWa2 in
/-- The attributes reconstructed through the dense adjacency are, on the real nodes, those over the edge list. -/
theorem aXo_eq (i : Fin 10240) (hi : i.val < 10000) (f : Fin 256) :
    aXo nrm src dst x We1 be1 We2 be2 Wa1 ba1 Wa2 ba2 i f = xo nrm src dst x We1 be1 We2 be2 Wa1 ba1 Wa2 ba2 ⟨i.val, hi⟩ f :=
  agree_conv nrm src dst Wa2 ba2 hn (real_eA1 nrm src dst x We1 be1 We2 be2 Wa1 ba1 hn hx hWe1 hbe1 hWe2 hbe2 hWa1 hba1) hWa2
    (agree_A1 nrm src dst x We1 be1 We2 be2 Wa1 ba1 hn hx hWe1 hbe1 hWe2 hbe2 hWa1) i hi f

include hn hx hWe1 hbe1 hWe2 hbe2 hWs1 in
theorem agree_Hs : Agree (aHs nrm src dst x We1 be1 We2 be2 Ws1 bs1) (eHs nrm src dst x We1 be1 We2 be2 Ws1 bs1) :=
  agree_conv nrm src dst Ws1 bs1 hn (real_eH2 nrm src dst x We1 be1 We2 be2 hn hx hWe1 hbe1 hWe2 hbe2) hWs1
    (agree_H2 nrm src dst x We1 be1 We2 be2 hn hx hWe1 hbe1 hWe2)

include hn hx hWe1 hbe1 hWe2 hbe2 hWs1 in
/-- The structure reconstructed through the dense adjacency is, on the real nodes, that over the edge list. -/
theorem aSo_eq (i : Fin 10240) (hi : i.val < 10000) (j : Fin 10240) (hj : j.val < 10000) :
    aSo nrm src dst x We1 be1 We2 be2 Ws1 bs1 i j = so nrm src dst x We1 be1 We2 be2 Ws1 bs1 ⟨i.val, hi⟩ ⟨j.val, hj⟩ := by
  unfold aSo so gram
  refine Finset.sum_congr rfl fun k _ => ?_
  rw [agree_Hs nrm src dst x We1 be1 We2 be2 Ws1 bs1 hn hx hWe1 hbe1 hWe2 hbe2 hWs1 i hi k,
    agree_Hs nrm src dst x We1 be1 We2 be2 Ws1 bs1 hn hx hWe1 hbe1 hWe2 hbe2 hWs1 j hj k]

end Nets

end Cert.GcnSpec

end
-- ==== Proof.lean ====
/-
  The certificate of a graph autoencoder: two graph-convolution encoder layers, a two-layer attribute decoder and a
  one-layer structure decoder whose output is the Gram matrix of its features.

  The kernel's program gathers the normalized edge weights into one dense adjacency matrix on 10240 padded nodes and
  runs every layer as a blocked matrix product `act(Â · (h W) + b)` in a kernel region of its own, the Gram matrix in a
  sixth; the reference sums `nrm e · (h W)[src e]` over the edge list into row `dst e`.  At the exact values both
  are one function of the arguments (`Cert.GcnSpec`): on a real node the dense product is the sum over the edge list
  because every weight and every feature is a real number, so the weight sum distributes over its edges
  (`convA_eq_convE`), the padded rows and columns carry zero weight, and the layers keep real numbers real.  The
  edge list has to name nodes, `0 ≤ v < 10000`: outside that range the reference's gathers clamp while the kernel's
  padded matrix has room, and the two differ.

  The three frames: each kernel region of the word-level and of the exact program is run at every grid point and the
  six regions are chained with the host stretches between them (`KRun.frame`); the reference is a straight line of
  host operations (`RefValue.frame_ri`).  The exact program's run also names what each region leaves in its output
  array (`KRun.run_values`), which the value lemmas read block by block and entry by entry.
-/
import proofs.«130217_j58256936403151_1_alg».proof.Defs
import proofs.«130217_j58256936403151_1_alg».proof.Proof.Gen.Kernel
import proofs.«130217_j58256936403151_1_alg».proof.Proof.Gen.KernelIdeal
import proofs.«130217_j58256936403151_1_alg».proof.Proof.Gen.ReferenceIdeal
import proofs.«130217_j58256936403151_1_alg».proof.Proof.Gen.Pre_finite_inputs
import proofs.«130217_j58256936403151_1_alg».proof.Proof.KRunMain
import proofs.«130217_j58256936403151_1_alg».proof.Proof.KBitsMain
import proofs.«130217_j58256936403151_1_alg».proof.Proof.RefClaims
import proofs.«130217_j58256936403151_1_alg».proof.Proof.KValueFold
import proofs.«130217_j58256936403151_1_alg».proof.Proof.KBridge
import proofs.«130217_j58256936403151_1_alg».proof.Proof.Shared
import proofs.«130217_j58256936403151_1_alg».proof.Proof.PreFacts
import proofs.«130217_j58256936403151_1_alg».proof.Proof.Nets
import Idealize.ShloMosaic.Adequacy
import Idealize.ShloMosaic.Init

noncomputable section

namespace Cert.Proof

open Idealize.ShloMosaic Idealize.ShloMosaic.TcCoe Idealize.SL.Sem Idealize.ShloMosaic.ValueIdx
open Cert.RealLaw Cert.GcnSpec

theorem frame_k : Cert.frame_Kernel := fun m ρ _ => Cert.Kernel.KRun.frame m ρ
theorem frame_ki : Cert.frame_KernelIdeal := fun m ρ _ => Cert.KernelIdeal.KRun.frame m ρ

/-- The two programs' results are one function of the arguments, entry by entry. -/
theorem algebraic : Cert.algebraic_KernelIdeal_ReferenceIdeal := by
  intro m ρ m' ρ' hpre hagree
  -- the precondition on every core: real inputs, node numbers in the edge list
  have hdec := fun c => Cert.PreFacts.decode _ _ _ _ _ _ _ _ _ _ _ _ (hpre c)
  choose src dst hsd using fun c : Dev Cert.KernelIdeal.nD =>
    Cert.Shared.exists_src_dst (m ((c.tc : Thread Cert.KernelIdeal.nD Cert.KernelIdeal.τ).loc Cert.KernelIdeal.main_arg1))
      (hdec c).2.2.2.2.2.2.2.2.2.2.2
  refine ⟨fun c => Cert.KernelIdeal.KRun.res68 (F := Ideal) m c, fun c => Cert.KernelIdeal.KRun.res69 (F := Ideal) m c,
    Cert.KernelIdeal.KRun.run_values (F := Ideal) m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  all_goals
    obtain ⟨h0, h1, h2, h3, h4, h5, h6, h7, h8, h9, h10, h11⟩ := hagree c
    obtain ⟨r0, r2, r3, r4, r5, r6, r7, r8, r9, r10, r11, -⟩ := hdec c
    have hs' : ∀ e, (Cert.ReferenceIdeal.ReadP.val_main_v3 (F := Ideal)
        (m' ((c.tc : Thread Cert.ReferenceIdeal.nD Cert.ReferenceIdeal.τ).loc Cert.ReferenceIdeal.main_arg1)) (ix1 e)).toInt
          = ((src c e).val : Int) := by rw [h1]; exact (hsd c).1
    have hd' : ∀ e, (Cert.ReferenceIdeal.ReadP.val_main_v6 (F := Ideal)
        (m' ((c.tc : Thread Cert.ReferenceIdeal.nD Cert.ReferenceIdeal.τ).loc Cert.ReferenceIdeal.main_arg1)) (ix1 e)).toInt
          = ((dst c e).val : Int) := by rw [h1]; exact (hsd c).2
    have hk := Cert.KernelIdeal.KValue.results_eq m c (src c) (dst c)
      (by rw [Cert.KernelIdeal.KBridge.y3_v3]; exact (hsd c).1) (by rw [Cert.KernelIdeal.KBridge.y3_v6]; exact (hsd c).2)
    have hn : ∀ e : Fin 330000, IsReal ((fun e => (Cert.KernelIdeal.KRun.Y3 m c Cert.KernelIdeal.main_v31 : Cert.KernelIdeal.S330000.Idx → EReal) (ix1 e)) e) := by
      intro e; show IsReal ((Cert.KernelIdeal.KRun.Y3 m c Cert.KernelIdeal.main_v31 : Cert.KernelIdeal.S330000.Idx → EReal) (ix1 e))
      rw [Cert.KernelIdeal.KBridge.y3_v31]; exact Cert.Shared.nrm_real _ e
  · rw [Cert.ReferenceIdeal.RefValue.res_v101_fun m' c (src c) (dst c) hs' hd']
    funext j
    obtain ⟨i, f, rfl⟩ : ∃ (i : Fin 10000) (f : Fin 256), j = ix2 i f := ⟨j 0, j 1, eq_ix2 j⟩
    have ha := aXo_eq (fun e => (Cert.KernelIdeal.KRun.Y3 m c Cert.KernelIdeal.main_v31 : Cert.KernelIdeal.S330000.Idx → EReal) (ix1 e)) (src c) (dst c) (fun r k => (m ((c.tc : Thread Cert.KernelIdeal.nD Cert.KernelIdeal.τ).loc Cert.KernelIdeal.main_arg0) : Cert.KernelIdeal.S10000x256.Idx → EReal) (ix2 r k))
      (fun k f => (m ((c.tc : Thread Cert.KernelIdeal.nD Cert.KernelIdeal.τ).loc Cert.KernelIdeal.main_arg2) : Cert.KernelIdeal.S256x128.Idx → EReal) (ix2 k f)) (fun f => (m ((c.tc : Thread Cert.KernelIdeal.nD Cert.KernelIdeal.τ).loc Cert.KernelIdeal.main_arg3) : Cert.KernelIdeal.S128.Idx → EReal) (ix1 f)) (fun k f => (m ((c.tc : Thread Cert.KernelIdeal.nD Cert.KernelIdeal.τ).loc Cert.KernelIdeal.main_arg4) : Cert.KernelIdeal.S128x128.Idx → EReal) (ix2 k f)) (fun f => (m ((c.tc : Thread Cert.KernelIdeal.nD Cert.KernelIdeal.τ).loc Cert.KernelIdeal.main_arg5) : Cert.KernelIdeal.S128.Idx → EReal) (ix1 f))
      (fun k f => (m ((c.tc : Thread Cert.KernelIdeal.nD Cert.KernelIdeal.τ).loc Cert.KernelIdeal.main_arg6) : Cert.KernelIdeal.S128x128.Idx → EReal) (ix2 k f)) (fun f => (m ((c.tc : Thread Cert.KernelIdeal.nD Cert.KernelIdeal.τ).loc Cert.KernelIdeal.main_arg7) : Cert.KernelIdeal.S128.Idx → EReal) (ix1 f)) (fun k f => (m ((c.tc : Thread Cert.KernelIdeal.nD Cert.KernelIdeal.τ).loc Cert.KernelIdeal.main_arg8) : Cert.KernelIdeal.S128x256.Idx → EReal) (ix2 k f)) (fun f => (m ((c.tc : Thread Cert.KernelIdeal.nD Cert.KernelIdeal.τ).loc Cert.KernelIdeal.main_arg9) : Cert.KernelIdeal.S256.Idx → EReal) (ix1 f))
      hn (fun i k => r0 _) (fun k f => r2 _) (fun f => r3 _) (fun k f => r4 _) (fun f => r5 _)
      (fun k f => r6 _) (fun f => r7 _) (fun k f => r8 _) (Cert.KernelIdeal.KValue.padRow i) i.isLt f
    refine Eq.trans ?_ ((hk.1 i f).trans ha).symm
    rw [h0, h1, h2, h3, h4, h5, h6, h7, h8, h9, Cert.KernelIdeal.KBridge.y3_v31]
  · rw [Cert.ReferenceIdeal.RefValue.res_v120_fun m' c (src c) (dst c) hs' hd']
    funext j
    obtain ⟨i, k, rfl⟩ : ∃ (i k : Fin 10000), j = ix2 i k := ⟨j 0, j 1, eq_ix2 j⟩
    have ha := aSo_eq (fun e => (Cert.KernelIdeal.KRun.Y3 m c Cert.KernelIdeal.main_v31 : Cert.KernelIdeal.S330000.Idx → EReal) (ix1 e)) (src c) (dst c) (fun r k => (m ((c.tc : Thread Cert.KernelIdeal.nD Cert.KernelIdeal.τ).loc Cert.KernelIdeal.main_arg0) : Cert.KernelIdeal.S10000x256.Idx → EReal) (ix2 r k))
      (fun k f => (m ((c.tc : Thread Cert.KernelIdeal.nD Cert.KernelIdeal.τ).loc Cert.KernelIdeal.main_arg2) : Cert.KernelIdeal.S256x128.Idx → EReal) (ix2 k f)) (fun f => (m ((c.tc : Thread Cert.KernelIdeal.nD Cert.KernelIdeal.τ).loc Cert.KernelIdeal.main_arg3) : Cert.KernelIdeal.S128.Idx → EReal) (ix1 f)) (fun k f => (m ((c.tc : Thread Cert.KernelIdeal.nD Cert.KernelIdeal.τ).loc Cert.KernelIdeal.main_arg4) : Cert.KernelIdeal.S128x128.Idx → EReal) (ix2 k f)) (fun f => (m ((c.tc : Thread Cert.KernelIdeal.nD Cert.KernelIdeal.τ).loc Cert.KernelIdeal.main_arg5) : Cert.KernelIdeal.S128.Idx → EReal) (ix1 f))
      (fun k f => (m ((c.tc : Thread Cert.KernelIdeal.nD Cert.KernelIdeal.τ).loc Cert.KernelIdeal.main_arg10) : Cert.KernelIdeal.S128x128.Idx → EReal) (ix2 k f)) (fun f => (m ((c.tc : Thread Cert.KernelIdeal.nD Cert.KernelIdeal.τ).loc Cert.KernelIdeal.main_arg11) : Cert.KernelIdeal.S128.Idx → EReal) (ix1 f))
      hn (fun i k => r0 _) (fun k f => r2 _) (fun f => r3 _) (fun k f => r4 _) (fun f => r5 _)
      (fun k f => r10 _) (Cert.KernelIdeal.KValue.padRow i) i.isLt (Cert.KernelIdeal.KValue.padRow k) k.isLt
    refine Eq.trans ?_ ((hk.2 i k).trans ha).symm
    rw [h0, h1, h2, h3, h4, h5, h10, h11, Cert.KernelIdeal.KBridge.y3_v31]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
